-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v570) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x256x512 : Shape := ⟨4, ![2, 8, 256, 512]⟩
abbrev S2x81x256x512 : Shape := ⟨4, ![2, 81, 256, 512]⟩
abbrev S2x1x256x512 : Shape := ⟨4, ![2, 1, 256, 512]⟩
abbrev S_ : Shape := ⟨0, ![]⟩

class Facts : Prop where
  bcast_S_S2x8x256x512 : S_.BroadcastsInDim S2x8x256x512 (![] : Fin 0 → Fin S2x8x256x512.rank)
  reducesTo_S2x8x256x512_S_d0_1_2_3 : S2x8x256x512.ReducesTo [0, 1, 2, 3] S_
  h_S_ : 0 < S_.numel
  bcast_S_S2x81x256x512 : S_.BroadcastsInDim S2x81x256x512 (![] : Fin 0 → Fin S2x81x256x512.rank)
  reducesTo_S2x81x256x512_S_d0_1_2_3 : S2x81x256x512.ReducesTo [0, 1, 2, 3] S_
  bcast_S_S2x1x256x512 : S_.BroadcastsInDim S2x1x256x512 (![] : Fin 0 → Fin S2x1x256x512.rank)
  reducesTo_S2x1x256x512_S_d0_1_2_3 : S2x1x256x512.ReducesTo [0, 1, 2, 3] S_

variable [Facts]

def fn {F : FTy → Type} [FloatOps F] (main_arg0 : FVec F S2x8x256x512 .f32) (main_arg1 : FVec F S2x81x256x512 .f32) (main_arg2 : FVec F S2x1x256x512 .f32) : IVec S_ 1 :=
  let main_v0 : FVec F S2x8x256x512 .f32 := Host.absf main_arg0
  let main_cst : FVec F S_ .f32 := constant S_ .f32 0x7F800000#32
  let main_v1 : FVec F S2x8x256x512 .f32 := broadcastInDim S2x8x256x512 ![] bcast_S_S2x8x256x512 main_cst
  let main_v2 : IVec S2x8x256x512 1 := cmpf .olt main_v0 main_v1
  let main_c : IVec S_ 1 := constantI S_ 1 1#1
  let main_v3 : IVec S_ 1 := (fun x v => Host.reduce IntOp.andi x v reducesTo_S2x8x256x512_S_d0_1_2_3 h_S_) main_v2 main_c
  let main_v4 : FVec F S2x81x256x512 .f32 := Host.absf main_arg1
  let main_cst_0 : FVec F S_ .f32 := constant S_ .f32 0x7F800000#32
  let main_v5 : FVec F S2x81x256x512 .f32 := broadcastInDim S2x81x256x512 ![] bcast_S_S2x81x256x512 main_cst_0
  let main_v6 : IVec S2x81x256x512 1 := cmpf .olt main_v4 main_v5
  let main_c_1 : IVec S_ 1 := constantI S_ 1 1#1
  let main_v7 : IVec S_ 1 := (fun x v => Host.reduce IntOp.andi x v reducesTo_S2x81x256x512_S_d0_1_2_3 h_S_) main_v6 main_c_1
  let main_v8 : IVec S_ 1 := andi main_v3 main_v7
  let main_v9 : FVec F S2x1x256x512 .f32 := Host.absf main_arg2
  let main_cst_2 : FVec F S_ .f32 := constant S_ .f32 0x7F800000#32
  let main_v10 : FVec F S2x1x256x512 .f32 := broadcastInDim S2x1x256x512 ![] bcast_S_S2x1x256x512 main_cst_2
  let main_v11 : IVec S2x1x256x512 1 := cmpf .olt main_v9 main_v10
  let main_c_3 : IVec S_ 1 := constantI S_ 1 1#1
  let main_v12 : IVec S_ 1 := (fun x v => Host.reduce IntOp.andi x v reducesTo_S2x1x256x512_S_d0_1_2_3 h_S_) main_v11 main_c_3
  let main_v13 : IVec S_ 1 := andi main_v8 main_v12
  main_v13
-- ==== Kernel.lean ====
abbrev S2x8x256x512 : Shape := ⟨4, ![2, 8, 256, 512]⟩
abbrev S2x81x256x512 : Shape := ⟨4, ![2, 81, 256, 512]⟩
abbrev S2x1x256x512 : Shape := ⟨4, ![2, 1, 256, 512]⟩
abbrev S1x8x256x512 : Shape := ⟨4, ![1, 8, 256, 512]⟩
abbrev S1x81x32x512 : Shape := ⟨4, ![1, 81, 32, 512]⟩
abbrev S1x1x32x512 : Shape := ⟨4, ![1, 1, 32, 512]⟩
abbrev S1x8x32x512 : Shape := ⟨4, ![1, 8, 32, 512]⟩
abbrev S8x264x520 : Shape := ⟨3, ![8, 264, 520]⟩
abbrev S8x256x512 : Shape := ⟨3, ![8, 256, 512]⟩
abbrev S8x40x520 : Shape := ⟨3, ![8, 40, 520]⟩
abbrev S8x40x136 : Shape := ⟨3, ![8, 40, 136]⟩
abbrev S8x32x128 : Shape := ⟨3, ![8, 32, 128]⟩
abbrev S8x40x128 : Shape := ⟨3, ![8, 40, 128]⟩
abbrev S1x1x32x128 : Shape := ⟨4, ![1, 1, 32, 128]⟩
abbrev S32x128 : Shape := ⟨2, ![32, 128]⟩
abbrev S1x32x128 : Shape := ⟨3, ![1, 32, 128]⟩
abbrev S1x8x32x128 : Shape := ⟨4, ![1, 8, 32, 128]⟩

abbrev nBuf : Space → Nat
  | .hbm => 4
  | .vmem => 9
  | .smem => 0
  | _ => 0

abbrev bufTy : (tb : Table) → Fin (tcTables nBuf tb) → BufTy
  | .hbm, ⟨0, _⟩ => ⟨S2x8x256x512, .f32⟩
  | .hbm, ⟨1, _⟩ => ⟨S2x81x256x512, .f32⟩
  | .hbm, ⟨2, _⟩ => ⟨S2x1x256x512, .f32⟩
  | .hbm, ⟨3, _⟩ => ⟨S2x8x256x512, .f32⟩
  | .local _ .vmem, ⟨0, _⟩ => ⟨S1x8x256x512, .f32⟩
  | .local _ .vmem, ⟨1, _⟩ => ⟨S1x8x256x512, .f32⟩
  | .local _ .vmem, ⟨2, _⟩ => ⟨S1x81x32x512, .f32⟩
  | .local _ .vmem, ⟨3, _⟩ => ⟨S1x81x32x512, .f32⟩
  | .local _ .vmem, ⟨4, _⟩ => ⟨S1x1x32x512, .f32⟩
  | .local _ .vmem, ⟨5, _⟩ => ⟨S1x1x32x512, .f32⟩
  | .local _ .vmem, ⟨6, _⟩ => ⟨S1x8x32x512, .f32⟩
  | .local _ .vmem, ⟨7, _⟩ => ⟨S1x8x32x512, .f32⟩
  | .local _ .vmem, ⟨8, _⟩ => ⟨S8x264x520, .f32⟩
  | _, _ => ⟨S2x8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c32_i32 : BitVec 32 := 32#32
  let v3 : BitVec 32 := Scalar.muli arg1 c32_i32
  v3
def k0_off1 (i : grid0.Coords) : Fin 3 → Nat :=
  let c0 : Index := 0#32
  let arg1 : BitVec 32 := BitVec.ofNat 32 (i 1).val
  let c32_i32 : BitVec 32 := 32#32
  let v3 : BitVec 32 := Scalar.muli arg1 c32_i32
  let v4 : BitVec 32 := v3
  let v5 : Index := Scalar.indexCast v4
  let c0_1 : Index := 0#32
  ![0, v5.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x81x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S8x264x520_S8x264x520_0_0_0 : ∀ a, (![0, 0, 0] : Fin 3 → Nat) a + S8x264x520.size a ≤ S8x264x520.size a
  h_S8x264x520 : 0 < S8x264x520.numel
  shapeCasts_S8x264x520_S8x264x520 : S8x264x520.ShapeCasts S8x264x520
  inb_S1x8x256x512_S1x8x256x512_0_0_0_0 : ∀ a, (![0, 0, 0, 0] : Fin 4 → Nat) a + S1x8x256x512.size a ≤ S1x8x256x512.size a
  h_S1x8x256x512 : 0 < S1x8x256x512.numel
  shapeCasts_S1x8x256x512_S8x256x512 : S1x8x256x512.ShapeCasts S8x256x512
  inb_S8x264x520_S8x256x512_0_4_4 : ∀ a, (![0, 4, 4] : Fin 3 → Nat) a + S8x256x512.size a ≤ S8x264x520.size a
  h_S8x256x512 : 0 < S8x256x512.numel
  shapeCasts_S8x256x512_S8x256x512 : S8x256x512.ShapeCasts S8x256x512
  h_S8x40x520 : 0 < S8x40x520.numel
  slices_S8x40x520_o0_0_0_S8x40x136 : S8x40x520.Slices ![0, 0, 0] S8x40x136
  slices_S8x40x136_o0_0_0_S8x40x128 : S8x40x136.Slices ![0, 0, 0] S8x40x128
  inb_S1x81x32x512_S1x1x32x128_0_0_0_0 : ∀ a, (![0, 0, 0, 0] : Fin 4 → Nat) a + S1x1x32x128.size a ≤ S1x81x32x512.size a
  h_S1x1x32x128 : 0 < S1x1x32x128.numel
  shapeCasts_S1x1x32x128_S32x128 : S1x1x32x128.ShapeCasts S32x128
  shapeCasts_S32x128_S1x32x128 : S32x128.ShapeCasts S1x32x128
  slices_S8x40x128_o0_0_0_S8x32x128 : S8x40x128.Slices ![0, 0, 0] S8x32x128
  broadcasts_S1x32x128_S8x32x128 : S1x32x128.Broadcasts S8x32x128
  inb_S1x81x32x512_S1x1x32x128_0_9_0_0 : ∀ a, (![0, 9, 0, 0] : Fin 4 → Nat) a + S1x1x32x128.size a ≤ S1x81x32x512.size a
  slices_S8x40x128_o0_1_0_S8x32x128 : S8x40x128.Slices ![0, 1, 0] S8x32x128
  inb_S1x81x32x512_S1x1x32x128_0_18_0_0 : ∀ a, (![0, 18, 0, 0] : Fin 4 → Nat) a + S1x1x32x128.size a ≤ S1x81x32x512.size a
  slices_S8x40x128_o0_2_0_S8x32x128 : S8x40x128.Slices ![0, 2, 0] S8x32x128
  inb_S1x81x32x512_S1x1x32x128_0_27_0_0 : ∀ a, (![0, 27, 0, 0] : Fin 4 → Nat) a + S1x1x32x128.size a ≤ S1x81x32x512.size a
  slices_S8x40x128_o0_3_0_S8x32x128 : S8x40x128.Slices ![0, 3, 0] S8x32x128
  inb_S1x81x32x512_S1x1x32x128_0_36_0_0 : ∀ a, (![0, 36, 0, 0] : Fin 4 → Nat) a + S1x1x32x128.size a ≤ S1x81x32x512.size a
  slices_S8x40x128_o0_4_0_S8x32x128 : S8x40x128.Slices ![0, 4, 0] S8x32x128
  inb_S1x81x32x512_S1x1x32x128_0_45_0_0 : ∀ a, (![0, 45, 0, 0] : Fin 4 → Nat) a + S1x1x32x128.size a ≤ S1x81x32x512.size a
  slices_S8x40x128_o0_5_0_S8x32x128 : S8x40x128.Slices ![0, 5, 0] S8x32x128
  inb_S1x81x32x512_S1x1x32x128_0_54_0_0 : ∀ a, (![0, 54, 0, 0] : Fin 4 → Nat) a + S1x1x32x128.size a ≤ S1x81x32x512.size a
  slices_S8x40x128_o0_6_0_S8x32x128 : S8x40x128.Slices ![0, 6, 0] S8x32x128
  inb_S1x81x32x512_S1x1x32x128_0_63_0_0 : ∀ a, (![0, 63, 0, 0] : Fin 4 → Nat) a + S1x1x32x128.size a ≤ S1x81x32x512.size a
  slices_S8x40x128_o0_7_0_S8x32x128 : S8x40x128.Slices ![0, 7, 0] S8x32x128
  inb_S1x81x32x512_S1x1x32x128_0_72_0_0 : ∀ a, (![0, 72, 0, 0] : Fin 4 → Nat) a + S1x1x32x128.size a ≤ S1x81x32x512.size a
  slices_S8x40x128_o0_8_0_S8x32x128 : S8x40x128.Slices ![0, 8, 0] S8x32x128
  slices_S8x40x136_o0_0_1_S8x40x128 : S8x40x136.Slices ![0, 0, 1] S8x40x128
  inb_S1x81x32x512_S1x1x32x128_0_1_0_0 : ∀ a, (![0, 1, 0, 0] : Fin 4 → Nat) a + S1x1x32x128.size a ≤ S1x81x32x512.size a
  inb_S1x81x32x512_S1x1x32x128_0_10_0_0 : ∀ a, (![0, 10, 0, 0] : Fin 4 → Nat) a + S1x1x32x128.size a ≤ S1x81x32x512.size a
  inb_S1x81x32x512_S1x1x32x128_0_19_0_0 : ∀ a, (![0, 19, 0, 0] : Fin 4 → Nat) a + S1x1x32x128.size a ≤ S1x81x32x512.size a
  inb_S1x81x32x512_S1x1x32x128_0_28_0_0 : ∀ a, (![0, 28, 0, 0] : Fin 4 → Nat) a + S1x1x32x128.size a ≤ S1x81x32x512.size a
  inb_S1x81x32x512_S1x1x32x128_0_37_0_0 : ∀ a, (![0, 37, 0, 0] : Fin 4 → Nat) a + S1x1x32x128.size a ≤ S1x81x32x512.size a
  inb_S1x81x32x512_S1x1x32x128_0_46_0_0 : ∀ a, (![0, 46, 0, 0] : Fin 4 → Nat) a + S1x1x32x128.size a ≤ S1x81x32x512.size a
  inb_S1x81x32x512_S1x1x32x128_0_55_0_0 : ∀ a, (![0, 55, 0, 0] : Fin 4 → Nat) a + S1x1x32x128.size a ≤ S1x81x32x512.size a
  inb_S1x81x32x512_S1x1x32x128_0_64_0_0 : ∀ a, (![0, 64, 0, 0] : Fin 4 → Nat) a + S1x1x32x128.size a ≤ S1x81x32x512.size a
  inb_S1x81x32x512_S1x1x32x128_0_73_0_0 : ∀ a, (![0, 73, 0, 0] : Fin 4 → Nat) a + S1x1x32x128.size a ≤ S1x81x32x512.size a
  slices_S8x40x136_o0_0_2_S8x40x128 : S8x40x136.Slices ![0, 0, 2] S8x40x128
  inb_S1x81x32x512_S1x1x32x128_0_2_0_0 : ∀ a, (![0, 2, 0, 0] : Fin 4 → Nat) a + S1x1x32x128.size a ≤ S1x81x32x512.size a
  inb_S1x81x32x512_S1x1x32x128_0_11_0_0 : ∀ a, (![0, 11, 0, 0] : Fin 4 → Nat) a + S1x1x32x128.size a ≤ S1x81x32x512.size a
  inb_S1x81x32x512_S1x1x32x128_0_20_0_0 : ∀ a, (![0, 20, 0, 0] : Fin 4 → Nat) a + S1x1x32x128.size a ≤ S1x81x32x512.size a
  inb_S1x81x32x512_S1x1x32x128_0_29_0_0 : ∀ a, (![0, 29, 0, 0] : Fin 4 → Nat) a + S1x1x32x128.size a ≤ S1x81x32x512.size a
  inb_S1x81x32x512_S1x1x32x128_0_38_0_0 : ∀ a, (![0, 38, 0, 0] : Fin 4 → Nat) a + S1x1x32x128.size a ≤ S1x81x32x512.size a
  inb_S1x81x32x512_S1x1x32x128_0_47_0_0 : ∀ a, (![0, 47, 0, 0] : Fin 4 → Nat) a + S1x1x32x128.size a ≤ S1x81x32x512.size a
  inb_S1x81x32x512_S1x1x32x128_0_56_0_0 : ∀ a, (![0, 56, 0, 0] : Fin 4 → Nat) a + S1x1x32x128.size a ≤ S1x81x32x512.size a
  inb_S1x81x32x512_S1x1x32x128_0_65_0_0 : ∀ a, (![0, 65, 0, 0] : Fin 4 → Nat) a + S1x1x32x128.size a ≤ S1x81x32x512.size a
  inb_S1x81x32x512_S1x1x32x128_0_74_0_0 : ∀ a, (![0, 74, 0, 0] : Fin 4 → Nat) a + S1x1x32x128.size a ≤ S1x81x32x512.size a
  slices_S8x40x136_o0_0_3_S8x40x128 : S8x40x136.Slices ![0, 0, 3] S8x40x128
  inb_S1x81x32x512_S1x1x32x128_0_3_0_0 : ∀ a, (![0, 3, 0, 0] : Fin 4 → Nat) a + S1x1x32x128.size a ≤ S1x81x32x512.size a
  inb_S1x81x32x512_S1x1x32x128_0_12_0_0 : ∀ a, (![0, 12, 0, 0] : Fin 4 → Nat) a + S1x1x32x128.size a ≤ S1x81x32x512.size a
  inb_S1x81x32x512_S1x1x32x128_0_21_0_0 : ∀ a, (![0, 21, 0, 0] : Fin 4 → Nat) a + S1x1x32x128.size a ≤ S1x81x32x512.size a
  inb_S1x81x32x512_S1x1x32x128_0_30_0_0 : ∀ a, (![0, 30, 0, 0] : Fin 4 → Nat) a + S1x1x32x128.size a ≤ S1x81x32x512.size a
  inb_S1x81x32x512_S1x1x32x128_0_39_0_0 : ∀ a, (![0, 39, 0, 0] : Fin 4 → Nat) a + S1x1x32x128.size a ≤ S1x81x32x512.size a
  inb_S1x81x32x512_S1x1x32x128_0_48_0_0 : ∀ a, (![0, 48, 0, 0] : Fin 4 → Nat) a + S1x1x32x128.size a ≤ S1x81x32x512.size a
  inb_S1x81x32x512_S1x1x32x128_0_57_0_0 : ∀ a, (![0, 57, 0, 0] : Fin 4 → Nat) a + S1x1x32x128.size a ≤ S1x81x32x512.size a
  inb_S1x81x32x512_S1x1x32x128_0_66_0_0 : ∀ a, (![0, 66, 0, 0] : Fin 4 → Nat) a + S1x1x32x128.size a ≤ S1x81x32x512.size a
  inb_S1x81x32x512_S1x1x32x128_0_75_0_0 : ∀ a, (![0, 75, 0, 0] : Fin 4 → Nat) a + S1x1x32x128.size a ≤ S1x81x32x512.size a
  slices_S8x40x136_o0_0_4_S8x40x128 : S8x40x136.Slices ![0, 0, 4] S8x40x128
  inb_S1x81x32x512_S1x1x32x128_0_4_0_0 : ∀ a, (![0, 4, 0, 0] : Fin 4 → Nat) a + S1x1x32x128.size a ≤ S1x81x32x512.size a
  inb_S1x81x32x512_S1x1x32x128_0_13_0_0 : ∀ a, (![0, 13, 0, 0] : Fin 4 → Nat) a + S1x1x32x128.size a ≤ S1x81x32x512.size a
  inb_S1x81x32x512_S1x1x32x128_0_22_0_0 : ∀ a, (![0, 22, 0, 0] : Fin 4 → Nat) a + S1x1x32x128.size a ≤ S1x81x32x512.size a
  inb_S1x81x32x512_S1x1x32x128_0_31_0_0 : ∀ a, (![0, 31, 0, 0] : Fin 4 → Nat) a + S1x1x32x128.size a ≤ S1x81x32x512.size a
  inb_S1x81x32x512_S1x1x32x128_0_40_0_0 : ∀ a, (![0, 40, 0, 0] : Fin 4 → Nat) a + S1x1x32x128.size a ≤ S1x81x32x512.size a
  inb_S1x81x32x512_S1x1x32x128_0_49_0_0 : ∀ a, (![0, 49, 0, 0] : Fin 4 → Nat) a + S1x1x32x128.size a ≤ S1x81x32x512.size a
  inb_S1x81x32x512_S1x1x32x128_0_58_0_0 : ∀ a, (![0, 58, 0, 0] : Fin 4 → Nat) a + S1x1x32x128.size a ≤ S1x81x32x512.size a
  inb_S1x81x32x512_S1x1x32x128_0_67_0_0 : ∀ a, (![0, 67, 0, 0] : Fin 4 → Nat) a + S1x1x32x128.size a ≤ S1x81x32x512.size a
  inb_S1x81x32x512_S1x1x32x128_0_76_0_0 : ∀ a, (![0, 76, 0, 0] : Fin 4 → Nat) a + S1x1x32x128.size a ≤ S1x81x32x512.size a
  slices_S8x40x136_o0_0_5_S8x40x128 : S8x40x136.Slices ![0, 0, 5] S8x40x128
  inb_S1x81x32x512_S1x1x32x128_0_5_0_0 : ∀ a, (![0, 5, 0, 0] : Fin 4 → Nat) a + S1x1x32x128.size a ≤ S1x81x32x512.size a
  inb_S1x81x32x512_S1x1x32x128_0_14_0_0 : ∀ a, (![0, 14, 0, 0] : Fin 4 → Nat) a + S1x1x32x128.size a ≤ S1x81x32x512.size a
  inb_S1x81x32x512_S1x1x32x128_0_23_0_0 : ∀ a, (![0, 23, 0, 0] : Fin 4 → Nat) a + S1x1x32x128.size a ≤ S1x81x32x512.size a
  inb_S1x81x32x512_S1x1x32x128_0_32_0_0 : ∀ a, (![0, 32, 0, 0] : Fin 4 → Nat) a + S1x1x32x128.size a ≤ S1x81x32x512.size a
  inb_S1x81x32x512_S1x1x32x128_0_41_0_0 : ∀ a, (![0, 41, 0, 0] : Fin 4 → Nat) a + S1x1x32x128.size a ≤ S1x81x32x512.size a
  inb_S1x81x32x512_S1x1x32x128_0_50_0_0 : ∀ a, (![0, 50, 0, 0] : Fin 4 → Nat) a + S1x1x32x128.size a ≤ S1x81x32x512.size a
  inb_S1x81x32x512_S1x1x32x128_0_59_0_0 : ∀ a, (![0, 59, 0, 0] : Fin 4 → Nat) a + S1x1x32x128.size a ≤ S1x81x32x512.size a
  inb_S1x81x32x512_S1x1x32x128_0_68_0_0 : ∀ a, (![0, 68, 0, 0] : Fin 4 → Nat) a + S1x1x32x128.size a ≤ S1x81x32x512.size a
  inb_S1x81x32x512_S1x1x32x128_0_77_0_0 : ∀ a, (![0, 77, 0, 0] : Fin 4 → Nat) a + S1x1x32x128.size a ≤ S1x81x32x512.size a
  slices_S8x40x136_o0_0_6_S8x40x128 : S8x40x136.Slices ![0, 0, 6] S8x40x128
  inb_S1x81x32x512_S1x1x32x128_0_6_0_0 : ∀ a, (![0, 6, 0, 0] : Fin 4 → Nat) a + S1x1x32x128.size a ≤ S1x81x32x512.size a
  inb_S1x81x32x512_S1x1x32x128_0_15_0_0 : ∀ a, (![0, 15, 0, 0] : Fin 4 → Nat) a + S1x1x32x128.size a ≤ S1x81x32x512.size a
  inb_S1x81x32x512_S1x1x32x128_0_24_0_0 : ∀ a, (![0, 24, 0, 0] : Fin 4 → Nat) a + S1x1x32x128.size a ≤ S1x81x32x512.size a
  inb_S1x81x32x512_S1x1x32x128_0_33_0_0 : ∀ a, (![0, 33, 0, 0] : Fin 4 → Nat) a + S1x1x32x128.size a ≤ S1x81x32x512.size a
  inb_S1x81x32x512_S1x1x32x128_0_42_0_0 : ∀ a, (![0, 42, 0, 0] : Fin 4 → Nat) a + S1x1x32x128.size a ≤ S1x81x32x512.size a
  inb_S1x81x32x512_S1x1x32x128_0_51_0_0 : ∀ a, (![0, 51, 0, 0] : Fin 4 → Nat) a + S1x1x32x128.size a ≤ S1x81x32x512.size a
  inb_S1x81x32x512_S1x1x32x128_0_60_0_0 : ∀ a, (![0, 60, 0, 0] : Fin 4 → Nat) a + S1x1x32x128.size a ≤ S1x81x32x512.size a
  inb_S1x81x32x512_S1x1x32x128_0_69_0_0 : ∀ a, (![0, 69, 0, 0] : Fin 4 → Nat) a + S1x1x32x128.size a ≤ S1x81x32x512.size a
  inb_S1x81x32x512_S1x1x32x128_0_78_0_0 : ∀ a, (![0, 78, 0, 0] : Fin 4 → Nat) a + S1x1x32x128.size a ≤ S1x81x32x512.size a
  slices_S8x40x136_o0_0_7_S8x40x128 : S8x40x136.Slices ![0, 0, 7] S8x40x128
  inb_S1x81x32x512_S1x1x32x128_0_7_0_0 : ∀ a, (![0, 7, 0, 0] : Fin 4 → Nat) a + S1x1x32x128.size a ≤ S1x81x32x512.size a
  inb_S1x81x32x512_S1x1x32x128_0_16_0_0 : ∀ a, (![0, 16, 0, 0] : Fin 4 → Nat) a + S1x1x32x128.size a ≤ S1x81x32x512.size a
  inb_S1x81x32x512_S1x1x32x128_0_25_0_0 : ∀ a, (![0, 25, 0, 0] : Fin 4 → Nat) a + S1x1x32x128.size a ≤ S1x81x32x512.size a
  inb_S1x81x32x512_S1x1x32x128_0_34_0_0 : ∀ a, (![0, 34, 0, 0] : Fin 4 → Nat) a + S1x1x32x128.size a ≤ S1x81x32x512.size a
  inb_S1x81x32x512_S1x1x32x128_0_43_0_0 : ∀ a, (![0, 43, 0, 0] : Fin 4 → Nat) a + S1x1x32x128.size a ≤ S1x81x32x512.size a
  inb_S1x81x32x512_S1x1x32x128_0_52_0_0 : ∀ a, (![0, 52, 0, 0] : Fin 4 → Nat) a + S1x1x32x128.size a ≤ S1x81x32x512.size a
  inb_S1x81x32x512_S1x1x32x128_0_61_0_0 : ∀ a, (![0, 61, 0, 0] : Fin 4 → Nat) a + S1x1x32x128.size a ≤ S1x81x32x512.size a
  inb_S1x81x32x512_S1x1x32x128_0_70_0_0 : ∀ a, (![0, 70, 0, 0] : Fin 4 → Nat) a + S1x1x32x128.size a ≤ S1x81x32x512.size a
  inb_S1x81x32x512_S1x1x32x128_0_79_0_0 : ∀ a, (![0, 79, 0, 0] : Fin 4 → Nat) a + S1x1x32x128.size a ≤ S1x81x32x512.size a
  slices_S8x40x136_o0_0_8_S8x40x128 : S8x40x136.Slices ![0, 0, 8] S8x40x128
  inb_S1x81x32x512_S1x1x32x128_0_8_0_0 : ∀ a, (![0, 8, 0, 0] : Fin 4 → Nat) a + S1x1x32x128.size a ≤ S1x81x32x512.size a
  inb_S1x81x32x512_S1x1x32x128_0_17_0_0 : ∀ a, (![0, 17, 0, 0] : Fin 4 → Nat) a + S1x1x32x128.size a ≤ S1x81x32x512.size a
  inb_S1x81x32x512_S1x1x32x128_0_26_0_0 : ∀ a, (![0, 26, 0, 0] : Fin 4 → Nat) a + S1x1x32x128.size a ≤ S1x81x32x512.size a
  inb_S1x81x32x512_S1x1x32x128_0_35_0_0 : ∀ a, (![0, 35, 0, 0] : Fin 4 → Nat) a + S1x1x32x128.size a ≤ S1x81x32x512.size a
  inb_S1x81x32x512_S1x1x32x128_0_44_0_0 : ∀ a, (![0, 44, 0, 0] : Fin 4 → Nat) a + S1x1x32x128.size a ≤ S1x81x32x512.size a
  inb_S1x81x32x512_S1x1x32x128_0_53_0_0 : ∀ a, (![0, 53, 0, 0] : Fin 4 → Nat) a + S1x1x32x128.size a ≤ S1x81x32x512.size a
  inb_S1x81x32x512_S1x1x32x128_0_62_0_0 : ∀ a, (![0, 62, 0, 0] : Fin 4 → Nat) a + S1x1x32x128.size a ≤ S1x81x32x512.size a
  inb_S1x81x32x512_S1x1x32x128_0_71_0_0 : ∀ a, (![0, 71, 0, 0] : Fin 4 → Nat) a + S1x1x32x128.size a ≤ S1x81x32x512.size a
  inb_S1x81x32x512_S1x1x32x128_0_80_0_0 : ∀ a, (![0, 80, 0, 0] : Fin 4 → Nat) a + S1x1x32x128.size a ≤ S1x81x32x512.size a
  inb_S1x1x32x512_S1x1x32x128_0_0_0_0 : ∀ a, (![0, 0, 0, 0] : Fin 4 → Nat) a + S1x1x32x128.size a ≤ S1x1x32x512.size a
  shapeCasts_S1x1x32x128_S1x32x128 : S1x1x32x128.ShapeCasts S1x32x128
  inb_S1x8x32x512_S1x8x32x128_0_0_0_0 : ∀ a, (![0, 0, 0, 0] : Fin 4 → Nat) a + S1x8x32x128.size a ≤ S1x8x32x512.size a
  h_S1x8x32x128 : 0 < S1x8x32x128.numel
  shapeCasts_S1x8x32x128_S8x32x128 : S1x8x32x128.ShapeCasts S8x32x128
  shapeCasts_S8x32x128_S1x8x32x128 : S8x32x128.ShapeCasts S1x8x32x128
  slices_S8x40x520_o0_0_128_S8x40x136 : S8x40x520.Slices ![0, 0, 128] S8x40x136
  inb_S1x81x32x512_S1x1x32x128_0_0_0_128 : ∀ a, (![0, 0, 0, 128] : Fin 4 → Nat) a + S1x1x32x128.size a ≤ S1x81x32x512.size a
  inb_S1x81x32x512_S1x1x32x128_0_9_0_128 : ∀ a, (![0, 9, 0, 128] : Fin 4 → Nat) a + S1x1x32x128.size a ≤ S1x81x32x512.size a
  inb_S1x81x32x512_S1x1x32x128_0_18_0_128 : ∀ a, (![0, 18, 0, 128] : Fin 4 → Nat) a + S1x1x32x128.size a ≤ S1x81x32x512.size a
  inb_S1x81x32x512_S1x1x32x128_0_27_0_128 : ∀ a, (![0, 27, 0, 128] : Fin 4 → Nat) a + S1x1x32x128.size a ≤ S1x81x32x512.size a
  inb_S1x81x32x512_S1x1x32x128_0_36_0_128 : ∀ a, (![0, 36, 0, 128] : Fin 4 → Nat) a + S1x1x32x128.size a ≤ S1x81x32x512.size a
  inb_S1x81x32x512_S1x1x32x128_0_45_0_128 : ∀ a, (![0, 45, 0, 128] : Fin 4 → Nat) a + S1x1x32x128.size a ≤ S1x81x32x512.size a
  inb_S1x81x32x512_S1x1x32x128_0_54_0_128 : ∀ a, (![0, 54, 0, 128] : Fin 4 → Nat) a + S1x1x32x128.size a ≤ S1x81x32x512.size a
  inb_S1x81x32x512_S1x1x32x128_0_63_0_128 : ∀ a, (![0, 63, 0, 128] : Fin 4 → Nat) a + S1x1x32x128.size a ≤ S1x81x32x512.size a
  inb_S1x81x32x512_S1x1x32x128_0_72_0_128 : ∀ a, (![0, 72, 0, 128] : Fin 4 → Nat) a + S1x1x32x128.size a ≤ S1x81x32x512.size a
  inb_S1x81x32x512_S1x1x32x128_0_1_0_128 : ∀ a, (![0, 1, 0, 128] : Fin 4 → Nat) a + S1x1x32x128.size a ≤ S1x81x32x512.size a
  inb_S1x81x32x512_S1x1x32x128_0_10_0_128 : ∀ a, (![0, 10, 0, 128] : Fin 4 → Nat) a + S1x1x32x128.size a ≤ S1x81x32x512.size a
  inb_S1x81x32x512_S1x1x32x128_0_19_0_128 : ∀ a, (![0, 19, 0, 128] : Fin 4 → Nat) a + S1x1x32x128.size a ≤ S1x81x32x512.size a
  inb_S1x81x32x512_S1x1x32x128_0_28_0_128 : ∀ a, (![0, 28, 0, 128] : Fin 4 → Nat) a + S1x1x32x128.size a ≤ S1x81x32x512.size a
  inb_S1x81x32x512_S1x1x32x128_0_37_0_128 : ∀ a, (![0, 37, 0, 128] : Fin 4 → Nat) a + S1x1x32x128.size a ≤ S1x81x32x512.size a
  inb_S1x81x32x512_S1x1x32x128_0_46_0_128 : ∀ a, (![0, 46, 0, 128] : Fin 4 → Nat) a + S1x1x32x128.size a ≤ S1x81x32x512.size a
  inb_S1x81x32x512_S1x1x32x128_0_55_0_128 : ∀ a, (![0, 55, 0, 128] : Fin 4 → Nat) a + S1x1x32x128.size a ≤ S1x81x32x512.size a
  inb_S1x81x32x512_S1x1x32x128_0_64_0_128 : ∀ a, (![0, 64, 0, 128] : Fin 4 → Nat) a + S1x1x32x128.size a ≤ S1x81x32x512.size a
  inb_S1x81x32x512_S1x1x32x128_0_73_0_128 : ∀ a, (![0, 73, 0, 128] : Fin 4 → Nat) a + S1x1x32x128.size a ≤ S1x81x32x512.size a
  inb_S1x81x32x512_S1x1x32x128_0_2_0_128 : ∀ a, (![0, 2, 0, 128] : Fin 4 → Nat) a + S1x1x32x128.size a ≤ S1x81x32x512.size a
  inb_S1x81x32x512_S1x1x32x128_0_11_0_128 : ∀ a, (![0, 11, 0, 128] : Fin 4 → Nat) a + S1x1x32x128.size a ≤ S1x81x32x512.size a
  inb_S1x81x32x512_S1x1x32x128_0_20_0_128 : ∀ a, (![0, 20, 0, 128] : Fin 4 → Nat) a + S1x1x32x128.size a ≤ S1x81x32x512.size a
  inb_S1x81x32x512_S1x1x32x128_0_29_0_128 : ∀ a, (![0, 29, 0, 128] : Fin 4 → Nat) a + S1x1x32x128.size a ≤ S1x81x32x512.size a
  inb_S1x81x32x512_S1x1x32x128_0_38_0_128 : ∀ a, (![0, 38, 0, 128] : Fin 4 → Nat) a + S1x1x32x128.size a ≤ S1x81x32x512.size a
  inb_S1x81x32x512_S1x1x32x128_0_47_0_128 : ∀ a, (![0, 47, 0, 128] : Fin 4 → Nat) a + S1x1x32x128.size a ≤ S1x81x32x512.size a
  inb_S1x81x32x512_S1x1x32x128_0_56_0_128 : ∀ a, (![0, 56, 0, 128] : Fin 4 → Nat) a + S1x1x32x128.size a ≤ S1x81x32x512.size a
  inb_S1x81x32x512_S1x1x32x128_0_65_0_128 : ∀ a, (![0, 65, 0, 128] : Fin 4 → Nat) a + S1x1x32x128.size a ≤ S1x81x32x512.size a
  inb_S1x81x32x512_S1x1x32x128_0_74_0_128 : ∀ a, (![0, 74, 0, 128] : Fin 4 → Nat) a + S1x1x32x128.size a ≤ S1x81x32x512.size a
  inb_S1x81x32x512_S1x1x32x128_0_3_0_128 : ∀ a, (![0, 3, 0, 128] : Fin 4 → Nat) a + S1x1x32x128.size a ≤ S1x81x32x512.size a
  inb_S1x81x32x512_S1x1x32x128_0_12_0_128 : ∀ a, (![0, 12, 0, 128] : Fin 4 → Nat) a + S1x1x32x128.size a ≤ S1x81x32x512.size a
  inb_S1x81x32x512_S1x1x32x128_0_21_0_128 : ∀ a, (![0, 21, 0, 128] : Fin 4 → Nat) a + S1x1x32x128.size a ≤ S1x81x32x512.size a
  inb_S1x81x32x512_S1x1x32x128_0_30_0_128 : ∀ a, (![0, 30, 0, 128] : Fin 4 → Nat) a + S1x1x32x128.size a ≤ S1x81x32x512.size a
  inb_S1x81x32x512_S1x1x32x128_0_39_0_128 : ∀ a, (![0, 39, 0, 128] : Fin 4 → Nat) a + S1x1x32x128.size a ≤ S1x81x32x512.size a
  inb_S1x81x32x512_S1x1x32x128_0_48_0_128 : ∀ a, (![0, 48, 0, 128] : Fin 4 → Nat) a + S1x1x32x128.size a ≤ S1x81x32x512.size a
  inb_S1x81x32x512_S1x1x32x128_0_57_0_128 : ∀ a, (![0, 57, 0, 128] : Fin 4 → Nat) a + S1x1x32x128.size a ≤ S1x81x32x512.size a
  inb_S1x81x32x512_S1x1x32x128_0_66_0_128 : ∀ a, (![0, 66, 0, 128] : Fin 4 → Nat) a + S1x1x32x128.size a ≤ S1x81x32x512.size a
  inb_S1x81x32x512_S1x1x32x128_0_75_0_128 : ∀ a, (![0, 75, 0, 128] : Fin 4 → Nat) a + S1x1x32x128.size a ≤ S1x81x32x512.size a
  inb_S1x81x32x512_S1x1x32x128_0_4_0_128 : ∀ a, (![0, 4, 0, 128] : Fin 4 → Nat) a + S1x1x32x128.size a ≤ S1x81x32x512.size a
  inb_S1x81x32x512_S1x1x32x128_0_13_0_128 : ∀ a, (![0, 13, 0, 128] : Fin 4 → Nat) a + S1x1x32x128.size a ≤ S1x81x32x512.size a
  inb_S1x81x32x512_S1x1x32x128_0_22_0_128 : ∀ a, (![0, 22, 0, 128] : Fin 4 → Nat) a + S1x1x32x128.size a ≤ S1x81x32x512.size a
  inb_S1x81x32x512_S1x1x32x128_0_31_0_128 : ∀ a, (![0, 31, 0, 128] : Fin 4 → Nat) a + S1x1x32x128.size a ≤ S1x81x32x512.size a
  inb_S1x81x32x512_S1x1x32x128_0_40_0_128 : ∀ a, (![0, 40, 0, 128] : Fin 4 → Nat) a + S1x1x32x128.size a ≤ S1x81x32x512.size a
  inb_S1x81x32x512_S1x1x32x128_0_49_0_128 : ∀ a, (![0, 49, 0, 128] : Fin 4 → Nat) a + S1x1x32x128.size a ≤ S1x81x32x512.size a
  inb_S1x81x32x512_S1x1x32x128_0_58_0_128 : ∀ a, (![0, 58, 0, 128] : Fin 4 → Nat) a + S1x1x32x128.size a ≤ S1x81x32x512.size a
  inb_S1x81x32x512_S1x1x32x128_0_67_0_128 : ∀ a, (![0, 67, 0, 128] : Fin 4 → Nat) a + S1x1x32x128.size a ≤ S1x81x32x512.size a
  inb_S1x81x32x512_S1x1x32x128_0_76_0_128 : ∀ a, (![0, 76, 0, 128] : Fin 4 → Nat) a + S1x1x32x128.size a ≤ S1x81x32x512.size a
  inb_S1x81x32x512_S1x1x32x128_0_5_0_128 : ∀ a, (![0, 5, 0, 128] : Fin 4 → Nat) a + S1x1x32x128.size a ≤ S1x81x32x512.size a
  inb_S1x81x32x512_S1x1x32x128_0_14_0_128 : ∀ a, (![0, 14, 0, 128] : Fin 4 → Nat) a + S1x1x32x128.size a ≤ S1x81x32x512.size a
  inb_S1x81x32x512_S1x1x32x128_0_23_0_128 : ∀ a, (![0, 23, 0, 128] : Fin 4 → Nat) a + S1x1x32x128.size a ≤ S1x81x32x512.size a
  inb_S1x81x32x512_S1x1x32x128_0_32_0_128 : ∀ a, (![0, 32, 0, 128] : Fin 4 → Nat) a + S1x1x32x128.size a ≤ S1x81x32x512.size a
  inb_S1x81x32x512_S1x1x32x128_0_41_0_128 : ∀ a, (![0, 41, 0, 128] : Fin 4 → Nat) a + S1x1x32x128.size a ≤ S1x81x32x512.size a
  inb_S1x81x32x512_S1x1x32x128_0_50_0_128 : ∀ a, (![0, 50, 0, 128] : Fin 4 → Nat) a + S1x1x32x128.size a ≤ S1x81x32x512.size a
  inb_S1x81x32x512_S1x1x32x128_0_59_0_128 : ∀ a, (![0, 59, 0, 128] : Fin 4 → Nat) a + S1x1x32x128.size a ≤ S1x81x32x512.size a
  inb_S1x81x32x512_S1x1x32x128_0_68_0_128 : ∀ a, (![0, 68, 0, 128] : Fin 4 → Nat) a + S1x1x32x128.size a ≤ S1x81x32x512.size a
  inb_S1x81x32x512_S1x1x32x128_0_77_0_128 : ∀ a, (![0, 77, 0, 128] : Fin 4 → Nat) a + S1x1x32x128.size a ≤ S1x81x32x512.size a
  inb_S1x81x32x512_S1x1x32x128_0_6_0_128 : ∀ a, (![0, 6, 0, 128] : Fin 4 → Nat) a + S1x1x32x128.size a ≤ S1x81x32x512.size a
  inb_S1x81x32x512_S1x1x32x128_0_15_0_128 : ∀ a, (![0, 15, 0, 128] : Fin 4 → Nat) a + S1x1x32x128.size a ≤ S1x81x32x512.size a
  inb_S1x81x32x512_S1x1x32x128_0_24_0_128 : ∀ a, (![0, 24, 0, 128] : Fin 4 → Nat) a + S1x1x32x128.size a ≤ S1x81x32x512.size a
  inb_S1x81x32x512_S1x1x32x128_0_33_0_128 : ∀ a, (![0, 33, 0, 128] : Fin 4 → Nat) a + S1x1x32x128.size a ≤ S1x81x32x512.size a
  inb_S1x81x32x512_S1x1x32x128_0_42_0_128 : ∀ a, (![0, 42, 0, 128] : Fin 4 → Nat) a + S1x1x32x128.size a ≤ S1x81x32x512.size a
  inb_S1x81x32x512_S1x1x32x128_0_51_0_128 : ∀ a, (![0, 51, 0, 128] : Fin 4 → Nat) a + S1x1x32x128.size a ≤ S1x81x32x512.size a
  inb_S1x81x32x512_S1x1x32x128_0_60_0_128 : ∀ a, (![0, 60, 0, 128] : Fin 4 → Nat) a + S1x1x32x128.size a ≤ S1x81x32x512.size a
  inb_S1x81x32x512_S1x1x32x128_0_69_0_128 : ∀ a, (![0, 69, 0, 128] : Fin 4 → Nat) a + S1x1x32x128.size a ≤ S1x81x32x512.size a
  inb_S1x81x32x512_S1x1x32x128_0_78_0_128 : ∀ a, (![0, 78, 0, 128] : Fin 4 → Nat) a + S1x1x32x128.size a ≤ S1x81x32x512.size a
  inb_S1x81x32x512_S1x1x32x128_0_7_0_128 : ∀ a, (![0, 7, 0, 128] : Fin 4 → Nat) a + S1x1x32x128.size a ≤ S1x81x32x512.size a
  inb_S1x81x32x512_S1x1x32x128_0_16_0_128 : ∀ a, (![0, 16, 0, 128] : Fin 4 → Nat) a + S1x1x32x128.size a ≤ S1x81x32x512.size a
  inb_S1x81x32x512_S1x1x32x128_0_25_0_128 : ∀ a, (![0, 25, 0, 128] : Fin 4 → Nat) a + S1x1x32x128.size a ≤ S1x81x32x512.size a
  inb_S1x81x32x512_S1x1x32x128_0_34_0_128 : ∀ a, (![0, 34, 0, 128] : Fin 4 → Nat) a + S1x1x32x128.size a ≤ S1x81x32x512.size a
  inb_S1x81x32x512_S1x1x32x128_0_43_0_128 : ∀ a, (![0, 43, 0, 128] : Fin 4 → Nat) a + S1x1x32x128.size a ≤ S1x81x32x512.size a
  inb_S1x81x32x512_S1x1x32x128_0_52_0_128 : ∀ a, (![0, 52, 0, 128] : Fin 4 → Nat) a + S1x1x32x128.size a ≤ S1x81x32x512.size a
  inb_S1x81x32x512_S1x1x32x128_0_61_0_128 : ∀ a, (![0, 61, 0, 128] : Fin 4 → Nat) a + S1x1x32x128.size a ≤ S1x81x32x512.size a
  inb_S1x81x32x512_S1x1x32x128_0_70_0_128 : ∀ a, (![0, 70, 0, 128] : Fin 4 → Nat) a + S1x1x32x128.size a ≤ S1x81x32x512.size a
  inb_S1x81x32x512_S1x1x32x128_0_79_0_128 : ∀ a, (![0, 79, 0, 128] : Fin 4 → Nat) a + S1x1x32x128.size a ≤ S1x81x32x512.size a
  inb_S1x81x32x512_S1x1x32x128_0_8_0_128 : ∀ a, (![0, 8, 0, 128] : Fin 4 → Nat) a + S1x1x32x128.size a ≤ S1x81x32x512.size a
  inb_S1x81x32x512_S1x1x32x128_0_17_0_128 : ∀ a, (![0, 17, 0, 128] : Fin 4 → Nat) a + S1x1x32x128.size a ≤ S1x81x32x512.size a
  inb_S1x81x32x512_S1x1x32x128_0_26_0_128 : ∀ a, (![0, 26, 0, 128] : Fin 4 → Nat) a + S1x1x32x128.size a ≤ S1x81x32x512.size a
  inb_S1x81x32x512_S1x1x32x128_0_35_0_128 : ∀ a, (![0, 35, 0, 128] : Fin 4 → Nat) a + S1x1x32x128.size a ≤ S1x81x32x512.size a
  inb_S1x81x32x512_S1x1x32x128_0_44_0_128 : ∀ a, (![0, 44, 0, 128] : Fin 4 → Nat) a + S1x1x32x128.size a ≤ S1x81x32x512.size a
  inb_S1x81x32x512_S1x1x32x128_0_53_0_128 : ∀ a, (![0, 53, 0, 128] : Fin 4 → Nat) a + S1x1x32x128.size a ≤ S1x81x32x512.size a
  inb_S1x81x32x512_S1x1x32x128_0_62_0_128 : ∀ a, (![0, 62, 0, 128] : Fin 4 → Nat) a + S1x1x32x128.size a ≤ S1x81x32x512.size a
  inb_S1x81x32x512_S1x1x32x128_0_71_0_128 : ∀ a, (![0, 71, 0, 128] : Fin 4 → Nat) a + S1x1x32x128.size a ≤ S1x81x32x512.size a
  inb_S1x81x32x512_S1x1x32x128_0_80_0_128 : ∀ a, (![0, 80, 0, 128] : Fin 4 → Nat) a + S1x1x32x128.size a ≤ S1x81x32x512.size a
  inb_S1x1x32x512_S1x1x32x128_0_0_0_128 : ∀ a, (![0, 0, 0, 128] : Fin 4 → Nat) a + S1x1x32x128.size a ≤ S1x1x32x512.size a
  inb_S1x8x32x512_S1x8x32x128_0_0_0_128 : ∀ a, (![0, 0, 0, 128] : Fin 4 → Nat) a + S1x8x32x128.size a ≤ S1x8x32x512.size a
  slices_S8x40x520_o0_0_256_S8x40x136 : S8x40x520.Slices ![0, 0, 256] S8x40x136
  inb_S1x81x32x512_S1x1x32x128_0_0_0_256 : ∀ a, (![0, 0, 0, 256] : Fin 4 → Nat) a + S1x1x32x128.size a ≤ S1x81x32x512.size a
  inb_S1x81x32x512_S1x1x32x128_0_9_0_256 : ∀ a, (![0, 9, 0, 256] : Fin 4 → Nat) a + S1x1x32x128.size a ≤ S1x81x32x512.size a
  inb_S1x81x32x512_S1x1x32x128_0_18_0_256 : ∀ a, (![0, 18, 0, 256] : Fin 4 → Nat) a + S1x1x32x128.size a ≤ S1x81x32x512.size a
  inb_S1x81x32x512_S1x1x32x128_0_27_0_256 : ∀ a, (![0, 27, 0, 256] : Fin 4 → Nat) a + S1x1x32x128.size a ≤ S1x81x32x512.size a
  inb_S1x81x32x512_S1x1x32x128_0_36_0_256 : ∀ a, (![0, 36, 0, 256] : Fin 4 → Nat) a + S1x1x32x128.size a ≤ S1x81x32x512.size a
  inb_S1x81x32x512_S1x1x32x128_0_45_0_256 : ∀ a, (![0, 45, 0, 256] : Fin 4 → Nat) a + S1x1x32x128.size a ≤ S1x81x32x512.size a
  inb_S1x81x32x512_S1x1x32x128_0_54_0_256 : ∀ a, (![0, 54, 0, 256] : Fin 4 → Nat) a + S1x1x32x128.size a ≤ S1x81x32x512.size a
  inb_S1x81x32x512_S1x1x32x128_0_63_0_256 : ∀ a, (![0, 63, 0, 256] : Fin 4 → Nat) a + S1x1x32x128.size a ≤ S1x81x32x512.size a
  inb_S1x81x32x512_S1x1x32x128_0_72_0_256 : ∀ a, (![0, 72, 0, 256] : Fin 4 → Nat) a + S1x1x32x128.size a ≤ S1x81x32x512.size a
  inb_S1x81x32x512_S1x1x32x128_0_1_0_256 : ∀ a, (![0, 1, 0, 256] : Fin 4 → Nat) a + S1x1x32x128.size a ≤ S1x81x32x512.size a
  inb_S1x81x32x512_S1x1x32x128_0_10_0_256 : ∀ a, (![0, 10, 0, 256] : Fin 4 → Nat) a + S1x1x32x128.size a ≤ S1x81x32x512.size a
  inb_S1x81x32x512_S1x1x32x128_0_19_0_256 : ∀ a, (![0, 19, 0, 256] : Fin 4 → Nat) a + S1x1x32x128.size a ≤ S1x81x32x512.size a
  inb_S1x81x32x512_S1x1x32x128_0_28_0_256 : ∀ a, (![0, 28, 0, 256] : Fin 4 → Nat) a + S1x1x32x128.size a ≤ S1x81x32x512.size a
  inb_S1x81x32x512_S1x1x32x128_0_37_0_256 : ∀ a, (![0, 37, 0, 256] : Fin 4 → Nat) a + S1x1x32x128.size a ≤ S1x81x32x512.size a
  inb_S1x81x32x512_S1x1x32x128_0_46_0_256 : ∀ a, (![0, 46, 0, 256] : Fin 4 → Nat) a + S1x1x32x128.size a ≤ S1x81x32x512.size a
  inb_S1x81x32x512_S1x1x32x128_0_55_0_256 : ∀ a, (![0, 55, 0, 256] : Fin 4 → Nat) a + S1x1x32x128.size a ≤ S1x81x32x512.size a
  inb_S1x81x32x512_S1x1x32x128_0_64_0_256 : ∀ a, (![0, 64, 0, 256] : Fin 4 → Nat) a + S1x1x32x128.size a ≤ S1x81x32x512.size a
  inb_S1x81x32x512_S1x1x32x128_0_73_0_256 : ∀ a, (![0, 73, 0, 256] : Fin 4 → Nat) a + S1x1x32x128.size a ≤ S1x81x32x512.size a
  inb_S1x81x32x512_S1x1x32x128_0_2_0_256 : ∀ a, (![0, 2, 0, 256] : Fin 4 → Nat) a + S1x1x32x128.size a ≤ S1x81x32x512.size a
  inb_S1x81x32x512_S1x1x32x128_0_11_0_256 : ∀ a, (![0, 11, 0, 256] : Fin 4 → Nat) a + S1x1x32x128.size a ≤ S1x81x32x512.size a
  inb_S1x81x32x512_S1x1x32x128_0_20_0_256 : ∀ a, (![0, 20, 0, 256] : Fin 4 → Nat) a + S1x1x32x128.size a ≤ S1x81x32x512.size a
  inb_S1x81x32x512_S1x1x32x128_0_29_0_256 : ∀ a, (![0, 29, 0, 256] : Fin 4 → Nat) a + S1x1x32x128.size a ≤ S1x81x32x512.size a
  inb_S1x81x32x512_S1x1x32x128_0_38_0_256 : ∀ a, (![0, 38, 0, 256] : Fin 4 → Nat) a + S1x1x32x128.size a ≤ S1x81x32x512.size a
  inb_S1x81x32x512_S1x1x32x128_0_47_0_256 : ∀ a, (![0, 47, 0, 256] : Fin 4 → Nat) a + S1x1x32x128.size a ≤ S1x81x32x512.size a
  inb_S1x81x32x512_S1x1x32x128_0_56_0_256 : ∀ a, (![0, 56, 0, 256] : Fin 4 → Nat) a + S1x1x32x128.size a ≤ S1x81x32x512.size a
  inb_S1x81x32x512_S1x1x32x128_0_65_0_256 : ∀ a, (![0, 65, 0, 256] : Fin 4 → Nat) a + S1x1x32x128.size a ≤ S1x81x32x512.size a
  inb_S1x81x32x512_S1x1x32x128_0_74_0_256 : ∀ a, (![0, 74, 0, 256] : Fin 4 → Nat) a + S1x1x32x128.size a ≤ S1x81x32x512.size a
  inb_S1x81x32x512_S1x1x32x128_0_3_0_256 : ∀ a, (![0, 3, 0, 256] : Fin 4 → Nat) a + S1x1x32x128.size a ≤ S1x81x32x512.size a
  inb_S1x81x32x512_S1x1x32x128_0_12_0_256 : ∀ a, (![0, 12, 0, 256] : Fin 4 → Nat) a + S1x1x32x128.size a ≤ S1x81x32x512.size a
  inb_S1x81x32x512_S1x1x32x128_0_21_0_256 : ∀ a, (![0, 21, 0, 256] : Fin 4 → Nat) a + S1x1x32x128.size a ≤ S1x81x32x512.size a
  inb_S1x81x32x512_S1x1x32x128_0_30_0_256 : ∀ a, (![0, 30, 0, 256] : Fin 4 → Nat) a + S1x1x32x128.size a ≤ S1x81x32x512.size a
  inb_S1x81x32x512_S1x1x32x128_0_39_0_256 : ∀ a, (![0, 39, 0, 256] : Fin 4 → Nat) a + S1x1x32x128.size a ≤ S1x81x32x512.size a
  inb_S1x81x32x512_S1x1x32x128_0_48_0_256 : ∀ a, (![0, 48, 0, 256] : Fin 4 → Nat) a + S1x1x32x128.size a ≤ S1x81x32x512.size a
  inb_S1x81x32x512_S1x1x32x128_0_57_0_256 : ∀ a, (![0, 57, 0, 256] : Fin 4 → Nat) a + S1x1x32x128.size a ≤ S1x81x32x512.size a
  inb_S1x81x32x512_S1x1x32x128_0_66_0_256 : ∀ a, (![0, 66, 0, 256] : Fin 4 → Nat) a + S1x1x32x128.size a ≤ S1x81x32x512.size a
  inb_S1x81x32x512_S1x1x32x128_0_75_0_256 : ∀ a, (![0, 75, 0, 256] : Fin 4 → Nat) a + S1x1x32x128.size a ≤ S1x81x32x512.size a
  inb_S1x81x32x512_S1x1x32x128_0_4_0_256 : ∀ a, (![0, 4, 0, 256] : Fin 4 → Nat) a + S1x1x32x128.size a ≤ S1x81x32x512.size a
  inb_S1x81x32x512_S1x1x32x128_0_13_0_256 : ∀ a, (![0, 13, 0, 256] : Fin 4 → Nat) a + S1x1x32x128.size a ≤ S1x81x32x512.size a
  inb_S1x81x32x512_S1x1x32x128_0_22_0_256 : ∀ a, (![0, 22, 0, 256] : Fin 4 → Nat) a + S1x1x32x128.size a ≤ S1x81x32x512.size a
  inb_S1x81x32x512_S1x1x32x128_0_31_0_256 : ∀ a, (![0, 31, 0, 256] : Fin 4 → Nat) a + S1x1x32x128.size a ≤ S1x81x32x512.size a
  inb_S1x81x32x512_S1x1x32x128_0_40_0_256 : ∀ a, (![0, 40, 0, 256] : Fin 4 → Nat) a + S1x1x32x128.size a ≤ S1x81x32x512.size a
  inb_S1x81x32x512_S1x1x32x128_0_49_0_256 : ∀ a, (![0, 49, 0, 256] : Fin 4 → Nat) a + S1x1x32x128.size a ≤ S1x81x32x512.size a
  inb_S1x81x32x512_S1x1x32x128_0_58_0_256 : ∀ a, (![0, 58, 0, 256] : Fin 4 → Nat) a + S1x1x32x128.size a ≤ S1x81x32x512.size a
  inb_S1x81x32x512_S1x1x32x128_0_67_0_256 : ∀ a, (![0, 67, 0, 256] : Fin 4 → Nat) a + S1x1x32x128.size a ≤ S1x81x32x512.size a
  inb_S1x81x32x512_S1x1x32x128_0_76_0_256 : ∀ a, (![0, 76, 0, 256] : Fin 4 → Nat) a + S1x1x32x128.size a ≤ S1x81x32x512.size a
  inb_S1x81x32x512_S1x1x32x128_0_5_0_256 : ∀ a, (![0, 5, 0, 256] : Fin 4 → Nat) a + S1x1x32x128.size a ≤ S1x81x32x512.size a
  inb_S1x81x32x512_S1x1x32x128_0_14_0_256 : ∀ a, (![0, 14, 0, 256] : Fin 4 → Nat) a + S1x1x32x128.size a ≤ S1x81x32x512.size a
  inb_S1x81x32x512_S1x1x32x128_0_23_0_256 : ∀ a, (![0, 23, 0, 256] : Fin 4 → Nat) a + S1x1x32x128.size a ≤ S1x81x32x512.size a
  inb_S1x81x32x512_S1x1x32x128_0_32_0_256 : ∀ a, (![0, 32, 0, 256] : Fin 4 → Nat) a + S1x1x32x128.size a ≤ S1x81x32x512.size a
  inb_S1x81x32x512_S1x1x32x128_0_41_0_256 : ∀ a, (![0, 41, 0, 256] : Fin 4 → Nat) a + S1x1x32x128.size a ≤ S1x81x32x512.size a
  inb_S1x81x32x512_S1x1x32x128_0_50_0_256 : ∀ a, (![0, 50, 0, 256] : Fin 4 → Nat) a + S1x1x32x128.size a ≤ S1x81x32x512.size a
  inb_S1x81x32x512_S1x1x32x128_0_59_0_256 : ∀ a, (![0, 59, 0, 256] : Fin 4 → Nat) a + S1x1x32x128.size a ≤ S1x81x32x512.size a
  inb_S1x81x32x512_S1x1x32x128_0_68_0_256 : ∀ a, (![0, 68, 0, 256] : Fin 4 → Nat) a + S1x1x32x128.size a ≤ S1x81x32x512.size a
  inb_S1x81x32x512_S1x1x32x128_0_77_0_256 : ∀ a, (![0, 77, 0, 256] : Fin 4 → Nat) a + S1x1x32x128.size a ≤ S1x81x32x512.size a
  inb_S1x81x32x512_S1x1x32x128_0_6_0_256 : ∀ a, (![0, 6, 0, 256] : Fin 4 → Nat) a + S1x1x32x128.size a ≤ S1x81x32x512.size a
  inb_S1x81x32x512_S1x1x32x128_0_15_0_256 : ∀ a, (![0, 15, 0, 256] : Fin 4 → Nat) a + S1x1x32x128.size a ≤ S1x81x32x512.size a
  inb_S1x81x32x512_S1x1x32x128_0_24_0_256 : ∀ a, (![0, 24, 0, 256] : Fin 4 → Nat) a + S1x1x32x128.size a ≤ S1x81x32x512.size a
  inb_S1x81x32x512_S1x1x32x128_0_33_0_256 : ∀ a, (![0, 33, 0, 256] : Fin 4 → Nat) a + S1x1x32x128.size a ≤ S1x81x32x512.size a
  inb_S1x81x32x512_S1x1x32x128_0_42_0_256 : ∀ a, (![0, 42, 0, 256] : Fin 4 → Nat) a + S1x1x32x128.size a ≤ S1x81x32x512.size a
  inb_S1x81x32x512_S1x1x32x128_0_51_0_256 : ∀ a, (![0, 51, 0, 256] : Fin 4 → Nat) a + S1x1x32x128.size a ≤ S1x81x32x512.size a
  inb_S1x81x32x512_S1x1x32x128_0_60_0_256 : ∀ a, (![0, 60, 0, 256] : Fin 4 → Nat) a + S1x1x32x128.size a ≤ S1x81x32x512.size a
  inb_S1x81x32x512_S1x1x32x128_0_69_0_256 : ∀ a, (![0, 69, 0, 256] : Fin 4 → Nat) a + S1x1x32x128.size a ≤ S1x81x32x512.size a
  inb_S1x81x32x512_S1x1x32x128_0_78_0_256 : ∀ a, (![0, 78, 0, 256] : Fin 4 → Nat) a + S1x1x32x128.size a ≤ S1x81x32x512.size a
  inb_S1x81x32x512_S1x1x32x128_0_7_0_256 : ∀ a, (![0, 7, 0, 256] : Fin 4 → Nat) a + S1x1x32x128.size a ≤ S1x81x32x512.size a
  inb_S1x81x32x512_S1x1x32x128_0_16_0_256 : ∀ a, (![0, 16, 0, 256] : Fin 4 → Nat) a + S1x1x32x128.size a ≤ S1x81x32x512.size a
  inb_S1x81x32x512_S1x1x32x128_0_25_0_256 : ∀ a, (![0, 25, 0, 256] : Fin 4 → Nat) a + S1x1x32x128.size a ≤ S1x81x32x512.size a
  inb_S1x81x32x512_S1x1x32x128_0_34_0_256 : ∀ a, (![0, 34, 0, 256] : Fin 4 → Nat) a + S1x1x32x128.size a ≤ S1x81x32x512.size a
  inb_S1x81x32x512_S1x1x32x128_0_43_0_256 : ∀ a, (![0, 43, 0, 256] : Fin 4 → Nat) a + S1x1x32x128.size a ≤ S1x81x32x512.size a
  inb_S1x81x32x512_S1x1x32x128_0_52_0_256 : ∀ a, (![0, 52, 0, 256] : Fin 4 → Nat) a + S1x1x32x128.size a ≤ S1x81x32x512.size a
  inb_S1x81x32x512_S1x1x32x128_0_61_0_256 : ∀ a, (![0, 61, 0, 256] : Fin 4 → Nat) a + S1x1x32x128.size a ≤ S1x81x32x512.size a
  inb_S1x81x32x512_S1x1x32x128_0_70_0_256 : ∀ a, (![0, 70, 0, 256] : Fin 4 → Nat) a + S1x1x32x128.size a ≤ S1x81x32x512.size a
  inb_S1x81x32x512_S1x1x32x128_0_79_0_256 : ∀ a, (![0, 79, 0, 256] : Fin 4 → Nat) a + S1x1x32x128.size a ≤ S1x81x32x512.size a
  inb_S1x81x32x512_S1x1x32x128_0_8_0_256 : ∀ a, (![0, 8, 0, 256] : Fin 4 → Nat) a + S1x1x32x128.size a ≤ S1x81x32x512.size a
  inb_S1x81x32x512_S1x1x32x128_0_17_0_256 : ∀ a, (![0, 17, 0, 256] : Fin 4 → Nat) a + S1x1x32x128.size a ≤ S1x81x32x512.size a
  inb_S1x81x32x512_S1x1x32x128_0_26_0_256 : ∀ a, (![0, 26, 0, 256] : Fin 4 → Nat) a + S1x1x32x128.size a ≤ S1x81x32x512.size a
  inb_S1x81x32x512_S1x1x32x128_0_35_0_256 : ∀ a, (![0, 35, 0, 256] : Fin 4 → Nat) a + S1x1x32x128.size a ≤ S1x81x32x512.size a
  inb_S1x81x32x512_S1x1x32x128_0_44_0_256 : ∀ a, (![0, 44, 0, 256] : Fin 4 → Nat) a + S1x1x32x128.size a ≤ S1x81x32x512.size a
  inb_S1x81x32x512_S1x1x32x128_0_53_0_256 : ∀ a, (![0, 53, 0, 256] : Fin 4 → Nat) a + S1x1x32x128.size a ≤ S1x81x32x512.size a
  inb_S1x81x32x512_S1x1x32x128_0_62_0_256 : ∀ a, (![0, 62, 0, 256] : Fin 4 → Nat) a + S1x1x32x128.size a ≤ S1x81x32x512.size a
  inb_S1x81x32x512_S1x1x32x128_0_71_0_256 : ∀ a, (![0, 71, 0, 256] : Fin 4 → Nat) a + S1x1x32x128.size a ≤ S1x81x32x512.size a
  inb_S1x81x32x512_S1x1x32x128_0_80_0_256 : ∀ a, (![0, 80, 0, 256] : Fin 4 → Nat) a + S1x1x32x128.size a ≤ S1x81x32x512.size a
  inb_S1x1x32x512_S1x1x32x128_0_0_0_256 : ∀ a, (![0, 0, 0, 256] : Fin 4 → Nat) a + S1x1x32x128.size a ≤ S1x1x32x512.size a
  inb_S1x8x32x512_S1x8x32x128_0_0_0_256 : ∀ a, (![0, 0, 0, 256] : Fin 4 → Nat) a + S1x8x32x128.size a ≤ S1x8x32x512.size a
  slices_S8x40x520_o0_0_384_S8x40x136 : S8x40x520.Slices ![0, 0, 384] S8x40x136
  inb_S1x81x32x512_S1x1x32x128_0_0_0_384 : ∀ a, (![0, 0, 0, 384] : Fin 4 → Nat) a + S1x1x32x128.size a ≤ S1x81x32x512.size a
  inb_S1x81x32x512_S1x1x32x128_0_9_0_384 : ∀ a, (![0, 9, 0, 384] : Fin 4 → Nat) a + S1x1x32x128.size a ≤ S1x81x32x512.size a
  inb_S1x81x32x512_S1x1x32x128_0_18_0_384 : ∀ a, (![0, 18, 0, 384] : Fin 4 → Nat) a + S1x1x32x128.size a ≤ S1x81x32x512.size a
  inb_S1x81x32x512_S1x1x32x128_0_27_0_384 : ∀ a, (![0, 27, 0, 384] : Fin 4 → Nat) a + S1x1x32x128.size a ≤ S1x81x32x512.size a
  inb_S1x81x32x512_S1x1x32x128_0_36_0_384 : ∀ a, (![0, 36, 0, 384] : Fin 4 → Nat) a + S1x1x32x128.size a ≤ S1x81x32x512.size a
  inb_S1x81x32x512_S1x1x32x128_0_45_0_384 : ∀ a, (![0, 45, 0, 384] : Fin 4 → Nat) a + S1x1x32x128.size a ≤ S1x81x32x512.size a
  inb_S1x81x32x512_S1x1x32x128_0_54_0_384 : ∀ a, (![0, 54, 0, 384] : Fin 4 → Nat) a + S1x1x32x128.size a ≤ S1x81x32x512.size a
  inb_S1x81x32x512_S1x1x32x128_0_63_0_384 : ∀ a, (![0, 63, 0, 384] : Fin 4 → Nat) a + S1x1x32x128.size a ≤ S1x81x32x512.size a
  inb_S1x81x32x512_S1x1x32x128_0_72_0_384 : ∀ a, (![0, 72, 0, 384] : Fin 4 → Nat) a + S1x1x32x128.size a ≤ S1x81x32x512.size a
  inb_S1x81x32x512_S1x1x32x128_0_1_0_384 : ∀ a, (![0, 1, 0, 384] : Fin 4 → Nat) a + S1x1x32x128.size a ≤ S1x81x32x512.size a
  inb_S1x81x32x512_S1x1x32x128_0_10_0_384 : ∀ a, (![0, 10, 0, 384] : Fin 4 → Nat) a + S1x1x32x128.size a ≤ S1x81x32x512.size a
  inb_S1x81x32x512_S1x1x32x128_0_19_0_384 : ∀ a, (![0, 19, 0, 384] : Fin 4 → Nat) a + S1x1x32x128.size a ≤ S1x81x32x512.size a
  inb_S1x81x32x512_S1x1x32x128_0_28_0_384 : ∀ a, (![0, 28, 0, 384] : Fin 4 → Nat) a + S1x1x32x128.size a ≤ S1x81x32x512.size a
  inb_S1x81x32x512_S1x1x32x128_0_37_0_384 : ∀ a, (![0, 37, 0, 384] : Fin 4 → Nat) a + S1x1x32x128.size a ≤ S1x81x32x512.size a
  inb_S1x81x32x512_S1x1x32x128_0_46_0_384 : ∀ a, (![0, 46, 0, 384] : Fin 4 → Nat) a + S1x1x32x128.size a ≤ S1x81x32x512.size a
  inb_S1x81x32x512_S1x1x32x128_0_55_0_384 : ∀ a, (![0, 55, 0, 384] : Fin 4 → Nat) a + S1x1x32x128.size a ≤ S1x81x32x512.size a
  inb_S1x81x32x512_S1x1x32x128_0_64_0_384 : ∀ a, (![0, 64, 0, 384] : Fin 4 → Nat) a + S1x1x32x128.size a ≤ S1x81x32x512.size a
  inb_S1x81x32x512_S1x1x32x128_0_73_0_384 : ∀ a, (![0, 73, 0, 384] : Fin 4 → Nat) a + S1x1x32x128.size a ≤ S1x81x32x512.size a
  inb_S1x81x32x512_S1x1x32x128_0_2_0_384 : ∀ a, (![0, 2, 0, 384] : Fin 4 → Nat) a + S1x1x32x128.size a ≤ S1x81x32x512.size a
  inb_S1x81x32x512_S1x1x32x128_0_11_0_384 : ∀ a, (![0, 11, 0, 384] : Fin 4 → Nat) a + S1x1x32x128.size a ≤ S1x81x32x512.size a
  inb_S1x81x32x512_S1x1x32x128_0_20_0_384 : ∀ a, (![0, 20, 0, 384] : Fin 4 → Nat) a + S1x1x32x128.size a ≤ S1x81x32x512.size a
  inb_S1x81x32x512_S1x1x32x128_0_29_0_384 : ∀ a, (![0, 29, 0, 384] : Fin 4 → Nat) a + S1x1x32x128.size a ≤ S1x81x32x512.size a
  inb_S1x81x32x512_S1x1x32x128_0_38_0_384 : ∀ a, (![0, 38, 0, 384] : Fin 4 → Nat) a + S1x1x32x128.size a ≤ S1x81x32x512.size a
  inb_S1x81x32x512_S1x1x32x128_0_47_0_384 : ∀ a, (![0, 47, 0, 384] : Fin 4 → Nat) a + S1x1x32x128.size a ≤ S1x81x32x512.size a
  inb_S1x81x32x512_S1x1x32x128_0_56_0_384 : ∀ a, (![0, 56, 0, 384] : Fin 4 → Nat) a + S1x1x32x128.size a ≤ S1x81x32x512.size a
  inb_S1x81x32x512_S1x1x32x128_0_65_0_384 : ∀ a, (![0, 65, 0, 384] : Fin 4 → Nat) a + S1x1x32x128.size a ≤ S1x81x32x512.size a
  inb_S1x81x32x512_S1x1x32x128_0_74_0_384 : ∀ a, (![0, 74, 0, 384] : Fin 4 → Nat) a + S1x1x32x128.size a ≤ S1x81x32x512.size a
  inb_S1x81x32x512_S1x1x32x128_0_3_0_384 : ∀ a, (![0, 3, 0, 384] : Fin 4 → Nat) a + S1x1x32x128.size a ≤ S1x81x32x512.size a
  inb_S1x81x32x512_S1x1x32x128_0_12_0_384 : ∀ a, (![0, 12, 0, 384] : Fin 4 → Nat) a + S1x1x32x128.size a ≤ S1x81x32x512.size a
  inb_S1x81x32x512_S1x1x32x128_0_21_0_384 : ∀ a, (![0, 21, 0, 384] : Fin 4 → Nat) a + S1x1x32x128.size a ≤ S1x81x32x512.size a
  inb_S1x81x32x512_S1x1x32x128_0_30_0_384 : ∀ a, (![0, 30, 0, 384] : Fin 4 → Nat) a + S1x1x32x128.size a ≤ S1x81x32x512.size a
  inb_S1x81x32x512_S1x1x32x128_0_39_0_384 : ∀ a, (![0, 39, 0, 384] : Fin 4 → Nat) a + S1x1x32x128.size a ≤ S1x81x32x512.size a
  inb_S1x81x32x512_S1x1x32x128_0_48_0_384 : ∀ a, (![0, 48, 0, 384] : Fin 4 → Nat) a + S1x1x32x128.size a ≤ S1x81x32x512.size a
  inb_S1x81x32x512_S1x1x32x128_0_57_0_384 : ∀ a, (![0, 57, 0, 384] : Fin 4 → Nat) a + S1x1x32x128.size a ≤ S1x81x32x512.size a
  inb_S1x81x32x512_S1x1x32x128_0_66_0_384 : ∀ a, (![0, 66, 0, 384] : Fin 4 → Nat) a + S1x1x32x128.size a ≤ S1x81x32x512.size a
  inb_S1x81x32x512_S1x1x32x128_0_75_0_384 : ∀ a, (![0, 75, 0, 384] : Fin 4 → Nat) a + S1x1x32x128.size a ≤ S1x81x32x512.size a
  inb_S1x81x32x512_S1x1x32x128_0_4_0_384 : ∀ a, (![0, 4, 0, 384] : Fin 4 → Nat) a + S1x1x32x128.size a ≤ S1x81x32x512.size a
  inb_S1x81x32x512_S1x1x32x128_0_13_0_384 : ∀ a, (![0, 13, 0, 384] : Fin 4 → Nat) a + S1x1x32x128.size a ≤ S1x81x32x512.size a
  inb_S1x81x32x512_S1x1x32x128_0_22_0_384 : ∀ a, (![0, 22, 0, 384] : Fin 4 → Nat) a + S1x1x32x128.size a ≤ S1x81x32x512.size a
  inb_S1x81x32x512_S1x1x32x128_0_31_0_384 : ∀ a, (![0, 31, 0, 384] : Fin 4 → Nat) a + S1x1x32x128.size a ≤ S1x81x32x512.size a
  inb_S1x81x32x512_S1x1x32x128_0_40_0_384 : ∀ a, (![0, 40, 0, 384] : Fin 4 → Nat) a + S1x1x32x128.size a ≤ S1x81x32x512.size a
  inb_S1x81x32x512_S1x1x32x128_0_49_0_384 : ∀ a, (![0, 49, 0, 384] : Fin 4 → Nat) a + S1x1x32x128.size a ≤ S1x81x32x512.size a
  inb_S1x81x32x512_S1x1x32x128_0_58_0_384 : ∀ a, (![0, 58, 0, 384] : Fin 4 → Nat) a + S1x1x32x128.size a ≤ S1x81x32x512.size a
  inb_S1x81x32x512_S1x1x32x128_0_67_0_384 : ∀ a, (![0, 67, 0, 384] : Fin 4 → Nat) a + S1x1x32x128.size a ≤ S1x81x32x512.size a
  inb_S1x81x32x512_S1x1x32x128_0_76_0_384 : ∀ a, (![0, 76, 0, 384] : Fin 4 → Nat) a + S1x1x32x128.size a ≤ S1x81x32x512.size a
  inb_S1x81x32x512_S1x1x32x128_0_5_0_384 : ∀ a, (![0, 5, 0, 384] : Fin 4 → Nat) a + S1x1x32x128.size a ≤ S1x81x32x512.size a
  inb_S1x81x32x512_S1x1x32x128_0_14_0_384 : ∀ a, (![0, 14, 0, 384] : Fin 4 → Nat) a + S1x1x32x128.size a ≤ S1x81x32x512.size a
  inb_S1x81x32x512_S1x1x32x128_0_23_0_384 : ∀ a, (![0, 23, 0, 384] : Fin 4 → Nat) a + S1x1x32x128.size a ≤ S1x81x32x512.size a
  inb_S1x81x32x512_S1x1x32x128_0_32_0_384 : ∀ a, (![0, 32, 0, 384] : Fin 4 → Nat) a + S1x1x32x128.size a ≤ S1x81x32x512.size a
  inb_S1x81x32x512_S1x1x32x128_0_41_0_384 : ∀ a, (![0, 41, 0, 384] : Fin 4 → Nat) a + S1x1x32x128.size a ≤ S1x81x32x512.size a
  inb_S1x81x32x512_S1x1x32x128_0_50_0_384 : ∀ a, (![0, 50, 0, 384] : Fin 4 → Nat) a + S1x1x32x128.size a ≤ S1x81x32x512.size a
  inb_S1x81x32x512_S1x1x32x128_0_59_0_384 : ∀ a, (![0, 59, 0, 384] : Fin 4 → Nat) a + S1x1x32x128.size a ≤ S1x81x32x512.size a
  inb_S1x81x32x512_S1x1x32x128_0_68_0_384 : ∀ a, (![0, 68, 0, 384] : Fin 4 → Nat) a + S1x1x32x128.size a ≤ S1x81x32x512.size a
  inb_S1x81x32x512_S1x1x32x128_0_77_0_384 : ∀ a, (![0, 77, 0, 384] : Fin 4 → Nat) a + S1x1x32x128.size a ≤ S1x81x32x512.size a
  inb_S1x81x32x512_S1x1x32x128_0_6_0_384 : ∀ a, (![0, 6, 0, 384] : Fin 4 → Nat) a + S1x1x32x128.size a ≤ S1x81x32x512.size a
  inb_S1x81x32x512_S1x1x32x128_0_15_0_384 : ∀ a, (![0, 15, 0, 384] : Fin 4 → Nat) a + S1x1x32x128.size a ≤ S1x81x32x512.size a
  inb_S1x81x32x512_S1x1x32x128_0_24_0_384 : ∀ a, (![0, 24, 0, 384] : Fin 4 → Nat) a + S1x1x32x128.size a ≤ S1x81x32x512.size a
  inb_S1x81x32x512_S1x1x32x128_0_33_0_384 : ∀ a, (![0, 33, 0, 384] : Fin 4 → Nat) a + S1x1x32x128.size a ≤ S1x81x32x512.size a
  inb_S1x81x32x512_S1x1x32x128_0_42_0_384 : ∀ a, (![0, 42, 0, 384] : Fin 4 → Nat) a + S1x1x32x128.size a ≤ S1x81x32x512.size a
  inb_S1x81x32x512_S1x1x32x128_0_51_0_384 : ∀ a, (![0, 51, 0, 384] : Fin 4 → Nat) a + S1x1x32x128.size a ≤ S1x81x32x512.size a
  inb_S1x81x32x512_S1x1x32x128_0_60_0_384 : ∀ a, (![0, 60, 0, 384] : Fin 4 → Nat) a + S1x1x32x128.size a ≤ S1x81x32x512.size a
  inb_S1x81x32x512_S1x1x32x128_0_69_0_384 : ∀ a, (![0, 69, 0, 384] : Fin 4 → Nat) a + S1x1x32x128.size a ≤ S1x81x32x512.size a
  inb_S1x81x32x512_S1x1x32x128_0_78_0_384 : ∀ a, (![0, 78, 0, 384] : Fin 4 → Nat) a + S1x1x32x128.size a ≤ S1x81x32x512.size a
  inb_S1x81x32x512_S1x1x32x128_0_7_0_384 : ∀ a, (![0, 7, 0, 384] : Fin 4 → Nat) a + S1x1x32x128.size a ≤ S1x81x32x512.size a
  inb_S1x81x32x512_S1x1x32x128_0_16_0_384 : ∀ a, (![0, 16, 0, 384] : Fin 4 → Nat) a + S1x1x32x128.size a ≤ S1x81x32x512.size a
  inb_S1x81x32x512_S1x1x32x128_0_25_0_384 : ∀ a, (![0, 25, 0, 384] : Fin 4 → Nat) a + S1x1x32x128.size a ≤ S1x81x32x512.size a
  inb_S1x81x32x512_S1x1x32x128_0_34_0_384 : ∀ a, (![0, 34, 0, 384] : Fin 4 → Nat) a + S1x1x32x128.size a ≤ S1x81x32x512.size a
  inb_S1x81x32x512_S1x1x32x128_0_43_0_384 : ∀ a, (![0, 43, 0, 384] : Fin 4 → Nat) a + S1x1x32x128.size a ≤ S1x81x32x512.size a
  inb_S1x81x32x512_S1x1x32x128_0_52_0_384 : ∀ a, (![0, 52, 0, 384] : Fin 4 → Nat) a + S1x1x32x128.size a ≤ S1x81x32x512.size a
  inb_S1x81x32x512_S1x1x32x128_0_61_0_384 : ∀ a, (![0, 61, 0, 384] : Fin 4 → Nat) a + S1x1x32x128.size a ≤ S1x81x32x512.size a
  inb_S1x81x32x512_S1x1x32x128_0_70_0_384 : ∀ a, (![0, 70, 0, 384] : Fin 4 → Nat) a + S1x1x32x128.size a ≤ S1x81x32x512.size a
  inb_S1x81x32x512_S1x1x32x128_0_79_0_384 : ∀ a, (![0, 79, 0, 384] : Fin 4 → Nat) a + S1x1x32x128.size a ≤ S1x81x32x512.size a
  inb_S1x81x32x512_S1x1x32x128_0_8_0_384 : ∀ a, (![0, 8, 0, 384] : Fin 4 → Nat) a + S1x1x32x128.size a ≤ S1x81x32x512.size a
  inb_S1x81x32x512_S1x1x32x128_0_17_0_384 : ∀ a, (![0, 17, 0, 384] : Fin 4 → Nat) a + S1x1x32x128.size a ≤ S1x81x32x512.size a
  inb_S1x81x32x512_S1x1x32x128_0_26_0_384 : ∀ a, (![0, 26, 0, 384] : Fin 4 → Nat) a + S1x1x32x128.size a ≤ S1x81x32x512.size a
  inb_S1x81x32x512_S1x1x32x128_0_35_0_384 : ∀ a, (![0, 35, 0, 384] : Fin 4 → Nat) a + S1x1x32x128.size a ≤ S1x81x32x512.size a
  inb_S1x81x32x512_S1x1x32x128_0_44_0_384 : ∀ a, (![0, 44, 0, 384] : Fin 4 → Nat) a + S1x1x32x128.size a ≤ S1x81x32x512.size a
  inb_S1x81x32x512_S1x1x32x128_0_53_0_384 : ∀ a, (![0, 53, 0, 384] : Fin 4 → Nat) a + S1x1x32x128.size a ≤ S1x81x32x512.size a
  inb_S1x81x32x512_S1x1x32x128_0_62_0_384 : ∀ a, (![0, 62, 0, 384] : Fin 4 → Nat) a + S1x1x32x128.size a ≤ S1x81x32x512.size a
  inb_S1x81x32x512_S1x1x32x128_0_71_0_384 : ∀ a, (![0, 71, 0, 384] : Fin 4 → Nat) a + S1x1x32x128.size a ≤ S1x81x32x512.size a
  inb_S1x81x32x512_S1x1x32x128_0_80_0_384 : ∀ a, (![0, 80, 0, 384] : Fin 4 → Nat) a + S1x1x32x128.size a ≤ S1x81x32x512.size a
  inb_S1x1x32x512_S1x1x32x128_0_0_0_384 : ∀ a, (![0, 0, 0, 384] : Fin 4 → Nat) a + S1x1x32x128.size a ≤ S1x1x32x512.size a
  inb_S1x8x32x512_S1x8x32x128_0_0_0_384 : ∀ a, (![0, 0, 0, 384] : Fin 4 → Nat) a + S1x8x32x128.size a ≤ S1x8x32x512.size a
  hrank0 : 0 < grid0.rank
  k0_mult1_dvd : ∀ i : grid0.Coords, 32 ∣ (k0_mult1 i).toNat
  k0_off1_inb : ∀ i : grid0.Coords, ∀ a, (k0_off1 i) a + S8x40x520.size a ≤ S8x264x520.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x256x512.size a ≤ S2x8x256x512.size a
  hwx0_0 : ∀ i : grid0.Coords, EltTy.bits .f32 = 32 ∨ (Rect.block (s := S2x8x256x512) S1x8x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x81x32x512.size a ≤ S2x81x256x512.size a
  hwx0_1 : ∀ i : grid0.Coords, EltTy.bits .f32 = 32 ∨ (Rect.block (s := S2x81x256x512) S1x81x32x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x32x512.size a ≤ S2x1x256x512.size a
  hwx0_2 : ∀ i : grid0.Coords, EltTy.bits .f32 = 32 ∨ (Rect.block (s := S2x1x256x512) S1x1x32x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x32x512.size a ≤ S2x8x256x512.size a
  hwx0_3 : ∀ i : grid0.Coords, EltTy.bits .f32 = 32 ∨ (Rect.block (s := S2x8x256x512) S1x8x32x512.size (cc0_transform_3 i) (hinb0_3 i)).WholeWords (EltTy.packing .f32)

variable [Facts₀]

abbrev win0_0 : Pipeline.Window sig grid0 :=
  Pipeline.Window.ofSpec (Memref.whole main_arg0) S1x8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x81x32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x32x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x8x32x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x8x256x512 : Shape := ⟨4, ![2, 8, 256, 512]⟩
abbrev S2x81x256x512 : Shape := ⟨4, ![2, 81, 256, 512]⟩
abbrev S2x1x256x512 : Shape := ⟨4, ![2, 1, 256, 512]⟩
abbrev S_ : Shape := ⟨0, ![]⟩
abbrev S2x8x264x520 : Shape := ⟨4, ![2, 8, 264, 520]⟩
abbrev S2x256x512 : Shape := ⟨3, ![2, 256, 512]⟩

abbrev nBuf : Space → Nat
  | .hbm => 577
  | .vmem => 0
  | .smem => 0
  | _ => 0

abbrev hbmTy0_0 (i : Nat) : BufTy := match i % 128 with
  | 0 => ⟨S2x8x256x512, .f32⟩
  | 1 => ⟨S2x81x256x512, .f32⟩
  | 2 => ⟨S2x1x256x512, .f32⟩
  | 3 => ⟨S_, .i32⟩
  | 4 => ⟨S_, .f32⟩
  | 5 => ⟨S2x8x264x520, .f32⟩
  | 6 => ⟨S_, .f32⟩
  | 7 => ⟨S2x8x256x512, .f32⟩
  | 8 => ⟨S2x1x256x512, .f32⟩
  | 9 => ⟨S2x256x512, .f32⟩
  | 10 => ⟨S2x1x256x512, .f32⟩
  | 11 => ⟨S2x8x256x512, .f32⟩
  | 12 => ⟨S2x8x256x512, .f32⟩
  | 13 => ⟨S2x8x256x512, .f32⟩
  | 14 => ⟨S2x8x256x512, .f32⟩
  | 15 => ⟨S2x1x256x512, .f32⟩
  | 16 => ⟨S2x256x512, .f32⟩
  | 17 => ⟨S2x1x256x512, .f32⟩
  | 18 => ⟨S2x8x256x512, .f32⟩
  | 19 => ⟨S2x8x256x512, .f32⟩
  | 20 => ⟨S2x8x256x512, .f32⟩
  | 21 => ⟨S2x8x256x512, .f32⟩
  | 22 => ⟨S2x1x256x512, .f32⟩
  | 23 => ⟨S2x256x512, .f32⟩
  | 24 => ⟨S2x1x256x512, .f32⟩
  | 25 => ⟨S2x8x256x512, .f32⟩
  | 26 => ⟨S2x8x256x512, .f32⟩
  | 27 => ⟨S2x8x256x512, .f32⟩
  | 28 => ⟨S2x8x256x512, .f32⟩
  | 29 => ⟨S2x1x256x512, .f32⟩
  | 30 => ⟨S2x256x512, .f32⟩
  | 31 => ⟨S2x1x256x512, .f32⟩
  | 32 => ⟨S2x8x256x512, .f32⟩
  | 33 => ⟨S2x8x256x512, .f32⟩
  | 34 => ⟨S2x8x256x512, .f32⟩
  | 35 => ⟨S2x8x256x512, .f32⟩
  | 36 => ⟨S2x1x256x512, .f32⟩
  | 37 => ⟨S2x256x512, .f32⟩
  | 38 => ⟨S2x1x256x512, .f32⟩
  | 39 => ⟨S2x8x256x512, .f32⟩
  | 40 => ⟨S2x8x256x512, .f32⟩
  | 41 => ⟨S2x8x256x512, .f32⟩
  | 42 => ⟨S2x8x256x512, .f32⟩
  | 43 => ⟨S2x1x256x512, .f32⟩
  | 44 => ⟨S2x256x512, .f32⟩
  | 45 => ⟨S2x1x256x512, .f32⟩
  | 46 => ⟨S2x8x256x512, .f32⟩
  | 47 => ⟨S2x8x256x512, .f32⟩
  | 48 => ⟨S2x8x256x512, .f32⟩
  | 49 => ⟨S2x8x256x512, .f32⟩
  | 50 => ⟨S2x1x256x512, .f32⟩
  | 51 => ⟨S2x256x512, .f32⟩
  | 52 => ⟨S2x1x256x512, .f32⟩
  | 53 => ⟨S2x8x256x512, .f32⟩
  | 54 => ⟨S2x8x256x512, .f32⟩
  | 55 => ⟨S2x8x256x512, .f32⟩
  | 56 => ⟨S2x8x256x512, .f32⟩
  | 57 => ⟨S2x1x256x512, .f32⟩
  | 58 => ⟨S2x256x512, .f32⟩
  | 59 => ⟨S2x1x256x512, .f32⟩
  | 60 => ⟨S2x8x256x512, .f32⟩
  | 61 => ⟨S2x8x256x512, .f32⟩
  | 62 => ⟨S2x8x256x512, .f32⟩
  | 63 => ⟨S2x8x256x512, .f32⟩
  | 64 => ⟨S2x1x256x512, .f32⟩
  | 65 => ⟨S2x256x512, .f32⟩
  | 66 => ⟨S2x1x256x512, .f32⟩
  | 67 => ⟨S2x8x256x512, .f32⟩
  | 68 => ⟨S2x8x256x512, .f32⟩
  | 69 => ⟨S2x8x256x512, .f32⟩
  | 70 => ⟨S2x8x256x512, .f32⟩
  | 71 => ⟨S2x1x256x512, .f32⟩
  | 72 => ⟨S2x256x512, .f32⟩
  | 73 => ⟨S2x1x256x512, .f32⟩
  | 74 => ⟨S2x8x256x512, .f32⟩
  | 75 => ⟨S2x8x256x512, .f32⟩
  | 76 => ⟨S2x8x256x512, .f32⟩
  | 77 => ⟨S2x8x256x512, .f32⟩
  | 78 => ⟨S2x1x256x512, .f32⟩
  | 79 => ⟨S2x256x512, .f32⟩
  | 80 => ⟨S2x1x256x512, .f32⟩
  | 81 => ⟨S2x8x256x512, .f32⟩
  | 82 => ⟨S2x8x256x512, .f32⟩
  | 83 => ⟨S2x8x256x512, .f32⟩
  | 84 => ⟨S2x8x256x512, .f32⟩
  | 85 => ⟨S2x1x256x512, .f32⟩
  | 86 => ⟨S2x256x512, .f32⟩
  | 87 => ⟨S2x1x256x512, .f32⟩
  | 88 => ⟨S2x8x256x512, .f32⟩
  | 89 => ⟨S2x8x256x512, .f32⟩
  | 90 => ⟨S2x8x256x512, .f32⟩
  | 91 => ⟨S2x8x256x512, .f32⟩
  | 92 => ⟨S2x1x256x512, .f32⟩
  | 93 => ⟨S2x256x512, .f32⟩
  | 94 => ⟨S2x1x256x512, .f32⟩
  | 95 => ⟨S2x8x256x512, .f32⟩
  | 96 => ⟨S2x8x256x512, .f32⟩
  | 97 => ⟨S2x8x256x512, .f32⟩
  | 98 => ⟨S2x8x256x512, .f32⟩
  | 99 => ⟨S2x1x256x512, .f32⟩
  | 100 => ⟨S2x256x512, .f32⟩
  | 101 => ⟨S2x1x256x512, .f32⟩
  | 102 => ⟨S2x8x256x512, .f32⟩
  | 103 => ⟨S2x8x256x512, .f32⟩
  | 104 => ⟨S2x8x256x512, .f32⟩
  | 105 => ⟨S2x8x256x512, .f32⟩
  | 106 => ⟨S2x1x256x512, .f32⟩
  | 107 => ⟨S2x256x512, .f32⟩
  | 108 => ⟨S2x1x256x512, .f32⟩
  | 109 => ⟨S2x8x256x512, .f32⟩
  | 110 => ⟨S2x8x256x512, .f32⟩
  | 111 => ⟨S2x8x256x512, .f32⟩
  | 112 => ⟨S2x8x256x512, .f32⟩
  | 113 => ⟨S2x1x256x512, .f32⟩
  | 114 => ⟨S2x256x512, .f32⟩
  | 115 => ⟨S2x1x256x512, .f32⟩
  | 116 => ⟨S2x8x256x512, .f32⟩
  | 117 => ⟨S2x8x256x512, .f32⟩
  | 118 => ⟨S2x8x256x512, .f32⟩
  | 119 => ⟨S2x8x256x512, .f32⟩
  | 120 => ⟨S2x1x256x512, .f32⟩
  | 121 => ⟨S2x256x512, .f32⟩
  | 122 => ⟨S2x1x256x512, .f32⟩
  | 123 => ⟨S2x8x256x512, .f32⟩
  | 124 => ⟨S2x8x256x512, .f32⟩
  | 125 => ⟨S2x8x256x512, .f32⟩
  | 126 => ⟨S2x8x256x512, .f32⟩
  | 127 => ⟨S2x1x256x512, .f32⟩
  | _ => ⟨S2x8x256x512, .f32⟩

abbrev hbmTy0_1 (i : Nat) : BufTy := match i % 128 with
  | 0 => ⟨S2x256x512, .f32⟩
  | 1 => ⟨S2x1x256x512, .f32⟩
  | 2 => ⟨S2x8x256x512, .f32⟩
  | 3 => ⟨S2x8x256x512, .f32⟩
  | 4 => ⟨S2x8x256x512, .f32⟩
  | 5 => ⟨S2x8x256x512, .f32⟩
  | 6 => ⟨S2x1x256x512, .f32⟩
  | 7 => ⟨S2x256x512, .f32⟩
  | 8 => ⟨S2x1x256x512, .f32⟩
  | 9 => ⟨S2x8x256x512, .f32⟩
  | 10 => ⟨S2x8x256x512, .f32⟩
  | 11 => ⟨S2x8x256x512, .f32⟩
  | 12 => ⟨S2x8x256x512, .f32⟩
  | 13 => ⟨S2x1x256x512, .f32⟩
  | 14 => ⟨S2x256x512, .f32⟩
  | 15 => ⟨S2x1x256x512, .f32⟩
  | 16 => ⟨S2x8x256x512, .f32⟩
  | 17 => ⟨S2x8x256x512, .f32⟩
  | 18 => ⟨S2x8x256x512, .f32⟩
  | 19 => ⟨S2x8x256x512, .f32⟩
  | 20 => ⟨S2x1x256x512, .f32⟩
  | 21 => ⟨S2x256x512, .f32⟩
  | 22 => ⟨S2x1x256x512, .f32⟩
  | 23 => ⟨S2x8x256x512, .f32⟩
  | 24 => ⟨S2x8x256x512, .f32⟩
  | 25 => ⟨S2x8x256x512, .f32⟩
  | 26 => ⟨S2x8x256x512, .f32⟩
  | 27 => ⟨S2x1x256x512, .f32⟩
  | 28 => ⟨S2x256x512, .f32⟩
  | 29 => ⟨S2x1x256x512, .f32⟩
  | 30 => ⟨S2x8x256x512, .f32⟩
  | 31 => ⟨S2x8x256x512, .f32⟩
  | 32 => ⟨S2x8x256x512, .f32⟩
  | 33 => ⟨S2x8x256x512, .f32⟩
  | 34 => ⟨S2x1x256x512, .f32⟩
  | 35 => ⟨S2x256x512, .f32⟩
  | 36 => ⟨S2x1x256x512, .f32⟩
  | 37 => ⟨S2x8x256x512, .f32⟩
  | 38 => ⟨S2x8x256x512, .f32⟩
  | 39 => ⟨S2x8x256x512, .f32⟩
  | 40 => ⟨S2x8x256x512, .f32⟩
  | 41 => ⟨S2x1x256x512, .f32⟩
  | 42 => ⟨S2x256x512, .f32⟩
  | 43 => ⟨S2x1x256x512, .f32⟩
  | 44 => ⟨S2x8x256x512, .f32⟩
  | 45 => ⟨S2x8x256x512, .f32⟩
  | 46 => ⟨S2x8x256x512, .f32⟩
  | 47 => ⟨S2x8x256x512, .f32⟩
  | 48 => ⟨S2x1x256x512, .f32⟩
  | 49 => ⟨S2x256x512, .f32⟩
  | 50 => ⟨S2x1x256x512, .f32⟩
  | 51 => ⟨S2x8x256x512, .f32⟩
  | 52 => ⟨S2x8x256x512, .f32⟩
  | 53 => ⟨S2x8x256x512, .f32⟩
  | 54 => ⟨S2x8x256x512, .f32⟩
  | 55 => ⟨S2x1x256x512, .f32⟩
  | 56 => ⟨S2x256x512, .f32⟩
  | 57 => ⟨S2x1x256x512, .f32⟩
  | 58 => ⟨S2x8x256x512, .f32⟩
  | 59 => ⟨S2x8x256x512, .f32⟩
  | 60 => ⟨S2x8x256x512, .f32⟩
  | 61 => ⟨S2x8x256x512, .f32⟩
  | 62 => ⟨S2x1x256x512, .f32⟩
  | 63 => ⟨S2x256x512, .f32⟩
  | 64 => ⟨S2x1x256x512, .f32⟩
  | 65 => ⟨S2x8x256x512, .f32⟩
  | 66 => ⟨S2x8x256x512, .f32⟩
  | 67 => ⟨S2x8x256x512, .f32⟩
  | 68 => ⟨S2x8x256x512, .f32⟩
  | 69 => ⟨S2x1x256x512, .f32⟩
  | 70 => ⟨S2x256x512, .f32⟩
  | 71 => ⟨S2x1x256x512, .f32⟩
  | 72 => ⟨S2x8x256x512, .f32⟩
  | 73 => ⟨S2x8x256x512, .f32⟩
  | 74 => ⟨S2x8x256x512, .f32⟩
  | 75 => ⟨S2x8x256x512, .f32⟩
  | 76 => ⟨S2x1x256x512, .f32⟩
  | 77 => ⟨S2x256x512, .f32⟩
  | 78 => ⟨S2x1x256x512, .f32⟩
  | 79 => ⟨S2x8x256x512, .f32⟩
  | 80 => ⟨S2x8x256x512, .f32⟩
  | 81 => ⟨S2x8x256x512, .f32⟩
  | 82 => ⟨S2x8x256x512, .f32⟩
  | 83 => ⟨S2x1x256x512, .f32⟩
  | 84 => ⟨S2x256x512, .f32⟩
  | 85 => ⟨S2x1x256x512, .f32⟩
  | 86 => ⟨S2x8x256x512, .f32⟩
  | 87 => ⟨S2x8x256x512, .f32⟩
  | 88 => ⟨S2x8x256x512, .f32⟩
  | 89 => ⟨S2x8x256x512, .f32⟩
  | 90 => ⟨S2x1x256x512, .f32⟩
  | 91 => ⟨S2x256x512, .f32⟩
  | 92 => ⟨S2x1x256x512, .f32⟩
  | 93 => ⟨S2x8x256x512, .f32⟩
  | 94 => ⟨S2x8x256x512, .f32⟩
  | 95 => ⟨S2x8x256x512, .f32⟩
  | 96 => ⟨S2x8x256x512, .f32⟩
  | 97 => ⟨S2x1x256x512, .f32⟩
  | 98 => ⟨S2x256x512, .f32⟩
  | 99 => ⟨S2x1x256x512, .f32⟩
  | 100 => ⟨S2x8x256x512, .f32⟩
  | 101 => ⟨S2x8x256x512, .f32⟩
  | 102 => ⟨S2x8x256x512, .f32⟩
  | 103 => ⟨S2x8x256x512, .f32⟩
  | 104 => ⟨S2x1x256x512, .f32⟩
  | 105 => ⟨S2x256x512, .f32⟩
  | 106 => ⟨S2x1x256x512, .f32⟩
  | 107 => ⟨S2x8x256x512, .f32⟩
  | 108 => ⟨S2x8x256x512, .f32⟩
  | 109 => ⟨S2x8x256x512, .f32⟩
  | 110 => ⟨S2x8x256x512, .f32⟩
  | 111 => ⟨S2x1x256x512, .f32⟩
  | 112 => ⟨S2x256x512, .f32⟩
  | 113 => ⟨S2x1x256x512, .f32⟩
  | 114 => ⟨S2x8x256x512, .f32⟩
  | 115 => ⟨S2x8x256x512, .f32⟩
  | 116 => ⟨S2x8x256x512, .f32⟩
  | 117 => ⟨S2x8x256x512, .f32⟩
  | 118 => ⟨S2x1x256x512, .f32⟩
  | 119 => ⟨S2x256x512, .f32⟩
  | 120 => ⟨S2x1x256x512, .f32⟩
  | 121 => ⟨S2x8x256x512, .f32⟩
  | 122 => ⟨S2x8x256x512, .f32⟩
  | 123 => ⟨S2x8x256x512, .f32⟩
  | 124 => ⟨S2x8x256x512, .f32⟩
  | 125 => ⟨S2x1x256x512, .f32⟩
  | 126 => ⟨S2x256x512, .f32⟩
  | 127 => ⟨S2x1x256x512, .f32⟩
  | _ => ⟨S2x8x256x512, .f32⟩

abbrev hbmTy0_2 (i : Nat) : BufTy := match i % 128 with
  | 0 => ⟨S2x8x256x512, .f32⟩
  | 1 => ⟨S2x8x256x512, .f32⟩
  | 2 => ⟨S2x8x256x512, .f32⟩
  | 3 => ⟨S2x8x256x512, .f32⟩
  | 4 => ⟨S2x1x256x512, .f32⟩
  | 5 => ⟨S2x256x512, .f32⟩
  | 6 => ⟨S2x1x256x512, .f32⟩
  | 7 => ⟨S2x8x256x512, .f32⟩
  | 8 => ⟨S2x8x256x512, .f32⟩
  | 9 => ⟨S2x8x256x512, .f32⟩
  | 10 => ⟨S2x8x256x512, .f32⟩
  | 11 => ⟨S2x1x256x512, .f32⟩
  | 12 => ⟨S2x256x512, .f32⟩
  | 13 => ⟨S2x1x256x512, .f32⟩
  | 14 => ⟨S2x8x256x512, .f32⟩
  | 15 => ⟨S2x8x256x512, .f32⟩
  | 16 => ⟨S2x8x256x512, .f32⟩
  | 17 => ⟨S2x8x256x512, .f32⟩
  | 18 => ⟨S2x1x256x512, .f32⟩
  | 19 => ⟨S2x256x512, .f32⟩
  | 20 => ⟨S2x1x256x512, .f32⟩
  | 21 => ⟨S2x8x256x512, .f32⟩
  | 22 => ⟨S2x8x256x512, .f32⟩
  | 23 => ⟨S2x8x256x512, .f32⟩
  | 24 => ⟨S2x8x256x512, .f32⟩
  | 25 => ⟨S2x1x256x512, .f32⟩
  | 26 => ⟨S2x256x512, .f32⟩
  | 27 => ⟨S2x1x256x512, .f32⟩
  | 28 => ⟨S2x8x256x512, .f32⟩
  | 29 => ⟨S2x8x256x512, .f32⟩
  | 30 => ⟨S2x8x256x512, .f32⟩
  | 31 => ⟨S2x8x256x512, .f32⟩
  | 32 => ⟨S2x1x256x512, .f32⟩
  | 33 => ⟨S2x256x512, .f32⟩
  | 34 => ⟨S2x1x256x512, .f32⟩
  | 35 => ⟨S2x8x256x512, .f32⟩
  | 36 => ⟨S2x8x256x512, .f32⟩
  | 37 => ⟨S2x8x256x512, .f32⟩
  | 38 => ⟨S2x8x256x512, .f32⟩
  | 39 => ⟨S2x1x256x512, .f32⟩
  | 40 => ⟨S2x256x512, .f32⟩
  | 41 => ⟨S2x1x256x512, .f32⟩
  | 42 => ⟨S2x8x256x512, .f32⟩
  | 43 => ⟨S2x8x256x512, .f32⟩
  | 44 => ⟨S2x8x256x512, .f32⟩
  | 45 => ⟨S2x8x256x512, .f32⟩
  | 46 => ⟨S2x1x256x512, .f32⟩
  | 47 => ⟨S2x256x512, .f32⟩
  | 48 => ⟨S2x1x256x512, .f32⟩
  | 49 => ⟨S2x8x256x512, .f32⟩
  | 50 => ⟨S2x8x256x512, .f32⟩
  | 51 => ⟨S2x8x256x512, .f32⟩
  | 52 => ⟨S2x8x256x512, .f32⟩
  | 53 => ⟨S2x1x256x512, .f32⟩
  | 54 => ⟨S2x256x512, .f32⟩
  | 55 => ⟨S2x1x256x512, .f32⟩
  | 56 => ⟨S2x8x256x512, .f32⟩
  | 57 => ⟨S2x8x256x512, .f32⟩
  | 58 => ⟨S2x8x256x512, .f32⟩
  | 59 => ⟨S2x8x256x512, .f32⟩
  | 60 => ⟨S2x1x256x512, .f32⟩
  | 61 => ⟨S2x256x512, .f32⟩
  | 62 => ⟨S2x1x256x512, .f32⟩
  | 63 => ⟨S2x8x256x512, .f32⟩
  | 64 => ⟨S2x8x256x512, .f32⟩
  | 65 => ⟨S2x8x256x512, .f32⟩
  | 66 => ⟨S2x8x256x512, .f32⟩
  | 67 => ⟨S2x1x256x512, .f32⟩
  | 68 => ⟨S2x256x512, .f32⟩
  | 69 => ⟨S2x1x256x512, .f32⟩
  | 70 => ⟨S2x8x256x512, .f32⟩
  | 71 => ⟨S2x8x256x512, .f32⟩
  | 72 => ⟨S2x8x256x512, .f32⟩
  | 73 => ⟨S2x8x256x512, .f32⟩
  | 74 => ⟨S2x1x256x512, .f32⟩
  | 75 => ⟨S2x256x512, .f32⟩
  | 76 => ⟨S2x1x256x512, .f32⟩
  | 77 => ⟨S2x8x256x512, .f32⟩
  | 78 => ⟨S2x8x256x512, .f32⟩
  | 79 => ⟨S2x8x256x512, .f32⟩
  | 80 => ⟨S2x8x256x512, .f32⟩
  | 81 => ⟨S2x1x256x512, .f32⟩
  | 82 => ⟨S2x256x512, .f32⟩
  | 83 => ⟨S2x1x256x512, .f32⟩
  | 84 => ⟨S2x8x256x512, .f32⟩
  | 85 => ⟨S2x8x256x512, .f32⟩
  | 86 => ⟨S2x8x256x512, .f32⟩
  | 87 => ⟨S2x8x256x512, .f32⟩
  | 88 => ⟨S2x1x256x512, .f32⟩
  | 89 => ⟨S2x256x512, .f32⟩
  | 90 => ⟨S2x1x256x512, .f32⟩
  | 91 => ⟨S2x8x256x512, .f32⟩
  | 92 => ⟨S2x8x256x512, .f32⟩
  | 93 => ⟨S2x8x256x512, .f32⟩
  | 94 => ⟨S2x8x256x512, .f32⟩
  | 95 => ⟨S2x1x256x512, .f32⟩
  | 96 => ⟨S2x256x512, .f32⟩
  | 97 => ⟨S2x1x256x512, .f32⟩
  | 98 => ⟨S2x8x256x512, .f32⟩
  | 99 => ⟨S2x8x256x512, .f32⟩
  | 100 => ⟨S2x8x256x512, .f32⟩
  | 101 => ⟨S2x8x256x512, .f32⟩
  | 102 => ⟨S2x1x256x512, .f32⟩
  | 103 => ⟨S2x256x512, .f32⟩
  | 104 => ⟨S2x1x256x512, .f32⟩
  | 105 => ⟨S2x8x256x512, .f32⟩
  | 106 => ⟨S2x8x256x512, .f32⟩
  | 107 => ⟨S2x8x256x512, .f32⟩
  | 108 => ⟨S2x8x256x512, .f32⟩
  | 109 => ⟨S2x1x256x512, .f32⟩
  | 110 => ⟨S2x256x512, .f32⟩
  | 111 => ⟨S2x1x256x512, .f32⟩
  | 112 => ⟨S2x8x256x512, .f32⟩
  | 113 => ⟨S2x8x256x512, .f32⟩
  | 114 => ⟨S2x8x256x512, .f32⟩
  | 115 => ⟨S2x8x256x512, .f32⟩
  | 116 => ⟨S2x1x256x512, .f32⟩
  | 117 => ⟨S2x256x512, .f32⟩
  | 118 => ⟨S2x1x256x512, .f32⟩
  | 119 => ⟨S2x8x256x512, .f32⟩
  | 120 => ⟨S2x8x256x512, .f32⟩
  | 121 => ⟨S2x8x256x512, .f32⟩
  | 122 => ⟨S2x8x256x512, .f32⟩
  | 123 => ⟨S2x1x256x512, .f32⟩
  | 124 => ⟨S2x256x512, .f32⟩
  | 125 => ⟨S2x1x256x512, .f32⟩
  | 126 => ⟨S2x8x256x512, .f32⟩
  | 127 => ⟨S2x8x256x512, .f32⟩
  | _ => ⟨S2x8x256x512, .f32⟩

abbrev hbmTy0_3 (i : Nat) : BufTy := match i % 128 with
  | 0 => ⟨S2x8x256x512, .f32⟩
  | 1 => ⟨S2x8x256x512, .f32⟩
  | 2 => ⟨S2x1x256x512, .f32⟩
  | 3 => ⟨S2x256x512, .f32⟩
  | 4 => ⟨S2x1x256x512, .f32⟩
  | 5 => ⟨S2x8x256x512, .f32⟩
  | 6 => ⟨S2x8x256x512, .f32⟩
  | 7 => ⟨S2x8x256x512, .f32⟩
  | 8 => ⟨S2x8x256x512, .f32⟩
  | 9 => ⟨S2x1x256x512, .f32⟩
  | 10 => ⟨S2x256x512, .f32⟩
  | 11 => ⟨S2x1x256x512, .f32⟩
  | 12 => ⟨S2x8x256x512, .f32⟩
  | 13 => ⟨S2x8x256x512, .f32⟩
  | 14 => ⟨S2x8x256x512, .f32⟩
  | 15 => ⟨S2x8x256x512, .f32⟩
  | 16 => ⟨S2x1x256x512, .f32⟩
  | 17 => ⟨S2x256x512, .f32⟩
  | 18 => ⟨S2x1x256x512, .f32⟩
  | 19 => ⟨S2x8x256x512, .f32⟩
  | 20 => ⟨S2x8x256x512, .f32⟩
  | 21 => ⟨S2x8x256x512, .f32⟩
  | 22 => ⟨S2x8x256x512, .f32⟩
  | 23 => ⟨S2x1x256x512, .f32⟩
  | 24 => ⟨S2x256x512, .f32⟩
  | 25 => ⟨S2x1x256x512, .f32⟩
  | 26 => ⟨S2x8x256x512, .f32⟩
  | 27 => ⟨S2x8x256x512, .f32⟩
  | 28 => ⟨S2x8x256x512, .f32⟩
  | 29 => ⟨S2x8x256x512, .f32⟩
  | 30 => ⟨S2x1x256x512, .f32⟩
  | 31 => ⟨S2x256x512, .f32⟩
  | 32 => ⟨S2x1x256x512, .f32⟩
  | 33 => ⟨S2x8x256x512, .f32⟩
  | 34 => ⟨S2x8x256x512, .f32⟩
  | 35 => ⟨S2x8x256x512, .f32⟩
  | 36 => ⟨S2x8x256x512, .f32⟩
  | 37 => ⟨S2x1x256x512, .f32⟩
  | 38 => ⟨S2x256x512, .f32⟩
  | 39 => ⟨S2x1x256x512, .f32⟩
  | 40 => ⟨S2x8x256x512, .f32⟩
  | 41 => ⟨S2x8x256x512, .f32⟩
  | 42 => ⟨S2x8x256x512, .f32⟩
  | 43 => ⟨S2x8x256x512, .f32⟩
  | 44 => ⟨S2x1x256x512, .f32⟩
  | 45 => ⟨S2x256x512, .f32⟩
  | 46 => ⟨S2x1x256x512, .f32⟩
  | 47 => ⟨S2x8x256x512, .f32⟩
  | 48 => ⟨S2x8x256x512, .f32⟩
  | 49 => ⟨S2x8x256x512, .f32⟩
  | 50 => ⟨S2x8x256x512, .f32⟩
  | 51 => ⟨S2x1x256x512, .f32⟩
  | 52 => ⟨S2x256x512, .f32⟩
  | 53 => ⟨S2x1x256x512, .f32⟩
  | 54 => ⟨S2x8x256x512, .f32⟩
  | 55 => ⟨S2x8x256x512, .f32⟩
  | 56 => ⟨S2x8x256x512, .f32⟩
  | 57 => ⟨S2x8x256x512, .f32⟩
  | 58 => ⟨S2x1x256x512, .f32⟩
  | 59 => ⟨S2x256x512, .f32⟩
  | 60 => ⟨S2x1x256x512, .f32⟩
  | 61 => ⟨S2x8x256x512, .f32⟩
  | 62 => ⟨S2x8x256x512, .f32⟩
  | 63 => ⟨S2x8x256x512, .f32⟩
  | 64 => ⟨S2x8x256x512, .f32⟩
  | 65 => ⟨S2x1x256x512, .f32⟩
  | 66 => ⟨S2x256x512, .f32⟩
  | 67 => ⟨S2x1x256x512, .f32⟩
  | 68 => ⟨S2x8x256x512, .f32⟩
  | 69 => ⟨S2x8x256x512, .f32⟩
  | 70 => ⟨S2x8x256x512, .f32⟩
  | 71 => ⟨S2x8x256x512, .f32⟩
  | 72 => ⟨S2x1x256x512, .f32⟩
  | 73 => ⟨S2x256x512, .f32⟩
  | 74 => ⟨S2x1x256x512, .f32⟩
  | 75 => ⟨S2x8x256x512, .f32⟩
  | 76 => ⟨S2x8x256x512, .f32⟩
  | 77 => ⟨S2x8x256x512, .f32⟩
  | 78 => ⟨S2x8x256x512, .f32⟩
  | 79 => ⟨S2x1x256x512, .f32⟩
  | 80 => ⟨S2x256x512, .f32⟩
  | 81 => ⟨S2x1x256x512, .f32⟩
  | 82 => ⟨S2x8x256x512, .f32⟩
  | 83 => ⟨S2x8x256x512, .f32⟩
  | 84 => ⟨S2x8x256x512, .f32⟩
  | 85 => ⟨S2x8x256x512, .f32⟩
  | 86 => ⟨S2x1x256x512, .f32⟩
  | 87 => ⟨S2x256x512, .f32⟩
  | 88 => ⟨S2x1x256x512, .f32⟩
  | 89 => ⟨S2x8x256x512, .f32⟩
  | 90 => ⟨S2x8x256x512, .f32⟩
  | 91 => ⟨S2x8x256x512, .f32⟩
  | 92 => ⟨S2x8x256x512, .f32⟩
  | 93 => ⟨S2x1x256x512, .f32⟩
  | 94 => ⟨S2x256x512, .f32⟩
  | 95 => ⟨S2x1x256x512, .f32⟩
  | 96 => ⟨S2x8x256x512, .f32⟩
  | 97 => ⟨S2x8x256x512, .f32⟩
  | 98 => ⟨S2x8x256x512, .f32⟩
  | 99 => ⟨S2x8x256x512, .f32⟩
  | 100 => ⟨S2x1x256x512, .f32⟩
  | 101 => ⟨S2x256x512, .f32⟩
  | 102 => ⟨S2x1x256x512, .f32⟩
  | 103 => ⟨S2x8x256x512, .f32⟩
  | 104 => ⟨S2x8x256x512, .f32⟩
  | 105 => ⟨S2x8x256x512, .f32⟩
  | 106 => ⟨S2x8x256x512, .f32⟩
  | 107 => ⟨S2x1x256x512, .f32⟩
  | 108 => ⟨S2x256x512, .f32⟩
  | 109 => ⟨S2x1x256x512, .f32⟩
  | 110 => ⟨S2x8x256x512, .f32⟩
  | 111 => ⟨S2x8x256x512, .f32⟩
  | 112 => ⟨S2x8x256x512, .f32⟩
  | 113 => ⟨S2x8x256x512, .f32⟩
  | 114 => ⟨S2x1x256x512, .f32⟩
  | 115 => ⟨S2x256x512, .f32⟩
  | 116 => ⟨S2x1x256x512, .f32⟩
  | 117 => ⟨S2x8x256x512, .f32⟩
  | 118 => ⟨S2x8x256x512, .f32⟩
  | 119 => ⟨S2x8x256x512, .f32⟩
  | 120 => ⟨S2x8x256x512, .f32⟩
  | 121 => ⟨S2x1x256x512, .f32⟩
  | 122 => ⟨S2x256x512, .f32⟩
  | 123 => ⟨S2x1x256x512, .f32⟩
  | 124 => ⟨S2x8x256x512, .f32⟩
  | 125 => ⟨S2x8x256x512, .f32⟩
  | 126 => ⟨S2x8x256x512, .f32⟩
  | 127 => ⟨S2x8x256x512, .f32⟩
  | _ => ⟨S2x8x256x512, .f32⟩

abbrev hbmTy0_4 (i : Nat) : BufTy := match i % 128 with
  | 0 => ⟨S2x1x256x512, .f32⟩
  | 1 => ⟨S2x256x512, .f32⟩
  | 2 => ⟨S2x1x256x512, .f32⟩
  | 3 => ⟨S2x8x256x512, .f32⟩
  | 4 => ⟨S2x8x256x512, .f32⟩
  | 5 => ⟨S2x8x256x512, .f32⟩
  | 6 => ⟨S2x8x256x512, .f32⟩
  | 7 => ⟨S2x1x256x512, .f32⟩
  | 8 => ⟨S2x256x512, .f32⟩
  | 9 => ⟨S2x1x256x512, .f32⟩
  | 10 => ⟨S2x8x256x512, .f32⟩
  | 11 => ⟨S2x8x256x512, .f32⟩
  | 12 => ⟨S2x8x256x512, .f32⟩
  | 13 => ⟨S2x8x256x512, .f32⟩
  | 14 => ⟨S2x1x256x512, .f32⟩
  | 15 => ⟨S2x256x512, .f32⟩
  | 16 => ⟨S2x1x256x512, .f32⟩
  | 17 => ⟨S2x8x256x512, .f32⟩
  | 18 => ⟨S2x8x256x512, .f32⟩
  | 19 => ⟨S2x8x256x512, .f32⟩
  | 20 => ⟨S2x8x256x512, .f32⟩
  | 21 => ⟨S2x1x256x512, .f32⟩
  | 22 => ⟨S2x256x512, .f32⟩
  | 23 => ⟨S2x1x256x512, .f32⟩
  | 24 => ⟨S2x8x256x512, .f32⟩
  | 25 => ⟨S2x8x256x512, .f32⟩
  | 26 => ⟨S2x8x256x512, .f32⟩
  | 27 => ⟨S2x8x256x512, .f32⟩
  | 28 => ⟨S2x1x256x512, .f32⟩
  | 29 => ⟨S2x256x512, .f32⟩
  | 30 => ⟨S2x1x256x512, .f32⟩
  | 31 => ⟨S2x8x256x512, .f32⟩
  | 32 => ⟨S2x8x256x512, .f32⟩
  | 33 => ⟨S2x8x256x512, .f32⟩
  | 34 => ⟨S2x8x256x512, .f32⟩
  | 35 => ⟨S2x1x256x512, .f32⟩
  | 36 => ⟨S2x256x512, .f32⟩
  | 37 => ⟨S2x1x256x512, .f32⟩
  | 38 => ⟨S2x8x256x512, .f32⟩
  | 39 => ⟨S2x8x256x512, .f32⟩
  | 40 => ⟨S2x8x256x512, .f32⟩
  | 41 => ⟨S2x8x256x512, .f32⟩
  | 42 => ⟨S2x1x256x512, .f32⟩
  | 43 => ⟨S2x256x512, .f32⟩
  | 44 => ⟨S2x1x256x512, .f32⟩
  | 45 => ⟨S2x8x256x512, .f32⟩
  | 46 => ⟨S2x8x256x512, .f32⟩
  | 47 => ⟨S2x8x256x512, .f32⟩
  | 48 => ⟨S2x8x256x512, .f32⟩
  | 49 => ⟨S2x1x256x512, .f32⟩
  | 50 => ⟨S2x256x512, .f32⟩
  | 51 => ⟨S2x1x256x512, .f32⟩
  | 52 => ⟨S2x8x256x512, .f32⟩
  | 53 => ⟨S2x8x256x512, .f32⟩
  | 54 => ⟨S2x8x256x512, .f32⟩
  | 55 => ⟨S2x8x256x512, .f32⟩
  | 56 => ⟨S2x1x256x512, .f32⟩
  | 57 => ⟨S2x256x512, .f32⟩
  | 58 => ⟨S2x1x256x512, .f32⟩
  | 59 => ⟨S2x8x256x512, .f32⟩
  | 60 => ⟨S2x8x256x512, .f32⟩
  | 61 => ⟨S2x8x256x512, .f32⟩
  | 62 => ⟨S2x8x256x512, .f32⟩
  | 63 => ⟨S2x8x256x512, .f32⟩
  | 64 => ⟨S2x8x256x512, .f32⟩
  | _ => ⟨S2x8x256x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x8x256x512, .f32⟩

abbrev bufTy : (tb : Table) → Fin (tcTables nBuf tb) → BufTy
  | .hbm, ⟨i, _⟩ => hbmTy i
  | _, _ => ⟨S2x8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_v182 : Ref sig .tc := ⟨.hbm, 188, rfl⟩
abbrev main_v183 : Ref sig .tc := ⟨.hbm, 189, rfl⟩
abbrev main_v184 : Ref sig .tc := ⟨.hbm, 190, rfl⟩
abbrev main_v185 : Ref sig .tc := ⟨.hbm, 191, rfl⟩
abbrev main_v186 : Ref sig .tc := ⟨.hbm, 192, rfl⟩
abbrev main_v187 : Ref sig .tc := ⟨.hbm, 193, rfl⟩
abbrev main_v188 : Ref sig .tc := ⟨.hbm, 194, rfl⟩
abbrev main_v189 : Ref sig .tc := ⟨.hbm, 195, rfl⟩
abbrev main_v190 : Ref sig .tc := ⟨.hbm, 196, rfl⟩
abbrev main_v191 : Ref sig .tc := ⟨.hbm, 197, rfl⟩
abbrev main_v192 : Ref sig .tc := ⟨.hbm, 198, rfl⟩
abbrev main_v193 : Ref sig .tc := ⟨.hbm, 199, rfl⟩
abbrev main_v194 : Ref sig .tc := ⟨.hbm, 200, rfl⟩
abbrev main_v195 : Ref sig .tc := ⟨.hbm, 201, rfl⟩
abbrev main_v196 : Ref sig .tc := ⟨.hbm, 202, rfl⟩
abbrev main_v197 : Ref sig .tc := ⟨.hbm, 203, rfl⟩
abbrev main_v198 : Ref sig .tc := ⟨.hbm, 204, rfl⟩
abbrev main_v199 : Ref sig .tc := ⟨.hbm, 205, rfl⟩
abbrev main_v200 : Ref sig .tc := ⟨.hbm, 206, rfl⟩
abbrev main_v201 : Ref sig .tc := ⟨.hbm, 207, rfl⟩
abbrev main_v202 : Ref sig .tc := ⟨.hbm, 208, rfl⟩
abbrev main_v203 : Ref sig .tc := ⟨.hbm, 209, rfl⟩
abbrev main_v204 : Ref sig .tc := ⟨.hbm, 210, rfl⟩
abbrev main_v205 : Ref sig .tc := ⟨.hbm, 211, rfl⟩
abbrev main_v206 : Ref sig .tc := ⟨.hbm, 212, rfl⟩
abbrev main_v207 : Ref sig .tc := ⟨.hbm, 213, rfl⟩
abbrev main_v208 : Ref sig .tc := ⟨.hbm, 214, rfl⟩
abbrev main_v209 : Ref sig .tc := ⟨.hbm, 215, rfl⟩
abbrev main_v210 : Ref sig .tc := ⟨.hbm, 216, rfl⟩
abbrev main_v211 : Ref sig .tc := ⟨.hbm, 217, rfl⟩
abbrev main_v212 : Ref sig .tc := ⟨.hbm, 218, rfl⟩
abbrev main_v213 : Ref sig .tc := ⟨.hbm, 219, rfl⟩
abbrev main_v214 : Ref sig .tc := ⟨.hbm, 220, rfl⟩
abbrev main_v215 : Ref sig .tc := ⟨.hbm, 221, rfl⟩
abbrev main_v216 : Ref sig .tc := ⟨.hbm, 222, rfl⟩
abbrev main_v217 : Ref sig .tc := ⟨.hbm, 223, rfl⟩
abbrev main_v218 : Ref sig .tc := ⟨.hbm, 224, rfl⟩
abbrev main_v219 : Ref sig .tc := ⟨.hbm, 225, rfl⟩
abbrev main_v220 : Ref sig .tc := ⟨.hbm, 226, rfl⟩
abbrev main_v221 : Ref sig .tc := ⟨.hbm, 227, rfl⟩
abbrev main_v222 : Ref sig .tc := ⟨.hbm, 228, rfl⟩
abbrev main_v223 : Ref sig .tc := ⟨.hbm, 229, rfl⟩
abbrev main_v224 : Ref sig .tc := ⟨.hbm, 230, rfl⟩
abbrev main_v225 : Ref sig .tc := ⟨.hbm, 231, rfl⟩
abbrev main_v226 : Ref sig .tc := ⟨.hbm, 232, rfl⟩
abbrev main_v227 : Ref sig .tc := ⟨.hbm, 233, rfl⟩
abbrev main_v228 : Ref sig .tc := ⟨.hbm, 234, rfl⟩
abbrev main_v229 : Ref sig .tc := ⟨.hbm, 235, rfl⟩
abbrev main_v230 : Ref sig .tc := ⟨.hbm, 236, rfl⟩
abbrev main_v231 : Ref sig .tc := ⟨.hbm, 237, rfl⟩
abbrev main_v232 : Ref sig .tc := ⟨.hbm, 238, rfl⟩
abbrev main_v233 : Ref sig .tc := ⟨.hbm, 239, rfl⟩
abbrev main_v234 : Ref sig .tc := ⟨.hbm, 240, rfl⟩
abbrev main_v235 : Ref sig .tc := ⟨.hbm, 241, rfl⟩
abbrev main_v236 : Ref sig .tc := ⟨.hbm, 242, rfl⟩
abbrev main_v237 : Ref sig .tc := ⟨.hbm, 243, rfl⟩
abbrev main_v238 : Ref sig .tc := ⟨.hbm, 244, rfl⟩
abbrev main_v239 : Ref sig .tc := ⟨.hbm, 245, rfl⟩
abbrev main_v240 : Ref sig .tc := ⟨.hbm, 246, rfl⟩
abbrev main_v241 : Ref sig .tc := ⟨.hbm, 247, rfl⟩
abbrev main_v242 : Ref sig .tc := ⟨.hbm, 248, rfl⟩
abbrev main_v243 : Ref sig .tc := ⟨.hbm, 249, rfl⟩
abbrev main_v244 : Ref sig .tc := ⟨.hbm, 250, rfl⟩
abbrev main_v245 : Ref sig .tc := ⟨.hbm, 251, rfl⟩
abbrev main_v246 : Ref sig .tc := ⟨.hbm, 252, rfl⟩
abbrev main_v247 : Ref sig .tc := ⟨.hbm, 253, rfl⟩
abbrev main_v248 : Ref sig .tc := ⟨.hbm, 254, rfl⟩
abbrev main_v249 : Ref sig .tc := ⟨.hbm, 255, rfl⟩
abbrev main_v250 : Ref sig .tc := ⟨.hbm, 256, rfl⟩
abbrev main_v251 : Ref sig .tc := ⟨.hbm, 257, rfl⟩
abbrev main_v252 : Ref sig .tc := ⟨.hbm, 258, rfl⟩
abbrev main_v253 : Ref sig .tc := ⟨.hbm, 259, rfl⟩
abbrev main_v254 : Ref sig .tc := ⟨.hbm, 260, rfl⟩
abbrev main_v255 : Ref sig .tc := ⟨.hbm, 261, rfl⟩
abbrev main_v256 : Ref sig .tc := ⟨.hbm, 262, rfl⟩
abbrev main_v257 : Ref sig .tc := ⟨.hbm, 263, rfl⟩
abbrev main_v258 : Ref sig .tc := ⟨.hbm, 264, rfl⟩
abbrev main_v259 : Ref sig .tc := ⟨.hbm, 265, rfl⟩
abbrev main_v260 : Ref sig .tc := ⟨.hbm, 266, rfl⟩
abbrev main_v261 : Ref sig .tc := ⟨.hbm, 267, rfl⟩
abbrev main_v262 : Ref sig .tc := ⟨.hbm, 268, rfl⟩
abbrev main_v263 : Ref sig .tc := ⟨.hbm, 269, rfl⟩
abbrev main_v264 : Ref sig .tc := ⟨.hbm, 270, rfl⟩
abbrev main_v265 : Ref sig .tc := ⟨.hbm, 271, rfl⟩
abbrev main_v266 : Ref sig .tc := ⟨.hbm, 272, rfl⟩
abbrev main_v267 : Ref sig .tc := ⟨.hbm, 273, rfl⟩
abbrev main_v268 : Ref sig .tc := ⟨.hbm, 274, rfl⟩
abbrev main_v269 : Ref sig .tc := ⟨.hbm, 275, rfl⟩
abbrev main_v270 : Ref sig .tc := ⟨.hbm, 276, rfl⟩
abbrev main_v271 : Ref sig .tc := ⟨.hbm, 277, rfl⟩
abbrev main_v272 : Ref sig .tc := ⟨.hbm, 278, rfl⟩
abbrev main_v273 : Ref sig .tc := ⟨.hbm, 279, rfl⟩
abbrev main_v274 : Ref sig .tc := ⟨.hbm, 280, rfl⟩
abbrev main_v275 : Ref sig .tc := ⟨.hbm, 281, rfl⟩
abbrev main_v276 : Ref sig .tc := ⟨.hbm, 282, rfl⟩
abbrev main_v277 : Ref sig .tc := ⟨.hbm, 283, rfl⟩
abbrev main_v278 : Ref sig .tc := ⟨.hbm, 284, rfl⟩
abbrev main_v279 : Ref sig .tc := ⟨.hbm, 285, rfl⟩
abbrev main_v280 : Ref sig .tc := ⟨.hbm, 286, rfl⟩
abbrev main_v281 : Ref sig .tc := ⟨.hbm, 287, rfl⟩
abbrev main_v282 : Ref sig .tc := ⟨.hbm, 288, rfl⟩
abbrev main_v283 : Ref sig .tc := ⟨.hbm, 289, rfl⟩
abbrev main_v284 : Ref sig .tc := ⟨.hbm, 290, rfl⟩
abbrev main_v285 : Ref sig .tc := ⟨.hbm, 291, rfl⟩
abbrev main_v286 : Ref sig .tc := ⟨.hbm, 292, rfl⟩
abbrev main_v287 : Ref sig .tc := ⟨.hbm, 293, rfl⟩
abbrev main_v288 : Ref sig .tc := ⟨.hbm, 294, rfl⟩
abbrev main_v289 : Ref sig .tc := ⟨.hbm, 295, rfl⟩
abbrev main_v290 : Ref sig .tc := ⟨.hbm, 296, rfl⟩
abbrev main_v291 : Ref sig .tc := ⟨.hbm, 297, rfl⟩
abbrev main_v292 : Ref sig .tc := ⟨.hbm, 298, rfl⟩
abbrev main_v293 : Ref sig .tc := ⟨.hbm, 299, rfl⟩
abbrev main_v294 : Ref sig .tc := ⟨.hbm, 300, rfl⟩
abbrev main_v295 : Ref sig .tc := ⟨.hbm, 301, rfl⟩
abbrev main_v296 : Ref sig .tc := ⟨.hbm, 302, rfl⟩
abbrev main_v297 : Ref sig .tc := ⟨.hbm, 303, rfl⟩
abbrev main_v298 : Ref sig .tc := ⟨.hbm, 304, rfl⟩
abbrev main_v299 : Ref sig .tc := ⟨.hbm, 305, rfl⟩
abbrev main_v300 : Ref sig .tc := ⟨.hbm, 306, rfl⟩
abbrev main_v301 : Ref sig .tc := ⟨.hbm, 307, rfl⟩
abbrev main_v302 : Ref sig .tc := ⟨.hbm, 308, rfl⟩
abbrev main_v303 : Ref sig .tc := ⟨.hbm, 309, rfl⟩
abbrev main_v304 : Ref sig .tc := ⟨.hbm, 310, rfl⟩
abbrev main_v305 : Ref sig .tc := ⟨.hbm, 311, rfl⟩
abbrev main_v306 : Ref sig .tc := ⟨.hbm, 312, rfl⟩
abbrev main_v307 : Ref sig .tc := ⟨.hbm, 313, rfl⟩
abbrev main_v308 : Ref sig .tc := ⟨.hbm, 314, rfl⟩
abbrev main_v309 : Ref sig .tc := ⟨.hbm, 315, rfl⟩
abbrev main_v310 : Ref sig .tc := ⟨.hbm, 316, rfl⟩
abbrev main_v311 : Ref sig .tc := ⟨.hbm, 317, rfl⟩
abbrev main_v312 : Ref sig .tc := ⟨.hbm, 318, rfl⟩
abbrev main_v313 : Ref sig .tc := ⟨.hbm, 319, rfl⟩
abbrev main_v314 : Ref sig .tc := ⟨.hbm, 320, rfl⟩
abbrev main_v315 : Ref sig .tc := ⟨.hbm, 321, rfl⟩
abbrev main_v316 : Ref sig .tc := ⟨.hbm, 322, rfl⟩
abbrev main_v317 : Ref sig .tc := ⟨.hbm, 323, rfl⟩
abbrev main_v318 : Ref sig .tc := ⟨.hbm, 324, rfl⟩
abbrev main_v319 : Ref sig .tc := ⟨.hbm, 325, rfl⟩
abbrev main_v320 : Ref sig .tc := ⟨.hbm, 326, rfl⟩
abbrev main_v321 : Ref sig .tc := ⟨.hbm, 327, rfl⟩
abbrev main_v322 : Ref sig .tc := ⟨.hbm, 328, rfl⟩
abbrev main_v323 : Ref sig .tc := ⟨.hbm, 329, rfl⟩
abbrev main_v324 : Ref sig .tc := ⟨.hbm, 330, rfl⟩
abbrev main_v325 : Ref sig .tc := ⟨.hbm, 331, rfl⟩
abbrev main_v326 : Ref sig .tc := ⟨.hbm, 332, rfl⟩
abbrev main_v327 : Ref sig .tc := ⟨.hbm, 333, rfl⟩
abbrev main_v328 : Ref sig .tc := ⟨.hbm, 334, rfl⟩
abbrev main_v329 : Ref sig .tc := ⟨.hbm, 335, rfl⟩
abbrev main_v330 : Ref sig .tc := ⟨.hbm, 336, rfl⟩
abbrev main_v331 : Ref sig .tc := ⟨.hbm, 337, rfl⟩
abbrev main_v332 : Ref sig .tc := ⟨.hbm, 338, rfl⟩
abbrev main_v333 : Ref sig .tc := ⟨.hbm, 339, rfl⟩
abbrev main_v334 : Ref sig .tc := ⟨.hbm, 340, rfl⟩
abbrev main_v335 : Ref sig .tc := ⟨.hbm, 341, rfl⟩
abbrev main_v336 : Ref sig .tc := ⟨.hbm, 342, rfl⟩
abbrev main_v337 : Ref sig .tc := ⟨.hbm, 343, rfl⟩
abbrev main_v338 : Ref sig .tc := ⟨.hbm, 344, rfl⟩
abbrev main_v339 : Ref sig .tc := ⟨.hbm, 345, rfl⟩
abbrev main_v340 : Ref sig .tc := ⟨.hbm, 346, rfl⟩
abbrev main_v341 : Ref sig .tc := ⟨.hbm, 347, rfl⟩
abbrev main_v342 : Ref sig .tc := ⟨.hbm, 348, rfl⟩
abbrev main_v343 : Ref sig .tc := ⟨.hbm, 349, rfl⟩
abbrev main_v344 : Ref sig .tc := ⟨.hbm, 350, rfl⟩
abbrev main_v345 : Ref sig .tc := ⟨.hbm, 351, rfl⟩
abbrev main_v346 : Ref sig .tc := ⟨.hbm, 352, rfl⟩
abbrev main_v347 : Ref sig .tc := ⟨.hbm, 353, rfl⟩
abbrev main_v348 : Ref sig .tc := ⟨.hbm, 354, rfl⟩
abbrev main_v349 : Ref sig .tc := ⟨.hbm, 355, rfl⟩
abbrev main_v350 : Ref sig .tc := ⟨.hbm, 356, rfl⟩
abbrev main_v351 : Ref sig .tc := ⟨.hbm, 357, rfl⟩
abbrev main_v352 : Ref sig .tc := ⟨.hbm, 358, rfl⟩
abbrev main_v353 : Ref sig .tc := ⟨.hbm, 359, rfl⟩
abbrev main_v354 : Ref sig .tc := ⟨.hbm, 360, rfl⟩
abbrev main_v355 : Ref sig .tc := ⟨.hbm, 361, rfl⟩
abbrev main_v356 : Ref sig .tc := ⟨.hbm, 362, rfl⟩
abbrev main_v357 : Ref sig .tc := ⟨.hbm, 363, rfl⟩
abbrev main_v358 : Ref sig .tc := ⟨.hbm, 364, rfl⟩
abbrev main_v359 : Ref sig .tc := ⟨.hbm, 365, rfl⟩
abbrev main_v360 : Ref sig .tc := ⟨.hbm, 366, rfl⟩
abbrev main_v361 : Ref sig .tc := ⟨.hbm, 367, rfl⟩
abbrev main_v362 : Ref sig .tc := ⟨.hbm, 368, rfl⟩
abbrev main_v363 : Ref sig .tc := ⟨.hbm, 369, rfl⟩
abbrev main_v364 : Ref sig .tc := ⟨.hbm, 370, rfl⟩
abbrev main_v365 : Ref sig .tc := ⟨.hbm, 371, rfl⟩
abbrev main_v366 : Ref sig .tc := ⟨.hbm, 372, rfl⟩
abbrev main_v367 : Ref sig .tc := ⟨.hbm, 373, rfl⟩
abbrev main_v368 : Ref sig .tc := ⟨.hbm, 374, rfl⟩
abbrev main_v369 : Ref sig .tc := ⟨.hbm, 375, rfl⟩
abbrev main_v370 : Ref sig .tc := ⟨.hbm, 376, rfl⟩
abbrev main_v371 : Ref sig .tc := ⟨.hbm, 377, rfl⟩
abbrev main_v372 : Ref sig .tc := ⟨.hbm, 378, rfl⟩
abbrev main_v373 : Ref sig .tc := ⟨.hbm, 379, rfl⟩
abbrev main_v374 : Ref sig .tc := ⟨.hbm, 380, rfl⟩
abbrev main_v375 : Ref sig .tc := ⟨.hbm, 381, rfl⟩
abbrev main_v376 : Ref sig .tc := ⟨.hbm, 382, rfl⟩
abbrev main_v377 : Ref sig .tc := ⟨.hbm, 383, rfl⟩
abbrev main_v378 : Ref sig .tc := ⟨.hbm, 384, rfl⟩
abbrev main_v379 : Ref sig .tc := ⟨.hbm, 385, rfl⟩
abbrev main_v380 : Ref sig .tc := ⟨.hbm, 386, rfl⟩
abbrev main_v381 : Ref sig .tc := ⟨.hbm, 387, rfl⟩
abbrev main_v382 : Ref sig .tc := ⟨.hbm, 388, rfl⟩
abbrev main_v383 : Ref sig .tc := ⟨.hbm, 389, rfl⟩
abbrev main_v384 : Ref sig .tc := ⟨.hbm, 390, rfl⟩
abbrev main_v385 : Ref sig .tc := ⟨.hbm, 391, rfl⟩
abbrev main_v386 : Ref sig .tc := ⟨.hbm, 392, rfl⟩
abbrev main_v387 : Ref sig .tc := ⟨.hbm, 393, rfl⟩
abbrev main_v388 : Ref sig .tc := ⟨.hbm, 394, rfl⟩
abbrev main_v389 : Ref sig .tc := ⟨.hbm, 395, rfl⟩
abbrev main_v390 : Ref sig .tc := ⟨.hbm, 396, rfl⟩
abbrev main_v391 : Ref sig .tc := ⟨.hbm, 397, rfl⟩
abbrev main_v392 : Ref sig .tc := ⟨.hbm, 398, rfl⟩
abbrev main_v393 : Ref sig .tc := ⟨.hbm, 399, rfl⟩
abbrev main_v394 : Ref sig .tc := ⟨.hbm, 400, rfl⟩
abbrev main_v395 : Ref sig .tc := ⟨.hbm, 401, rfl⟩
abbrev main_v396 : Ref sig .tc := ⟨.hbm, 402, rfl⟩
abbrev main_v397 : Ref sig .tc := ⟨.hbm, 403, rfl⟩
abbrev main_v398 : Ref sig .tc := ⟨.hbm, 404, rfl⟩
abbrev main_v399 : Ref sig .tc := ⟨.hbm, 405, rfl⟩
abbrev main_v400 : Ref sig .tc := ⟨.hbm, 406, rfl⟩
abbrev main_v401 : Ref sig .tc := ⟨.hbm, 407, rfl⟩
abbrev main_v402 : Ref sig .tc := ⟨.hbm, 408, rfl⟩
abbrev main_v403 : Ref sig .tc := ⟨.hbm, 409, rfl⟩
abbrev main_v404 : Ref sig .tc := ⟨.hbm, 410, rfl⟩
abbrev main_v405 : Ref sig .tc := ⟨.hbm, 411, rfl⟩
abbrev main_v406 : Ref sig .tc := ⟨.hbm, 412, rfl⟩
abbrev main_v407 : Ref sig .tc := ⟨.hbm, 413, rfl⟩
abbrev main_v408 : Ref sig .tc := ⟨.hbm, 414, rfl⟩
abbrev main_v409 : Ref sig .tc := ⟨.hbm, 415, rfl⟩
abbrev main_v410 : Ref sig .tc := ⟨.hbm, 416, rfl⟩
abbrev main_v411 : Ref sig .tc := ⟨.hbm, 417, rfl⟩
abbrev main_v412 : Ref sig .tc := ⟨.hbm, 418, rfl⟩
abbrev main_v413 : Ref sig .tc := ⟨.hbm, 419, rfl⟩
abbrev main_v414 : Ref sig .tc := ⟨.hbm, 420, rfl⟩
abbrev main_v415 : Ref sig .tc := ⟨.hbm, 421, rfl⟩
abbrev main_v416 : Ref sig .tc := ⟨.hbm, 422, rfl⟩
abbrev main_v417 : Ref sig .tc := ⟨.hbm, 423, rfl⟩
abbrev main_v418 : Ref sig .tc := ⟨.hbm, 424, rfl⟩
abbrev main_v419 : Ref sig .tc := ⟨.hbm, 425, rfl⟩
abbrev main_v420 : Ref sig .tc := ⟨.hbm, 426, rfl⟩
abbrev main_v421 : Ref sig .tc := ⟨.hbm, 427, rfl⟩
abbrev main_v422 : Ref sig .tc := ⟨.hbm, 428, rfl⟩
abbrev main_v423 : Ref sig .tc := ⟨.hbm, 429, rfl⟩
abbrev main_v424 : Ref sig .tc := ⟨.hbm, 430, rfl⟩
abbrev main_v425 : Ref sig .tc := ⟨.hbm, 431, rfl⟩
abbrev main_v426 : Ref sig .tc := ⟨.hbm, 432, rfl⟩
abbrev main_v427 : Ref sig .tc := ⟨.hbm, 433, rfl⟩
abbrev main_v428 : Ref sig .tc := ⟨.hbm, 434, rfl⟩
abbrev main_v429 : Ref sig .tc := ⟨.hbm, 435, rfl⟩
abbrev main_v430 : Ref sig .tc := ⟨.hbm, 436, rfl⟩
abbrev main_v431 : Ref sig .tc := ⟨.hbm, 437, rfl⟩
abbrev main_v432 : Ref sig .tc := ⟨.hbm, 438, rfl⟩
abbrev main_v433 : Ref sig .tc := ⟨.hbm, 439, rfl⟩
abbrev main_v434 : Ref sig .tc := ⟨.hbm, 440, rfl⟩
abbrev main_v435 : Ref sig .tc := ⟨.hbm, 441, rfl⟩
abbrev main_v436 : Ref sig .tc := ⟨.hbm, 442, rfl⟩
abbrev main_v437 : Ref sig .tc := ⟨.hbm, 443, rfl⟩
abbrev main_v438 : Ref sig .tc := ⟨.hbm, 444, rfl⟩
abbrev main_v439 : Ref sig .tc := ⟨.hbm, 445, rfl⟩
abbrev main_v440 : Ref sig .tc := ⟨.hbm, 446, rfl⟩
abbrev main_v441 : Ref sig .tc := ⟨.hbm, 447, rfl⟩
abbrev main_v442 : Ref sig .tc := ⟨.hbm, 448, rfl⟩
abbrev main_v443 : Ref sig .tc := ⟨.hbm, 449, rfl⟩
abbrev main_v444 : Ref sig .tc := ⟨.hbm, 450, rfl⟩
abbrev main_v445 : Ref sig .tc := ⟨.hbm, 451, rfl⟩
abbrev main_v446 : Ref sig .tc := ⟨.hbm, 452, rfl⟩
abbrev main_v447 : Ref sig .tc := ⟨.hbm, 453, rfl⟩
abbrev main_v448 : Ref sig .tc := ⟨.hbm, 454, rfl⟩
abbrev main_v449 : Ref sig .tc := ⟨.hbm, 455, rfl⟩
abbrev main_v450 : Ref sig .tc := ⟨.hbm, 456, rfl⟩
abbrev main_v451 : Ref sig .tc := ⟨.hbm, 457, rfl⟩
abbrev main_v452 : Ref sig .tc := ⟨.hbm, 458, rfl⟩
abbrev main_v453 : Ref sig .tc := ⟨.hbm, 459, rfl⟩
abbrev main_v454 : Ref sig .tc := ⟨.hbm, 460, rfl⟩
abbrev main_v455 : Ref sig .tc := ⟨.hbm, 461, rfl⟩
abbrev main_v456 : Ref sig .tc := ⟨.hbm, 462, rfl⟩
abbrev main_v457 : Ref sig .tc := ⟨.hbm, 463, rfl⟩
abbrev main_v458 : Ref sig .tc := ⟨.hbm, 464, rfl⟩
abbrev main_v459 : Ref sig .tc := ⟨.hbm, 465, rfl⟩
abbrev main_v460 : Ref sig .tc := ⟨.hbm, 466, rfl⟩
abbrev main_v461 : Ref sig .tc := ⟨.hbm, 467, rfl⟩
abbrev main_v462 : Ref sig .tc := ⟨.hbm, 468, rfl⟩
abbrev main_v463 : Ref sig .tc := ⟨.hbm, 469, rfl⟩
abbrev main_v464 : Ref sig .tc := ⟨.hbm, 470, rfl⟩
abbrev main_v465 : Ref sig .tc := ⟨.hbm, 471, rfl⟩
abbrev main_v466 : Ref sig .tc := ⟨.hbm, 472, rfl⟩
abbrev main_v467 : Ref sig .tc := ⟨.hbm, 473, rfl⟩
abbrev main_v468 : Ref sig .tc := ⟨.hbm, 474, rfl⟩
abbrev main_v469 : Ref sig .tc := ⟨.hbm, 475, rfl⟩
abbrev main_v470 : Ref sig .tc := ⟨.hbm, 476, rfl⟩
abbrev main_v471 : Ref sig .tc := ⟨.hbm, 477, rfl⟩
abbrev main_v472 : Ref sig .tc := ⟨.hbm, 478, rfl⟩
abbrev main_v473 : Ref sig .tc := ⟨.hbm, 479, rfl⟩
abbrev main_v474 : Ref sig .tc := ⟨.hbm, 480, rfl⟩
abbrev main_v475 : Ref sig .tc := ⟨.hbm, 481, rfl⟩
abbrev main_v476 : Ref sig .tc := ⟨.hbm, 482, rfl⟩
abbrev main_v477 : Ref sig .tc := ⟨.hbm, 483, rfl⟩
abbrev main_v478 : Ref sig .tc := ⟨.hbm, 484, rfl⟩
abbrev main_v479 : Ref sig .tc := ⟨.hbm, 485, rfl⟩
abbrev main_v480 : Ref sig .tc := ⟨.hbm, 486, rfl⟩
abbrev main_v481 : Ref sig .tc := ⟨.hbm, 487, rfl⟩
abbrev main_v482 : Ref sig .tc := ⟨.hbm, 488, rfl⟩
abbrev main_v483 : Ref sig .tc := ⟨.hbm, 489, rfl⟩
abbrev main_v484 : Ref sig .tc := ⟨.hbm, 490, rfl⟩
abbrev main_v485 : Ref sig .tc := ⟨.hbm, 491, rfl⟩
abbrev main_v486 : Ref sig .tc := ⟨.hbm, 492, rfl⟩
abbrev main_v487 : Ref sig .tc := ⟨.hbm, 493, rfl⟩
abbrev main_v488 : Ref sig .tc := ⟨.hbm, 494, rfl⟩
abbrev main_v489 : Ref sig .tc := ⟨.hbm, 495, rfl⟩
abbrev main_v490 : Ref sig .tc := ⟨.hbm, 496, rfl⟩
abbrev main_v491 : Ref sig .tc := ⟨.hbm, 497, rfl⟩
abbrev main_v492 : Ref sig .tc := ⟨.hbm, 498, rfl⟩
abbrev main_v493 : Ref sig .tc := ⟨.hbm, 499, rfl⟩
abbrev main_v494 : Ref sig .tc := ⟨.hbm, 500, rfl⟩
abbrev main_v495 : Ref sig .tc := ⟨.hbm, 501, rfl⟩
abbrev main_v496 : Ref sig .tc := ⟨.hbm, 502, rfl⟩
abbrev main_v497 : Ref sig .tc := ⟨.hbm, 503, rfl⟩
abbrev main_v498 : Ref sig .tc := ⟨.hbm, 504, rfl⟩
abbrev main_v499 : Ref sig .tc := ⟨.hbm, 505, rfl⟩
abbrev main_v500 : Ref sig .tc := ⟨.hbm, 506, rfl⟩
abbrev main_v501 : Ref sig .tc := ⟨.hbm, 507, rfl⟩
abbrev main_v502 : Ref sig .tc := ⟨.hbm, 508, rfl⟩
abbrev main_v503 : Ref sig .tc := ⟨.hbm, 509, rfl⟩
abbrev main_v504 : Ref sig .tc := ⟨.hbm, 510, rfl⟩
abbrev main_v505 : Ref sig .tc := ⟨.hbm, 511, rfl⟩
abbrev main_v506 : Ref sig .tc := ⟨.hbm, 512, rfl⟩
abbrev main_v507 : Ref sig .tc := ⟨.hbm, 513, rfl⟩
abbrev main_v508 : Ref sig .tc := ⟨.hbm, 514, rfl⟩
abbrev main_v509 : Ref sig .tc := ⟨.hbm, 515, rfl⟩
abbrev main_v510 : Ref sig .tc := ⟨.hbm, 516, rfl⟩
abbrev main_v511 : Ref sig .tc := ⟨.hbm, 517, rfl⟩
abbrev main_v512 : Ref sig .tc := ⟨.hbm, 518, rfl⟩
abbrev main_v513 : Ref sig .tc := ⟨.hbm, 519, rfl⟩
abbrev main_v514 : Ref sig .tc := ⟨.hbm, 520, rfl⟩
abbrev main_v515 : Ref sig .tc := ⟨.hbm, 521, rfl⟩
abbrev main_v516 : Ref sig .tc := ⟨.hbm, 522, rfl⟩
abbrev main_v517 : Ref sig .tc := ⟨.hbm, 523, rfl⟩
abbrev main_v518 : Ref sig .tc := ⟨.hbm, 524, rfl⟩
abbrev main_v519 : Ref sig .tc := ⟨.hbm, 525, rfl⟩
abbrev main_v520 : Ref sig .tc := ⟨.hbm, 526, rfl⟩
abbrev main_v521 : Ref sig .tc := ⟨.hbm, 527, rfl⟩
abbrev main_v522 : Ref sig .tc := ⟨.hbm, 528, rfl⟩
abbrev main_v523 : Ref sig .tc := ⟨.hbm, 529, rfl⟩
abbrev main_v524 : Ref sig .tc := ⟨.hbm, 530, rfl⟩
abbrev main_v525 : Ref sig .tc := ⟨.hbm, 531, rfl⟩
abbrev main_v526 : Ref sig .tc := ⟨.hbm, 532, rfl⟩
abbrev main_v527 : Ref sig .tc := ⟨.hbm, 533, rfl⟩
abbrev main_v528 : Ref sig .tc := ⟨.hbm, 534, rfl⟩
abbrev main_v529 : Ref sig .tc := ⟨.hbm, 535, rfl⟩
abbrev main_v530 : Ref sig .tc := ⟨.hbm, 536, rfl⟩
abbrev main_v531 : Ref sig .tc := ⟨.hbm, 537, rfl⟩
abbrev main_v532 : Ref sig .tc := ⟨.hbm, 538, rfl⟩
abbrev main_v533 : Ref sig .tc := ⟨.hbm, 539, rfl⟩
abbrev main_v534 : Ref sig .tc := ⟨.hbm, 540, rfl⟩
abbrev main_v535 : Ref sig .tc := ⟨.hbm, 541, rfl⟩
abbrev main_v536 : Ref sig .tc := ⟨.hbm, 542, rfl⟩
abbrev main_v537 : Ref sig .tc := ⟨.hbm, 543, rfl⟩
abbrev main_v538 : Ref sig .tc := ⟨.hbm, 544, rfl⟩
abbrev main_v539 : Ref sig .tc := ⟨.hbm, 545, rfl⟩
abbrev main_v540 : Ref sig .tc := ⟨.hbm, 546, rfl⟩
abbrev main_v541 : Ref sig .tc := ⟨.hbm, 547, rfl⟩
abbrev main_v542 : Ref sig .tc := ⟨.hbm, 548, rfl⟩
abbrev main_v543 : Ref sig .tc := ⟨.hbm, 549, rfl⟩
abbrev main_v544 : Ref sig .tc := ⟨.hbm, 550, rfl⟩
abbrev main_v545 : Ref sig .tc := ⟨.hbm, 551, rfl⟩
abbrev main_v546 : Ref sig .tc := ⟨.hbm, 552, rfl⟩
abbrev main_v547 : Ref sig .tc := ⟨.hbm, 553, rfl⟩
abbrev main_v548 : Ref sig .tc := ⟨.hbm, 554, rfl⟩
abbrev main_v549 : Ref sig .tc := ⟨.hbm, 555, rfl⟩
abbrev main_v550 : Ref sig .tc := ⟨.hbm, 556, rfl⟩
abbrev main_v551 : Ref sig .tc := ⟨.hbm, 557, rfl⟩
abbrev main_v552 : Ref sig .tc := ⟨.hbm, 558, rfl⟩
abbrev main_v553 : Ref sig .tc := ⟨.hbm, 559, rfl⟩
abbrev main_v554 : Ref sig .tc := ⟨.hbm, 560, rfl⟩
abbrev main_v555 : Ref sig .tc := ⟨.hbm, 561, rfl⟩
abbrev main_v556 : Ref sig .tc := ⟨.hbm, 562, rfl⟩
abbrev main_v557 : Ref sig .tc := ⟨.hbm, 563, rfl⟩
abbrev main_v558 : Ref sig .tc := ⟨.hbm, 564, rfl⟩
abbrev main_v559 : Ref sig .tc := ⟨.hbm, 565, rfl⟩
abbrev main_v560 : Ref sig .tc := ⟨.hbm, 566, rfl⟩
abbrev main_v561 : Ref sig .tc := ⟨.hbm, 567, rfl⟩
abbrev main_v562 : Ref sig .tc := ⟨.hbm, 568, rfl⟩
abbrev main_v563 : Ref sig .tc := ⟨.hbm, 569, rfl⟩
abbrev main_v564 : Ref sig .tc := ⟨.hbm, 570, rfl⟩
abbrev main_v565 : Ref sig .tc := ⟨.hbm, 571, rfl⟩
abbrev main_v566 : Ref sig .tc := ⟨.hbm, 572, rfl⟩
abbrev main_v567 : Ref sig .tc := ⟨.hbm, 573, rfl⟩
abbrev main_v568 : Ref sig .tc := ⟨.hbm, 574, rfl⟩
abbrev main_v569 : Ref sig .tc := ⟨.hbm, 575, rfl⟩
abbrev main_v570 : Ref sig .tc := ⟨.hbm, 576, rfl⟩

abbrev nD : Nat := 1
abbrev τ : Topo := Topo.v7x

variable {F : FTy → Type} [FloatOps F]

class Facts₀ : Prop where
  pads_S2x8x256x512_S2x8x264x520_000_000_440_440 : S2x8x256x512.Pads (![0, 0, 4, 4] : Fin 4 → Nat) ![0, 0, 4, 4] ![0, 0, 0, 0] S2x8x264x520
  h_S_ : 0 < S_.numel
  bcast_S_S2x8x256x512 : S_.BroadcastsInDim S2x8x256x512 (![] : Fin 0 → Fin S2x8x256x512.rank)
  slices_S2x81x256x512_S2x1x256x512_0_0_0_0 : S2x81x256x512.Slices ![0, 0, 0, 0] S2x1x256x512
  shapeCasts_S2x1x256x512_S2x256x512 : S2x1x256x512.ShapeCasts S2x256x512
  bcast_S2x256x512_S2x1x256x512_0_2_3 : S2x256x512.BroadcastsInDim S2x1x256x512 (![0, 2, 3] : Fin 3 → Fin S2x1x256x512.rank)
  slices_S2x8x264x520_S2x8x256x512_0_0_0_0 : S2x8x264x520.Slices ![0, 0, 0, 0] S2x8x256x512
  bcast_S2x1x256x512_S2x8x256x512_0_1_2_3 : S2x1x256x512.BroadcastsInDim S2x8x256x512 (![0, 1, 2, 3] : Fin 4 → Fin S2x8x256x512.rank)
  slices_S2x81x256x512_S2x1x256x512_0_1_0_0 : S2x81x256x512.Slices ![0, 1, 0, 0] S2x1x256x512
  slices_S2x8x264x520_S2x8x256x512_0_0_0_1 : S2x8x264x520.Slices ![0, 0, 0, 1] S2x8x256x512
  slices_S2x81x256x512_S2x1x256x512_0_2_0_0 : S2x81x256x512.Slices ![0, 2, 0, 0] S2x1x256x512
  slices_S2x8x264x520_S2x8x256x512_0_0_0_2 : S2x8x264x520.Slices ![0, 0, 0, 2] S2x8x256x512
  slices_S2x81x256x512_S2x1x256x512_0_3_0_0 : S2x81x256x512.Slices ![0, 3, 0, 0] S2x1x256x512
  slices_S2x8x264x520_S2x8x256x512_0_0_0_3 : S2x8x264x520.Slices ![0, 0, 0, 3] S2x8x256x512
  slices_S2x81x256x512_S2x1x256x512_0_4_0_0 : S2x81x256x512.Slices ![0, 4, 0, 0] S2x1x256x512
  slices_S2x8x264x520_S2x8x256x512_0_0_0_4 : S2x8x264x520.Slices ![0, 0, 0, 4] S2x8x256x512
  slices_S2x81x256x512_S2x1x256x512_0_5_0_0 : S2x81x256x512.Slices ![0, 5, 0, 0] S2x1x256x512
  slices_S2x8x264x520_S2x8x256x512_0_0_0_5 : S2x8x264x520.Slices ![0, 0, 0, 5] S2x8x256x512
  slices_S2x81x256x512_S2x1x256x512_0_6_0_0 : S2x81x256x512.Slices ![0, 6, 0, 0] S2x1x256x512
  slices_S2x8x264x520_S2x8x256x512_0_0_0_6 : S2x8x264x520.Slices ![0, 0, 0, 6] S2x8x256x512
  slices_S2x81x256x512_S2x1x256x512_0_7_0_0 : S2x81x256x512.Slices ![0, 7, 0, 0] S2x1x256x512
  slices_S2x8x264x520_S2x8x256x512_0_0_0_7 : S2x8x264x520.Slices ![0, 0, 0, 7] S2x8x256x512
  slices_S2x81x256x512_S2x1x256x512_0_8_0_0 : S2x81x256x512.Slices ![0, 8, 0, 0] S2x1x256x512
  slices_S2x8x264x520_S2x8x256x512_0_0_0_8 : S2x8x264x520.Slices ![0, 0, 0, 8] S2x8x256x512
  slices_S2x81x256x512_S2x1x256x512_0_9_0_0 : S2x81x256x512.Slices ![0, 9, 0, 0] S2x1x256x512
  slices_S2x8x264x520_S2x8x256x512_0_0_1_0 : S2x8x264x520.Slices ![0, 0, 1, 0] S2x8x256x512
  slices_S2x81x256x512_S2x1x256x512_0_10_0_0 : S2x81x256x512.Slices ![0, 10, 0, 0] S2x1x256x512
  slices_S2x8x264x520_S2x8x256x512_0_0_1_1 : S2x8x264x520.Slices ![0, 0, 1, 1] S2x8x256x512
  slices_S2x81x256x512_S2x1x256x512_0_11_0_0 : S2x81x256x512.Slices ![0, 11, 0, 0] S2x1x256x512
  slices_S2x8x264x520_S2x8x256x512_0_0_1_2 : S2x8x264x520.Slices ![0, 0, 1, 2] S2x8x256x512
  slices_S2x81x256x512_S2x1x256x512_0_12_0_0 : S2x81x256x512.Slices ![0, 12, 0, 0] S2x1x256x512
  slices_S2x8x264x520_S2x8x256x512_0_0_1_3 : S2x8x264x520.Slices ![0, 0, 1, 3] S2x8x256x512
  slices_S2x81x256x512_S2x1x256x512_0_13_0_0 : S2x81x256x512.Slices ![0, 13, 0, 0] S2x1x256x512
  slices_S2x8x264x520_S2x8x256x512_0_0_1_4 : S2x8x264x520.Slices ![0, 0, 1, 4] S2x8x256x512
  slices_S2x81x256x512_S2x1x256x512_0_14_0_0 : S2x81x256x512.Slices ![0, 14, 0, 0] S2x1x256x512
  slices_S2x8x264x520_S2x8x256x512_0_0_1_5 : S2x8x264x520.Slices ![0, 0, 1, 5] S2x8x256x512
  slices_S2x81x256x512_S2x1x256x512_0_15_0_0 : S2x81x256x512.Slices ![0, 15, 0, 0] S2x1x256x512
  slices_S2x8x264x520_S2x8x256x512_0_0_1_6 : S2x8x264x520.Slices ![0, 0, 1, 6] S2x8x256x512
  slices_S2x81x256x512_S2x1x256x512_0_16_0_0 : S2x81x256x512.Slices ![0, 16, 0, 0] S2x1x256x512
  slices_S2x8x264x520_S2x8x256x512_0_0_1_7 : S2x8x264x520.Slices ![0, 0, 1, 7] S2x8x256x512
  slices_S2x81x256x512_S2x1x256x512_0_17_0_0 : S2x81x256x512.Slices ![0, 17, 0, 0] S2x1x256x512
  slices_S2x8x264x520_S2x8x256x512_0_0_1_8 : S2x8x264x520.Slices ![0, 0, 1, 8] S2x8x256x512
  slices_S2x81x256x512_S2x1x256x512_0_18_0_0 : S2x81x256x512.Slices ![0, 18, 0, 0] S2x1x256x512
  slices_S2x8x264x520_S2x8x256x512_0_0_2_0 : S2x8x264x520.Slices ![0, 0, 2, 0] S2x8x256x512
  slices_S2x81x256x512_S2x1x256x512_0_19_0_0 : S2x81x256x512.Slices ![0, 19, 0, 0] S2x1x256x512
  slices_S2x8x264x520_S2x8x256x512_0_0_2_1 : S2x8x264x520.Slices ![0, 0, 2, 1] S2x8x256x512
  slices_S2x81x256x512_S2x1x256x512_0_20_0_0 : S2x81x256x512.Slices ![0, 20, 0, 0] S2x1x256x512
  slices_S2x8x264x520_S2x8x256x512_0_0_2_2 : S2x8x264x520.Slices ![0, 0, 2, 2] S2x8x256x512
  slices_S2x81x256x512_S2x1x256x512_0_21_0_0 : S2x81x256x512.Slices ![0, 21, 0, 0] S2x1x256x512
  slices_S2x8x264x520_S2x8x256x512_0_0_2_3 : S2x8x264x520.Slices ![0, 0, 2, 3] S2x8x256x512
  slices_S2x81x256x512_S2x1x256x512_0_22_0_0 : S2x81x256x512.Slices ![0, 22, 0, 0] S2x1x256x512
  slices_S2x8x264x520_S2x8x256x512_0_0_2_4 : S2x8x264x520.Slices ![0, 0, 2, 4] S2x8x256x512
  slices_S2x81x256x512_S2x1x256x512_0_23_0_0 : S2x81x256x512.Slices ![0, 23, 0, 0] S2x1x256x512
  slices_S2x8x264x520_S2x8x256x512_0_0_2_5 : S2x8x264x520.Slices ![0, 0, 2, 5] S2x8x256x512
  slices_S2x81x256x512_S2x1x256x512_0_24_0_0 : S2x81x256x512.Slices ![0, 24, 0, 0] S2x1x256x512
  slices_S2x8x264x520_S2x8x256x512_0_0_2_6 : S2x8x264x520.Slices ![0, 0, 2, 6] S2x8x256x512
  slices_S2x81x256x512_S2x1x256x512_0_25_0_0 : S2x81x256x512.Slices ![0, 25, 0, 0] S2x1x256x512
  slices_S2x8x264x520_S2x8x256x512_0_0_2_7 : S2x8x264x520.Slices ![0, 0, 2, 7] S2x8x256x512
  slices_S2x81x256x512_S2x1x256x512_0_26_0_0 : S2x81x256x512.Slices ![0, 26, 0, 0] S2x1x256x512
  slices_S2x8x264x520_S2x8x256x512_0_0_2_8 : S2x8x264x520.Slices ![0, 0, 2, 8] S2x8x256x512
  slices_S2x81x256x512_S2x1x256x512_0_27_0_0 : S2x81x256x512.Slices ![0, 27, 0, 0] S2x1x256x512
  slices_S2x8x264x520_S2x8x256x512_0_0_3_0 : S2x8x264x520.Slices ![0, 0, 3, 0] S2x8x256x512
  slices_S2x81x256x512_S2x1x256x512_0_28_0_0 : S2x81x256x512.Slices ![0, 28, 0, 0] S2x1x256x512
  slices_S2x8x264x520_S2x8x256x512_0_0_3_1 : S2x8x264x520.Slices ![0, 0, 3, 1] S2x8x256x512
  slices_S2x81x256x512_S2x1x256x512_0_29_0_0 : S2x81x256x512.Slices ![0, 29, 0, 0] S2x1x256x512
  slices_S2x8x264x520_S2x8x256x512_0_0_3_2 : S2x8x264x520.Slices ![0, 0, 3, 2] S2x8x256x512
  slices_S2x81x256x512_S2x1x256x512_0_30_0_0 : S2x81x256x512.Slices ![0, 30, 0, 0] S2x1x256x512
  slices_S2x8x264x520_S2x8x256x512_0_0_3_3 : S2x8x264x520.Slices ![0, 0, 3, 3] S2x8x256x512
  slices_S2x81x256x512_S2x1x256x512_0_31_0_0 : S2x81x256x512.Slices ![0, 31, 0, 0] S2x1x256x512
  slices_S2x8x264x520_S2x8x256x512_0_0_3_4 : S2x8x264x520.Slices ![0, 0, 3, 4] S2x8x256x512
  slices_S2x81x256x512_S2x1x256x512_0_32_0_0 : S2x81x256x512.Slices ![0, 32, 0, 0] S2x1x256x512
  slices_S2x8x264x520_S2x8x256x512_0_0_3_5 : S2x8x264x520.Slices ![0, 0, 3, 5] S2x8x256x512
  slices_S2x81x256x512_S2x1x256x512_0_33_0_0 : S2x81x256x512.Slices ![0, 33, 0, 0] S2x1x256x512
  slices_S2x8x264x520_S2x8x256x512_0_0_3_6 : S2x8x264x520.Slices ![0, 0, 3, 6] S2x8x256x512
  slices_S2x81x256x512_S2x1x256x512_0_34_0_0 : S2x81x256x512.Slices ![0, 34, 0, 0] S2x1x256x512
  slices_S2x8x264x520_S2x8x256x512_0_0_3_7 : S2x8x264x520.Slices ![0, 0, 3, 7] S2x8x256x512
  slices_S2x81x256x512_S2x1x256x512_0_35_0_0 : S2x81x256x512.Slices ![0, 35, 0, 0] S2x1x256x512
  slices_S2x8x264x520_S2x8x256x512_0_0_3_8 : S2x8x264x520.Slices ![0, 0, 3, 8] S2x8x256x512
  slices_S2x81x256x512_S2x1x256x512_0_36_0_0 : S2x81x256x512.Slices ![0, 36, 0, 0] S2x1x256x512
  slices_S2x8x264x520_S2x8x256x512_0_0_4_0 : S2x8x264x520.Slices ![0, 0, 4, 0] S2x8x256x512
  slices_S2x81x256x512_S2x1x256x512_0_37_0_0 : S2x81x256x512.Slices ![0, 37, 0, 0] S2x1x256x512
  slices_S2x8x264x520_S2x8x256x512_0_0_4_1 : S2x8x264x520.Slices ![0, 0, 4, 1] S2x8x256x512
  slices_S2x81x256x512_S2x1x256x512_0_38_0_0 : S2x81x256x512.Slices ![0, 38, 0, 0] S2x1x256x512
  slices_S2x8x264x520_S2x8x256x512_0_0_4_2 : S2x8x264x520.Slices ![0, 0, 4, 2] S2x8x256x512
  slices_S2x81x256x512_S2x1x256x512_0_39_0_0 : S2x81x256x512.Slices ![0, 39, 0, 0] S2x1x256x512
  slices_S2x8x264x520_S2x8x256x512_0_0_4_3 : S2x8x264x520.Slices ![0, 0, 4, 3] S2x8x256x512
  slices_S2x81x256x512_S2x1x256x512_0_40_0_0 : S2x81x256x512.Slices ![0, 40, 0, 0] S2x1x256x512
  slices_S2x8x264x520_S2x8x256x512_0_0_4_4 : S2x8x264x520.Slices ![0, 0, 4, 4] S2x8x256x512
  slices_S2x81x256x512_S2x1x256x512_0_41_0_0 : S2x81x256x512.Slices ![0, 41, 0, 0] S2x1x256x512
  slices_S2x8x264x520_S2x8x256x512_0_0_4_5 : S2x8x264x520.Slices ![0, 0, 4, 5] S2x8x256x512
  slices_S2x81x256x512_S2x1x256x512_0_42_0_0 : S2x81x256x512.Slices ![0, 42, 0, 0] S2x1x256x512
  slices_S2x8x264x520_S2x8x256x512_0_0_4_6 : S2x8x264x520.Slices ![0, 0, 4, 6] S2x8x256x512
  slices_S2x81x256x512_S2x1x256x512_0_43_0_0 : S2x81x256x512.Slices ![0, 43, 0, 0] S2x1x256x512
  slices_S2x8x264x520_S2x8x256x512_0_0_4_7 : S2x8x264x520.Slices ![0, 0, 4, 7] S2x8x256x512
  slices_S2x81x256x512_S2x1x256x512_0_44_0_0 : S2x81x256x512.Slices ![0, 44, 0, 0] S2x1x256x512
  slices_S2x8x264x520_S2x8x256x512_0_0_4_8 : S2x8x264x520.Slices ![0, 0, 4, 8] S2x8x256x512
  slices_S2x81x256x512_S2x1x256x512_0_45_0_0 : S2x81x256x512.Slices ![0, 45, 0, 0] S2x1x256x512
  slices_S2x8x264x520_S2x8x256x512_0_0_5_0 : S2x8x264x520.Slices ![0, 0, 5, 0] S2x8x256x512
  slices_S2x81x256x512_S2x1x256x512_0_46_0_0 : S2x81x256x512.Slices ![0, 46, 0, 0] S2x1x256x512
  slices_S2x8x264x520_S2x8x256x512_0_0_5_1 : S2x8x264x520.Slices ![0, 0, 5, 1] S2x8x256x512
  slices_S2x81x256x512_S2x1x256x512_0_47_0_0 : S2x81x256x512.Slices ![0, 47, 0, 0] S2x1x256x512
  slices_S2x8x264x520_S2x8x256x512_0_0_5_2 : S2x8x264x520.Slices ![0, 0, 5, 2] S2x8x256x512
  slices_S2x81x256x512_S2x1x256x512_0_48_0_0 : S2x81x256x512.Slices ![0, 48, 0, 0] S2x1x256x512
  slices_S2x8x264x520_S2x8x256x512_0_0_5_3 : S2x8x264x520.Slices ![0, 0, 5, 3] S2x8x256x512
  slices_S2x81x256x512_S2x1x256x512_0_49_0_0 : S2x81x256x512.Slices ![0, 49, 0, 0] S2x1x256x512
  slices_S2x8x264x520_S2x8x256x512_0_0_5_4 : S2x8x264x520.Slices ![0, 0, 5, 4] S2x8x256x512
  slices_S2x81x256x512_S2x1x256x512_0_50_0_0 : S2x81x256x512.Slices ![0, 50, 0, 0] S2x1x256x512
  slices_S2x8x264x520_S2x8x256x512_0_0_5_5 : S2x8x264x520.Slices ![0, 0, 5, 5] S2x8x256x512
  slices_S2x81x256x512_S2x1x256x512_0_51_0_0 : S2x81x256x512.Slices ![0, 51, 0, 0] S2x1x256x512
  slices_S2x8x264x520_S2x8x256x512_0_0_5_6 : S2x8x264x520.Slices ![0, 0, 5, 6] S2x8x256x512
  slices_S2x81x256x512_S2x1x256x512_0_52_0_0 : S2x81x256x512.Slices ![0, 52, 0, 0] S2x1x256x512
  slices_S2x8x264x520_S2x8x256x512_0_0_5_7 : S2x8x264x520.Slices ![0, 0, 5, 7] S2x8x256x512
  slices_S2x81x256x512_S2x1x256x512_0_53_0_0 : S2x81x256x512.Slices ![0, 53, 0, 0] S2x1x256x512
  slices_S2x8x264x520_S2x8x256x512_0_0_5_8 : S2x8x264x520.Slices ![0, 0, 5, 8] S2x8x256x512
  slices_S2x81x256x512_S2x1x256x512_0_54_0_0 : S2x81x256x512.Slices ![0, 54, 0, 0] S2x1x256x512
  slices_S2x8x264x520_S2x8x256x512_0_0_6_0 : S2x8x264x520.Slices ![0, 0, 6, 0] S2x8x256x512
  slices_S2x81x256x512_S2x1x256x512_0_55_0_0 : S2x81x256x512.Slices ![0, 55, 0, 0] S2x1x256x512
  slices_S2x8x264x520_S2x8x256x512_0_0_6_1 : S2x8x264x520.Slices ![0, 0, 6, 1] S2x8x256x512
  slices_S2x81x256x512_S2x1x256x512_0_56_0_0 : S2x81x256x512.Slices ![0, 56, 0, 0] S2x1x256x512
  slices_S2x8x264x520_S2x8x256x512_0_0_6_2 : S2x8x264x520.Slices ![0, 0, 6, 2] S2x8x256x512
  slices_S2x81x256x512_S2x1x256x512_0_57_0_0 : S2x81x256x512.Slices ![0, 57, 0, 0] S2x1x256x512
  slices_S2x8x264x520_S2x8x256x512_0_0_6_3 : S2x8x264x520.Slices ![0, 0, 6, 3] S2x8x256x512
  slices_S2x81x256x512_S2x1x256x512_0_58_0_0 : S2x81x256x512.Slices ![0, 58, 0, 0] S2x1x256x512
  slices_S2x8x264x520_S2x8x256x512_0_0_6_4 : S2x8x264x520.Slices ![0, 0, 6, 4] S2x8x256x512
  slices_S2x81x256x512_S2x1x256x512_0_59_0_0 : S2x81x256x512.Slices ![0, 59, 0, 0] S2x1x256x512
  slices_S2x8x264x520_S2x8x256x512_0_0_6_5 : S2x8x264x520.Slices ![0, 0, 6, 5] S2x8x256x512
  slices_S2x81x256x512_S2x1x256x512_0_60_0_0 : S2x81x256x512.Slices ![0, 60, 0, 0] S2x1x256x512
  slices_S2x8x264x520_S2x8x256x512_0_0_6_6 : S2x8x264x520.Slices ![0, 0, 6, 6] S2x8x256x512
  slices_S2x81x256x512_S2x1x256x512_0_61_0_0 : S2x81x256x512.Slices ![0, 61, 0, 0] S2x1x256x512
  slices_S2x8x264x520_S2x8x256x512_0_0_6_7 : S2x8x264x520.Slices ![0, 0, 6, 7] S2x8x256x512
  slices_S2x81x256x512_S2x1x256x512_0_62_0_0 : S2x81x256x512.Slices ![0, 62, 0, 0] S2x1x256x512
  slices_S2x8x264x520_S2x8x256x512_0_0_6_8 : S2x8x264x520.Slices ![0, 0, 6, 8] S2x8x256x512
  slices_S2x81x256x512_S2x1x256x512_0_63_0_0 : S2x81x256x512.Slices ![0, 63, 0, 0] S2x1x256x512
  slices_S2x8x264x520_S2x8x256x512_0_0_7_0 : S2x8x264x520.Slices ![0, 0, 7, 0] S2x8x256x512
  slices_S2x81x256x512_S2x1x256x512_0_64_0_0 : S2x81x256x512.Slices ![0, 64, 0, 0] S2x1x256x512
  slices_S2x8x264x520_S2x8x256x512_0_0_7_1 : S2x8x264x520.Slices ![0, 0, 7, 1] S2x8x256x512
  slices_S2x81x256x512_S2x1x256x512_0_65_0_0 : S2x81x256x512.Slices ![0, 65, 0, 0] S2x1x256x512
  slices_S2x8x264x520_S2x8x256x512_0_0_7_2 : S2x8x264x520.Slices ![0, 0, 7, 2] S2x8x256x512
  slices_S2x81x256x512_S2x1x256x512_0_66_0_0 : S2x81x256x512.Slices ![0, 66, 0, 0] S2x1x256x512
  slices_S2x8x264x520_S2x8x256x512_0_0_7_3 : S2x8x264x520.Slices ![0, 0, 7, 3] S2x8x256x512
  slices_S2x81x256x512_S2x1x256x512_0_67_0_0 : S2x81x256x512.Slices ![0, 67, 0, 0] S2x1x256x512
  slices_S2x8x264x520_S2x8x256x512_0_0_7_4 : S2x8x264x520.Slices ![0, 0, 7, 4] S2x8x256x512
  slices_S2x81x256x512_S2x1x256x512_0_68_0_0 : S2x81x256x512.Slices ![0, 68, 0, 0] S2x1x256x512
  slices_S2x8x264x520_S2x8x256x512_0_0_7_5 : S2x8x264x520.Slices ![0, 0, 7, 5] S2x8x256x512
  slices_S2x81x256x512_S2x1x256x512_0_69_0_0 : S2x81x256x512.Slices ![0, 69, 0, 0] S2x1x256x512
  slices_S2x8x264x520_S2x8x256x512_0_0_7_6 : S2x8x264x520.Slices ![0, 0, 7, 6] S2x8x256x512
  slices_S2x81x256x512_S2x1x256x512_0_70_0_0 : S2x81x256x512.Slices ![0, 70, 0, 0] S2x1x256x512
  slices_S2x8x264x520_S2x8x256x512_0_0_7_7 : S2x8x264x520.Slices ![0, 0, 7, 7] S2x8x256x512
  slices_S2x81x256x512_S2x1x256x512_0_71_0_0 : S2x81x256x512.Slices ![0, 71, 0, 0] S2x1x256x512
  slices_S2x8x264x520_S2x8x256x512_0_0_7_8 : S2x8x264x520.Slices ![0, 0, 7, 8] S2x8x256x512
  slices_S2x81x256x512_S2x1x256x512_0_72_0_0 : S2x81x256x512.Slices ![0, 72, 0, 0] S2x1x256x512
  slices_S2x8x264x520_S2x8x256x512_0_0_8_0 : S2x8x264x520.Slices ![0, 0, 8, 0] S2x8x256x512
  slices_S2x81x256x512_S2x1x256x512_0_73_0_0 : S2x81x256x512.Slices ![0, 73, 0, 0] S2x1x256x512
  slices_S2x8x264x520_S2x8x256x512_0_0_8_1 : S2x8x264x520.Slices ![0, 0, 8, 1] S2x8x256x512
  slices_S2x81x256x512_S2x1x256x512_0_74_0_0 : S2x81x256x512.Slices ![0, 74, 0, 0] S2x1x256x512
  slices_S2x8x264x520_S2x8x256x512_0_0_8_2 : S2x8x264x520.Slices ![0, 0, 8, 2] S2x8x256x512
  slices_S2x81x256x512_S2x1x256x512_0_75_0_0 : S2x81x256x512.Slices ![0, 75, 0, 0] S2x1x256x512
  slices_S2x8x264x520_S2x8x256x512_0_0_8_3 : S2x8x264x520.Slices ![0, 0, 8, 3] S2x8x256x512
  slices_S2x81x256x512_S2x1x256x512_0_76_0_0 : S2x81x256x512.Slices ![0, 76, 0, 0] S2x1x256x512
  slices_S2x8x264x520_S2x8x256x512_0_0_8_4 : S2x8x264x520.Slices ![0, 0, 8, 4] S2x8x256x512
  slices_S2x81x256x512_S2x1x256x512_0_77_0_0 : S2x81x256x512.Slices ![0, 77, 0, 0] S2x1x256x512
  slices_S2x8x264x520_S2x8x256x512_0_0_8_5 : S2x8x264x520.Slices ![0, 0, 8, 5] S2x8x256x512
  slices_S2x81x256x512_S2x1x256x512_0_78_0_0 : S2x81x256x512.Slices ![0, 78, 0, 0] S2x1x256x512
  slices_S2x8x264x520_S2x8x256x512_0_0_8_6 : S2x8x264x520.Slices ![0, 0, 8, 6] S2x8x256x512
  slices_S2x81x256x512_S2x1x256x512_0_79_0_0 : S2x81x256x512.Slices ![0, 79, 0, 0] S2x1x256x512
  slices_S2x8x264x520_S2x8x256x512_0_0_8_7 : S2x8x264x520.Slices ![0, 0, 8, 7] S2x8x256x512
  slices_S2x81x256x512_S2x1x256x512_0_80_0_0 : S2x81x256x512.Slices ![0, 80, 0, 0] S2x1x256x512
  slices_S2x8x264x520_S2x8x256x512_0_0_8_8 : S2x8x264x520.Slices ![0, 0, 8, 8] S2x8x256x512

variable [Facts₀]

class Facts : Prop extends Facts₀ where

variable [Facts]
-- ==== Proof.Spec.lean ====
/-
  Per-pixel 9×9 filtering as ONE function of the three argument arrays.

  For a picture `x[n, c, ·, ·]` (256 × 512), zero-padded by four on every side of the plane, and 81 filter planes
  `f[n, k, ·, ·]`, `k = 9·i + j`, the result at pixel `(h, w)` of channel `c` is

      ( Σ over the 81 taps k of  padded x (h + k / 9, w + k % 9) · f[n, k, h, w] )  +  bias[n, 0, h, w].

  The sum is taken as an ORDERED accumulation from zero along a list of tap numbers, because that is what both
  programs do; the only law used between two orders is that addition of extended reals is commutative and
  associative (`acc_perm`), which holds at the infinities too — nothing here needs a finite entry.
-/
import Mathlib.Data.List.Perm.Basic
import Idealize.ShloMosaic.PureOps.Ideal
import Idealize.ShloMosaic.PureOps.Ideal.Laws
import Idealize.ShloMosaic.Lib.ValueIdx

noncomputable section

namespace Cert.DynFilter

open Idealize.ShloMosaic Idealize.ShloMosaic.ValueIdx

/-- The shapes of the picture, the filter planes and the bias. -/
abbrev SX : Shape := ⟨4, ![2, 8, 256, 512]⟩
abbrev SF : Shape := ⟨4, ![2, 81, 256, 512]⟩
abbrev SB : Shape := ⟨4, ![2, 1, 256, 512]⟩

/-- The picture of batch item `n`, channel `c`, padded by four rows and four columns of `z` on every side, read at the
    natural-number coordinates `(a, b)` of the padded plane (264 × 520): the picture at `(a - 4, b - 4)` inside, `z` in
    the border (and anywhere outside the plane, which no tap reads). -/
def padded (x : SX.Idx → EReal) (z : EReal) (n : Fin 2) (c : Fin 8) (a b : ℕ) : EReal :=
  if h : (4 ≤ a ∧ a < 260) ∧ (4 ≤ b ∧ b < 516) then x (ix4 n c ⟨a - 4, by omega⟩ ⟨b - 4, by omega⟩) else z

/-- Filter plane `k` of batch item `n` at pixel `(h, w)` (`0` for a plane number past the 81, which no tap has). -/
def filt (f : SF.Idx → EReal) (n : Fin 2) (k : ℕ) (h : Fin 256) (w : Fin 512) : EReal :=
  if hk : k < 81 then f (ix4 n ⟨k, hk⟩ h w) else 0

/-- Tap `k = 9·i + j` at pixel `(h, w)`: the padded picture `i` rows down and `j` columns right, times filter plane `k`. -/
def tap (x : SX.Idx → EReal) (f : SF.Idx → EReal) (n : Fin 2) (c : Fin 8) (h : Fin 256) (w : Fin 512) (k : ℕ) : EReal :=
  padded x 0 n c (h.val + k / 9) (w.val + k % 9) * filt f n k h w

/-- The terms `T k` accumulated from zero, one after the other, in the order of the list. -/
def acc (T : ℕ → EReal) (order : List ℕ) : EReal := order.foldl (fun s k => s + T k) 0

/-- Accumulating one more term. -/
theorem acc_concat (T : ℕ → EReal) (order : List ℕ) (k : ℕ) : acc T (order ++ [k]) = acc T order + T k := by
  unfold acc; rw [List.foldl_append]; rfl

/-- THE LAW: the order of accumulation does not matter — addition of extended reals is commutative and associative. -/
theorem acc_perm (T : ℕ → EReal) {l₁ l₂ : List ℕ} (p : l₁.Perm l₂) : acc T l₁ = acc T l₂ := by
  unfold acc
  have hc : ∀ (l : List ℕ) (s : EReal), l.foldl (fun s k => s + T k) s = s + (l.map T).sum := by
    intro l
    induction l with
    | nil => intro s; simp
    | cons a l ih => intro s; rw [List.foldl_cons, ih, List.map_cons, List.sum_cons, add_assoc]
  rw [hc, hc, (p.map T).sum_eq]

/-- The reference's order: plane by plane, `k = 0, 1, …, 80` (rows of the 9 × 9 window outermost). -/
def rowMajor : List ℕ := List.range 81

/-- The kernel's order: columns of the 9 × 9 window outermost — the `q`-th tap taken is `k = 9·(q % 9) + q / 9`. -/
def colMajor : List ℕ := (List.range 81).map fun q => 9 * (q % 9) + q / 9

/-- The two orders list the same 81 taps. -/
theorem colMajor_perm : colMajor.Perm rowMajor := by decide

/-- The kernel's order, written out. -/
theorem colMajor_eq : colMajor = [0, 9, 18, 27, 36, 45, 54, 63, 72, 1, 10, 19, 28, 37, 46, 55, 64, 73, 2, 11, 20, 29, 38, 47, 56, 65, 74, 3, 12, 21, 30, 39, 48, 57, 66, 75, 4, 13, 22, 31, 40, 49, 58, 67, 76, 5, 14, 23, 32, 41, 50, 59, 68, 77, 6, 15, 24, 33, 42, 51, 60, 69, 78, 7, 16, 25, 34, 43, 52, 61, 70, 79, 8, 17, 26, 35, 44, 53, 62, 71, 80] := by decide

/-- The reference's order, written out. -/
theorem rowMajor_eq : rowMajor = [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80] := by decide

/-- The accumulation along the kernel's order, written out term by term. -/
theorem acc_colMajor (T : ℕ → EReal) : acc T colMajor
    = 0 + T 0 + T 9 + T 18 + T 27 + T 36 + T 45 + T 54 + T 63 + T 72 + T 1 + T 10 + T 19 + T 28 + T 37 + T 46 + T 55 + T 64 + T 73 + T 2 + T 11 + T 20 + T 29 + T 38 + T 47 + T 56 + T 65 + T 74 + T 3 + T 12 + T 21 + T 30 + T 39 + T 48 + T 57 + T 66 + T 75 + T 4 + T 13 + T 22 + T 31 + T 40 + T 49 + T 58 + T 67 + T 76 + T 5 + T 14 + T 23 + T 32 + T 41 + T 50 + T 59 + T 68 + T 77 + T 6 + T 15 + T 24 + T 33 + T 42 + T 51 + T 60 + T 69 + T 78 + T 7 + T 16 + T 25 + T 34 + T 43 + T 52 + T 61 + T 70 + T 79 + T 8 + T 17 + T 26 + T 35 + T 44 + T 53 + T 62 + T 71 + T 80 := by
  rw [colMajor_eq]; rfl

/-- The accumulation along the reference's order, written out term by term. -/
theorem acc_rowMajor (T : ℕ → EReal) : acc T rowMajor
    = 0 + T 0 + T 1 + T 2 + T 3 + T 4 + T 5 + T 6 + T 7 + T 8 + T 9 + T 10 + T 11 + T 12 + T 13 + T 14 + T 15 + T 16 + T 17 + T 18 + T 19 + T 20 + T 21 + T 22 + T 23 + T 24 + T 25 + T 26 + T 27 + T 28 + T 29 + T 30 + T 31 + T 32 + T 33 + T 34 + T 35 + T 36 + T 37 + T 38 + T 39 + T 40 + T 41 + T 42 + T 43 + T 44 + T 45 + T 46 + T 47 + T 48 + T 49 + T 50 + T 51 + T 52 + T 53 + T 54 + T 55 + T 56 + T 57 + T 58 + T 59 + T 60 + T 61 + T 62 + T 63 + T 64 + T 65 + T 66 + T 67 + T 68 + T 69 + T 70 + T 71 + T 72 + T 73 + T 74 + T 75 + T 76 + T 77 + T 78 + T 79 + T 80 := by
  rw [rowMajor_eq]; rfl

/-- THE RESULT, index by index. -/
def G (x : SX.Idx → EReal) (f : SF.Idx → EReal) (b : SB.Idx → EReal) : SX.Idx → EReal :=
  fun idx => acc (tap x f (idx 0) (idx 1) (idx 2) (idx 3)) rowMajor + b (ix4 (idx 0) 0 (idx 2) (idx 3))

/-- The same with the kernel's order of accumulation. -/
theorem G_colMajor (x : SX.Idx → EReal) (f : SF.Idx → EReal) (b : SB.Idx → EReal) (idx : SX.Idx) :
    G x f b idx = acc (tap x f (idx 0) (idx 1) (idx 2) (idx 3)) colMajor + b (ix4 (idx 0) 0 (idx 2) (idx 3)) := by
  unfold G; rw [acc_perm _ colMajor_perm]

end Cert.DynFilter

end
-- ==== Proof.KerTap.lean ====
/-
  The kernel body's repeated shapes, read at a pixel of the block, with the offsets as variables.

  The body works on a window of 40 rows of the padded picture (all 520 columns), cut into four chunks of 128 lanes
  (136 with the eight-column overlap the nine column shifts need). One tap is: the chunk shifted `j` lanes, then `i`
  rows, cut to 32 × 128, times one 32 × 128 filter tile repeated over the eight channels.

  * `kerTap_at`: that product at `(c, r, l)` is the row window at `(c, r + i, l + j + o)` (`o` the chunk's first
    lane) times the filter tile at `(r, l)`;
  * `kerBias_at`, `kerOut_at`: the bias tile repeated over the channels, and the unit axis put in front of the result;
  * `rowLoad_at`, `tileLoad_at`, `biasLoad_at`: a load from a buffer held at known contents, at a rectangle with
    the given offsets, reads the contents at offset plus coordinate.
-/
import proofs.«130869_j58780922413140_2_alg».proof.Proof.Spec
import Idealize.ShloMosaic.Lib.Pipeline.Value
import Idealize.ShloMosaic.Lib.WholeRead

noncomputable section

namespace Cert.DynFilter

open Idealize.ShloMosaic Idealize.ShloMosaic.ValueIdx

/-- The padded picture of one batch item (the scratch), its 40-row window, a 136-lane chunk, a 128-lane shift of it,
    the 32 × 128 accumulator; the filter block of a grid point, one filter tile and its two re-shapings; the bias block;
    one stored piece of the output block. -/
abbrev KS : Shape := ⟨3, ![8, 264, 520]⟩
abbrev KR : Shape := ⟨3, ![8, 40, 520]⟩
abbrev KW : Shape := ⟨3, ![8, 40, 136]⟩
abbrev KJ : Shape := ⟨3, ![8, 40, 128]⟩
abbrev KA : Shape := ⟨3, ![8, 32, 128]⟩
abbrev KF : Shape := ⟨4, ![1, 81, 32, 512]⟩
abbrev KT : Shape := ⟨4, ![1, 1, 32, 128]⟩
abbrev KT2 : Shape := ⟨2, ![32, 128]⟩
abbrev KT3 : Shape := ⟨3, ![1, 32, 128]⟩
abbrev KB : Shape := ⟨4, ![1, 1, 32, 512]⟩
abbrev KO : Shape := ⟨4, ![1, 8, 32, 128]⟩

/-- A row shift of `i` leaves 32 rows inside the 40. -/
theorem row_lt {i : ℕ} (h2 : KJ.Slices ![0, i, 0] KA) (r : Fin 32) : r.val + i < 40 := by
  obtain ⟨_, hh⟩ := h2
  have := hh (⟨1, by decide⟩ : Fin KJ.rank)
  change i + 32 ≤ 40 at this
  omega

/-- A lane shift of `j` inside a chunk starting at lane `o` stays inside the 520 columns. -/
theorem lane_lt {j o : ℕ} (h0 : KR.Slices ![0, 0, o] KW) (h1 : KW.Slices ![0, 0, j] KJ) (l : Fin 128) :
    l.val + j + o < 520 := by
  obtain ⟨_, hh0⟩ := h0
  obtain ⟨_, hh1⟩ := h1
  have a0 := hh0 (⟨2, by decide⟩ : Fin KR.rank)
  have a1 := hh1 (⟨2, by decide⟩ : Fin KW.rank)
  change o + 136 ≤ 520 at a0
  change j + 128 ≤ 136 at a1
  omega

/-- A lane shift of `j` stays inside the 136 lanes of a chunk. -/
theorem shift_lt {j : ℕ} (h1 : KW.Slices ![0, 0, j] KJ) (l : Fin 128) : l.val + j < 136 := by
  obtain ⟨_, hh1⟩ := h1
  have a1 := hh1 (⟨2, by decide⟩ : Fin KW.rank)
  change j + 128 ≤ 136 at a1
  omega

/-- One tap of the kernel at a pixel of the block. -/
theorem kerTap_at (R : KR.Idx → EReal) (fb : KT.Idx → EReal) (i j o : ℕ)
    (h0 : KR.Slices ![0, 0, o] KW) (h1 : KW.Slices ![0, 0, j] KJ) (h2 : KJ.Slices ![0, i, 0] KA)
    (hc1 : KT.ShapeCasts KT2) (hc2 : KT2.ShapeCasts KT3) (hb : KT3.Broadcasts KA)
    (c : Fin 8) (r : Fin 32) (l : Fin 128) :
    mulf (F := Ideal) (φ := .f32)
        (extractStridedSlice KA ![0, i, 0] (extractStridedSlice KJ ![0, 0, j] (extractStridedSlice KW ![0, 0, o] R h0) h1) h2)
        (broadcastTo KA (shapeCast KT3 (shapeCast KT2 fb hc1) hc2) hb) (ix3 c r l)
      = R (ix3 c ⟨r.val + i, row_lt h2 r⟩ ⟨l.val + j + o, lane_lt h0 h1 l⟩) * fb (ix4 0 0 r l) := by
  have hi := row_lt h2 r
  have hj := lane_lt h0 h1 l
  rw [mulf_apply]
  congr 1
  · refine (extractStridedSlice_apply _ _ h2 (ix3 c r l) (ix3 c ⟨r.val + i, hi⟩ l) fun d => ?_).trans ?_
    · match d with
      | ⟨0, _⟩ => show c.val = 0 + c.val; omega
      | ⟨1, _⟩ => show r.val + i = i + r.val; omega
      | ⟨2, _⟩ => show l.val = 0 + l.val; omega
    refine (extractStridedSlice_apply _ _ h1 (ix3 c ⟨r.val + i, hi⟩ l) (ix3 c ⟨r.val + i, hi⟩ ⟨l.val + j, shift_lt h1 l⟩) fun d => ?_).trans ?_
    · match d with
      | ⟨0, _⟩ => show c.val = 0 + c.val; omega
      | ⟨1, _⟩ => show r.val + i = 0 + (r.val + i); omega
      | ⟨2, _⟩ => show l.val + j = j + l.val; omega
    refine extractStridedSlice_apply _ R h0 _ _ fun d => ?_
    match d with
    | ⟨0, _⟩ => show c.val = 0 + c.val; omega
    | ⟨1, _⟩ => show r.val + i = 0 + (r.val + i); omega
    | ⟨2, _⟩ => show l.val + j + o = o + (l.val + j); omega
  · refine (broadcastTo_apply _ hb (ix3 c r l) (ix3 (0 : Fin 1) r l) fun d => ?_).trans ?_
    · match d with
      | ⟨0, _⟩ => show 0 = if (1 : ℕ) = 1 then 0 else c.val; rw [if_pos rfl]
      | ⟨1, _⟩ => show r.val = if (32 : ℕ) = 1 then 0 else r.val; rw [if_neg (by decide)]
      | ⟨2, _⟩ => show l.val = if (128 : ℕ) = 1 then 0 else l.val; rw [if_neg (by decide)]
    refine (shapeCast_apply _ hc2 (ix3 (0 : Fin 1) r l) (ix2 r l) ?_).trans ?_
    · rw [Shape.rowMajor_val_two, Shape.rowMajor_val_three]
      show r.val * 128 + l.val = (0 * 32 + r.val) * 128 + l.val
      omega
    refine shapeCast_apply _ hc1 (ix2 r l) (ix4 (0 : Fin 1) (0 : Fin 1) r l) ?_
    rw [Shape.rowMajor_val_two, Shape.rowMajor_val_four]
    show ((0 * 1 + 0) * 32 + r.val) * 128 + l.val = r.val * 128 + l.val
    omega

/-- The bias tile repeated over the eight channels. -/
theorem kerBias_at (bb : KT.Idx → EReal) (hc : KT.ShapeCasts KT3) (hb : KT3.Broadcasts KA)
    (c : Fin 8) (r : Fin 32) (l : Fin 128) :
    broadcastTo KA (shapeCast KT3 bb hc) hb (ix3 c r l) = bb (ix4 0 0 r l) := by
  refine (broadcastTo_apply _ hb (ix3 c r l) (ix3 (0 : Fin 1) r l) fun d => ?_).trans ?_
  · match d with
    | ⟨0, _⟩ => show 0 = if (1 : ℕ) = 1 then 0 else c.val; rw [if_pos rfl]
    | ⟨1, _⟩ => show r.val = if (32 : ℕ) = 1 then 0 else r.val; rw [if_neg (by decide)]
    | ⟨2, _⟩ => show l.val = if (128 : ℕ) = 1 then 0 else l.val; rw [if_neg (by decide)]
  refine shapeCast_apply _ hc (ix3 (0 : Fin 1) r l) (ix4 (0 : Fin 1) (0 : Fin 1) r l) ?_
  rw [Shape.rowMajor_val_three, Shape.rowMajor_val_four]
  show ((0 * 1 + 0) * 32 + r.val) * 128 + l.val = (0 * 32 + r.val) * 128 + l.val
  omega

/-- The stored piece is the accumulator with a unit axis in front. -/
theorem kerOut_at (A : KA.Idx → EReal) (hc : KA.ShapeCasts KO) (c : Fin 8) (r : Fin 32) (l : Fin 128) :
    shapeCast KO A hc (ix4 (0 : Fin 1) c r l) = A (ix3 c r l) := by
  refine shapeCast_apply _ hc (ix4 (0 : Fin 1) c r l) (ix3 c r l) ?_
  rw [Shape.rowMajor_val_three, Shape.rowMajor_val_four]
  show (c.val * 32 + r.val) * 128 + l.val = ((0 * 8 + c.val) * 32 + r.val) * 128 + l.val
  omega

section Loads

variable {sig : RefSig} {κ : Kind} {sp : Space}

/-- The 40-row window loaded from the scratch held at `X`, its first row `off 1`. -/
theorem rowLoad_at (m : Memref sig κ sp KS .f32) (hm : m.IsWhole) (X : KS.Idx → Elt Ideal .f32) (off : Fin 3 → ℕ)
    (inb : ∀ a, off a + KR.size a ≤ KS.size a) (e0 : off 0 = 0) (e2 : off 2 = 0)
    (c : Fin 8) (a : Fin 40) (b : Fin 520) (ha : off 1 + a.val < 264) :
    View.readAt (Elt Ideal) m.view (Rect.unit (s := KS) off KR.size inb).toLoadRect (hm.unread X) (ix3 c a b)
      = X (ix3 c ⟨off 1 + a.val, ha⟩ b) := by
  refine (hm.readAt_unread X _ _).trans (congrArg X (funext fun d => Fin.ext ?_))
  match d with
  | ⟨0, _⟩ => show off 0 + 1 * c.val = c.val; omega
  | ⟨1, _⟩ => show off 1 + 1 * a.val = off 1 + a.val; omega
  | ⟨2, _⟩ => show off 2 + 1 * b.val = b.val; omega

/-- A tile's plane number and its lanes are inside the filter block: the rectangle's own in-bounds evidence says so. -/
theorem tile_k_lt {k o : ℕ} (inb : ∀ a, (![0, k, 0, o] : Fin 4 → ℕ) a + (![1, 1, 32, 128] : Fin 4 → ℕ) a ≤ KF.size a) : k < 81 := by
  have := inb (⟨1, by decide⟩ : Fin 4)
  change k + 1 ≤ 81 at this
  omega

theorem tile_l_lt {k o : ℕ} (inb : ∀ a, (![0, k, 0, o] : Fin 4 → ℕ) a + (![1, 1, 32, 128] : Fin 4 → ℕ) a ≤ KF.size a)
    (l : Fin 128) : o + l.val < 512 := by
  have := inb (⟨3, by decide⟩ : Fin 4)
  change o + 128 ≤ 512 at this
  omega

theorem bias_l_lt {o : ℕ} (inb : ∀ a, (![0, 0, 0, o] : Fin 4 → ℕ) a + (![1, 1, 32, 128] : Fin 4 → ℕ) a ≤ KB.size a)
    (l : Fin 128) : o + l.val < 512 := by
  have := inb (⟨3, by decide⟩ : Fin 4)
  change o + 128 ≤ 512 at this
  omega

/-- Filter tile `k`, lanes from `o`, loaded from the filter block held at `X`. -/
theorem tileLoad_at (m : Memref sig κ sp KF .f32) (hm : m.IsWhole) (X : KF.Idx → Elt Ideal .f32) (k o : ℕ)
    (inb : ∀ a, (![0, k, 0, o] : Fin 4 → ℕ) a + (![1, 1, 32, 128] : Fin 4 → ℕ) a ≤ KF.size a)
    (r : Fin 32) (l : Fin 128) :
    View.readAt (Elt Ideal) m.view (Rect.unit (s := KF) ![0, k, 0, o] ![1, 1, 32, 128] inb).toLoadRect (hm.unread X)
        (ix4 (0 : Fin 1) (0 : Fin 1) r l)
      = X (ix4 0 ⟨k, tile_k_lt inb⟩ r ⟨o + l.val, tile_l_lt inb l⟩) := by
  refine (hm.readAt_unread X _ _).trans (congrArg X (funext fun d => Fin.ext ?_))
  match d with
  | ⟨0, _⟩ => show 0 + 1 * 0 = 0; omega
  | ⟨1, _⟩ => show k + 1 * 0 = k; omega
  | ⟨2, _⟩ => show 0 + 1 * r.val = r.val; omega
  | ⟨3, _⟩ => show o + 1 * l.val = o + l.val; omega

/-- The bias tile, lanes from `o`, loaded from the bias block held at `X`. -/
theorem biasLoad_at (m : Memref sig κ sp KB .f32) (hm : m.IsWhole) (X : KB.Idx → Elt Ideal .f32) (o : ℕ)
    (inb : ∀ a, (![0, 0, 0, o] : Fin 4 → ℕ) a + (![1, 1, 32, 128] : Fin 4 → ℕ) a ≤ KB.size a)
    (r : Fin 32) (l : Fin 128) :
    View.readAt (Elt Ideal) m.view (Rect.unit (s := KB) ![0, 0, 0, o] ![1, 1, 32, 128] inb).toLoadRect (hm.unread X)
        (ix4 (0 : Fin 1) (0 : Fin 1) r l)
      = X (ix4 0 0 r ⟨o + l.val, bias_l_lt inb l⟩) := by
  refine (hm.readAt_unread X _ _).trans (congrArg X (funext fun d => Fin.ext ?_))
  match d with
  | ⟨0, _⟩ => show 0 + 1 * 0 = 0; omega
  | ⟨1, _⟩ => show 0 + 1 * 0 = 0; omega
  | ⟨2, _⟩ => show 0 + 1 * r.val = r.val; omega
  | ⟨3, _⟩ => show o + 1 * l.val = o + l.val; omega

end Loads

end Cert.DynFilter

end
-- ==== Proof.OutBlock.lean ====
/-
  What one grid point leaves in its output block and in the scratch, read at a pixel.

  The body's stores are found by the generated run as pieces: four tiles of 128 lanes for the output block, and, at the
  first point of a batch item, two stores into the scratch (zeros everywhere, then the picture block from row 4,
  column 4). Each output tile's payload is 81 multiply-adds over a 40-row window of the scratch, then the bias; read at a
  pixel it is the ordered sum of the 81 taps in the kernel's order, which is the result function `G` there (`G_colMajor`).
  The two cases differ only in where the 40-row window comes from: the scratch as the previous point left it (case B), or
  the two stores this very point has just made (case A); in both it reads as the zero-padded picture (`rowWindow_at`).
-/
import proofs.«130869_j58780922413140_2_alg».proof.Proof.Spec
import proofs.«130869_j58780922413140_2_alg».proof.Proof.KerTap
import proofs.«130869_j58780922413140_2_alg».proof.Proof.Gen.KernelIdeal.Value
import Idealize.ShloMosaic.Lib.Pipeline.Value
import Idealize.ShloMosaic.Lib.WholeRead
import Idealize.ShloMosaic.Lib.Tactic

set_option maxRecDepth 16384

noncomputable section

namespace Cert.KernelIdeal.Block

open Idealize.ShloMosaic Idealize.ShloMosaic.TcCoe Idealize.SL.Sem Idealize.ShloMosaic.Tactic Idealize.ShloMosaic.ValueIdx
open Cert.KernelIdeal Cert.KernelIdeal.Gen Cert.DynFilter

/-- A stored piece's pixel `(0, c, r, l)`, 128 lanes from lane `o`, is pixel `(0, c, r, o + l)` of the block. -/
theorem piece_emb (o : ℕ) (inb : ∀ a, (![0, 0, 0, o] : Fin 4 → ℕ) a + (![1, 8, 32, 128] : Fin 4 → ℕ) a ≤ S1x8x32x512.size a)
    (c : Fin 8) (r : Fin 32) (l : Fin 128) (hl : o + l.val < 512) :
    (Rect.unit (s := S1x8x32x512) ![0, 0, 0, o] ![1, 8, 32, 128] inb).emb (ix4 (0 : Fin 1) c r l) = ix4 0 c r ⟨o + l.val, hl⟩ := by
  funext d
  apply Fin.ext
  match d with
  | ⟨0, _⟩ => show 0 + 1 * 0 = 0; omega
  | ⟨1, _⟩ => show 0 + 1 * c.val = c.val; omega
  | ⟨2, _⟩ => show 0 + 1 * r.val = r.val; omega
  | ⟨3, _⟩ => show o + 1 * l.val = o + l.val; omega

theorem hz3 : (![0, 0, 0] : Fin 3 → ℕ) = fun _ => 0 := funext fun a => by fin_cases a <;> rfl
theorem hz4 : (![0, 0, 0, 0] : Fin 4 → ℕ) = fun _ => 0 := funext fun a => by fin_cases a <;> rfl

/-- What the reset leaves in the scratch — zeros stored everywhere, then the picture block stored from row 4, column 4 —
    read at `(c, a, b)`: the zero-padded picture of batch item `n`, when the block is that item of the argument. -/
theorem scratch_at {sig : RefSig} {κ : Kind} {sp : Space} (m : Memref sig κ sp S1x8x256x512 .f32) (hm : m.IsWhole)
    (x0 : Vec Ideal S1x8x256x512 .f32) (X : SX.Idx → EReal) (n : Fin 2)
    (HX : ∀ (c : Fin 8) (p : Fin 256) (q : Fin 512), x0 (ix4 0 c p q) = X (ix4 n c p q))
    (inb1 : ∀ a, (![0, 4, 4] : Fin 3 → ℕ) a + S8x256x512.size a ≤ S8x264x520.size a)
    (inb0 : ∀ a, (![0, 0, 0] : Fin 3 → ℕ) a + S8x264x520.size a ≤ S8x264x520.size a)
    (inb2 : ∀ a, (![0, 0, 0, 0] : Fin 4 → ℕ) a + S1x8x256x512.size a ≤ S1x8x256x512.size a)
    (c : Fin 8) (a b : ℕ) (ha : a < 264) (hb : b < 520) :
    View.canon (Val := Elt Ideal) (s := S8x264x520) (e := .f32) [⟨Rect.unit (s := S8x264x520) ![0, 4, 4] S8x256x512.size inb1,
          k0_pay3 (F := Ideal) (View.readAt (Elt Ideal) m.view (Rect.unit (s := S1x8x256x512) ![0, 0, 0, 0] S1x8x256x512.size inb2).toLoadRect (hm.unread x0))⟩,
        ⟨Rect.unit (s := S8x264x520) ![0, 0, 0] S8x264x520.size inb0, k0_pay2 (F := Ideal)⟩] (ix3 c ⟨a, ha⟩ ⟨b, hb⟩)
      = padded X 0 n c a b := by
  unfold padded
  by_cases h : (4 ≤ a ∧ a < 260) ∧ (4 ≤ b ∧ b < 516)
  · rw [dif_pos h]
    have e : (ix3 c ⟨a, ha⟩ ⟨b, hb⟩ : S8x264x520.Idx)
        = (Rect.unit (s := S8x264x520) ![0, 4, 4] S8x256x512.size inb1).emb (ix3 c (⟨a - 4, by omega⟩ : Fin 256) (⟨b - 4, by omega⟩ : Fin 512)) := by
      funext d
      apply Fin.ext
      match d with
      | ⟨0, _⟩ => show c.val = 0 + 1 * c.val; omega
      | ⟨1, _⟩ => show a = 4 + 1 * (a - 4); omega
      | ⟨2, _⟩ => show b = 4 + 1 * (b - 4); omega
    rw [e, View.canon_cons_emb]
    unfold k0_pay3
    try dsimp only
    rw [shapeCast_self]
    refine (shapeCast_apply _ _ (ix3 c (⟨a - 4, by omega⟩ : Fin 256) (⟨b - 4, by omega⟩ : Fin 512)) (ix4 (0 : Fin 1) c (⟨a - 4, by omega⟩ : Fin 256) (⟨b - 4, by omega⟩ : Fin 512)) ?_).trans ?_
    · rw [Shape.rowMajor_val_three, Shape.rowMajor_val_four]
      show ((0 * 8 + c.val) * 256 + (a - 4)) * 512 + (b - 4) = (c.val * 256 + (a - 4)) * 512 + (b - 4)
      omega
    rw [View.readAt_eq_ld, hm.read_unread, View.ld_unit_zero (S := S1x8x256x512) hz4]
    exact HX c _ _
  · rw [dif_neg h]
    rw [View.canon_cons_of_not_mem]
    · rw [View.canon_unit_zero hz3]
      unfold k0_pay2
      try dsimp only
      rw [shapeCast_self]
      show Scalar.ofBits (F := Ideal) .f32 0x00000000#32 = 0
      simp only [Scalar.ofBits, Ideal.ofBits_def, Ideal.ofBits_zero_f32]
    · intro hmem
      rw [Rect.mem_set_unit] at hmem
      have h1 := hmem (⟨1, by decide⟩ : Fin 3)
      have h2 := hmem (⟨2, by decide⟩ : Fin 3)
      change 4 ≤ a ∧ a < 4 + 256 at h1
      change 4 ≤ b ∧ b < 4 + 512 at h2
      exact h ⟨⟨h1.1, by omega⟩, ⟨h2.1, by omega⟩⟩

/-- A buffer whose contents read as the zero-padded picture, looked at through the 40-row window that starts at row
    `32·hi`: row `r + i`, column `l + j + o` of the window is the padded picture at `(32·hi + r + i, o + l + j)`. -/
theorem rowWindow_at (S : S8x264x520.Idx → EReal) (X : SX.Idx → EReal) (n : Fin 2) (hi : Fin 8)
    (HS : ∀ (c : Fin 8) (a b : ℕ) (ha : a < 264) (hb : b < 520), S (ix3 c ⟨a, ha⟩ ⟨b, hb⟩) = padded X 0 n c a b)
    (off : Fin 3 → ℕ) (inb : ∀ a, off a + S8x40x520.size a ≤ S8x264x520.size a) (hoff : off = ![0, 32 * hi.val, 0])
    (c : Fin 8) (r : Fin 32) (l : Fin 128) (i j o : ℕ) (h1 : r.val + i < 40) (h2 : l.val + j + o < 520) :
    S ((Rect.unit (s := S8x264x520) off S8x40x520.size inb).toLoadRect.idx (ix3 c ⟨r.val + i, h1⟩ ⟨l.val + j + o, h2⟩))
      = padded X 0 n c (32 * hi.val + r.val + i) (o + l.val + j) := by
  subst hoff
  have hh := hi.isLt
  have e : (Rect.unit (s := S8x264x520) ![0, 32 * hi.val, 0] S8x40x520.size inb).toLoadRect.idx (ix3 c ⟨r.val + i, h1⟩ ⟨l.val + j + o, h2⟩)
      = ix3 c (⟨32 * hi.val + r.val + i, by omega⟩ : Fin 264) (⟨o + l.val + j, by omega⟩ : Fin 520) := by
    funext d
    apply Fin.ext
    match d with
    | ⟨0, _⟩ => show 0 + 1 * c.val = c.val; omega
    | ⟨1, _⟩ => show 32 * hi.val + 1 * (r.val + i) = 32 * hi.val + r.val + i; omega
    | ⟨2, _⟩ => show 0 + 1 * (l.val + j + o) = o + l.val + j; omega
  rw [e, HS]

set_option hygiene false in
/-- One stored piece (128 lanes from lane `o`) agrees with the result function at every one of its pixels: the 81 taps
    and the bias are read at the pixel, and the accumulation is the kernel's order of the result's sum. -/
macro "piece_value " o:num : tactic => `(tactic| (
    intro x
    obtain ⟨xa, cc, rr, ll, rfl⟩ : ∃ (a : Fin 1) (b : Fin 8) (c : Fin 32) (d : Fin 128), x = ix4 a b c d := ⟨x 0, x 1, x 2, x 3, eq_ix4 x⟩
    obtain rfl : xa = 0 := Subsingleton.elim _ _
    dsimp only
    rw [piece_emb $o _ cc rr ll (by have := ll.isLt; omega)]
    show _ = G X Fl Bi (ix4 n cc ⟨32 * hi.val + rr.val, by have := hi.isLt; have := rr.isLt; omega⟩ ⟨$o + ll.val, by have := ll.isLt; omega⟩)
    rw [G_colMajor]
    show _ = acc (tap X Fl n cc ⟨32 * hi.val + rr.val, by have := hi.isLt; have := rr.isLt; omega⟩ ⟨$o + ll.val, by have := ll.isLt; omega⟩) colMajor + Bi (ix4 n 0 ⟨32 * hi.val + rr.val, by have := hi.isLt; have := rr.isLt; omega⟩ ⟨$o + ll.val, by have := ll.isLt; omega⟩)
    rw [acc_colMajor]
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149]
    simp only [kerOut_at, addf_apply, kerBias_at, kerTap_at, broadcast_apply, tileLoad_at, biasLoad_at, HV, HF, HB,
      Scalar.ofBits, Ideal.ofBits_def, Ideal.ofBits_zero_f32, tap, Nat.reduceDiv, Nat.reduceMod]))

set_option maxHeartbeats 8000000

/-- CASE B (a point that is not the first of its batch item): the output block at a pixel, when the carried scratch
    reads as the zero-padded picture of the item and the filter and bias blocks are rows `32·hi …` of the arguments. -/
theorem out_B_at (c : Dev nD) (i : grid0.Coords) (arg2 : Memref sig .tc .vmem S1x8x256x512 .f32) (harg2 : arg2.IsWhole) (arg3 : Memref sig .tc .vmem S1x81x32x512 .f32) (harg3 : arg3.IsWhole) (arg4 : Memref sig .tc .vmem S1x1x32x512 .f32) (harg4 : arg4.IsWhole) (arg5 : Memref sig .tc .vmem S1x8x32x512 .f32) (harg5 : arg5.IsWhole) (arg6 : Memref sig .tc .vmem S8x264x520 .f32) (harg6 : arg6.IsWhole) (hc0 : ¬cond0_0 i)
    (x0 : Vec Ideal S1x8x256x512 .f32) (x1 : Vec Ideal S1x81x32x512 .f32) (x2 : Vec Ideal S1x1x32x512 .f32) (xs0 : Vec Ideal S8x264x520 .f32)
    (X : SX.Idx → EReal) (Fl : SF.Idx → EReal) (Bi : SB.Idx → EReal) (n : Fin 2) (hi : Fin 8)
    (hoff : k0_off1 i = ![0, 32 * hi.val, 0])
    (HF : ∀ (k : ℕ) (hk : k < 81) (r : Fin 32) (l : ℕ) (hl : l < 512),
        x1 (ix4 0 ⟨k, hk⟩ r ⟨l, hl⟩) = filt Fl n k ⟨32 * hi.val + r.val, by have := hi.isLt; have := r.isLt; omega⟩ ⟨l, hl⟩)
    (HB : ∀ (r : Fin 32) (l : ℕ) (hl : l < 512),
        x2 (ix4 0 0 r ⟨l, hl⟩) = Bi (ix4 n 0 ⟨32 * hi.val + r.val, by have := hi.isLt; have := r.isLt; omega⟩ ⟨l, hl⟩))
    (HS : ∀ (c' : Fin 8) (a b : ℕ) (ha : a < 264) (hb : b < 520), xs0 (ix3 c' ⟨a, ha⟩ ⟨b, hb⟩) = padded X 0 n c' a b)
    (c' : Fin 8) (r : Fin 32) (w : Fin 512) :
    out0_B_3 (F := Ideal) c i arg2 harg2 arg3 harg3 arg4 harg4 arg5 harg5 arg6 harg6 hc0 x0 x1 x2 xs0 (ix4 0 c' r w)
      = G X Fl Bi (ix4 n c' ⟨32 * hi.val + r.val, by have := hi.isLt; have := r.isLt; omega⟩ w) := by
  unfold out0_B_3
  rw [View.read_writes_eq_canon _ _ _ (cover0_B_3 c i arg2 harg2 arg3 harg3 arg4 harg4 arg5 harg5 arg6 harg6 hc0 x0 x1 x2 xs0)]
  refine View.canon_apply_of_pieces (fun y : S1x8x32x512.Idx => G X Fl Bi (ix4 n (y 1) ⟨32 * hi.val + (y 2).val, by have := hi.isLt; have h2 : (y 2).val < 32 := (y 2).isLt; omega⟩ (y 3)))
    _ ?_ (ix4 0 c' r w) (cover0_B_3 c i arg2 harg2 arg3 harg3 arg4 harg4 arg5 harg5 arg6 harg6 hc0 x0 x1 x2 xs0 (ix4 0 c' r w))
  unfold kernelRun0_B
  dsimp only
  sl_unfold_words
  generalize hV : View.readAt (Elt Ideal) arg6.view _ (harg6.unread xs0) = V6
  have HV : ∀ (c' : Fin 8) (r : Fin 32) (l : Fin 128) (i' j' o' : ℕ) (h1 : r.val + i' < 40) (h2 : l.val + j' + o' < 520),
      V6 (ix3 c' ⟨r.val + i', h1⟩ ⟨l.val + j' + o', h2⟩) = padded X 0 n c' (32 * hi.val + r.val + i') (o' + l.val + j') := by
    intro c' r l i' j' o' h1 h2
    have hV2 : View.readAt (Elt Ideal) arg6.view (Rect.unit (s := S8x264x520) (k0_off1 i) S8x40x520.size (k0_off1_inb i)).toLoadRect (harg6.unread xs0) = V6 := hV
    rw [← hV2]
    exact (harg6.readAt_unread xs0 _ _).trans (rowWindow_at xs0 X n hi HS (k0_off1 i) (k0_off1_inb i) hoff c' r l i' j' o' h1 h2)
  intro p hp
  simp only [List.mem_cons, List.not_mem_nil, or_false] at hp
  rcases hp with rfl | rfl | rfl | rfl
  · piece_value 384
  · piece_value 256
  · piece_value 128
  · piece_value 0

/-- CASE A (the first point of a batch item): the scratch is reset to the zero-padded picture block, and the output
    block is computed from it. First what the scratch then holds, -/
theorem sout_A_at (c : Dev nD) (i : grid0.Coords) (arg2 : Memref sig .tc .vmem S1x8x256x512 .f32) (harg2 : arg2.IsWhole) (arg3 : Memref sig .tc .vmem S1x81x32x512 .f32) (harg3 : arg3.IsWhole) (arg4 : Memref sig .tc .vmem S1x1x32x512 .f32) (harg4 : arg4.IsWhole) (arg5 : Memref sig .tc .vmem S1x8x32x512 .f32) (harg5 : arg5.IsWhole) (arg6 : Memref sig .tc .vmem S8x264x520 .f32) (harg6 : arg6.IsWhole) (hc0 : cond0_0 i)
    (x0 : Vec Ideal S1x8x256x512 .f32) (x1 : Vec Ideal S1x81x32x512 .f32) (x2 : Vec Ideal S1x1x32x512 .f32)
    (X : SX.Idx → EReal) (n : Fin 2)
    (HX : ∀ (c : Fin 8) (p : Fin 256) (q : Fin 512), x0 (ix4 0 c p q) = X (ix4 n c p q))
    (c' : Fin 8) (a b : ℕ) (ha : a < 264) (hb : b < 520) :
    sout0_A_0 (F := Ideal) c i arg2 harg2 arg3 harg3 arg4 harg4 arg5 harg5 arg6 harg6 hc0 x0 x1 x2 (ix3 c' ⟨a, ha⟩ ⟨b, hb⟩) = padded X 0 n c' a b := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  exact scratch_at arg2 harg2 x0 X n HX _ _ _ c' a b ha hb

/-- then the output block at a pixel. -/
theorem out_A_at (c : Dev nD) (i : grid0.Coords) (arg2 : Memref sig .tc .vmem S1x8x256x512 .f32) (harg2 : arg2.IsWhole) (arg3 : Memref sig .tc .vmem S1x81x32x512 .f32) (harg3 : arg3.IsWhole) (arg4 : Memref sig .tc .vmem S1x1x32x512 .f32) (harg4 : arg4.IsWhole) (arg5 : Memref sig .tc .vmem S1x8x32x512 .f32) (harg5 : arg5.IsWhole) (arg6 : Memref sig .tc .vmem S8x264x520 .f32) (harg6 : arg6.IsWhole) (hc0 : cond0_0 i)
    (x0 : Vec Ideal S1x8x256x512 .f32) (x1 : Vec Ideal S1x81x32x512 .f32) (x2 : Vec Ideal S1x1x32x512 .f32)
    (X : SX.Idx → EReal) (Fl : SF.Idx → EReal) (Bi : SB.Idx → EReal) (n : Fin 2) (hi : Fin 8)
    (hoff : k0_off1 i = ![0, 32 * hi.val, 0])
    (HF : ∀ (k : ℕ) (hk : k < 81) (r : Fin 32) (l : ℕ) (hl : l < 512),
        x1 (ix4 0 ⟨k, hk⟩ r ⟨l, hl⟩) = filt Fl n k ⟨32 * hi.val + r.val, by have := hi.isLt; have := r.isLt; omega⟩ ⟨l, hl⟩)
    (HB : ∀ (r : Fin 32) (l : ℕ) (hl : l < 512),
        x2 (ix4 0 0 r ⟨l, hl⟩) = Bi (ix4 n 0 ⟨32 * hi.val + r.val, by have := hi.isLt; have := r.isLt; omega⟩ ⟨l, hl⟩))
    (HX : ∀ (c : Fin 8) (p : Fin 256) (q : Fin 512), x0 (ix4 0 c p q) = X (ix4 n c p q))
    (c' : Fin 8) (r : Fin 32) (w : Fin 512) :
    out0_A_3 (F := Ideal) c i arg2 harg2 arg3 harg3 arg4 harg4 arg5 harg5 arg6 harg6 hc0 x0 x1 x2 (ix4 0 c' r w)
      = G X Fl Bi (ix4 n c' ⟨32 * hi.val + r.val, by have := hi.isLt; have := r.isLt; omega⟩ w) := by
  unfold out0_A_3
  rw [View.read_writes_eq_canon _ _ _ (cover0_A_3 c i arg2 harg2 arg3 harg3 arg4 harg4 arg5 harg5 arg6 harg6 hc0 x0 x1 x2)]
  refine View.canon_apply_of_pieces (fun y : S1x8x32x512.Idx => G X Fl Bi (ix4 n (y 1) ⟨32 * hi.val + (y 2).val, by have := hi.isLt; have h2 : (y 2).val < 32 := (y 2).isLt; omega⟩ (y 3)))
    _ ?_ (ix4 0 c' r w) (cover0_A_3 c i arg2 harg2 arg3 harg3 arg4 harg4 arg5 harg5 arg6 harg6 hc0 x0 x1 x2 (ix4 0 c' r w))
  unfold kernelRun0_A
  dsimp only
  sl_unfold_words
  generalize hV : View.readAt (Elt Ideal) arg6.view _ (arg6.view.writes (Elt Ideal) arg6.view.junk _) = V6
  have HV : ∀ (c' : Fin 8) (r : Fin 32) (l : Fin 128) (i' j' o' : ℕ) (h1 : r.val + i' < 40) (h2 : l.val + j' + o' < 520),
      V6 (ix3 c' ⟨r.val + i', h1⟩ ⟨l.val + j' + o', h2⟩) = padded X 0 n c' (32 * hi.val + r.val + i') (o' + l.val + j') := by
    intro c' r l i' j' o' h1 h2
    have hV2 : View.readAt (Elt Ideal) arg6.view (Rect.unit (s := S8x264x520) (k0_off1 i) S8x40x520.size (k0_off1_inb i)).toLoadRect (arg6.view.writes (Elt Ideal) arg6.view.junk _) = V6 := hV
    rw [← hV2, View.readAt_writes_junk_eq_canon]
    exact rowWindow_at _ X n hi (fun c a b ha hb => scratch_at arg2 harg2 x0 X n HX _ _ _ c a b ha hb) (k0_off1 i) (k0_off1_inb i) hoff c' r l i' j' o' h1 h2
  intro p hp
  simp only [List.mem_cons, List.not_mem_nil, or_false] at hp
  rcases hp with rfl | rfl | rfl | rfl
  · piece_value 384
  · piece_value 256
  · piece_value 128
  · piece_value 0

end Cert.KernelIdeal.Block

end
-- ==== Proof.KerValue.lean ====
/-
  The kernel's result array, point by point.

  The grid has sixteen points, `t = 8·n + hi`: batch item `n = t / 8`, row tile `hi = t % 8` (32 rows). At `hi = 0` the
  body resets its scratch to the zero-padded picture of item `n`; the other seven points of the item find it there. So
  after EVERY point the scratch reads as the padded picture of the point's item (`scratch_inv`, by induction on the
  point), and every point writes back the block of the result function `G` that its rectangle names (`flushed_eq`).
  The sixteen blocks tile the array (`cover`), so the array ends holding `G` of the three arguments (`final`, `run`).
-/
import proofs.«130869_j58780922413140_2_alg».proof.Proof.OutBlock

set_option maxRecDepth 16384

noncomputable section

namespace Cert.KernelIdeal.KerValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.KernelIdeal.Block Cert.DynFilter

variable (m : (ℓ : Loc nD τ sig) → Buf (Elt Ideal) ℓ) (ρ : Dev nD → PrngReg)

/-- The schedule, decided once over the sixteen points: the first row of the 40-row window, and each window's block
    index, as functions of the point. -/
theorem sched : ∀ t : Fin cfg0.N,
    k0_off1 (grid0.coords t) = ![0, 32 * (t.val % 8), 0]
    ∧ win0_0.index t = ![t.val / 8, 0, 0, 0]
    ∧ win0_1.index t = ![t.val / 8, 0, t.val % 8, 0]
    ∧ win0_2.index t = ![t.val / 8, 0, t.val % 8, 0]
    ∧ win0_3.index t = ![t.val / 8, 0, t.val % 8, 0] :=
  (by decide +kernel : ∀ t : Fin grid0.N, _)

/-- The batch item and the row tile of a point. -/
def itemOf (t : Fin cfg0.N) : Fin 2 := ⟨t.val / 8, by have h := t.isLt; have hN : cfg0.N = 16 := N_0; omega⟩
def tileOf (t : Fin cfg0.N) : Fin 8 := ⟨t.val % 8, Nat.mod_lt _ (by decide)⟩

/-- The picture block of a point is its batch item of the picture argument; -/
theorem blk0_at (c : Dev nD) (t : Fin cfg0.N) (cc : Fin 8) (p : Fin 256) (q : Fin 512) :
    (iblk m c 0 t : Vec Ideal S1x8x256x512 .f32) (ix4 0 cc p q) = V m c main_arg0 (ix4 (itemOf t) cc p q) := by
  obtain ⟨-, e0, -, -, -⟩ := sched t
  have a0 : win0_0.index t (0 : Fin 4) = t.val / 8 := by rw [e0]; rfl
  have a1 : win0_0.index t (1 : Fin 4) = 0 := by rw [e0]; rfl
  have a2 : win0_0.index t (2 : Fin 4) = 0 := by rw [e0]; rfl
  have a3 : win0_0.index t (3 : Fin 4) = 0 := by rw [e0]; rfl
  show V m c main_arg0 (((cfg0.win 0).blk t).view.emb (ix4 0 cc p q)) = _
  refine congrArg (V m c main_arg0) (funext fun a => Fin.ext ?_)
  match a with
  | ⟨0, _⟩ => show win0_0.index t (0 : Fin 4) * 1 + 1 * 0 = t.val / 8; omega
  | ⟨1, _⟩ => show win0_0.index t (1 : Fin 4) * 8 + 1 * cc.val = cc.val; omega
  | ⟨2, _⟩ => show win0_0.index t (2 : Fin 4) * 256 + 1 * p.val = p.val; omega
  | ⟨3, _⟩ => show win0_0.index t (3 : Fin 4) * 512 + 1 * q.val = q.val; omega

/-- its filter block the 32 rows of its tile, of every plane of the item; -/
theorem blk1_at (c : Dev nD) (t : Fin cfg0.N) (k : ℕ) (hk : k < 81) (r : Fin 32) (l : ℕ) (hl : l < 512) :
    (iblk m c 1 t : Vec Ideal S1x81x32x512 .f32) (ix4 0 ⟨k, hk⟩ r ⟨l, hl⟩)
      = filt (V m c main_arg1) (itemOf t) k ⟨32 * (tileOf t).val + r.val, by have := (tileOf t).isLt; have := r.isLt; omega⟩ ⟨l, hl⟩ := by
  obtain ⟨-, -, e1, -, -⟩ := sched t
  have a0 : win0_1.index t (0 : Fin 4) = t.val / 8 := by rw [e1]; rfl
  have a1 : win0_1.index t (1 : Fin 4) = 0 := by rw [e1]; rfl
  have a2 : win0_1.index t (2 : Fin 4) = t.val % 8 := by rw [e1]; rfl
  have a3 : win0_1.index t (3 : Fin 4) = 0 := by rw [e1]; rfl
  unfold filt
  rw [dif_pos hk]
  show V m c main_arg1 (((cfg0.win 1).blk t).view.emb (ix4 0 ⟨k, hk⟩ r ⟨l, hl⟩)) = _
  refine congrArg (V m c main_arg1) (funext fun a => Fin.ext ?_)
  match a with
  | ⟨0, _⟩ => show win0_1.index t (0 : Fin 4) * 1 + 1 * 0 = t.val / 8; omega
  | ⟨1, _⟩ => show win0_1.index t (1 : Fin 4) * 81 + 1 * k = k; omega
  | ⟨2, _⟩ => show win0_1.index t (2 : Fin 4) * 32 + 1 * r.val = 32 * (t.val % 8) + r.val; omega
  | ⟨3, _⟩ => show win0_1.index t (3 : Fin 4) * 512 + 1 * l = l; omega

/-- and its bias block the same rows of the item's bias plane. -/
theorem blk2_at (c : Dev nD) (t : Fin cfg0.N) (r : Fin 32) (l : ℕ) (hl : l < 512) :
    (iblk m c 2 t : Vec Ideal S1x1x32x512 .f32) (ix4 0 0 r ⟨l, hl⟩)
      = V m c main_arg2 (ix4 (itemOf t) 0 ⟨32 * (tileOf t).val + r.val, by have := (tileOf t).isLt; have := r.isLt; omega⟩ ⟨l, hl⟩) := by
  obtain ⟨-, -, -, e2, -⟩ := sched t
  have a0 : win0_2.index t (0 : Fin 4) = t.val / 8 := by rw [e2]; rfl
  have a1 : win0_2.index t (1 : Fin 4) = 0 := by rw [e2]; rfl
  have a2 : win0_2.index t (2 : Fin 4) = t.val % 8 := by rw [e2]; rfl
  have a3 : win0_2.index t (3 : Fin 4) = 0 := by rw [e2]; rfl
  show V m c main_arg2 (((cfg0.win 2).blk t).view.emb (ix4 0 0 r ⟨l, hl⟩)) = _
  refine congrArg (V m c main_arg2) (funext fun a => Fin.ext ?_)
  match a with
  | ⟨0, _⟩ => show win0_2.index t (0 : Fin 4) * 1 + 1 * 0 = t.val / 8; omega
  | ⟨1, _⟩ => show win0_2.index t (1 : Fin 4) * 1 + 1 * 0 = 0; omega
  | ⟨2, _⟩ => show win0_2.index t (2 : Fin 4) * 32 + 1 * r.val = 32 * (t.val % 8) + r.val; omega
  | ⟨3, _⟩ => show win0_2.index t (3 : Fin 4) * 512 + 1 * l = l; omega

/-- THE INVARIANT: after every point the scratch reads as the zero-padded picture of the point's batch item — reset to it
    at the item's first point, untouched at the other seven. -/
theorem scratch_inv (c : Dev nD) : ∀ (k : ℕ) (hk : k < cfg0.N) (cc : Fin 8) (a b : ℕ) (ha : a < 264) (hb : b < 520),
    (outsAt0 m c k hk).2 (ix3 cc ⟨a, ha⟩ ⟨b, hb⟩) = padded (V m c main_arg0) 0 (itemOf ⟨k, hk⟩) cc a b := by
  intro k
  induction k using Nat.strong_induction_on with
  | _ k ih =>
    intro hk cc a b ha hb
    by_cases h0 : k % 8 = 0
    · rw [outsAt0_A m c ⟨k, hk⟩ h0]
      dsimp only
      exact sout_A_at c (grid0.coords ⟨k, hk⟩) (ms0_0 ⟨k, hk⟩) (hs0_0 ⟨k, hk⟩) (ms0_1 ⟨k, hk⟩) (hs0_1 ⟨k, hk⟩) (ms0_2 ⟨k, hk⟩) (hs0_2 ⟨k, hk⟩) (ms0_3 ⟨k, hk⟩) (hs0_3 ⟨k, hk⟩) scM0_0 (Memref.isWhole_whole _) ((hcond0_0 ⟨k, hk⟩).mpr h0)
        (iblk m c 0 ⟨k, hk⟩) (iblk m c 1 ⟨k, hk⟩) (iblk m c 2 ⟨k, hk⟩) (V m c main_arg0) (itemOf ⟨k, hk⟩)
        (fun cc p q => blk0_at m c ⟨k, hk⟩ cc p q) cc a b ha hb
    · rw [outsAt0_B m c ⟨k, hk⟩ h0]
      dsimp only
      unfold sout0_B_0
      have hk1 : k - 1 < k := by omega
      have e : itemOf (⟨k - 1, Nat.lt_of_le_of_lt (Nat.sub_le _ _) hk⟩ : Fin cfg0.N) = itemOf ⟨k, hk⟩ :=
        Fin.ext (by show (k - 1) / 8 = k / 8; omega)
      rw [← e]
      exact ih (k - 1) hk1 _ cc a b ha hb

/-- WHAT POINT `t` WRITES BACK is block `t` of the result function of the three argument arrays. -/
theorem flushed_eq (c : Dev nD) (t : Fin cfg0.N) :
    (dats m 0 c).flushed 3 t
      = ((cfg0.win 3).blk t).view.read (Elt Ideal) (G (V m c main_arg0) (V m c main_arg1) (V m c main_arg2)) := by
  obtain ⟨eoff, -, -, -, e3⟩ := sched t
  have a0 : win0_3.index t (0 : Fin 4) = t.val / 8 := by rw [e3]; rfl
  have a1 : win0_3.index t (1 : Fin 4) = 0 := by rw [e3]; rfl
  have a2 : win0_3.index t (2 : Fin 4) = t.val % 8 := by rw [e3]; rfl
  have a3 : win0_3.index t (3 : Fin 4) = 0 := by rw [e3]; rfl
  funext y
  obtain ⟨ya, cc, r, w, rfl⟩ : ∃ (a : Fin 1) (b : Fin 8) (c : Fin 32) (d : Fin 512), y = ix4 a b c d := ⟨y 0, y 1, y 2, y 3, eq_ix4 y⟩
  obtain rfl : ya = 0 := Subsingleton.elim _ _
  have hemb : ((cfg0.win 3).blk t).view.emb (ix4 0 cc r w)
      = ix4 (itemOf t) cc (⟨32 * (tileOf t).val + r.val, by have := (tileOf t).isLt; have := r.isLt; omega⟩ : Fin 256) w := by
    funext a
    apply Fin.ext
    match a with
    | ⟨0, _⟩ => show win0_3.index t (0 : Fin 4) * 1 + 1 * 0 = t.val / 8; omega
    | ⟨1, _⟩ => show win0_3.index t (1 : Fin 4) * 8 + 1 * cc.val = cc.val; omega
    | ⟨2, _⟩ => show win0_3.index t (2 : Fin 4) * 32 + 1 * r.val = 32 * (t.val % 8) + r.val; omega
    | ⟨3, _⟩ => show win0_3.index t (3 : Fin 4) * 512 + 1 * w.val = w.val; omega
  show _ = G (V m c main_arg0) (V m c main_arg1) (V m c main_arg2) (((cfg0.win 3).blk t).view.emb (ix4 0 cc r w))
  rw [hemb]
  by_cases h0 : t.val % 8 = 0
  · rw [flushed3_A m c t h0]
    exact out_A_at c (grid0.coords t) (ms0_0 t) (hs0_0 t) (ms0_1 t) (hs0_1 t) (ms0_2 t) (hs0_2 t) (ms0_3 t) (hs0_3 t) scM0_0 (Memref.isWhole_whole _) ((hcond0_0 t).mpr h0)
      (iblk m c 0 t) (iblk m c 1 t) (iblk m c 2 t) (V m c main_arg0) (V m c main_arg1) (V m c main_arg2) (itemOf t) (tileOf t) eoff
      (fun k hk r l hl => blk1_at m c t k hk r l hl) (fun r l hl => blk2_at m c t r l hl)
      (fun cc p q => blk0_at m c t cc p q) cc r w
  · rw [flushed3_B m c t h0]
    have e : itemOf (⟨t.val - 1, Nat.lt_of_le_of_lt (Nat.sub_le _ _) t.isLt⟩ : Fin cfg0.N) = itemOf t :=
      Fin.ext (by show (t.val - 1) / 8 = t.val / 8; omega)
    exact out_B_at c (grid0.coords t) (ms0_0 t) (hs0_0 t) (ms0_1 t) (hs0_1 t) (ms0_2 t) (hs0_2 t) (ms0_3 t) (hs0_3 t) scM0_0 (Memref.isWhole_whole _) (fun h => h0 ((hcond0_0 t).mp h))
      (iblk m c 0 t) (iblk m c 1 t) (iblk m c 2 t) (outsAt0 m c (t.val - 1) (Nat.lt_of_le_of_lt (Nat.sub_le _ _) t.isLt)).2
      (V m c main_arg0) (V m c main_arg1) (V m c main_arg2) (itemOf t) (tileOf t) eoff
      (fun k hk r l hl => blk1_at m c t k hk r l hl) (fun r l hl => blk2_at m c t r l hl)
      (fun cc a b ha hb => by rw [← e]; exact scratch_inv m c (t.val - 1) _ cc a b ha hb) cc r w

/-- An index of the result array is in point `t`'s block iff each coordinate is in the block's range on its axis. -/
theorem mem_blk (t : Fin cfg0.N) (i : S2x8x256x512.Idx) :
    i ∈ ((cfg0.win 3).blk t).view.set ↔ ∀ a : Fin 4, win0_3.index t a * S1x8x32x512.size a ≤ (i a).val ∧ (i a).val < win0_3.index t a * S1x8x32x512.size a + S1x8x32x512.size a := by
  show i ∈ ((View.whole main_v0).slice (win0_3.rect t)).set ↔ _
  rw [View.set_slice_whole, Rect.mem_set_unit]
  exact Iff.rfl

/-- THE COVER: pixel `(n, c, h, w)` lies in the block of point `8·n + h / 32`. -/
theorem cover (i : S2x8x256x512.Idx) : ∃ t : Fin cfg0.N, (cfg0.win 3).flush t = true ∧ i ∈ ((cfg0.win 3).blk t).view.set := by
  have h0 : (i 0).val < 2 := (i 0).isLt
  have h1 : (i 1).val < 8 := (i 1).isLt
  have h2 : (i 2).val < 256 := (i 2).isLt
  have h3 : (i 3).val < 512 := (i 3).isLt
  have hN : cfg0.N = 16 := N_0
  let t : Fin cfg0.N := ⟨8 * (i 0).val + (i 2).val / 32, by omega⟩
  obtain ⟨-, -, -, -, e3⟩ := sched t
  have a0 : win0_3.index t (0 : Fin 4) = t.val / 8 := by rw [e3]; rfl
  have a1 : win0_3.index t (1 : Fin 4) = 0 := by rw [e3]; rfl
  have a2 : win0_3.index t (2 : Fin 4) = t.val % 8 := by rw [e3]; rfl
  have a3 : win0_3.index t (3 : Fin 4) = 0 := by rw [e3]; rfl
  have tv : t.val = 8 * (i 0).val + (i 2).val / 32 := rfl
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 8 ≤ (i 1).val ∧ (i 1).val < win0_3.index t (1 : Fin 4) * 8 + 8; omega
  | ⟨2, _⟩ => show win0_3.index t (2 : Fin 4) * 32 ≤ (i 2).val ∧ (i 2).val < win0_3.index t (2 : Fin 4) * 32 + 32; omega
  | ⟨3, _⟩ => show win0_3.index t (3 : Fin 4) * 512 ≤ (i 3).val ∧ (i 3).val < win0_3.index t (3 : Fin 4) * 512 + 512; omega

/-- THE RESULT ARRAY after the run: the result function of the three argument arrays. -/
theorem final (c : Dev nD) :
    (dats m 0 c).arrAt 3 cfg0.N = G (V m c main_arg0) (V m c main_arg1) (V m c main_arg2) :=
  (dats m 0 c).arrAt_eq_of_cover 3 (G (V m c main_arg0) (V m c main_arg1) (V m c main_arg2)) (fun t _ => flushed_eq m c t) (cover)

/-- The run, read: the result at `G` of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.KerValue

end
-- ==== Proof.RefTap.lean ====
/-
  The reference's two repeated shapes, read at a pixel, with the offsets as variables.

  * the zero-padding of the picture (`stablehlo.pad`, four low and four high on the two plane axes) read at an index of
    the padded array is `padded`: the picture four rows up and four columns left inside, the padding value in the border;
  * one tap: the window `[i : i + 256, j : j + 512]` of the padded array times filter plane `k` (sliced out, its unit
    axis dropped and put back, then repeated over the eight channels), read at pixel `(n, c, h, w)`, is the padded
    picture at `(h + i, w + j)` times `f[n, k, h, w]`.
-/
import proofs.«130869_j58780922413140_2_alg».proof.Proof.Spec
import Idealize.ShloMosaic.Lib.Pipeline.Value
import Idealize.ShloMosaic.Lib.KernelVsHost

noncomputable section

namespace Cert.DynFilter

open Idealize.ShloMosaic Idealize.ShloMosaic.ValueIdx

/-- The padded picture's shape, and the filter plane with its unit axis dropped. -/
abbrev SP : Shape := ⟨4, ![2, 8, 264, 520]⟩
abbrev SF3 : Shape := ⟨3, ![2, 256, 512]⟩

/-- The padded array at `(n, c, a, b)` is `padded` there, its border value the padding operand's one element. -/
theorem pad_at (x : SX.Idx → EReal) {u : Shape} (v : u.Idx → EReal)
    (hp : SX.Pads ![0, 0, 4, 4] ![0, 0, 4, 4] ![0, 0, 0, 0] SP) (hu : 0 < u.numel)
    (n : Fin 2) (c : Fin 8) (a : Fin 264) (b : Fin 520) :
    pad SP ![0, 0, 4, 4] ![0, 0, 4, 4] ![0, 0, 0, 0] x v hp hu (ix4 n c a b)
      = padded x (v (Shape.Idx.first hu)) n c a.val b.val := by
  unfold padded
  by_cases h : (4 ≤ a.val ∧ a.val < 260) ∧ (4 ≤ b.val ∧ b.val < 516)
  · rw [dif_pos h]
    refine pad_apply_of_inside _ _ _ x v hp hu _ (ix4 n c ⟨a.val - 4, by omega⟩ ⟨b.val - 4, by omega⟩) fun d => ?_
    match d with
    | ⟨0, _⟩ => show n.val = 0 + n.val * (0 + 1); omega
    | ⟨1, _⟩ => show c.val = 0 + c.val * (0 + 1); omega
    | ⟨2, _⟩ => show a.val = 4 + (a.val - 4) * (0 + 1); omega
    | ⟨3, _⟩ => show b.val = 4 + (b.val - 4) * (0 + 1); omega
  · rw [dif_neg h]
    by_cases ha : 4 ≤ a.val ∧ a.val < 260
    · have hb : ¬(4 ≤ b.val ∧ b.val < 516) := fun hb => h ⟨ha, hb⟩
      refine pad_apply_of_not_inside _ _ _ x v hp hu _ (⟨3, by decide⟩ : Fin SX.rank) fun hin => hb ?_
      have h1 : 4 ≤ b.val := hin.1
      have h2 : (b.val - 4) / (0 + 1) < 512 := hin.2.2
      rw [Nat.zero_add, Nat.div_one] at h2
      omega
    · refine pad_apply_of_not_inside _ _ _ x v hp hu _ (⟨2, by decide⟩ : Fin SX.rank) fun hin => ha ?_
      have h1 : 4 ≤ a.val := hin.1
      have h2 : (a.val - 4) / (0 + 1) < 256 := hin.2.2
      rw [Nat.zero_add, Nat.div_one] at h2
      omega

/-- One tap of the reference at a pixel. -/
theorem refTap_at (P : SP.Idx → EReal) (f : SF.Idx → EReal) (i j k : ℕ)
    (hs : SP.Slices ![0, 0, i, j] SX) (hf : SF.Slices ![0, k, 0, 0] SB) (hc : SB.ShapeCasts SF3)
    (hb1 : SF3.BroadcastsInDim SB ![0, 2, 3]) (hb2 : SB.BroadcastsInDim SX ![0, 1, 2, 3])
    (n : Fin 2) (c : Fin 8) (h : Fin 256) (w : Fin 512) (hi : h.val + i < 264) (hj : w.val + j < 520) :
    mulf (F := Ideal) (φ := .f32) (extractStridedSlice SX ![0, 0, i, j] P hs)
        (broadcastInDim SX ![0, 1, 2, 3] hb2 (broadcastInDim SB ![0, 2, 3] hb1
          (shapeCast SF3 (extractStridedSlice SB ![0, k, 0, 0] f hf) hc))) (ix4 n c h w)
      = P (ix4 n c ⟨h.val + i, hi⟩ ⟨w.val + j, hj⟩) * filt f n k h w := by
  have hk : k < 81 := by
    obtain ⟨_, hh⟩ := hf
    have := hh (⟨1, by decide⟩ : Fin SF.rank)
    change k + 1 ≤ 81 at this
    omega
  rw [mulf_apply]
  congr 1
  · refine extractStridedSlice_apply _ P hs _ _ fun d => ?_
    match d with
    | ⟨0, _⟩ => show n.val = 0 + n.val; omega
    | ⟨1, _⟩ => show c.val = 0 + c.val; omega
    | ⟨2, _⟩ => show h.val + i = i + h.val; omega
    | ⟨3, _⟩ => show w.val + j = j + w.val; omega
  · unfold filt
    rw [dif_pos hk]
    refine (broadcastInDim_apply _ hb2 _ (ix4 n c h w) (ix4 n (0 : Fin 1) h w) fun d => ?_).trans ?_
    · match d with
      | ⟨0, _⟩ => show n.val = if (2 : ℕ) = 1 then 0 else n.val; rw [if_neg (by decide)]
      | ⟨1, _⟩ => show 0 = if (1 : ℕ) = 1 then 0 else c.val; rw [if_pos rfl]
      | ⟨2, _⟩ => show h.val = if (256 : ℕ) = 1 then 0 else h.val; rw [if_neg (by decide)]
      | ⟨3, _⟩ => show w.val = if (512 : ℕ) = 1 then 0 else w.val; rw [if_neg (by decide)]
    refine (broadcastInDim_apply _ hb1 _ (ix4 n (0 : Fin 1) h w) (ix3 n h w) fun d => ?_).trans ?_
    · match d with
      | ⟨0, _⟩ => show n.val = if (2 : ℕ) = 1 then 0 else n.val; rw [if_neg (by decide)]
      | ⟨1, _⟩ => show h.val = if (256 : ℕ) = 1 then 0 else h.val; rw [if_neg (by decide)]
      | ⟨2, _⟩ => show w.val = if (512 : ℕ) = 1 then 0 else w.val; rw [if_neg (by decide)]
    refine (shapeCast_apply _ hc (ix3 n h w) (ix4 n (0 : Fin 1) h w) ?_).trans ?_
    · rw [Shape.rowMajor_val_four, Shape.rowMajor_val_three]
      show ((n.val * 1 + 0) * 256 + h.val) * 512 + w.val = (n.val * 256 + h.val) * 512 + w.val
      omega
    refine extractStridedSlice_apply _ f hf _ _ fun d => ?_
    match d with
    | ⟨0, _⟩ => show n.val = 0 + n.val; omega
    | ⟨1, _⟩ => show k = k + 0; omega
    | ⟨2, _⟩ => show h.val = 0 + h.val; omega
    | ⟨3, _⟩ => show w.val = 0 + w.val; omega

/-- One tap of the reference at a pixel, the padding read through: the padded picture `i` rows down and `j` columns
    right of the pixel, times filter plane `k` there. -/
theorem refTapPad_at (x : SX.Idx → EReal) {u : Shape} (v : u.Idx → EReal)
    (hp : SX.Pads ![0, 0, 4, 4] ![0, 0, 4, 4] ![0, 0, 0, 0] SP) (hu : 0 < u.numel)
    (f : SF.Idx → EReal) (i j k : ℕ)
    (hs : SP.Slices ![0, 0, i, j] SX) (hf : SF.Slices ![0, k, 0, 0] SB) (hc : SB.ShapeCasts SF3)
    (hb1 : SF3.BroadcastsInDim SB ![0, 2, 3]) (hb2 : SB.BroadcastsInDim SX ![0, 1, 2, 3])
    (n : Fin 2) (c : Fin 8) (h : Fin 256) (w : Fin 512) :
    mulf (F := Ideal) (φ := .f32)
        (extractStridedSlice SX ![0, 0, i, j] (pad SP ![0, 0, 4, 4] ![0, 0, 4, 4] ![0, 0, 0, 0] x v hp hu) hs)
        (broadcastInDim SX ![0, 1, 2, 3] hb2 (broadcastInDim SB ![0, 2, 3] hb1
          (shapeCast SF3 (extractStridedSlice SB ![0, k, 0, 0] f hf) hc))) (ix4 n c h w)
      = padded x (v (Shape.Idx.first hu)) n c (h.val + i) (w.val + j) * filt f n k h w := by
  have hi : h.val + i < 264 := by
    obtain ⟨_, hh⟩ := hs
    have := hh (⟨2, by decide⟩ : Fin SP.rank)
    change i + 256 ≤ 264 at this
    omega
  have hj : w.val + j < 520 := by
    obtain ⟨_, hh⟩ := hs
    have := hh (⟨3, by decide⟩ : Fin SP.rank)
    change j + 512 ≤ 520 at this
    omega
  rw [refTap_at _ f i j k hs hf hc hb1 hb2 n c h w hi hj, pad_at]

/-- The bias repeated over the eight channels, at a pixel. -/
theorem refBias_at (b : SB.Idx → EReal) (hb : SB.BroadcastsInDim SX ![0, 1, 2, 3])
    (n : Fin 2) (c : Fin 8) (h : Fin 256) (w : Fin 512) :
    broadcastInDim SX ![0, 1, 2, 3] hb b (ix4 n c h w) = b (ix4 n 0 h w) := by
  refine broadcastInDim_apply _ hb b (ix4 n c h w) (ix4 n (0 : Fin 1) h w) fun d => ?_
  match d with
  | ⟨0, _⟩ => show n.val = if (2 : ℕ) = 1 then 0 else n.val; rw [if_neg (by decide)]
  | ⟨1, _⟩ => show 0 = if (1 : ℕ) = 1 then 0 else c.val; rw [if_pos rfl]
  | ⟨2, _⟩ => show h.val = if (256 : ℕ) = 1 then 0 else h.val; rw [if_neg (by decide)]
  | ⟨3, _⟩ => show w.val = if (512 : ℕ) = 1 then 0 else w.val; rw [if_neg (by decide)]

/-- The scalar the accumulation starts from, repeated over the whole result: the float zero. -/
theorem refZero_at (dims : Fin (⟨0, ![]⟩ : Shape).rank → Fin SX.rank) (hb : (⟨0, ![]⟩ : Shape).BroadcastsInDim SX dims)
    (idx : SX.Idx) :
    broadcastInDim SX dims hb (constant (F := Ideal) (⟨0, ![]⟩ : Shape) .f32 0x00000000#32) idx = 0 := by
  refine (broadcastInDim_apply dims hb _ idx ix0 fun a => a.elim0).trans ?_
  show Ideal.ofBits .f32 0x00000000#32 = 0
  exact Ideal.ofBits_zero_f32

/-- The padding value — the integer zero converted to a float — is zero. -/
theorem padValue_zero {u : Shape} (hu : 0 < u.numel) :
    (sitofp (F := Ideal) .f32 (constantI u 32 0#32) : u.Idx → EReal) (Shape.Idx.first hu) = 0 := by
  show (((0#32 : BitVec 32).toInt : ℝ) : EReal) = 0
  simp

end Cert.DynFilter

end
-- ==== Proof.LibReadBack.lean ====
/- Reading a straight line of host operations back, one operation at a time.

   Let ops be a line of operations and W the list of the buffers they write, operation by operation (Writes ops W: the k-th
   operation writes exactly the k-th buffer of W). Write R for the contents after the whole line from contents V.
   * A buffer that W does not list keeps its contents: R r = V r (after_keep).
   * Splitting the line at position k, R = (the rest from k on) after (the first k operations) (after_take_drop); so a buffer
     not written from position k on holds in R what it held after the first k operations (after_eq_take), and a buffer not
     written after position k holds in R what operation k left there (after_eq_result).
   * Hence, when every buffer is written at most once and every operand is written before it is read — a program in
     single-assignment form —, the final contents satisfy the program's own equations: if operation k is y = f(x), x is not
     written from k on and y is not written after k, then R y = f (R x) (readback_unary; likewise for the other builders).
   The side conditions are memberships in a literal list of references, decided by computation. -/
import Idealize.ShloMosaic.Lib.StableHlo.Run
import Idealize.ShloMosaic.Lib.Pipeline.Frame

noncomputable section

namespace Cert.ReadBack

open Idealize.ShloMosaic Idealize.ShloMosaic.StableHlo

variable {τ : Topo} {sig : RefSig} {Val : EltTy → Type}

/-- The k-th operation of ops writes exactly the k-th buffer of W. -/
abbrev Writes (ops : List (HloOp τ sig Val)) (W : List (Ref sig .tc)) : Prop :=
  List.Forall₂ (fun op r => op.writes = {Proc.devRef (τ := τ) .tc r}) ops W

theorem Writes.append {o₁ o₂ : List (HloOp τ sig Val)} {w₁ w₂ : List (Ref sig .tc)}
    (h₁ : Writes o₁ w₁) (h₂ : Writes o₂ w₂) : Writes (o₁ ++ o₂) (w₁ ++ w₂) := by
  induction h₁ with
  | nil => exact h₂
  | cons h _ ih => exact List.Forall₂.cons h ih

/-- A buffer the line does not write keeps its contents. -/
theorem after_keep {ops : List (HloOp τ sig Val)} {W : List (Ref sig .tc)} (h : Writes ops W) :
    ∀ (V : Valuation τ sig Val) {r : Ref sig .tc}, r ∉ W → after ops V (Proc.devRef .tc r) = V (Proc.devRef .tc r) := by
  induction h with
  | nil => intro V r _; rfl
  | @cons op w ops W hw _ ih =>
    intro V r hr
    have hne : r ≠ w := fun e => hr (List.mem_cons.mpr (Or.inl e))
    rw [after_cons, ih _ (fun hm => hr (List.mem_cons_of_mem _ hm)),
      op.result_of_not_mem V (by rw [hw, Finset.mem_singleton]; exact devRef_ne_of_ne hne)]

/-- The line run from V is its part from position k on, run from what the first k operations leave. -/
theorem after_take_drop (ops : List (HloOp τ sig Val)) (k : Nat) (V : Valuation τ sig Val) :
    after ops V = after (ops.drop k) (after (ops.take k) V) := by
  conv_lhs => rw [← List.take_append_drop k ops]
  exact after_append _ _ _

/-- A buffer not written from position k on holds at the end what it held after the first k operations. -/
theorem after_eq_take {ops : List (HloOp τ sig Val)} {W : List (Ref sig .tc)} (h : Writes ops W)
    (V : Valuation τ sig Val) (k : Nat) {r : Ref sig .tc} (hr : r ∉ W.drop k) :
    after ops V (Proc.devRef .tc r) = after (ops.take k) V (Proc.devRef .tc r) := by
  rw [after_take_drop ops k V]
  exact after_keep (List.forall₂_drop k h) _ hr

/-- A buffer not written after position k holds at the end what operation k left there. -/
theorem after_eq_result {ops : List (HloOp τ sig Val)} {W : List (Ref sig .tc)} (h : Writes ops W)
    (V : Valuation τ sig Val) (k : Nat) {op : HloOp τ sig Val} (hop : ops[k]? = some op)
    {r : Ref sig .tc} (hr : r ∉ W.drop (k + 1)) :
    after ops V (Proc.devRef .tc r) = op.result (after (ops.take k) V) (Proc.devRef .tc r) := by
  obtain ⟨hk, rfl⟩ := List.getElem?_eq_some_iff.mp hop
  rw [after_take_drop ops k V, List.drop_eq_getElem_cons hk, after_cons]
  exact after_keep (List.forall₂_drop (k + 1) h) _ hr

/-! ## The program's equations hold of the final contents -/

section Builders

variable {ops : List (HloOp τ sig Val)} {W : List (Ref sig .tc)} (h : Writes ops W) (V : Valuation τ sig Val) (k : Nat)
variable {x a b c y : Ref sig .tc}

include h

/-- Operation k is the constant y = v, y not written afterwards: the final y is v. -/
theorem readback_nullary {v : y.ty.Contents Val} {hy}
    (hop : ops[k]? = some (nullary (τ := τ) y v hy)) (hy' : y ∉ W.drop (k + 1)) :
    after ops V (Proc.devRef .tc y) = v := by
  rw [after_eq_result h V k hop hy', nullary_result]

/-- Operation k is y = f x, x not written from k on, y not written afterwards: the final y is f of the final x. -/
theorem readback_unary {f : x.ty.Contents Val → y.ty.Contents Val} {hx hy}
    (hop : ops[k]? = some (unary (τ := τ) x y f hx hy)) (hx' : x ∉ W.drop k) (hy' : y ∉ W.drop (k + 1)) :
    after ops V (Proc.devRef .tc y) = f (after ops V (Proc.devRef .tc x)) := by
  rw [after_eq_result h V k hop hy', unary_result, after_eq_take h V k hx']

/-- Operation k is y = f a b. -/
theorem readback_binary {f : a.ty.Contents Val → b.ty.Contents Val → y.ty.Contents Val} {ha hb hy}
    (hop : ops[k]? = some (binary (τ := τ) a b y f ha hb hy)) (ha' : a ∉ W.drop k) (hb' : b ∉ W.drop k)
    (hy' : y ∉ W.drop (k + 1)) :
    after ops V (Proc.devRef .tc y) = f (after ops V (Proc.devRef .tc a)) (after ops V (Proc.devRef .tc b)) := by
  rw [after_eq_result h V k hop hy', binary_result, after_eq_take h V k ha', after_eq_take h V k hb']

/-- Operation k is y = f c a b. -/
theorem readback_ternary {f : c.ty.Contents Val → a.ty.Contents Val → b.ty.Contents Val → y.ty.Contents Val} {hc ha hb hy}
    (hop : ops[k]? = some (ternary (τ := τ) c a b y f hc ha hb hy)) (hc' : c ∉ W.drop k) (ha' : a ∉ W.drop k)
    (hb' : b ∉ W.drop k) (hy' : y ∉ W.drop (k + 1)) :
    after ops V (Proc.devRef .tc y)
      = f (after ops V (Proc.devRef .tc c)) (after ops V (Proc.devRef .tc a)) (after ops V (Proc.devRef .tc b)) := by
  rw [after_eq_result h V k hop hy', ternary_result, after_eq_take h V k hc', after_eq_take h V k ha',
    after_eq_take h V k hb']

/-- Operation k is the reshape y = x. -/
theorem readback_reshape {he : x.ty.elt = y.ty.elt} {hn : x.ty.shape.ShapeCasts y.ty.shape} {hx hy}
    (hop : ops[k]? = some (reshape (τ := τ) (Val := Val) x y he hn hx hy)) (hx' : x ∉ W.drop k)
    (hy' : y ∉ W.drop (k + 1)) :
    after ops V (Proc.devRef .tc y) = fun i => he ▸ shapeCast y.ty.shape (after ops V (Proc.devRef .tc x)) hn i := by
  rw [after_eq_result h V k hop hy', reshape_result, after_eq_take h V k hx']

/-- Operation k is y = f of a family xs of operands. -/
theorem readback_nary {n : Nat} {xs : Fin n → Ref sig .tc} {f : ((j : Fin n) → (xs j).ty.Contents Val) → y.ty.Contents Val}
    {hxs hy} (hop : ops[k]? = some (nary (τ := τ) xs y f hxs hy)) (hxs' : ∀ j, xs j ∉ W.drop k)
    (hy' : y ∉ W.drop (k + 1)) :
    after ops V (Proc.devRef .tc y) = f (fun j => after ops V (Proc.devRef .tc (xs j))) := by
  rw [after_eq_result h V k hop hy', nary_result]
  congr 1
  funext j
  exact (after_eq_take h V k (hxs' j)).symm

end Builders

end Cert.ReadBack

end
-- ==== Proof.RefOps.lean ====
/-
  The reference as a line of operations.

  The reference is a straight line of 574 host operations in single-assignment form: a zero padding of the picture and a
  zero array (operations 0 to 4), seven operations for each of the 81 taps (operations 5 to 571, nine taps to a group),
  the bias repeated over the channels and the last addition (572, 573). `ops` is the line, `W` the buffer each
  operation writes (every buffer once); `main_eq`: the program is that line run in sequence.
-/
import proofs.«130869_j58780922413140_2_alg».proof.Proof.LibReadBack
import proofs.«130869_j58780922413140_2_alg».proof.Proof.Gen.ReferenceIdeal
import Idealize.ShloMosaic.Lib.StableHlo.Run

set_option maxRecDepth 16384

noncomputable section

namespace Cert.ReferenceIdeal.RefOps

open Cert.ReferenceIdeal Cert.ReferenceIdeal.Gen Idealize.ShloMosaic Idealize.ShloMosaic.TcCoe Idealize.SL.Sem Idealize.ShloMosaic.StableHlo
open Cert.ReadBack

variable {F : FTy → Type} [FloatOps F]

/-- A property of every operation of two lines holds of every operation of their concatenation. -/
theorem forall_append {α : Type} {p : α → Prop} : ∀ {l₁ l₂ : List α}, l₁.Forall p → l₂.Forall p → (l₁ ++ l₂).Forall p
  | [], _, _, h₂ => h₂
  | a :: l₁, l₂, h₁, h₂ => by
    rw [List.cons_append, List.forall_cons]
    rw [List.forall_cons] at h₁
    exact ⟨h₁.1, forall_append h₁.2 h₂⟩

/-- Operations 0 to 4 of the line. -/
abbrev opsA : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S2x8x256x512, .f32⟩) main_arg0) (TRef.of (T := ⟨S_, .f32⟩) main_call0_v0) (TRef.of (T := ⟨S2x8x264x520, .f32⟩) main_v0) (fun x v => pad S2x8x264x520 ![0, 0, 4, 4] ![0, 0, 4, 4] ![0, 0, 0, 0] x v pads_S2x8x256x512_S2x8x264x520_000_000_440_440 h_S_),
    nullary main_cst (constant S_ .f32 0x00000000#32),
    unary main_cst main_v1 (broadcastInDim S2x8x256x512 ![] bcast_S_S2x8x256x512 : (⟨S_, .f32⟩ : BufTy).Contents (Elt F) → (⟨S2x8x256x512, .f32⟩ : BufTy).Contents (Elt F)) ]

theorem subA : (opsA : List (HloOp τ sig (Elt F))).Forall fun op => op.bufs ⊆ tcRefs τ sig :=
  ⟨nullary_bufs_sub .., unary_bufs_sub .., binary_bufs_sub .., nullary_bufs_sub .., unary_bufs_sub ..⟩

/-- The buffers those operations write. -/
abbrev WA : List (Ref sig .tc) := [main_c, main_call0_v0, main_v0, main_cst, main_v1]

theorem writesA : Writes (opsA (F := F)) WA := by
  repeat (first | exact List.Forall₂.nil | refine List.Forall₂.cons rfl ?_)

/-- Operations 5 to 67 of the line. -/
abbrev opsT0 : List (HloOp τ sig (Elt F)) :=
  [ unary main_arg1 main_v2 ((extractStridedSlice S2x1x256x512 ![0, 0, 0, 0] · slices_S2x81x256x512_S2x1x256x512_0_0_0_0) : (⟨S2x81x256x512, .f32⟩ : BufTy).Contents (Elt F) → (⟨S2x1x256x512, .f32⟩ : BufTy).Contents (Elt F)),
    reshape main_v2 main_v3 rfl shapeCasts_S2x1x256x512_S2x256x512,
    unary main_v3 main_v4 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v5 ((extractStridedSlice S2x8x256x512 ![0, 0, 0, 0] · slices_S2x8x264x520_S2x8x256x512_0_0_0_0) : (⟨S2x8x264x520, .f32⟩ : BufTy).Contents (Elt F) → (⟨S2x8x256x512, .f32⟩ : BufTy).Contents (Elt F)),
    unary main_v4 main_v6 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v5 main_v6 main_v7 (mulf : (⟨S2x8x256x512, .f32⟩ : BufTy).Contents (Elt F) → (⟨S2x8x256x512, .f32⟩ : BufTy).Contents (Elt F) → (⟨S2x8x256x512, .f32⟩ : BufTy).Contents (Elt F)),
    binary main_v1 main_v7 main_v8 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v9 ((extractStridedSlice S2x1x256x512 ![0, 1, 0, 0] · slices_S2x81x256x512_S2x1x256x512_0_1_0_0) : (⟨S2x81x256x512, .f32⟩ : BufTy).Contents (Elt F) → (⟨S2x1x256x512, .f32⟩ : BufTy).Contents (Elt F)),
    reshape main_v9 main_v10 rfl shapeCasts_S2x1x256x512_S2x256x512,
    unary main_v10 main_v11 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v12 ((extractStridedSlice S2x8x256x512 ![0, 0, 0, 1] · slices_S2x8x264x520_S2x8x256x512_0_0_0_1) : (⟨S2x8x264x520, .f32⟩ : BufTy).Contents (Elt F) → (⟨S2x8x256x512, .f32⟩ : BufTy).Contents (Elt F)),
    unary main_v11 main_v13 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v12 main_v13 main_v14 (mulf : (⟨S2x8x256x512, .f32⟩ : BufTy).Contents (Elt F) → (⟨S2x8x256x512, .f32⟩ : BufTy).Contents (Elt F) → (⟨S2x8x256x512, .f32⟩ : BufTy).Contents (Elt F)),
    binary main_v8 main_v14 main_v15 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v16 ((extractStridedSlice S2x1x256x512 ![0, 2, 0, 0] · slices_S2x81x256x512_S2x1x256x512_0_2_0_0) : (⟨S2x81x256x512, .f32⟩ : BufTy).Contents (Elt F) → (⟨S2x1x256x512, .f32⟩ : BufTy).Contents (Elt F)),
    reshape main_v16 main_v17 rfl shapeCasts_S2x1x256x512_S2x256x512,
    unary main_v17 main_v18 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v19 ((extractStridedSlice S2x8x256x512 ![0, 0, 0, 2] · slices_S2x8x264x520_S2x8x256x512_0_0_0_2) : (⟨S2x8x264x520, .f32⟩ : BufTy).Contents (Elt F) → (⟨S2x8x256x512, .f32⟩ : BufTy).Contents (Elt F)),
    unary main_v18 main_v20 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v19 main_v20 main_v21 (mulf : (⟨S2x8x256x512, .f32⟩ : BufTy).Contents (Elt F) → (⟨S2x8x256x512, .f32⟩ : BufTy).Contents (Elt F) → (⟨S2x8x256x512, .f32⟩ : BufTy).Contents (Elt F)),
    binary main_v15 main_v21 main_v22 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v23 ((extractStridedSlice S2x1x256x512 ![0, 3, 0, 0] · slices_S2x81x256x512_S2x1x256x512_0_3_0_0) : (⟨S2x81x256x512, .f32⟩ : BufTy).Contents (Elt F) → (⟨S2x1x256x512, .f32⟩ : BufTy).Contents (Elt F)),
    reshape main_v23 main_v24 rfl shapeCasts_S2x1x256x512_S2x256x512,
    unary main_v24 main_v25 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v26 ((extractStridedSlice S2x8x256x512 ![0, 0, 0, 3] · slices_S2x8x264x520_S2x8x256x512_0_0_0_3) : (⟨S2x8x264x520, .f32⟩ : BufTy).Contents (Elt F) → (⟨S2x8x256x512, .f32⟩ : BufTy).Contents (Elt F)),
    unary main_v25 main_v27 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v26 main_v27 main_v28 (mulf : (⟨S2x8x256x512, .f32⟩ : BufTy).Contents (Elt F) → (⟨S2x8x256x512, .f32⟩ : BufTy).Contents (Elt F) → (⟨S2x8x256x512, .f32⟩ : BufTy).Contents (Elt F)),
    binary main_v22 main_v28 main_v29 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v30 ((extractStridedSlice S2x1x256x512 ![0, 4, 0, 0] · slices_S2x81x256x512_S2x1x256x512_0_4_0_0) : (⟨S2x81x256x512, .f32⟩ : BufTy).Contents (Elt F) → (⟨S2x1x256x512, .f32⟩ : BufTy).Contents (Elt F)),
    reshape main_v30 main_v31 rfl shapeCasts_S2x1x256x512_S2x256x512,
    unary main_v31 main_v32 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v33 ((extractStridedSlice S2x8x256x512 ![0, 0, 0, 4] · slices_S2x8x264x520_S2x8x256x512_0_0_0_4) : (⟨S2x8x264x520, .f32⟩ : BufTy).Contents (Elt F) → (⟨S2x8x256x512, .f32⟩ : BufTy).Contents (Elt F)),
    unary main_v32 main_v34 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v33 main_v34 main_v35 (mulf : (⟨S2x8x256x512, .f32⟩ : BufTy).Contents (Elt F) → (⟨S2x8x256x512, .f32⟩ : BufTy).Contents (Elt F) → (⟨S2x8x256x512, .f32⟩ : BufTy).Contents (Elt F)),
    binary main_v29 main_v35 main_v36 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v37 ((extractStridedSlice S2x1x256x512 ![0, 5, 0, 0] · slices_S2x81x256x512_S2x1x256x512_0_5_0_0) : (⟨S2x81x256x512, .f32⟩ : BufTy).Contents (Elt F) → (⟨S2x1x256x512, .f32⟩ : BufTy).Contents (Elt F)),
    reshape main_v37 main_v38 rfl shapeCasts_S2x1x256x512_S2x256x512,
    unary main_v38 main_v39 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v40 ((extractStridedSlice S2x8x256x512 ![0, 0, 0, 5] · slices_S2x8x264x520_S2x8x256x512_0_0_0_5) : (⟨S2x8x264x520, .f32⟩ : BufTy).Contents (Elt F) → (⟨S2x8x256x512, .f32⟩ : BufTy).Contents (Elt F)),
    unary main_v39 main_v41 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v40 main_v41 main_v42 (mulf : (⟨S2x8x256x512, .f32⟩ : BufTy).Contents (Elt F) → (⟨S2x8x256x512, .f32⟩ : BufTy).Contents (Elt F) → (⟨S2x8x256x512, .f32⟩ : BufTy).Contents (Elt F)),
    binary main_v36 main_v42 main_v43 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v44 ((extractStridedSlice S2x1x256x512 ![0, 6, 0, 0] · slices_S2x81x256x512_S2x1x256x512_0_6_0_0) : (⟨S2x81x256x512, .f32⟩ : BufTy).Contents (Elt F) → (⟨S2x1x256x512, .f32⟩ : BufTy).Contents (Elt F)),
    reshape main_v44 main_v45 rfl shapeCasts_S2x1x256x512_S2x256x512,
    unary main_v45 main_v46 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v47 ((extractStridedSlice S2x8x256x512 ![0, 0, 0, 6] · slices_S2x8x264x520_S2x8x256x512_0_0_0_6) : (⟨S2x8x264x520, .f32⟩ : BufTy).Contents (Elt F) → (⟨S2x8x256x512, .f32⟩ : BufTy).Contents (Elt F)),
    unary main_v46 main_v48 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v47 main_v48 main_v49 (mulf : (⟨S2x8x256x512, .f32⟩ : BufTy).Contents (Elt F) → (⟨S2x8x256x512, .f32⟩ : BufTy).Contents (Elt F) → (⟨S2x8x256x512, .f32⟩ : BufTy).Contents (Elt F)),
    binary main_v43 main_v49 main_v50 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v51 ((extractStridedSlice S2x1x256x512 ![0, 7, 0, 0] · slices_S2x81x256x512_S2x1x256x512_0_7_0_0) : (⟨S2x81x256x512, .f32⟩ : BufTy).Contents (Elt F) → (⟨S2x1x256x512, .f32⟩ : BufTy).Contents (Elt F)),
    reshape main_v51 main_v52 rfl shapeCasts_S2x1x256x512_S2x256x512,
    unary main_v52 main_v53 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v54 ((extractStridedSlice S2x8x256x512 ![0, 0, 0, 7] · slices_S2x8x264x520_S2x8x256x512_0_0_0_7) : (⟨S2x8x264x520, .f32⟩ : BufTy).Contents (Elt F) → (⟨S2x8x256x512, .f32⟩ : BufTy).Contents (Elt F)),
    unary main_v53 main_v55 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v54 main_v55 main_v56 (mulf : (⟨S2x8x256x512, .f32⟩ : BufTy).Contents (Elt F) → (⟨S2x8x256x512, .f32⟩ : BufTy).Contents (Elt F) → (⟨S2x8x256x512, .f32⟩ : BufTy).Contents (Elt F)),
    binary main_v50 main_v56 main_v57 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v58 ((extractStridedSlice S2x1x256x512 ![0, 8, 0, 0] · slices_S2x81x256x512_S2x1x256x512_0_8_0_0) : (⟨S2x81x256x512, .f32⟩ : BufTy).Contents (Elt F) → (⟨S2x1x256x512, .f32⟩ : BufTy).Contents (Elt F)),
    reshape main_v58 main_v59 rfl shapeCasts_S2x1x256x512_S2x256x512,
    unary main_v59 main_v60 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v61 ((extractStridedSlice S2x8x256x512 ![0, 0, 0, 8] · slices_S2x8x264x520_S2x8x256x512_0_0_0_8) : (⟨S2x8x264x520, .f32⟩ : BufTy).Contents (Elt F) → (⟨S2x8x256x512, .f32⟩ : BufTy).Contents (Elt F)),
    unary main_v60 main_v62 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v61 main_v62 main_v63 (mulf : (⟨S2x8x256x512, .f32⟩ : BufTy).Contents (Elt F) → (⟨S2x8x256x512, .f32⟩ : BufTy).Contents (Elt F) → (⟨S2x8x256x512, .f32⟩ : BufTy).Contents (Elt F)),
    binary main_v57 main_v63 main_v64 (addf : (⟨S2x8x256x512, .f32⟩ : BufTy).Contents (Elt F) → (⟨S2x8x256x512, .f32⟩ : BufTy).Contents (Elt F) → (⟨S2x8x256x512, .f32⟩ : BufTy).Contents (Elt F)) ]

theorem subT0 : (opsT0 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub ..⟩

/-- The buffers those operations write. -/
abbrev WT0 : List (Ref sig .tc) := [main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64]

theorem writesT0 : Writes (opsT0 (F := F)) WT0 := by
  repeat (first | exact List.Forall₂.nil | refine List.Forall₂.cons rfl ?_)

/-- Operations 68 to 130 of the line. -/
abbrev opsT1 : List (HloOp τ sig (Elt F)) :=
  [ unary main_arg1 main_v65 ((extractStridedSlice S2x1x256x512 ![0, 9, 0, 0] · slices_S2x81x256x512_S2x1x256x512_0_9_0_0) : (⟨S2x81x256x512, .f32⟩ : BufTy).Contents (Elt F) → (⟨S2x1x256x512, .f32⟩ : BufTy).Contents (Elt F)),
    reshape main_v65 main_v66 rfl shapeCasts_S2x1x256x512_S2x256x512,
    unary main_v66 main_v67 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v68 ((extractStridedSlice S2x8x256x512 ![0, 0, 1, 0] · slices_S2x8x264x520_S2x8x256x512_0_0_1_0) : (⟨S2x8x264x520, .f32⟩ : BufTy).Contents (Elt F) → (⟨S2x8x256x512, .f32⟩ : BufTy).Contents (Elt F)),
    unary main_v67 main_v69 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v68 main_v69 main_v70 (mulf : (⟨S2x8x256x512, .f32⟩ : BufTy).Contents (Elt F) → (⟨S2x8x256x512, .f32⟩ : BufTy).Contents (Elt F) → (⟨S2x8x256x512, .f32⟩ : BufTy).Contents (Elt F)),
    binary main_v64 main_v70 main_v71 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v72 ((extractStridedSlice S2x1x256x512 ![0, 10, 0, 0] · slices_S2x81x256x512_S2x1x256x512_0_10_0_0) : (⟨S2x81x256x512, .f32⟩ : BufTy).Contents (Elt F) → (⟨S2x1x256x512, .f32⟩ : BufTy).Contents (Elt F)),
    reshape main_v72 main_v73 rfl shapeCasts_S2x1x256x512_S2x256x512,
    unary main_v73 main_v74 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v75 ((extractStridedSlice S2x8x256x512 ![0, 0, 1, 1] · slices_S2x8x264x520_S2x8x256x512_0_0_1_1) : (⟨S2x8x264x520, .f32⟩ : BufTy).Contents (Elt F) → (⟨S2x8x256x512, .f32⟩ : BufTy).Contents (Elt F)),
    unary main_v74 main_v76 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v75 main_v76 main_v77 (mulf : (⟨S2x8x256x512, .f32⟩ : BufTy).Contents (Elt F) → (⟨S2x8x256x512, .f32⟩ : BufTy).Contents (Elt F) → (⟨S2x8x256x512, .f32⟩ : BufTy).Contents (Elt F)),
    binary main_v71 main_v77 main_v78 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v79 ((extractStridedSlice S2x1x256x512 ![0, 11, 0, 0] · slices_S2x81x256x512_S2x1x256x512_0_11_0_0) : (⟨S2x81x256x512, .f32⟩ : BufTy).Contents (Elt F) → (⟨S2x1x256x512, .f32⟩ : BufTy).Contents (Elt F)),
    reshape main_v79 main_v80 rfl shapeCasts_S2x1x256x512_S2x256x512,
    unary main_v80 main_v81 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v82 ((extractStridedSlice S2x8x256x512 ![0, 0, 1, 2] · slices_S2x8x264x520_S2x8x256x512_0_0_1_2) : (⟨S2x8x264x520, .f32⟩ : BufTy).Contents (Elt F) → (⟨S2x8x256x512, .f32⟩ : BufTy).Contents (Elt F)),
    unary main_v81 main_v83 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v82 main_v83 main_v84 (mulf : (⟨S2x8x256x512, .f32⟩ : BufTy).Contents (Elt F) → (⟨S2x8x256x512, .f32⟩ : BufTy).Contents (Elt F) → (⟨S2x8x256x512, .f32⟩ : BufTy).Contents (Elt F)),
    binary main_v78 main_v84 main_v85 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v86 ((extractStridedSlice S2x1x256x512 ![0, 12, 0, 0] · slices_S2x81x256x512_S2x1x256x512_0_12_0_0) : (⟨S2x81x256x512, .f32⟩ : BufTy).Contents (Elt F) → (⟨S2x1x256x512, .f32⟩ : BufTy).Contents (Elt F)),
    reshape main_v86 main_v87 rfl shapeCasts_S2x1x256x512_S2x256x512,
    unary main_v87 main_v88 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v89 ((extractStridedSlice S2x8x256x512 ![0, 0, 1, 3] · slices_S2x8x264x520_S2x8x256x512_0_0_1_3) : (⟨S2x8x264x520, .f32⟩ : BufTy).Contents (Elt F) → (⟨S2x8x256x512, .f32⟩ : BufTy).Contents (Elt F)),
    unary main_v88 main_v90 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v89 main_v90 main_v91 (mulf : (⟨S2x8x256x512, .f32⟩ : BufTy).Contents (Elt F) → (⟨S2x8x256x512, .f32⟩ : BufTy).Contents (Elt F) → (⟨S2x8x256x512, .f32⟩ : BufTy).Contents (Elt F)),
    binary main_v85 main_v91 main_v92 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v93 ((extractStridedSlice S2x1x256x512 ![0, 13, 0, 0] · slices_S2x81x256x512_S2x1x256x512_0_13_0_0) : (⟨S2x81x256x512, .f32⟩ : BufTy).Contents (Elt F) → (⟨S2x1x256x512, .f32⟩ : BufTy).Contents (Elt F)),
    reshape main_v93 main_v94 rfl shapeCasts_S2x1x256x512_S2x256x512,
    unary main_v94 main_v95 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v96 ((extractStridedSlice S2x8x256x512 ![0, 0, 1, 4] · slices_S2x8x264x520_S2x8x256x512_0_0_1_4) : (⟨S2x8x264x520, .f32⟩ : BufTy).Contents (Elt F) → (⟨S2x8x256x512, .f32⟩ : BufTy).Contents (Elt F)),
    unary main_v95 main_v97 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v96 main_v97 main_v98 (mulf : (⟨S2x8x256x512, .f32⟩ : BufTy).Contents (Elt F) → (⟨S2x8x256x512, .f32⟩ : BufTy).Contents (Elt F) → (⟨S2x8x256x512, .f32⟩ : BufTy).Contents (Elt F)),
    binary main_v92 main_v98 main_v99 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v100 ((extractStridedSlice S2x1x256x512 ![0, 14, 0, 0] · slices_S2x81x256x512_S2x1x256x512_0_14_0_0) : (⟨S2x81x256x512, .f32⟩ : BufTy).Contents (Elt F) → (⟨S2x1x256x512, .f32⟩ : BufTy).Contents (Elt F)),
    reshape main_v100 main_v101 rfl shapeCasts_S2x1x256x512_S2x256x512,
    unary main_v101 main_v102 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v103 ((extractStridedSlice S2x8x256x512 ![0, 0, 1, 5] · slices_S2x8x264x520_S2x8x256x512_0_0_1_5) : (⟨S2x8x264x520, .f32⟩ : BufTy).Contents (Elt F) → (⟨S2x8x256x512, .f32⟩ : BufTy).Contents (Elt F)),
    unary main_v102 main_v104 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v103 main_v104 main_v105 (mulf : (⟨S2x8x256x512, .f32⟩ : BufTy).Contents (Elt F) → (⟨S2x8x256x512, .f32⟩ : BufTy).Contents (Elt F) → (⟨S2x8x256x512, .f32⟩ : BufTy).Contents (Elt F)),
    binary main_v99 main_v105 main_v106 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v107 ((extractStridedSlice S2x1x256x512 ![0, 15, 0, 0] · slices_S2x81x256x512_S2x1x256x512_0_15_0_0) : (⟨S2x81x256x512, .f32⟩ : BufTy).Contents (Elt F) → (⟨S2x1x256x512, .f32⟩ : BufTy).Contents (Elt F)),
    reshape main_v107 main_v108 rfl shapeCasts_S2x1x256x512_S2x256x512,
    unary main_v108 main_v109 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v110 ((extractStridedSlice S2x8x256x512 ![0, 0, 1, 6] · slices_S2x8x264x520_S2x8x256x512_0_0_1_6) : (⟨S2x8x264x520, .f32⟩ : BufTy).Contents (Elt F) → (⟨S2x8x256x512, .f32⟩ : BufTy).Contents (Elt F)),
    unary main_v109 main_v111 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v110 main_v111 main_v112 (mulf : (⟨S2x8x256x512, .f32⟩ : BufTy).Contents (Elt F) → (⟨S2x8x256x512, .f32⟩ : BufTy).Contents (Elt F) → (⟨S2x8x256x512, .f32⟩ : BufTy).Contents (Elt F)),
    binary main_v106 main_v112 main_v113 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v114 ((extractStridedSlice S2x1x256x512 ![0, 16, 0, 0] · slices_S2x81x256x512_S2x1x256x512_0_16_0_0) : (⟨S2x81x256x512, .f32⟩ : BufTy).Contents (Elt F) → (⟨S2x1x256x512, .f32⟩ : BufTy).Contents (Elt F)),
    reshape main_v114 main_v115 rfl shapeCasts_S2x1x256x512_S2x256x512,
    unary main_v115 main_v116 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v117 ((extractStridedSlice S2x8x256x512 ![0, 0, 1, 7] · slices_S2x8x264x520_S2x8x256x512_0_0_1_7) : (⟨S2x8x264x520, .f32⟩ : BufTy).Contents (Elt F) → (⟨S2x8x256x512, .f32⟩ : BufTy).Contents (Elt F)),
    unary main_v116 main_v118 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v117 main_v118 main_v119 (mulf : (⟨S2x8x256x512, .f32⟩ : BufTy).Contents (Elt F) → (⟨S2x8x256x512, .f32⟩ : BufTy).Contents (Elt F) → (⟨S2x8x256x512, .f32⟩ : BufTy).Contents (Elt F)),
    binary main_v113 main_v119 main_v120 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v121 ((extractStridedSlice S2x1x256x512 ![0, 17, 0, 0] · slices_S2x81x256x512_S2x1x256x512_0_17_0_0) : (⟨S2x81x256x512, .f32⟩ : BufTy).Contents (Elt F) → (⟨S2x1x256x512, .f32⟩ : BufTy).Contents (Elt F)),
    reshape main_v121 main_v122 rfl shapeCasts_S2x1x256x512_S2x256x512,
    unary main_v122 main_v123 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v124 ((extractStridedSlice S2x8x256x512 ![0, 0, 1, 8] · slices_S2x8x264x520_S2x8x256x512_0_0_1_8) : (⟨S2x8x264x520, .f32⟩ : BufTy).Contents (Elt F) → (⟨S2x8x256x512, .f32⟩ : BufTy).Contents (Elt F)),
    unary main_v123 main_v125 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v124 main_v125 main_v126 (mulf : (⟨S2x8x256x512, .f32⟩ : BufTy).Contents (Elt F) → (⟨S2x8x256x512, .f32⟩ : BufTy).Contents (Elt F) → (⟨S2x8x256x512, .f32⟩ : BufTy).Contents (Elt F)),
    binary main_v120 main_v126 main_v127 (addf : (⟨S2x8x256x512, .f32⟩ : BufTy).Contents (Elt F) → (⟨S2x8x256x512, .f32⟩ : BufTy).Contents (Elt F) → (⟨S2x8x256x512, .f32⟩ : BufTy).Contents (Elt F)) ]

theorem subT1 : (opsT1 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub ..⟩

/-- The buffers those operations write. -/
abbrev WT1 : List (Ref sig .tc) := [main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_v125, main_v126, main_v127]

theorem writesT1 : Writes (opsT1 (F := F)) WT1 := by
  repeat (first | exact List.Forall₂.nil | refine List.Forall₂.cons rfl ?_)

/-- Operations 131 to 193 of the line. -/
abbrev opsT2 : List (HloOp τ sig (Elt F)) :=
  [ unary main_arg1 main_v128 ((extractStridedSlice S2x1x256x512 ![0, 18, 0, 0] · slices_S2x81x256x512_S2x1x256x512_0_18_0_0) : (⟨S2x81x256x512, .f32⟩ : BufTy).Contents (Elt F) → (⟨S2x1x256x512, .f32⟩ : BufTy).Contents (Elt F)),
    reshape main_v128 main_v129 rfl shapeCasts_S2x1x256x512_S2x256x512,
    unary main_v129 main_v130 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v131 ((extractStridedSlice S2x8x256x512 ![0, 0, 2, 0] · slices_S2x8x264x520_S2x8x256x512_0_0_2_0) : (⟨S2x8x264x520, .f32⟩ : BufTy).Contents (Elt F) → (⟨S2x8x256x512, .f32⟩ : BufTy).Contents (Elt F)),
    unary main_v130 main_v132 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v131 main_v132 main_v133 (mulf : (⟨S2x8x256x512, .f32⟩ : BufTy).Contents (Elt F) → (⟨S2x8x256x512, .f32⟩ : BufTy).Contents (Elt F) → (⟨S2x8x256x512, .f32⟩ : BufTy).Contents (Elt F)),
    binary main_v127 main_v133 main_v134 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v135 ((extractStridedSlice S2x1x256x512 ![0, 19, 0, 0] · slices_S2x81x256x512_S2x1x256x512_0_19_0_0) : (⟨S2x81x256x512, .f32⟩ : BufTy).Contents (Elt F) → (⟨S2x1x256x512, .f32⟩ : BufTy).Contents (Elt F)),
    reshape main_v135 main_v136 rfl shapeCasts_S2x1x256x512_S2x256x512,
    unary main_v136 main_v137 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v138 ((extractStridedSlice S2x8x256x512 ![0, 0, 2, 1] · slices_S2x8x264x520_S2x8x256x512_0_0_2_1) : (⟨S2x8x264x520, .f32⟩ : BufTy).Contents (Elt F) → (⟨S2x8x256x512, .f32⟩ : BufTy).Contents (Elt F)),
    unary main_v137 main_v139 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v138 main_v139 main_v140 (mulf : (⟨S2x8x256x512, .f32⟩ : BufTy).Contents (Elt F) → (⟨S2x8x256x512, .f32⟩ : BufTy).Contents (Elt F) → (⟨S2x8x256x512, .f32⟩ : BufTy).Contents (Elt F)),
    binary main_v134 main_v140 main_v141 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v142 ((extractStridedSlice S2x1x256x512 ![0, 20, 0, 0] · slices_S2x81x256x512_S2x1x256x512_0_20_0_0) : (⟨S2x81x256x512, .f32⟩ : BufTy).Contents (Elt F) → (⟨S2x1x256x512, .f32⟩ : BufTy).Contents (Elt F)),
    reshape main_v142 main_v143 rfl shapeCasts_S2x1x256x512_S2x256x512,
    unary main_v143 main_v144 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v145 ((extractStridedSlice S2x8x256x512 ![0, 0, 2, 2] · slices_S2x8x264x520_S2x8x256x512_0_0_2_2) : (⟨S2x8x264x520, .f32⟩ : BufTy).Contents (Elt F) → (⟨S2x8x256x512, .f32⟩ : BufTy).Contents (Elt F)),
    unary main_v144 main_v146 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v145 main_v146 main_v147 (mulf : (⟨S2x8x256x512, .f32⟩ : BufTy).Contents (Elt F) → (⟨S2x8x256x512, .f32⟩ : BufTy).Contents (Elt F) → (⟨S2x8x256x512, .f32⟩ : BufTy).Contents (Elt F)),
    binary main_v141 main_v147 main_v148 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v149 ((extractStridedSlice S2x1x256x512 ![0, 21, 0, 0] · slices_S2x81x256x512_S2x1x256x512_0_21_0_0) : (⟨S2x81x256x512, .f32⟩ : BufTy).Contents (Elt F) → (⟨S2x1x256x512, .f32⟩ : BufTy).Contents (Elt F)),
    reshape main_v149 main_v150 rfl shapeCasts_S2x1x256x512_S2x256x512,
    unary main_v150 main_v151 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v152 ((extractStridedSlice S2x8x256x512 ![0, 0, 2, 3] · slices_S2x8x264x520_S2x8x256x512_0_0_2_3) : (⟨S2x8x264x520, .f32⟩ : BufTy).Contents (Elt F) → (⟨S2x8x256x512, .f32⟩ : BufTy).Contents (Elt F)),
    unary main_v151 main_v153 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v152 main_v153 main_v154 (mulf : (⟨S2x8x256x512, .f32⟩ : BufTy).Contents (Elt F) → (⟨S2x8x256x512, .f32⟩ : BufTy).Contents (Elt F) → (⟨S2x8x256x512, .f32⟩ : BufTy).Contents (Elt F)),
    binary main_v148 main_v154 main_v155 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v156 ((extractStridedSlice S2x1x256x512 ![0, 22, 0, 0] · slices_S2x81x256x512_S2x1x256x512_0_22_0_0) : (⟨S2x81x256x512, .f32⟩ : BufTy).Contents (Elt F) → (⟨S2x1x256x512, .f32⟩ : BufTy).Contents (Elt F)),
    reshape main_v156 main_v157 rfl shapeCasts_S2x1x256x512_S2x256x512,
    unary main_v157 main_v158 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v159 ((extractStridedSlice S2x8x256x512 ![0, 0, 2, 4] · slices_S2x8x264x520_S2x8x256x512_0_0_2_4) : (⟨S2x8x264x520, .f32⟩ : BufTy).Contents (Elt F) → (⟨S2x8x256x512, .f32⟩ : BufTy).Contents (Elt F)),
    unary main_v158 main_v160 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v159 main_v160 main_v161 (mulf : (⟨S2x8x256x512, .f32⟩ : BufTy).Contents (Elt F) → (⟨S2x8x256x512, .f32⟩ : BufTy).Contents (Elt F) → (⟨S2x8x256x512, .f32⟩ : BufTy).Contents (Elt F)),
    binary main_v155 main_v161 main_v162 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v163 ((extractStridedSlice S2x1x256x512 ![0, 23, 0, 0] · slices_S2x81x256x512_S2x1x256x512_0_23_0_0) : (⟨S2x81x256x512, .f32⟩ : BufTy).Contents (Elt F) → (⟨S2x1x256x512, .f32⟩ : BufTy).Contents (Elt F)),
    reshape main_v163 main_v164 rfl shapeCasts_S2x1x256x512_S2x256x512,
    unary main_v164 main_v165 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v166 ((extractStridedSlice S2x8x256x512 ![0, 0, 2, 5] · slices_S2x8x264x520_S2x8x256x512_0_0_2_5) : (⟨S2x8x264x520, .f32⟩ : BufTy).Contents (Elt F) → (⟨S2x8x256x512, .f32⟩ : BufTy).Contents (Elt F)),
    unary main_v165 main_v167 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v166 main_v167 main_v168 (mulf : (⟨S2x8x256x512, .f32⟩ : BufTy).Contents (Elt F) → (⟨S2x8x256x512, .f32⟩ : BufTy).Contents (Elt F) → (⟨S2x8x256x512, .f32⟩ : BufTy).Contents (Elt F)),
    binary main_v162 main_v168 main_v169 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v170 ((extractStridedSlice S2x1x256x512 ![0, 24, 0, 0] · slices_S2x81x256x512_S2x1x256x512_0_24_0_0) : (⟨S2x81x256x512, .f32⟩ : BufTy).Contents (Elt F) → (⟨S2x1x256x512, .f32⟩ : BufTy).Contents (Elt F)),
    reshape main_v170 main_v171 rfl shapeCasts_S2x1x256x512_S2x256x512,
    unary main_v171 main_v172 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v173 ((extractStridedSlice S2x8x256x512 ![0, 0, 2, 6] · slices_S2x8x264x520_S2x8x256x512_0_0_2_6) : (⟨S2x8x264x520, .f32⟩ : BufTy).Contents (Elt F) → (⟨S2x8x256x512, .f32⟩ : BufTy).Contents (Elt F)),
    unary main_v172 main_v174 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v173 main_v174 main_v175 (mulf : (⟨S2x8x256x512, .f32⟩ : BufTy).Contents (Elt F) → (⟨S2x8x256x512, .f32⟩ : BufTy).Contents (Elt F) → (⟨S2x8x256x512, .f32⟩ : BufTy).Contents (Elt F)),
    binary main_v169 main_v175 main_v176 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v177 ((extractStridedSlice S2x1x256x512 ![0, 25, 0, 0] · slices_S2x81x256x512_S2x1x256x512_0_25_0_0) : (⟨S2x81x256x512, .f32⟩ : BufTy).Contents (Elt F) → (⟨S2x1x256x512, .f32⟩ : BufTy).Contents (Elt F)),
    reshape main_v177 main_v178 rfl shapeCasts_S2x1x256x512_S2x256x512,
    unary main_v178 main_v179 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v180 ((extractStridedSlice S2x8x256x512 ![0, 0, 2, 7] · slices_S2x8x264x520_S2x8x256x512_0_0_2_7) : (⟨S2x8x264x520, .f32⟩ : BufTy).Contents (Elt F) → (⟨S2x8x256x512, .f32⟩ : BufTy).Contents (Elt F)),
    unary main_v179 main_v181 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v180 main_v181 main_v182 (mulf : (⟨S2x8x256x512, .f32⟩ : BufTy).Contents (Elt F) → (⟨S2x8x256x512, .f32⟩ : BufTy).Contents (Elt F) → (⟨S2x8x256x512, .f32⟩ : BufTy).Contents (Elt F)),
    binary main_v176 main_v182 main_v183 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v184 ((extractStridedSlice S2x1x256x512 ![0, 26, 0, 0] · slices_S2x81x256x512_S2x1x256x512_0_26_0_0) : (⟨S2x81x256x512, .f32⟩ : BufTy).Contents (Elt F) → (⟨S2x1x256x512, .f32⟩ : BufTy).Contents (Elt F)),
    reshape main_v184 main_v185 rfl shapeCasts_S2x1x256x512_S2x256x512,
    unary main_v185 main_v186 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v187 ((extractStridedSlice S2x8x256x512 ![0, 0, 2, 8] · slices_S2x8x264x520_S2x8x256x512_0_0_2_8) : (⟨S2x8x264x520, .f32⟩ : BufTy).Contents (Elt F) → (⟨S2x8x256x512, .f32⟩ : BufTy).Contents (Elt F)),
    unary main_v186 main_v188 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v187 main_v188 main_v189 (mulf : (⟨S2x8x256x512, .f32⟩ : BufTy).Contents (Elt F) → (⟨S2x8x256x512, .f32⟩ : BufTy).Contents (Elt F) → (⟨S2x8x256x512, .f32⟩ : BufTy).Contents (Elt F)),
    binary main_v183 main_v189 main_v190 (addf : (⟨S2x8x256x512, .f32⟩ : BufTy).Contents (Elt F) → (⟨S2x8x256x512, .f32⟩ : BufTy).Contents (Elt F) → (⟨S2x8x256x512, .f32⟩ : BufTy).Contents (Elt F)) ]

theorem subT2 : (opsT2 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub ..⟩

/-- The buffers those operations write. -/
abbrev WT2 : List (Ref sig .tc) := [main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172, main_v173, main_v174, main_v175, main_v176, main_v177, main_v178, main_v179, main_v180, main_v181, main_v182, main_v183, main_v184, main_v185, main_v186, main_v187, main_v188, main_v189, main_v190]

theorem writesT2 : Writes (opsT2 (F := F)) WT2 := by
  repeat (first | exact List.Forall₂.nil | refine List.Forall₂.cons rfl ?_)

/-- Operations 194 to 256 of the line. -/
abbrev opsT3 : List (HloOp τ sig (Elt F)) :=
  [ unary main_arg1 main_v191 ((extractStridedSlice S2x1x256x512 ![0, 27, 0, 0] · slices_S2x81x256x512_S2x1x256x512_0_27_0_0) : (⟨S2x81x256x512, .f32⟩ : BufTy).Contents (Elt F) → (⟨S2x1x256x512, .f32⟩ : BufTy).Contents (Elt F)),
    reshape main_v191 main_v192 rfl shapeCasts_S2x1x256x512_S2x256x512,
    unary main_v192 main_v193 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v194 ((extractStridedSlice S2x8x256x512 ![0, 0, 3, 0] · slices_S2x8x264x520_S2x8x256x512_0_0_3_0) : (⟨S2x8x264x520, .f32⟩ : BufTy).Contents (Elt F) → (⟨S2x8x256x512, .f32⟩ : BufTy).Contents (Elt F)),
    unary main_v193 main_v195 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v194 main_v195 main_v196 (mulf : (⟨S2x8x256x512, .f32⟩ : BufTy).Contents (Elt F) → (⟨S2x8x256x512, .f32⟩ : BufTy).Contents (Elt F) → (⟨S2x8x256x512, .f32⟩ : BufTy).Contents (Elt F)),
    binary main_v190 main_v196 main_v197 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v198 ((extractStridedSlice S2x1x256x512 ![0, 28, 0, 0] · slices_S2x81x256x512_S2x1x256x512_0_28_0_0) : (⟨S2x81x256x512, .f32⟩ : BufTy).Contents (Elt F) → (⟨S2x1x256x512, .f32⟩ : BufTy).Contents (Elt F)),
    reshape main_v198 main_v199 rfl shapeCasts_S2x1x256x512_S2x256x512,
    unary main_v199 main_v200 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v201 ((extractStridedSlice S2x8x256x512 ![0, 0, 3, 1] · slices_S2x8x264x520_S2x8x256x512_0_0_3_1) : (⟨S2x8x264x520, .f32⟩ : BufTy).Contents (Elt F) → (⟨S2x8x256x512, .f32⟩ : BufTy).Contents (Elt F)),
    unary main_v200 main_v202 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v201 main_v202 main_v203 (mulf : (⟨S2x8x256x512, .f32⟩ : BufTy).Contents (Elt F) → (⟨S2x8x256x512, .f32⟩ : BufTy).Contents (Elt F) → (⟨S2x8x256x512, .f32⟩ : BufTy).Contents (Elt F)),
    binary main_v197 main_v203 main_v204 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v205 ((extractStridedSlice S2x1x256x512 ![0, 29, 0, 0] · slices_S2x81x256x512_S2x1x256x512_0_29_0_0) : (⟨S2x81x256x512, .f32⟩ : BufTy).Contents (Elt F) → (⟨S2x1x256x512, .f32⟩ : BufTy).Contents (Elt F)),
    reshape main_v205 main_v206 rfl shapeCasts_S2x1x256x512_S2x256x512,
    unary main_v206 main_v207 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v208 ((extractStridedSlice S2x8x256x512 ![0, 0, 3, 2] · slices_S2x8x264x520_S2x8x256x512_0_0_3_2) : (⟨S2x8x264x520, .f32⟩ : BufTy).Contents (Elt F) → (⟨S2x8x256x512, .f32⟩ : BufTy).Contents (Elt F)),
    unary main_v207 main_v209 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v208 main_v209 main_v210 (mulf : (⟨S2x8x256x512, .f32⟩ : BufTy).Contents (Elt F) → (⟨S2x8x256x512, .f32⟩ : BufTy).Contents (Elt F) → (⟨S2x8x256x512, .f32⟩ : BufTy).Contents (Elt F)),
    binary main_v204 main_v210 main_v211 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v212 ((extractStridedSlice S2x1x256x512 ![0, 30, 0, 0] · slices_S2x81x256x512_S2x1x256x512_0_30_0_0) : (⟨S2x81x256x512, .f32⟩ : BufTy).Contents (Elt F) → (⟨S2x1x256x512, .f32⟩ : BufTy).Contents (Elt F)),
    reshape main_v212 main_v213 rfl shapeCasts_S2x1x256x512_S2x256x512,
    unary main_v213 main_v214 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v215 ((extractStridedSlice S2x8x256x512 ![0, 0, 3, 3] · slices_S2x8x264x520_S2x8x256x512_0_0_3_3) : (⟨S2x8x264x520, .f32⟩ : BufTy).Contents (Elt F) → (⟨S2x8x256x512, .f32⟩ : BufTy).Contents (Elt F)),
    unary main_v214 main_v216 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v215 main_v216 main_v217 (mulf : (⟨S2x8x256x512, .f32⟩ : BufTy).Contents (Elt F) → (⟨S2x8x256x512, .f32⟩ : BufTy).Contents (Elt F) → (⟨S2x8x256x512, .f32⟩ : BufTy).Contents (Elt F)),
    binary main_v211 main_v217 main_v218 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v219 ((extractStridedSlice S2x1x256x512 ![0, 31, 0, 0] · slices_S2x81x256x512_S2x1x256x512_0_31_0_0) : (⟨S2x81x256x512, .f32⟩ : BufTy).Contents (Elt F) → (⟨S2x1x256x512, .f32⟩ : BufTy).Contents (Elt F)),
    reshape main_v219 main_v220 rfl shapeCasts_S2x1x256x512_S2x256x512,
    unary main_v220 main_v221 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v222 ((extractStridedSlice S2x8x256x512 ![0, 0, 3, 4] · slices_S2x8x264x520_S2x8x256x512_0_0_3_4) : (⟨S2x8x264x520, .f32⟩ : BufTy).Contents (Elt F) → (⟨S2x8x256x512, .f32⟩ : BufTy).Contents (Elt F)),
    unary main_v221 main_v223 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v222 main_v223 main_v224 (mulf : (⟨S2x8x256x512, .f32⟩ : BufTy).Contents (Elt F) → (⟨S2x8x256x512, .f32⟩ : BufTy).Contents (Elt F) → (⟨S2x8x256x512, .f32⟩ : BufTy).Contents (Elt F)),
    binary main_v218 main_v224 main_v225 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v226 ((extractStridedSlice S2x1x256x512 ![0, 32, 0, 0] · slices_S2x81x256x512_S2x1x256x512_0_32_0_0) : (⟨S2x81x256x512, .f32⟩ : BufTy).Contents (Elt F) → (⟨S2x1x256x512, .f32⟩ : BufTy).Contents (Elt F)),
    reshape main_v226 main_v227 rfl shapeCasts_S2x1x256x512_S2x256x512,
    unary main_v227 main_v228 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v229 ((extractStridedSlice S2x8x256x512 ![0, 0, 3, 5] · slices_S2x8x264x520_S2x8x256x512_0_0_3_5) : (⟨S2x8x264x520, .f32⟩ : BufTy).Contents (Elt F) → (⟨S2x8x256x512, .f32⟩ : BufTy).Contents (Elt F)),
    unary main_v228 main_v230 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v229 main_v230 main_v231 (mulf : (⟨S2x8x256x512, .f32⟩ : BufTy).Contents (Elt F) → (⟨S2x8x256x512, .f32⟩ : BufTy).Contents (Elt F) → (⟨S2x8x256x512, .f32⟩ : BufTy).Contents (Elt F)),
    binary main_v225 main_v231 main_v232 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v233 ((extractStridedSlice S2x1x256x512 ![0, 33, 0, 0] · slices_S2x81x256x512_S2x1x256x512_0_33_0_0) : (⟨S2x81x256x512, .f32⟩ : BufTy).Contents (Elt F) → (⟨S2x1x256x512, .f32⟩ : BufTy).Contents (Elt F)),
    reshape main_v233 main_v234 rfl shapeCasts_S2x1x256x512_S2x256x512,
    unary main_v234 main_v235 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v236 ((extractStridedSlice S2x8x256x512 ![0, 0, 3, 6] · slices_S2x8x264x520_S2x8x256x512_0_0_3_6) : (⟨S2x8x264x520, .f32⟩ : BufTy).Contents (Elt F) → (⟨S2x8x256x512, .f32⟩ : BufTy).Contents (Elt F)),
    unary main_v235 main_v237 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v236 main_v237 main_v238 (mulf : (⟨S2x8x256x512, .f32⟩ : BufTy).Contents (Elt F) → (⟨S2x8x256x512, .f32⟩ : BufTy).Contents (Elt F) → (⟨S2x8x256x512, .f32⟩ : BufTy).Contents (Elt F)),
    binary main_v232 main_v238 main_v239 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v240 ((extractStridedSlice S2x1x256x512 ![0, 34, 0, 0] · slices_S2x81x256x512_S2x1x256x512_0_34_0_0) : (⟨S2x81x256x512, .f32⟩ : BufTy).Contents (Elt F) → (⟨S2x1x256x512, .f32⟩ : BufTy).Contents (Elt F)),
    reshape main_v240 main_v241 rfl shapeCasts_S2x1x256x512_S2x256x512,
    unary main_v241 main_v242 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v243 ((extractStridedSlice S2x8x256x512 ![0, 0, 3, 7] · slices_S2x8x264x520_S2x8x256x512_0_0_3_7) : (⟨S2x8x264x520, .f32⟩ : BufTy).Contents (Elt F) → (⟨S2x8x256x512, .f32⟩ : BufTy).Contents (Elt F)),
    unary main_v242 main_v244 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v243 main_v244 main_v245 (mulf : (⟨S2x8x256x512, .f32⟩ : BufTy).Contents (Elt F) → (⟨S2x8x256x512, .f32⟩ : BufTy).Contents (Elt F) → (⟨S2x8x256x512, .f32⟩ : BufTy).Contents (Elt F)),
    binary main_v239 main_v245 main_v246 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v247 ((extractStridedSlice S2x1x256x512 ![0, 35, 0, 0] · slices_S2x81x256x512_S2x1x256x512_0_35_0_0) : (⟨S2x81x256x512, .f32⟩ : BufTy).Contents (Elt F) → (⟨S2x1x256x512, .f32⟩ : BufTy).Contents (Elt F)),
    reshape main_v247 main_v248 rfl shapeCasts_S2x1x256x512_S2x256x512,
    unary main_v248 main_v249 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v250 ((extractStridedSlice S2x8x256x512 ![0, 0, 3, 8] · slices_S2x8x264x520_S2x8x256x512_0_0_3_8) : (⟨S2x8x264x520, .f32⟩ : BufTy).Contents (Elt F) → (⟨S2x8x256x512, .f32⟩ : BufTy).Contents (Elt F)),
    unary main_v249 main_v251 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v250 main_v251 main_v252 (mulf : (⟨S2x8x256x512, .f32⟩ : BufTy).Contents (Elt F) → (⟨S2x8x256x512, .f32⟩ : BufTy).Contents (Elt F) → (⟨S2x8x256x512, .f32⟩ : BufTy).Contents (Elt F)),
    binary main_v246 main_v252 main_v253 (addf : (⟨S2x8x256x512, .f32⟩ : BufTy).Contents (Elt F) → (⟨S2x8x256x512, .f32⟩ : BufTy).Contents (Elt F) → (⟨S2x8x256x512, .f32⟩ : BufTy).Contents (Elt F)) ]

theorem subT3 : (opsT3 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub ..⟩

/-- The buffers those operations write. -/
abbrev WT3 : List (Ref sig .tc) := [main_v191, main_v192, main_v193, main_v194, main_v195, main_v196, main_v197, main_v198, main_v199, main_v200, main_v201, main_v202, main_v203, main_v204, main_v205, main_v206, main_v207, main_v208, main_v209, main_v210, main_v211, main_v212, main_v213, main_v214, main_v215, main_v216, main_v217, main_v218, main_v219, main_v220, main_v221, main_v222, main_v223, main_v224, main_v225, main_v226, main_v227, main_v228, main_v229, main_v230, main_v231, main_v232, main_v233, main_v234, main_v235, main_v236, main_v237, main_v238, main_v239, main_v240, main_v241, main_v242, main_v243, main_v244, main_v245, main_v246, main_v247, main_v248, main_v249, main_v250, main_v251, main_v252, main_v253]

theorem writesT3 : Writes (opsT3 (F := F)) WT3 := by
  repeat (first | exact List.Forall₂.nil | refine List.Forall₂.cons rfl ?_)

/-- Operations 257 to 319 of the line. -/
abbrev opsT4 : List (HloOp τ sig (Elt F)) :=
  [ unary main_arg1 main_v254 ((extractStridedSlice S2x1x256x512 ![0, 36, 0, 0] · slices_S2x81x256x512_S2x1x256x512_0_36_0_0) : (⟨S2x81x256x512, .f32⟩ : BufTy).Contents (Elt F) → (⟨S2x1x256x512, .f32⟩ : BufTy).Contents (Elt F)),
    reshape main_v254 main_v255 rfl shapeCasts_S2x1x256x512_S2x256x512,
    unary main_v255 main_v256 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v257 ((extractStridedSlice S2x8x256x512 ![0, 0, 4, 0] · slices_S2x8x264x520_S2x8x256x512_0_0_4_0) : (⟨S2x8x264x520, .f32⟩ : BufTy).Contents (Elt F) → (⟨S2x8x256x512, .f32⟩ : BufTy).Contents (Elt F)),
    unary main_v256 main_v258 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v257 main_v258 main_v259 (mulf : (⟨S2x8x256x512, .f32⟩ : BufTy).Contents (Elt F) → (⟨S2x8x256x512, .f32⟩ : BufTy).Contents (Elt F) → (⟨S2x8x256x512, .f32⟩ : BufTy).Contents (Elt F)),
    binary main_v253 main_v259 main_v260 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v261 ((extractStridedSlice S2x1x256x512 ![0, 37, 0, 0] · slices_S2x81x256x512_S2x1x256x512_0_37_0_0) : (⟨S2x81x256x512, .f32⟩ : BufTy).Contents (Elt F) → (⟨S2x1x256x512, .f32⟩ : BufTy).Contents (Elt F)),
    reshape main_v261 main_v262 rfl shapeCasts_S2x1x256x512_S2x256x512,
    unary main_v262 main_v263 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v264 ((extractStridedSlice S2x8x256x512 ![0, 0, 4, 1] · slices_S2x8x264x520_S2x8x256x512_0_0_4_1) : (⟨S2x8x264x520, .f32⟩ : BufTy).Contents (Elt F) → (⟨S2x8x256x512, .f32⟩ : BufTy).Contents (Elt F)),
    unary main_v263 main_v265 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v264 main_v265 main_v266 (mulf : (⟨S2x8x256x512, .f32⟩ : BufTy).Contents (Elt F) → (⟨S2x8x256x512, .f32⟩ : BufTy).Contents (Elt F) → (⟨S2x8x256x512, .f32⟩ : BufTy).Contents (Elt F)),
    binary main_v260 main_v266 main_v267 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v268 ((extractStridedSlice S2x1x256x512 ![0, 38, 0, 0] · slices_S2x81x256x512_S2x1x256x512_0_38_0_0) : (⟨S2x81x256x512, .f32⟩ : BufTy).Contents (Elt F) → (⟨S2x1x256x512, .f32⟩ : BufTy).Contents (Elt F)),
    reshape main_v268 main_v269 rfl shapeCasts_S2x1x256x512_S2x256x512,
    unary main_v269 main_v270 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v271 ((extractStridedSlice S2x8x256x512 ![0, 0, 4, 2] · slices_S2x8x264x520_S2x8x256x512_0_0_4_2) : (⟨S2x8x264x520, .f32⟩ : BufTy).Contents (Elt F) → (⟨S2x8x256x512, .f32⟩ : BufTy).Contents (Elt F)),
    unary main_v270 main_v272 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v271 main_v272 main_v273 (mulf : (⟨S2x8x256x512, .f32⟩ : BufTy).Contents (Elt F) → (⟨S2x8x256x512, .f32⟩ : BufTy).Contents (Elt F) → (⟨S2x8x256x512, .f32⟩ : BufTy).Contents (Elt F)),
    binary main_v267 main_v273 main_v274 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v275 ((extractStridedSlice S2x1x256x512 ![0, 39, 0, 0] · slices_S2x81x256x512_S2x1x256x512_0_39_0_0) : (⟨S2x81x256x512, .f32⟩ : BufTy).Contents (Elt F) → (⟨S2x1x256x512, .f32⟩ : BufTy).Contents (Elt F)),
    reshape main_v275 main_v276 rfl shapeCasts_S2x1x256x512_S2x256x512,
    unary main_v276 main_v277 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v278 ((extractStridedSlice S2x8x256x512 ![0, 0, 4, 3] · slices_S2x8x264x520_S2x8x256x512_0_0_4_3) : (⟨S2x8x264x520, .f32⟩ : BufTy).Contents (Elt F) → (⟨S2x8x256x512, .f32⟩ : BufTy).Contents (Elt F)),
    unary main_v277 main_v279 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v278 main_v279 main_v280 (mulf : (⟨S2x8x256x512, .f32⟩ : BufTy).Contents (Elt F) → (⟨S2x8x256x512, .f32⟩ : BufTy).Contents (Elt F) → (⟨S2x8x256x512, .f32⟩ : BufTy).Contents (Elt F)),
    binary main_v274 main_v280 main_v281 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v282 ((extractStridedSlice S2x1x256x512 ![0, 40, 0, 0] · slices_S2x81x256x512_S2x1x256x512_0_40_0_0) : (⟨S2x81x256x512, .f32⟩ : BufTy).Contents (Elt F) → (⟨S2x1x256x512, .f32⟩ : BufTy).Contents (Elt F)),
    reshape main_v282 main_v283 rfl shapeCasts_S2x1x256x512_S2x256x512,
    unary main_v283 main_v284 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v285 ((extractStridedSlice S2x8x256x512 ![0, 0, 4, 4] · slices_S2x8x264x520_S2x8x256x512_0_0_4_4) : (⟨S2x8x264x520, .f32⟩ : BufTy).Contents (Elt F) → (⟨S2x8x256x512, .f32⟩ : BufTy).Contents (Elt F)),
    unary main_v284 main_v286 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v285 main_v286 main_v287 (mulf : (⟨S2x8x256x512, .f32⟩ : BufTy).Contents (Elt F) → (⟨S2x8x256x512, .f32⟩ : BufTy).Contents (Elt F) → (⟨S2x8x256x512, .f32⟩ : BufTy).Contents (Elt F)),
    binary main_v281 main_v287 main_v288 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v289 ((extractStridedSlice S2x1x256x512 ![0, 41, 0, 0] · slices_S2x81x256x512_S2x1x256x512_0_41_0_0) : (⟨S2x81x256x512, .f32⟩ : BufTy).Contents (Elt F) → (⟨S2x1x256x512, .f32⟩ : BufTy).Contents (Elt F)),
    reshape main_v289 main_v290 rfl shapeCasts_S2x1x256x512_S2x256x512,
    unary main_v290 main_v291 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v292 ((extractStridedSlice S2x8x256x512 ![0, 0, 4, 5] · slices_S2x8x264x520_S2x8x256x512_0_0_4_5) : (⟨S2x8x264x520, .f32⟩ : BufTy).Contents (Elt F) → (⟨S2x8x256x512, .f32⟩ : BufTy).Contents (Elt F)),
    unary main_v291 main_v293 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v292 main_v293 main_v294 (mulf : (⟨S2x8x256x512, .f32⟩ : BufTy).Contents (Elt F) → (⟨S2x8x256x512, .f32⟩ : BufTy).Contents (Elt F) → (⟨S2x8x256x512, .f32⟩ : BufTy).Contents (Elt F)),
    binary main_v288 main_v294 main_v295 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v296 ((extractStridedSlice S2x1x256x512 ![0, 42, 0, 0] · slices_S2x81x256x512_S2x1x256x512_0_42_0_0) : (⟨S2x81x256x512, .f32⟩ : BufTy).Contents (Elt F) → (⟨S2x1x256x512, .f32⟩ : BufTy).Contents (Elt F)),
    reshape main_v296 main_v297 rfl shapeCasts_S2x1x256x512_S2x256x512,
    unary main_v297 main_v298 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v299 ((extractStridedSlice S2x8x256x512 ![0, 0, 4, 6] · slices_S2x8x264x520_S2x8x256x512_0_0_4_6) : (⟨S2x8x264x520, .f32⟩ : BufTy).Contents (Elt F) → (⟨S2x8x256x512, .f32⟩ : BufTy).Contents (Elt F)),
    unary main_v298 main_v300 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v299 main_v300 main_v301 (mulf : (⟨S2x8x256x512, .f32⟩ : BufTy).Contents (Elt F) → (⟨S2x8x256x512, .f32⟩ : BufTy).Contents (Elt F) → (⟨S2x8x256x512, .f32⟩ : BufTy).Contents (Elt F)),
    binary main_v295 main_v301 main_v302 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v303 ((extractStridedSlice S2x1x256x512 ![0, 43, 0, 0] · slices_S2x81x256x512_S2x1x256x512_0_43_0_0) : (⟨S2x81x256x512, .f32⟩ : BufTy).Contents (Elt F) → (⟨S2x1x256x512, .f32⟩ : BufTy).Contents (Elt F)),
    reshape main_v303 main_v304 rfl shapeCasts_S2x1x256x512_S2x256x512,
    unary main_v304 main_v305 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v306 ((extractStridedSlice S2x8x256x512 ![0, 0, 4, 7] · slices_S2x8x264x520_S2x8x256x512_0_0_4_7) : (⟨S2x8x264x520, .f32⟩ : BufTy).Contents (Elt F) → (⟨S2x8x256x512, .f32⟩ : BufTy).Contents (Elt F)),
    unary main_v305 main_v307 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v306 main_v307 main_v308 (mulf : (⟨S2x8x256x512, .f32⟩ : BufTy).Contents (Elt F) → (⟨S2x8x256x512, .f32⟩ : BufTy).Contents (Elt F) → (⟨S2x8x256x512, .f32⟩ : BufTy).Contents (Elt F)),
    binary main_v302 main_v308 main_v309 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v310 ((extractStridedSlice S2x1x256x512 ![0, 44, 0, 0] · slices_S2x81x256x512_S2x1x256x512_0_44_0_0) : (⟨S2x81x256x512, .f32⟩ : BufTy).Contents (Elt F) → (⟨S2x1x256x512, .f32⟩ : BufTy).Contents (Elt F)),
    reshape main_v310 main_v311 rfl shapeCasts_S2x1x256x512_S2x256x512,
    unary main_v311 main_v312 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v313 ((extractStridedSlice S2x8x256x512 ![0, 0, 4, 8] · slices_S2x8x264x520_S2x8x256x512_0_0_4_8) : (⟨S2x8x264x520, .f32⟩ : BufTy).Contents (Elt F) → (⟨S2x8x256x512, .f32⟩ : BufTy).Contents (Elt F)),
    unary main_v312 main_v314 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v313 main_v314 main_v315 (mulf : (⟨S2x8x256x512, .f32⟩ : BufTy).Contents (Elt F) → (⟨S2x8x256x512, .f32⟩ : BufTy).Contents (Elt F) → (⟨S2x8x256x512, .f32⟩ : BufTy).Contents (Elt F)),
    binary main_v309 main_v315 main_v316 (addf : (⟨S2x8x256x512, .f32⟩ : BufTy).Contents (Elt F) → (⟨S2x8x256x512, .f32⟩ : BufTy).Contents (Elt F) → (⟨S2x8x256x512, .f32⟩ : BufTy).Contents (Elt F)) ]

theorem subT4 : (opsT4 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub ..⟩

/-- The buffers those operations write. -/
abbrev WT4 : List (Ref sig .tc) := [main_v254, main_v255, main_v256, main_v257, main_v258, main_v259, main_v260, main_v261, main_v262, main_v263, main_v264, main_v265, main_v266, main_v267, main_v268, main_v269, main_v270, main_v271, main_v272, main_v273, main_v274, main_v275, main_v276, main_v277, main_v278, main_v279, main_v280, main_v281, main_v282, main_v283, main_v284, main_v285, main_v286, main_v287, main_v288, main_v289, main_v290, main_v291, main_v292, main_v293, main_v294, main_v295, main_v296, main_v297, main_v298, main_v299, main_v300, main_v301, main_v302, main_v303, main_v304, main_v305, main_v306, main_v307, main_v308, main_v309, main_v310, main_v311, main_v312, main_v313, main_v314, main_v315, main_v316]

theorem writesT4 : Writes (opsT4 (F := F)) WT4 := by
  repeat (first | exact List.Forall₂.nil | refine List.Forall₂.cons rfl ?_)

/-- Operations 320 to 382 of the line. -/
abbrev opsT5 : List (HloOp τ sig (Elt F)) :=
  [ unary main_arg1 main_v317 ((extractStridedSlice S2x1x256x512 ![0, 45, 0, 0] · slices_S2x81x256x512_S2x1x256x512_0_45_0_0) : (⟨S2x81x256x512, .f32⟩ : BufTy).Contents (Elt F) → (⟨S2x1x256x512, .f32⟩ : BufTy).Contents (Elt F)),
    reshape main_v317 main_v318 rfl shapeCasts_S2x1x256x512_S2x256x512,
    unary main_v318 main_v319 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v320 ((extractStridedSlice S2x8x256x512 ![0, 0, 5, 0] · slices_S2x8x264x520_S2x8x256x512_0_0_5_0) : (⟨S2x8x264x520, .f32⟩ : BufTy).Contents (Elt F) → (⟨S2x8x256x512, .f32⟩ : BufTy).Contents (Elt F)),
    unary main_v319 main_v321 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v320 main_v321 main_v322 (mulf : (⟨S2x8x256x512, .f32⟩ : BufTy).Contents (Elt F) → (⟨S2x8x256x512, .f32⟩ : BufTy).Contents (Elt F) → (⟨S2x8x256x512, .f32⟩ : BufTy).Contents (Elt F)),
    binary main_v316 main_v322 main_v323 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v324 ((extractStridedSlice S2x1x256x512 ![0, 46, 0, 0] · slices_S2x81x256x512_S2x1x256x512_0_46_0_0) : (⟨S2x81x256x512, .f32⟩ : BufTy).Contents (Elt F) → (⟨S2x1x256x512, .f32⟩ : BufTy).Contents (Elt F)),
    reshape main_v324 main_v325 rfl shapeCasts_S2x1x256x512_S2x256x512,
    unary main_v325 main_v326 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v327 ((extractStridedSlice S2x8x256x512 ![0, 0, 5, 1] · slices_S2x8x264x520_S2x8x256x512_0_0_5_1) : (⟨S2x8x264x520, .f32⟩ : BufTy).Contents (Elt F) → (⟨S2x8x256x512, .f32⟩ : BufTy).Contents (Elt F)),
    unary main_v326 main_v328 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v327 main_v328 main_v329 (mulf : (⟨S2x8x256x512, .f32⟩ : BufTy).Contents (Elt F) → (⟨S2x8x256x512, .f32⟩ : BufTy).Contents (Elt F) → (⟨S2x8x256x512, .f32⟩ : BufTy).Contents (Elt F)),
    binary main_v323 main_v329 main_v330 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v331 ((extractStridedSlice S2x1x256x512 ![0, 47, 0, 0] · slices_S2x81x256x512_S2x1x256x512_0_47_0_0) : (⟨S2x81x256x512, .f32⟩ : BufTy).Contents (Elt F) → (⟨S2x1x256x512, .f32⟩ : BufTy).Contents (Elt F)),
    reshape main_v331 main_v332 rfl shapeCasts_S2x1x256x512_S2x256x512,
    unary main_v332 main_v333 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v334 ((extractStridedSlice S2x8x256x512 ![0, 0, 5, 2] · slices_S2x8x264x520_S2x8x256x512_0_0_5_2) : (⟨S2x8x264x520, .f32⟩ : BufTy).Contents (Elt F) → (⟨S2x8x256x512, .f32⟩ : BufTy).Contents (Elt F)),
    unary main_v333 main_v335 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v334 main_v335 main_v336 (mulf : (⟨S2x8x256x512, .f32⟩ : BufTy).Contents (Elt F) → (⟨S2x8x256x512, .f32⟩ : BufTy).Contents (Elt F) → (⟨S2x8x256x512, .f32⟩ : BufTy).Contents (Elt F)),
    binary main_v330 main_v336 main_v337 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v338 ((extractStridedSlice S2x1x256x512 ![0, 48, 0, 0] · slices_S2x81x256x512_S2x1x256x512_0_48_0_0) : (⟨S2x81x256x512, .f32⟩ : BufTy).Contents (Elt F) → (⟨S2x1x256x512, .f32⟩ : BufTy).Contents (Elt F)),
    reshape main_v338 main_v339 rfl shapeCasts_S2x1x256x512_S2x256x512,
    unary main_v339 main_v340 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v341 ((extractStridedSlice S2x8x256x512 ![0, 0, 5, 3] · slices_S2x8x264x520_S2x8x256x512_0_0_5_3) : (⟨S2x8x264x520, .f32⟩ : BufTy).Contents (Elt F) → (⟨S2x8x256x512, .f32⟩ : BufTy).Contents (Elt F)),
    unary main_v340 main_v342 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v341 main_v342 main_v343 (mulf : (⟨S2x8x256x512, .f32⟩ : BufTy).Contents (Elt F) → (⟨S2x8x256x512, .f32⟩ : BufTy).Contents (Elt F) → (⟨S2x8x256x512, .f32⟩ : BufTy).Contents (Elt F)),
    binary main_v337 main_v343 main_v344 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v345 ((extractStridedSlice S2x1x256x512 ![0, 49, 0, 0] · slices_S2x81x256x512_S2x1x256x512_0_49_0_0) : (⟨S2x81x256x512, .f32⟩ : BufTy).Contents (Elt F) → (⟨S2x1x256x512, .f32⟩ : BufTy).Contents (Elt F)),
    reshape main_v345 main_v346 rfl shapeCasts_S2x1x256x512_S2x256x512,
    unary main_v346 main_v347 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v348 ((extractStridedSlice S2x8x256x512 ![0, 0, 5, 4] · slices_S2x8x264x520_S2x8x256x512_0_0_5_4) : (⟨S2x8x264x520, .f32⟩ : BufTy).Contents (Elt F) → (⟨S2x8x256x512, .f32⟩ : BufTy).Contents (Elt F)),
    unary main_v347 main_v349 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v348 main_v349 main_v350 (mulf : (⟨S2x8x256x512, .f32⟩ : BufTy).Contents (Elt F) → (⟨S2x8x256x512, .f32⟩ : BufTy).Contents (Elt F) → (⟨S2x8x256x512, .f32⟩ : BufTy).Contents (Elt F)),
    binary main_v344 main_v350 main_v351 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v352 ((extractStridedSlice S2x1x256x512 ![0, 50, 0, 0] · slices_S2x81x256x512_S2x1x256x512_0_50_0_0) : (⟨S2x81x256x512, .f32⟩ : BufTy).Contents (Elt F) → (⟨S2x1x256x512, .f32⟩ : BufTy).Contents (Elt F)),
    reshape main_v352 main_v353 rfl shapeCasts_S2x1x256x512_S2x256x512,
    unary main_v353 main_v354 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v355 ((extractStridedSlice S2x8x256x512 ![0, 0, 5, 5] · slices_S2x8x264x520_S2x8x256x512_0_0_5_5) : (⟨S2x8x264x520, .f32⟩ : BufTy).Contents (Elt F) → (⟨S2x8x256x512, .f32⟩ : BufTy).Contents (Elt F)),
    unary main_v354 main_v356 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v355 main_v356 main_v357 (mulf : (⟨S2x8x256x512, .f32⟩ : BufTy).Contents (Elt F) → (⟨S2x8x256x512, .f32⟩ : BufTy).Contents (Elt F) → (⟨S2x8x256x512, .f32⟩ : BufTy).Contents (Elt F)),
    binary main_v351 main_v357 main_v358 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v359 ((extractStridedSlice S2x1x256x512 ![0, 51, 0, 0] · slices_S2x81x256x512_S2x1x256x512_0_51_0_0) : (⟨S2x81x256x512, .f32⟩ : BufTy).Contents (Elt F) → (⟨S2x1x256x512, .f32⟩ : BufTy).Contents (Elt F)),
    reshape main_v359 main_v360 rfl shapeCasts_S2x1x256x512_S2x256x512,
    unary main_v360 main_v361 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v362 ((extractStridedSlice S2x8x256x512 ![0, 0, 5, 6] · slices_S2x8x264x520_S2x8x256x512_0_0_5_6) : (⟨S2x8x264x520, .f32⟩ : BufTy).Contents (Elt F) → (⟨S2x8x256x512, .f32⟩ : BufTy).Contents (Elt F)),
    unary main_v361 main_v363 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v362 main_v363 main_v364 (mulf : (⟨S2x8x256x512, .f32⟩ : BufTy).Contents (Elt F) → (⟨S2x8x256x512, .f32⟩ : BufTy).Contents (Elt F) → (⟨S2x8x256x512, .f32⟩ : BufTy).Contents (Elt F)),
    binary main_v358 main_v364 main_v365 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v366 ((extractStridedSlice S2x1x256x512 ![0, 52, 0, 0] · slices_S2x81x256x512_S2x1x256x512_0_52_0_0) : (⟨S2x81x256x512, .f32⟩ : BufTy).Contents (Elt F) → (⟨S2x1x256x512, .f32⟩ : BufTy).Contents (Elt F)),
    reshape main_v366 main_v367 rfl shapeCasts_S2x1x256x512_S2x256x512,
    unary main_v367 main_v368 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v369 ((extractStridedSlice S2x8x256x512 ![0, 0, 5, 7] · slices_S2x8x264x520_S2x8x256x512_0_0_5_7) : (⟨S2x8x264x520, .f32⟩ : BufTy).Contents (Elt F) → (⟨S2x8x256x512, .f32⟩ : BufTy).Contents (Elt F)),
    unary main_v368 main_v370 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v369 main_v370 main_v371 (mulf : (⟨S2x8x256x512, .f32⟩ : BufTy).Contents (Elt F) → (⟨S2x8x256x512, .f32⟩ : BufTy).Contents (Elt F) → (⟨S2x8x256x512, .f32⟩ : BufTy).Contents (Elt F)),
    binary main_v365 main_v371 main_v372 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v373 ((extractStridedSlice S2x1x256x512 ![0, 53, 0, 0] · slices_S2x81x256x512_S2x1x256x512_0_53_0_0) : (⟨S2x81x256x512, .f32⟩ : BufTy).Contents (Elt F) → (⟨S2x1x256x512, .f32⟩ : BufTy).Contents (Elt F)),
    reshape main_v373 main_v374 rfl shapeCasts_S2x1x256x512_S2x256x512,
    unary main_v374 main_v375 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v376 ((extractStridedSlice S2x8x256x512 ![0, 0, 5, 8] · slices_S2x8x264x520_S2x8x256x512_0_0_5_8) : (⟨S2x8x264x520, .f32⟩ : BufTy).Contents (Elt F) → (⟨S2x8x256x512, .f32⟩ : BufTy).Contents (Elt F)),
    unary main_v375 main_v377 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v376 main_v377 main_v378 (mulf : (⟨S2x8x256x512, .f32⟩ : BufTy).Contents (Elt F) → (⟨S2x8x256x512, .f32⟩ : BufTy).Contents (Elt F) → (⟨S2x8x256x512, .f32⟩ : BufTy).Contents (Elt F)),
    binary main_v372 main_v378 main_v379 (addf : (⟨S2x8x256x512, .f32⟩ : BufTy).Contents (Elt F) → (⟨S2x8x256x512, .f32⟩ : BufTy).Contents (Elt F) → (⟨S2x8x256x512, .f32⟩ : BufTy).Contents (Elt F)) ]

theorem subT5 : (opsT5 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub ..⟩

/-- The buffers those operations write. -/
abbrev WT5 : List (Ref sig .tc) := [main_v317, main_v318, main_v319, main_v320, main_v321, main_v322, main_v323, main_v324, main_v325, main_v326, main_v327, main_v328, main_v329, main_v330, main_v331, main_v332, main_v333, main_v334, main_v335, main_v336, main_v337, main_v338, main_v339, main_v340, main_v341, main_v342, main_v343, main_v344, main_v345, main_v346, main_v347, main_v348, main_v349, main_v350, main_v351, main_v352, main_v353, main_v354, main_v355, main_v356, main_v357, main_v358, main_v359, main_v360, main_v361, main_v362, main_v363, main_v364, main_v365, main_v366, main_v367, main_v368, main_v369, main_v370, main_v371, main_v372, main_v373, main_v374, main_v375, main_v376, main_v377, main_v378, main_v379]

theorem writesT5 : Writes (opsT5 (F := F)) WT5 := by
  repeat (first | exact List.Forall₂.nil | refine List.Forall₂.cons rfl ?_)

/-- Operations 383 to 445 of the line. -/
abbrev opsT6 : List (HloOp τ sig (Elt F)) :=
  [ unary main_arg1 main_v380 ((extractStridedSlice S2x1x256x512 ![0, 54, 0, 0] · slices_S2x81x256x512_S2x1x256x512_0_54_0_0) : (⟨S2x81x256x512, .f32⟩ : BufTy).Contents (Elt F) → (⟨S2x1x256x512, .f32⟩ : BufTy).Contents (Elt F)),
    reshape main_v380 main_v381 rfl shapeCasts_S2x1x256x512_S2x256x512,
    unary main_v381 main_v382 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v383 ((extractStridedSlice S2x8x256x512 ![0, 0, 6, 0] · slices_S2x8x264x520_S2x8x256x512_0_0_6_0) : (⟨S2x8x264x520, .f32⟩ : BufTy).Contents (Elt F) → (⟨S2x8x256x512, .f32⟩ : BufTy).Contents (Elt F)),
    unary main_v382 main_v384 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v383 main_v384 main_v385 (mulf : (⟨S2x8x256x512, .f32⟩ : BufTy).Contents (Elt F) → (⟨S2x8x256x512, .f32⟩ : BufTy).Contents (Elt F) → (⟨S2x8x256x512, .f32⟩ : BufTy).Contents (Elt F)),
    binary main_v379 main_v385 main_v386 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v387 ((extractStridedSlice S2x1x256x512 ![0, 55, 0, 0] · slices_S2x81x256x512_S2x1x256x512_0_55_0_0) : (⟨S2x81x256x512, .f32⟩ : BufTy).Contents (Elt F) → (⟨S2x1x256x512, .f32⟩ : BufTy).Contents (Elt F)),
    reshape main_v387 main_v388 rfl shapeCasts_S2x1x256x512_S2x256x512,
    unary main_v388 main_v389 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v390 ((extractStridedSlice S2x8x256x512 ![0, 0, 6, 1] · slices_S2x8x264x520_S2x8x256x512_0_0_6_1) : (⟨S2x8x264x520, .f32⟩ : BufTy).Contents (Elt F) → (⟨S2x8x256x512, .f32⟩ : BufTy).Contents (Elt F)),
    unary main_v389 main_v391 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v390 main_v391 main_v392 (mulf : (⟨S2x8x256x512, .f32⟩ : BufTy).Contents (Elt F) → (⟨S2x8x256x512, .f32⟩ : BufTy).Contents (Elt F) → (⟨S2x8x256x512, .f32⟩ : BufTy).Contents (Elt F)),
    binary main_v386 main_v392 main_v393 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v394 ((extractStridedSlice S2x1x256x512 ![0, 56, 0, 0] · slices_S2x81x256x512_S2x1x256x512_0_56_0_0) : (⟨S2x81x256x512, .f32⟩ : BufTy).Contents (Elt F) → (⟨S2x1x256x512, .f32⟩ : BufTy).Contents (Elt F)),
    reshape main_v394 main_v395 rfl shapeCasts_S2x1x256x512_S2x256x512,
    unary main_v395 main_v396 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v397 ((extractStridedSlice S2x8x256x512 ![0, 0, 6, 2] · slices_S2x8x264x520_S2x8x256x512_0_0_6_2) : (⟨S2x8x264x520, .f32⟩ : BufTy).Contents (Elt F) → (⟨S2x8x256x512, .f32⟩ : BufTy).Contents (Elt F)),
    unary main_v396 main_v398 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v397 main_v398 main_v399 (mulf : (⟨S2x8x256x512, .f32⟩ : BufTy).Contents (Elt F) → (⟨S2x8x256x512, .f32⟩ : BufTy).Contents (Elt F) → (⟨S2x8x256x512, .f32⟩ : BufTy).Contents (Elt F)),
    binary main_v393 main_v399 main_v400 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v401 ((extractStridedSlice S2x1x256x512 ![0, 57, 0, 0] · slices_S2x81x256x512_S2x1x256x512_0_57_0_0) : (⟨S2x81x256x512, .f32⟩ : BufTy).Contents (Elt F) → (⟨S2x1x256x512, .f32⟩ : BufTy).Contents (Elt F)),
    reshape main_v401 main_v402 rfl shapeCasts_S2x1x256x512_S2x256x512,
    unary main_v402 main_v403 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v404 ((extractStridedSlice S2x8x256x512 ![0, 0, 6, 3] · slices_S2x8x264x520_S2x8x256x512_0_0_6_3) : (⟨S2x8x264x520, .f32⟩ : BufTy).Contents (Elt F) → (⟨S2x8x256x512, .f32⟩ : BufTy).Contents (Elt F)),
    unary main_v403 main_v405 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v404 main_v405 main_v406 (mulf : (⟨S2x8x256x512, .f32⟩ : BufTy).Contents (Elt F) → (⟨S2x8x256x512, .f32⟩ : BufTy).Contents (Elt F) → (⟨S2x8x256x512, .f32⟩ : BufTy).Contents (Elt F)),
    binary main_v400 main_v406 main_v407 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v408 ((extractStridedSlice S2x1x256x512 ![0, 58, 0, 0] · slices_S2x81x256x512_S2x1x256x512_0_58_0_0) : (⟨S2x81x256x512, .f32⟩ : BufTy).Contents (Elt F) → (⟨S2x1x256x512, .f32⟩ : BufTy).Contents (Elt F)),
    reshape main_v408 main_v409 rfl shapeCasts_S2x1x256x512_S2x256x512,
    unary main_v409 main_v410 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v411 ((extractStridedSlice S2x8x256x512 ![0, 0, 6, 4] · slices_S2x8x264x520_S2x8x256x512_0_0_6_4) : (⟨S2x8x264x520, .f32⟩ : BufTy).Contents (Elt F) → (⟨S2x8x256x512, .f32⟩ : BufTy).Contents (Elt F)),
    unary main_v410 main_v412 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v411 main_v412 main_v413 (mulf : (⟨S2x8x256x512, .f32⟩ : BufTy).Contents (Elt F) → (⟨S2x8x256x512, .f32⟩ : BufTy).Contents (Elt F) → (⟨S2x8x256x512, .f32⟩ : BufTy).Contents (Elt F)),
    binary main_v407 main_v413 main_v414 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v415 ((extractStridedSlice S2x1x256x512 ![0, 59, 0, 0] · slices_S2x81x256x512_S2x1x256x512_0_59_0_0) : (⟨S2x81x256x512, .f32⟩ : BufTy).Contents (Elt F) → (⟨S2x1x256x512, .f32⟩ : BufTy).Contents (Elt F)),
    reshape main_v415 main_v416 rfl shapeCasts_S2x1x256x512_S2x256x512,
    unary main_v416 main_v417 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v418 ((extractStridedSlice S2x8x256x512 ![0, 0, 6, 5] · slices_S2x8x264x520_S2x8x256x512_0_0_6_5) : (⟨S2x8x264x520, .f32⟩ : BufTy).Contents (Elt F) → (⟨S2x8x256x512, .f32⟩ : BufTy).Contents (Elt F)),
    unary main_v417 main_v419 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v418 main_v419 main_v420 (mulf : (⟨S2x8x256x512, .f32⟩ : BufTy).Contents (Elt F) → (⟨S2x8x256x512, .f32⟩ : BufTy).Contents (Elt F) → (⟨S2x8x256x512, .f32⟩ : BufTy).Contents (Elt F)),
    binary main_v414 main_v420 main_v421 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v422 ((extractStridedSlice S2x1x256x512 ![0, 60, 0, 0] · slices_S2x81x256x512_S2x1x256x512_0_60_0_0) : (⟨S2x81x256x512, .f32⟩ : BufTy).Contents (Elt F) → (⟨S2x1x256x512, .f32⟩ : BufTy).Contents (Elt F)),
    reshape main_v422 main_v423 rfl shapeCasts_S2x1x256x512_S2x256x512,
    unary main_v423 main_v424 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v425 ((extractStridedSlice S2x8x256x512 ![0, 0, 6, 6] · slices_S2x8x264x520_S2x8x256x512_0_0_6_6) : (⟨S2x8x264x520, .f32⟩ : BufTy).Contents (Elt F) → (⟨S2x8x256x512, .f32⟩ : BufTy).Contents (Elt F)),
    unary main_v424 main_v426 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v425 main_v426 main_v427 (mulf : (⟨S2x8x256x512, .f32⟩ : BufTy).Contents (Elt F) → (⟨S2x8x256x512, .f32⟩ : BufTy).Contents (Elt F) → (⟨S2x8x256x512, .f32⟩ : BufTy).Contents (Elt F)),
    binary main_v421 main_v427 main_v428 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v429 ((extractStridedSlice S2x1x256x512 ![0, 61, 0, 0] · slices_S2x81x256x512_S2x1x256x512_0_61_0_0) : (⟨S2x81x256x512, .f32⟩ : BufTy).Contents (Elt F) → (⟨S2x1x256x512, .f32⟩ : BufTy).Contents (Elt F)),
    reshape main_v429 main_v430 rfl shapeCasts_S2x1x256x512_S2x256x512,
    unary main_v430 main_v431 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v432 ((extractStridedSlice S2x8x256x512 ![0, 0, 6, 7] · slices_S2x8x264x520_S2x8x256x512_0_0_6_7) : (⟨S2x8x264x520, .f32⟩ : BufTy).Contents (Elt F) → (⟨S2x8x256x512, .f32⟩ : BufTy).Contents (Elt F)),
    unary main_v431 main_v433 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v432 main_v433 main_v434 (mulf : (⟨S2x8x256x512, .f32⟩ : BufTy).Contents (Elt F) → (⟨S2x8x256x512, .f32⟩ : BufTy).Contents (Elt F) → (⟨S2x8x256x512, .f32⟩ : BufTy).Contents (Elt F)),
    binary main_v428 main_v434 main_v435 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v436 ((extractStridedSlice S2x1x256x512 ![0, 62, 0, 0] · slices_S2x81x256x512_S2x1x256x512_0_62_0_0) : (⟨S2x81x256x512, .f32⟩ : BufTy).Contents (Elt F) → (⟨S2x1x256x512, .f32⟩ : BufTy).Contents (Elt F)),
    reshape main_v436 main_v437 rfl shapeCasts_S2x1x256x512_S2x256x512,
    unary main_v437 main_v438 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v439 ((extractStridedSlice S2x8x256x512 ![0, 0, 6, 8] · slices_S2x8x264x520_S2x8x256x512_0_0_6_8) : (⟨S2x8x264x520, .f32⟩ : BufTy).Contents (Elt F) → (⟨S2x8x256x512, .f32⟩ : BufTy).Contents (Elt F)),
    unary main_v438 main_v440 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v439 main_v440 main_v441 (mulf : (⟨S2x8x256x512, .f32⟩ : BufTy).Contents (Elt F) → (⟨S2x8x256x512, .f32⟩ : BufTy).Contents (Elt F) → (⟨S2x8x256x512, .f32⟩ : BufTy).Contents (Elt F)),
    binary main_v435 main_v441 main_v442 (addf : (⟨S2x8x256x512, .f32⟩ : BufTy).Contents (Elt F) → (⟨S2x8x256x512, .f32⟩ : BufTy).Contents (Elt F) → (⟨S2x8x256x512, .f32⟩ : BufTy).Contents (Elt F)) ]

theorem subT6 : (opsT6 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub ..⟩

/-- The buffers those operations write. -/
abbrev WT6 : List (Ref sig .tc) := [main_v380, main_v381, main_v382, main_v383, main_v384, main_v385, main_v386, main_v387, main_v388, main_v389, main_v390, main_v391, main_v392, main_v393, main_v394, main_v395, main_v396, main_v397, main_v398, main_v399, main_v400, main_v401, main_v402, main_v403, main_v404, main_v405, main_v406, main_v407, main_v408, main_v409, main_v410, main_v411, main_v412, main_v413, main_v414, main_v415, main_v416, main_v417, main_v418, main_v419, main_v420, main_v421, main_v422, main_v423, main_v424, main_v425, main_v426, main_v427, main_v428, main_v429, main_v430, main_v431, main_v432, main_v433, main_v434, main_v435, main_v436, main_v437, main_v438, main_v439, main_v440, main_v441, main_v442]

theorem writesT6 : Writes (opsT6 (F := F)) WT6 := by
  repeat (first | exact List.Forall₂.nil | refine List.Forall₂.cons rfl ?_)

/-- Operations 446 to 508 of the line. -/
abbrev opsT7 : List (HloOp τ sig (Elt F)) :=
  [ unary main_arg1 main_v443 ((extractStridedSlice S2x1x256x512 ![0, 63, 0, 0] · slices_S2x81x256x512_S2x1x256x512_0_63_0_0) : (⟨S2x81x256x512, .f32⟩ : BufTy).Contents (Elt F) → (⟨S2x1x256x512, .f32⟩ : BufTy).Contents (Elt F)),
    reshape main_v443 main_v444 rfl shapeCasts_S2x1x256x512_S2x256x512,
    unary main_v444 main_v445 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v446 ((extractStridedSlice S2x8x256x512 ![0, 0, 7, 0] · slices_S2x8x264x520_S2x8x256x512_0_0_7_0) : (⟨S2x8x264x520, .f32⟩ : BufTy).Contents (Elt F) → (⟨S2x8x256x512, .f32⟩ : BufTy).Contents (Elt F)),
    unary main_v445 main_v447 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v446 main_v447 main_v448 (mulf : (⟨S2x8x256x512, .f32⟩ : BufTy).Contents (Elt F) → (⟨S2x8x256x512, .f32⟩ : BufTy).Contents (Elt F) → (⟨S2x8x256x512, .f32⟩ : BufTy).Contents (Elt F)),
    binary main_v442 main_v448 main_v449 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v450 ((extractStridedSlice S2x1x256x512 ![0, 64, 0, 0] · slices_S2x81x256x512_S2x1x256x512_0_64_0_0) : (⟨S2x81x256x512, .f32⟩ : BufTy).Contents (Elt F) → (⟨S2x1x256x512, .f32⟩ : BufTy).Contents (Elt F)),
    reshape main_v450 main_v451 rfl shapeCasts_S2x1x256x512_S2x256x512,
    unary main_v451 main_v452 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v453 ((extractStridedSlice S2x8x256x512 ![0, 0, 7, 1] · slices_S2x8x264x520_S2x8x256x512_0_0_7_1) : (⟨S2x8x264x520, .f32⟩ : BufTy).Contents (Elt F) → (⟨S2x8x256x512, .f32⟩ : BufTy).Contents (Elt F)),
    unary main_v452 main_v454 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v453 main_v454 main_v455 (mulf : (⟨S2x8x256x512, .f32⟩ : BufTy).Contents (Elt F) → (⟨S2x8x256x512, .f32⟩ : BufTy).Contents (Elt F) → (⟨S2x8x256x512, .f32⟩ : BufTy).Contents (Elt F)),
    binary main_v449 main_v455 main_v456 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v457 ((extractStridedSlice S2x1x256x512 ![0, 65, 0, 0] · slices_S2x81x256x512_S2x1x256x512_0_65_0_0) : (⟨S2x81x256x512, .f32⟩ : BufTy).Contents (Elt F) → (⟨S2x1x256x512, .f32⟩ : BufTy).Contents (Elt F)),
    reshape main_v457 main_v458 rfl shapeCasts_S2x1x256x512_S2x256x512,
    unary main_v458 main_v459 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v460 ((extractStridedSlice S2x8x256x512 ![0, 0, 7, 2] · slices_S2x8x264x520_S2x8x256x512_0_0_7_2) : (⟨S2x8x264x520, .f32⟩ : BufTy).Contents (Elt F) → (⟨S2x8x256x512, .f32⟩ : BufTy).Contents (Elt F)),
    unary main_v459 main_v461 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v460 main_v461 main_v462 (mulf : (⟨S2x8x256x512, .f32⟩ : BufTy).Contents (Elt F) → (⟨S2x8x256x512, .f32⟩ : BufTy).Contents (Elt F) → (⟨S2x8x256x512, .f32⟩ : BufTy).Contents (Elt F)),
    binary main_v456 main_v462 main_v463 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v464 ((extractStridedSlice S2x1x256x512 ![0, 66, 0, 0] · slices_S2x81x256x512_S2x1x256x512_0_66_0_0) : (⟨S2x81x256x512, .f32⟩ : BufTy).Contents (Elt F) → (⟨S2x1x256x512, .f32⟩ : BufTy).Contents (Elt F)),
    reshape main_v464 main_v465 rfl shapeCasts_S2x1x256x512_S2x256x512,
    unary main_v465 main_v466 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v467 ((extractStridedSlice S2x8x256x512 ![0, 0, 7, 3] · slices_S2x8x264x520_S2x8x256x512_0_0_7_3) : (⟨S2x8x264x520, .f32⟩ : BufTy).Contents (Elt F) → (⟨S2x8x256x512, .f32⟩ : BufTy).Contents (Elt F)),
    unary main_v466 main_v468 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v467 main_v468 main_v469 (mulf : (⟨S2x8x256x512, .f32⟩ : BufTy).Contents (Elt F) → (⟨S2x8x256x512, .f32⟩ : BufTy).Contents (Elt F) → (⟨S2x8x256x512, .f32⟩ : BufTy).Contents (Elt F)),
    binary main_v463 main_v469 main_v470 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v471 ((extractStridedSlice S2x1x256x512 ![0, 67, 0, 0] · slices_S2x81x256x512_S2x1x256x512_0_67_0_0) : (⟨S2x81x256x512, .f32⟩ : BufTy).Contents (Elt F) → (⟨S2x1x256x512, .f32⟩ : BufTy).Contents (Elt F)),
    reshape main_v471 main_v472 rfl shapeCasts_S2x1x256x512_S2x256x512,
    unary main_v472 main_v473 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v474 ((extractStridedSlice S2x8x256x512 ![0, 0, 7, 4] · slices_S2x8x264x520_S2x8x256x512_0_0_7_4) : (⟨S2x8x264x520, .f32⟩ : BufTy).Contents (Elt F) → (⟨S2x8x256x512, .f32⟩ : BufTy).Contents (Elt F)),
    unary main_v473 main_v475 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v474 main_v475 main_v476 (mulf : (⟨S2x8x256x512, .f32⟩ : BufTy).Contents (Elt F) → (⟨S2x8x256x512, .f32⟩ : BufTy).Contents (Elt F) → (⟨S2x8x256x512, .f32⟩ : BufTy).Contents (Elt F)),
    binary main_v470 main_v476 main_v477 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v478 ((extractStridedSlice S2x1x256x512 ![0, 68, 0, 0] · slices_S2x81x256x512_S2x1x256x512_0_68_0_0) : (⟨S2x81x256x512, .f32⟩ : BufTy).Contents (Elt F) → (⟨S2x1x256x512, .f32⟩ : BufTy).Contents (Elt F)),
    reshape main_v478 main_v479 rfl shapeCasts_S2x1x256x512_S2x256x512,
    unary main_v479 main_v480 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v481 ((extractStridedSlice S2x8x256x512 ![0, 0, 7, 5] · slices_S2x8x264x520_S2x8x256x512_0_0_7_5) : (⟨S2x8x264x520, .f32⟩ : BufTy).Contents (Elt F) → (⟨S2x8x256x512, .f32⟩ : BufTy).Contents (Elt F)),
    unary main_v480 main_v482 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v481 main_v482 main_v483 (mulf : (⟨S2x8x256x512, .f32⟩ : BufTy).Contents (Elt F) → (⟨S2x8x256x512, .f32⟩ : BufTy).Contents (Elt F) → (⟨S2x8x256x512, .f32⟩ : BufTy).Contents (Elt F)),
    binary main_v477 main_v483 main_v484 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v485 ((extractStridedSlice S2x1x256x512 ![0, 69, 0, 0] · slices_S2x81x256x512_S2x1x256x512_0_69_0_0) : (⟨S2x81x256x512, .f32⟩ : BufTy).Contents (Elt F) → (⟨S2x1x256x512, .f32⟩ : BufTy).Contents (Elt F)),
    reshape main_v485 main_v486 rfl shapeCasts_S2x1x256x512_S2x256x512,
    unary main_v486 main_v487 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v488 ((extractStridedSlice S2x8x256x512 ![0, 0, 7, 6] · slices_S2x8x264x520_S2x8x256x512_0_0_7_6) : (⟨S2x8x264x520, .f32⟩ : BufTy).Contents (Elt F) → (⟨S2x8x256x512, .f32⟩ : BufTy).Contents (Elt F)),
    unary main_v487 main_v489 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v488 main_v489 main_v490 (mulf : (⟨S2x8x256x512, .f32⟩ : BufTy).Contents (Elt F) → (⟨S2x8x256x512, .f32⟩ : BufTy).Contents (Elt F) → (⟨S2x8x256x512, .f32⟩ : BufTy).Contents (Elt F)),
    binary main_v484 main_v490 main_v491 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v492 ((extractStridedSlice S2x1x256x512 ![0, 70, 0, 0] · slices_S2x81x256x512_S2x1x256x512_0_70_0_0) : (⟨S2x81x256x512, .f32⟩ : BufTy).Contents (Elt F) → (⟨S2x1x256x512, .f32⟩ : BufTy).Contents (Elt F)),
    reshape main_v492 main_v493 rfl shapeCasts_S2x1x256x512_S2x256x512,
    unary main_v493 main_v494 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v495 ((extractStridedSlice S2x8x256x512 ![0, 0, 7, 7] · slices_S2x8x264x520_S2x8x256x512_0_0_7_7) : (⟨S2x8x264x520, .f32⟩ : BufTy).Contents (Elt F) → (⟨S2x8x256x512, .f32⟩ : BufTy).Contents (Elt F)),
    unary main_v494 main_v496 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v495 main_v496 main_v497 (mulf : (⟨S2x8x256x512, .f32⟩ : BufTy).Contents (Elt F) → (⟨S2x8x256x512, .f32⟩ : BufTy).Contents (Elt F) → (⟨S2x8x256x512, .f32⟩ : BufTy).Contents (Elt F)),
    binary main_v491 main_v497 main_v498 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v499 ((extractStridedSlice S2x1x256x512 ![0, 71, 0, 0] · slices_S2x81x256x512_S2x1x256x512_0_71_0_0) : (⟨S2x81x256x512, .f32⟩ : BufTy).Contents (Elt F) → (⟨S2x1x256x512, .f32⟩ : BufTy).Contents (Elt F)),
    reshape main_v499 main_v500 rfl shapeCasts_S2x1x256x512_S2x256x512,
    unary main_v500 main_v501 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v502 ((extractStridedSlice S2x8x256x512 ![0, 0, 7, 8] · slices_S2x8x264x520_S2x8x256x512_0_0_7_8) : (⟨S2x8x264x520, .f32⟩ : BufTy).Contents (Elt F) → (⟨S2x8x256x512, .f32⟩ : BufTy).Contents (Elt F)),
    unary main_v501 main_v503 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v502 main_v503 main_v504 (mulf : (⟨S2x8x256x512, .f32⟩ : BufTy).Contents (Elt F) → (⟨S2x8x256x512, .f32⟩ : BufTy).Contents (Elt F) → (⟨S2x8x256x512, .f32⟩ : BufTy).Contents (Elt F)),
    binary main_v498 main_v504 main_v505 (addf : (⟨S2x8x256x512, .f32⟩ : BufTy).Contents (Elt F) → (⟨S2x8x256x512, .f32⟩ : BufTy).Contents (Elt F) → (⟨S2x8x256x512, .f32⟩ : BufTy).Contents (Elt F)) ]

theorem subT7 : (opsT7 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub ..⟩

/-- The buffers those operations write. -/
abbrev WT7 : List (Ref sig .tc) := [main_v443, main_v444, main_v445, main_v446, main_v447, main_v448, main_v449, main_v450, main_v451, main_v452, main_v453, main_v454, main_v455, main_v456, main_v457, main_v458, main_v459, main_v460, main_v461, main_v462, main_v463, main_v464, main_v465, main_v466, main_v467, main_v468, main_v469, main_v470, main_v471, main_v472, main_v473, main_v474, main_v475, main_v476, main_v477, main_v478, main_v479, main_v480, main_v481, main_v482, main_v483, main_v484, main_v485, main_v486, main_v487, main_v488, main_v489, main_v490, main_v491, main_v492, main_v493, main_v494, main_v495, main_v496, main_v497, main_v498, main_v499, main_v500, main_v501, main_v502, main_v503, main_v504, main_v505]

theorem writesT7 : Writes (opsT7 (F := F)) WT7 := by
  repeat (first | exact List.Forall₂.nil | refine List.Forall₂.cons rfl ?_)

/-- Operations 509 to 571 of the line. -/
abbrev opsT8 : List (HloOp τ sig (Elt F)) :=
  [ unary main_arg1 main_v506 ((extractStridedSlice S2x1x256x512 ![0, 72, 0, 0] · slices_S2x81x256x512_S2x1x256x512_0_72_0_0) : (⟨S2x81x256x512, .f32⟩ : BufTy).Contents (Elt F) → (⟨S2x1x256x512, .f32⟩ : BufTy).Contents (Elt F)),
    reshape main_v506 main_v507 rfl shapeCasts_S2x1x256x512_S2x256x512,
    unary main_v507 main_v508 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v509 ((extractStridedSlice S2x8x256x512 ![0, 0, 8, 0] · slices_S2x8x264x520_S2x8x256x512_0_0_8_0) : (⟨S2x8x264x520, .f32⟩ : BufTy).Contents (Elt F) → (⟨S2x8x256x512, .f32⟩ : BufTy).Contents (Elt F)),
    unary main_v508 main_v510 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v509 main_v510 main_v511 (mulf : (⟨S2x8x256x512, .f32⟩ : BufTy).Contents (Elt F) → (⟨S2x8x256x512, .f32⟩ : BufTy).Contents (Elt F) → (⟨S2x8x256x512, .f32⟩ : BufTy).Contents (Elt F)),
    binary main_v505 main_v511 main_v512 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v513 ((extractStridedSlice S2x1x256x512 ![0, 73, 0, 0] · slices_S2x81x256x512_S2x1x256x512_0_73_0_0) : (⟨S2x81x256x512, .f32⟩ : BufTy).Contents (Elt F) → (⟨S2x1x256x512, .f32⟩ : BufTy).Contents (Elt F)),
    reshape main_v513 main_v514 rfl shapeCasts_S2x1x256x512_S2x256x512,
    unary main_v514 main_v515 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v516 ((extractStridedSlice S2x8x256x512 ![0, 0, 8, 1] · slices_S2x8x264x520_S2x8x256x512_0_0_8_1) : (⟨S2x8x264x520, .f32⟩ : BufTy).Contents (Elt F) → (⟨S2x8x256x512, .f32⟩ : BufTy).Contents (Elt F)),
    unary main_v515 main_v517 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v516 main_v517 main_v518 (mulf : (⟨S2x8x256x512, .f32⟩ : BufTy).Contents (Elt F) → (⟨S2x8x256x512, .f32⟩ : BufTy).Contents (Elt F) → (⟨S2x8x256x512, .f32⟩ : BufTy).Contents (Elt F)),
    binary main_v512 main_v518 main_v519 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v520 ((extractStridedSlice S2x1x256x512 ![0, 74, 0, 0] · slices_S2x81x256x512_S2x1x256x512_0_74_0_0) : (⟨S2x81x256x512, .f32⟩ : BufTy).Contents (Elt F) → (⟨S2x1x256x512, .f32⟩ : BufTy).Contents (Elt F)),
    reshape main_v520 main_v521 rfl shapeCasts_S2x1x256x512_S2x256x512,
    unary main_v521 main_v522 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v523 ((extractStridedSlice S2x8x256x512 ![0, 0, 8, 2] · slices_S2x8x264x520_S2x8x256x512_0_0_8_2) : (⟨S2x8x264x520, .f32⟩ : BufTy).Contents (Elt F) → (⟨S2x8x256x512, .f32⟩ : BufTy).Contents (Elt F)),
    unary main_v522 main_v524 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v523 main_v524 main_v525 (mulf : (⟨S2x8x256x512, .f32⟩ : BufTy).Contents (Elt F) → (⟨S2x8x256x512, .f32⟩ : BufTy).Contents (Elt F) → (⟨S2x8x256x512, .f32⟩ : BufTy).Contents (Elt F)),
    binary main_v519 main_v525 main_v526 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v527 ((extractStridedSlice S2x1x256x512 ![0, 75, 0, 0] · slices_S2x81x256x512_S2x1x256x512_0_75_0_0) : (⟨S2x81x256x512, .f32⟩ : BufTy).Contents (Elt F) → (⟨S2x1x256x512, .f32⟩ : BufTy).Contents (Elt F)),
    reshape main_v527 main_v528 rfl shapeCasts_S2x1x256x512_S2x256x512,
    unary main_v528 main_v529 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v530 ((extractStridedSlice S2x8x256x512 ![0, 0, 8, 3] · slices_S2x8x264x520_S2x8x256x512_0_0_8_3) : (⟨S2x8x264x520, .f32⟩ : BufTy).Contents (Elt F) → (⟨S2x8x256x512, .f32⟩ : BufTy).Contents (Elt F)),
    unary main_v529 main_v531 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v530 main_v531 main_v532 (mulf : (⟨S2x8x256x512, .f32⟩ : BufTy).Contents (Elt F) → (⟨S2x8x256x512, .f32⟩ : BufTy).Contents (Elt F) → (⟨S2x8x256x512, .f32⟩ : BufTy).Contents (Elt F)),
    binary main_v526 main_v532 main_v533 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v534 ((extractStridedSlice S2x1x256x512 ![0, 76, 0, 0] · slices_S2x81x256x512_S2x1x256x512_0_76_0_0) : (⟨S2x81x256x512, .f32⟩ : BufTy).Contents (Elt F) → (⟨S2x1x256x512, .f32⟩ : BufTy).Contents (Elt F)),
    reshape main_v534 main_v535 rfl shapeCasts_S2x1x256x512_S2x256x512,
    unary main_v535 main_v536 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v537 ((extractStridedSlice S2x8x256x512 ![0, 0, 8, 4] · slices_S2x8x264x520_S2x8x256x512_0_0_8_4) : (⟨S2x8x264x520, .f32⟩ : BufTy).Contents (Elt F) → (⟨S2x8x256x512, .f32⟩ : BufTy).Contents (Elt F)),
    unary main_v536 main_v538 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v537 main_v538 main_v539 (mulf : (⟨S2x8x256x512, .f32⟩ : BufTy).Contents (Elt F) → (⟨S2x8x256x512, .f32⟩ : BufTy).Contents (Elt F) → (⟨S2x8x256x512, .f32⟩ : BufTy).Contents (Elt F)),
    binary main_v533 main_v539 main_v540 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v541 ((extractStridedSlice S2x1x256x512 ![0, 77, 0, 0] · slices_S2x81x256x512_S2x1x256x512_0_77_0_0) : (⟨S2x81x256x512, .f32⟩ : BufTy).Contents (Elt F) → (⟨S2x1x256x512, .f32⟩ : BufTy).Contents (Elt F)),
    reshape main_v541 main_v542 rfl shapeCasts_S2x1x256x512_S2x256x512,
    unary main_v542 main_v543 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v544 ((extractStridedSlice S2x8x256x512 ![0, 0, 8, 5] · slices_S2x8x264x520_S2x8x256x512_0_0_8_5) : (⟨S2x8x264x520, .f32⟩ : BufTy).Contents (Elt F) → (⟨S2x8x256x512, .f32⟩ : BufTy).Contents (Elt F)),
    unary main_v543 main_v545 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v544 main_v545 main_v546 (mulf : (⟨S2x8x256x512, .f32⟩ : BufTy).Contents (Elt F) → (⟨S2x8x256x512, .f32⟩ : BufTy).Contents (Elt F) → (⟨S2x8x256x512, .f32⟩ : BufTy).Contents (Elt F)),
    binary main_v540 main_v546 main_v547 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v548 ((extractStridedSlice S2x1x256x512 ![0, 78, 0, 0] · slices_S2x81x256x512_S2x1x256x512_0_78_0_0) : (⟨S2x81x256x512, .f32⟩ : BufTy).Contents (Elt F) → (⟨S2x1x256x512, .f32⟩ : BufTy).Contents (Elt F)),
    reshape main_v548 main_v549 rfl shapeCasts_S2x1x256x512_S2x256x512,
    unary main_v549 main_v550 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v551 ((extractStridedSlice S2x8x256x512 ![0, 0, 8, 6] · slices_S2x8x264x520_S2x8x256x512_0_0_8_6) : (⟨S2x8x264x520, .f32⟩ : BufTy).Contents (Elt F) → (⟨S2x8x256x512, .f32⟩ : BufTy).Contents (Elt F)),
    unary main_v550 main_v552 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v551 main_v552 main_v553 (mulf : (⟨S2x8x256x512, .f32⟩ : BufTy).Contents (Elt F) → (⟨S2x8x256x512, .f32⟩ : BufTy).Contents (Elt F) → (⟨S2x8x256x512, .f32⟩ : BufTy).Contents (Elt F)),
    binary main_v547 main_v553 main_v554 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v555 ((extractStridedSlice S2x1x256x512 ![0, 79, 0, 0] · slices_S2x81x256x512_S2x1x256x512_0_79_0_0) : (⟨S2x81x256x512, .f32⟩ : BufTy).Contents (Elt F) → (⟨S2x1x256x512, .f32⟩ : BufTy).Contents (Elt F)),
    reshape main_v555 main_v556 rfl shapeCasts_S2x1x256x512_S2x256x512,
    unary main_v556 main_v557 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v558 ((extractStridedSlice S2x8x256x512 ![0, 0, 8, 7] · slices_S2x8x264x520_S2x8x256x512_0_0_8_7) : (⟨S2x8x264x520, .f32⟩ : BufTy).Contents (Elt F) → (⟨S2x8x256x512, .f32⟩ : BufTy).Contents (Elt F)),
    unary main_v557 main_v559 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v558 main_v559 main_v560 (mulf : (⟨S2x8x256x512, .f32⟩ : BufTy).Contents (Elt F) → (⟨S2x8x256x512, .f32⟩ : BufTy).Contents (Elt F) → (⟨S2x8x256x512, .f32⟩ : BufTy).Contents (Elt F)),
    binary main_v554 main_v560 main_v561 (addf : (⟨S2x8x256x512, .f32⟩ : BufTy).Contents (Elt F) → (⟨S2x8x256x512, .f32⟩ : BufTy).Contents (Elt F) → (⟨S2x8x256x512, .f32⟩ : BufTy).Contents (Elt F)),
    unary main_arg1 main_v562 ((extractStridedSlice S2x1x256x512 ![0, 80, 0, 0] · slices_S2x81x256x512_S2x1x256x512_0_80_0_0) : (⟨S2x81x256x512, .f32⟩ : BufTy).Contents (Elt F) → (⟨S2x1x256x512, .f32⟩ : BufTy).Contents (Elt F)),
    reshape main_v562 main_v563 rfl shapeCasts_S2x1x256x512_S2x256x512,
    unary main_v563 main_v564 (broadcastInDim S2x1x256x512 ![0, 2, 3] bcast_S2x256x512_S2x1x256x512_0_2_3 : (⟨S2x256x512, .f32⟩ : BufTy).Contents (Elt F) → (⟨S2x1x256x512, .f32⟩ : BufTy).Contents (Elt F)),
    unary main_v0 main_v565 ((extractStridedSlice S2x8x256x512 ![0, 0, 8, 8] · slices_S2x8x264x520_S2x8x256x512_0_0_8_8) : (⟨S2x8x264x520, .f32⟩ : BufTy).Contents (Elt F) → (⟨S2x8x256x512, .f32⟩ : BufTy).Contents (Elt F)),
    unary main_v564 main_v566 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v565 main_v566 main_v567 (mulf : (⟨S2x8x256x512, .f32⟩ : BufTy).Contents (Elt F) → (⟨S2x8x256x512, .f32⟩ : BufTy).Contents (Elt F) → (⟨S2x8x256x512, .f32⟩ : BufTy).Contents (Elt F)),
    binary main_v561 main_v567 main_v568 (addf : (⟨S2x8x256x512, .f32⟩ : BufTy).Contents (Elt F) → (⟨S2x8x256x512, .f32⟩ : BufTy).Contents (Elt F) → (⟨S2x8x256x512, .f32⟩ : BufTy).Contents (Elt F)) ]

theorem subT8 : (opsT8 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub ..⟩

/-- The buffers those operations write. -/
abbrev WT8 : List (Ref sig .tc) := [main_v506, main_v507, main_v508, main_v509, main_v510, main_v511, main_v512, main_v513, main_v514, main_v515, main_v516, main_v517, main_v518, main_v519, main_v520, main_v521, main_v522, main_v523, main_v524, main_v525, main_v526, main_v527, main_v528, main_v529, main_v530, main_v531, main_v532, main_v533, main_v534, main_v535, main_v536, main_v537, main_v538, main_v539, main_v540, main_v541, main_v542, main_v543, main_v544, main_v545, main_v546, main_v547, main_v548, main_v549, main_v550, main_v551, main_v552, main_v553, main_v554, main_v555, main_v556, main_v557, main_v558, main_v559, main_v560, main_v561, main_v562, main_v563, main_v564, main_v565, main_v566, main_v567, main_v568]

theorem writesT8 : Writes (opsT8 (F := F)) WT8 := by
  repeat (first | exact List.Forall₂.nil | refine List.Forall₂.cons rfl ?_)

/-- Operations 572 to 573 of the line. -/
abbrev opsZ : List (HloOp τ sig (Elt F)) :=
  [ unary main_arg2 main_v569 (broadcastInDim S2x8x256x512 ![0, 1, 2, 3] bcast_S2x1x256x512_S2x8x256x512_0_1_2_3 : (⟨S2x1x256x512, .f32⟩ : BufTy).Contents (Elt F) → (⟨S2x8x256x512, .f32⟩ : BufTy).Contents (Elt F)),
    binary main_v568 main_v569 main_v570 (addf : (⟨S2x8x256x512, .f32⟩ : BufTy).Contents (Elt F) → (⟨S2x8x256x512, .f32⟩ : BufTy).Contents (Elt F) → (⟨S2x8x256x512, .f32⟩ : BufTy).Contents (Elt F)) ]

theorem subZ : (opsZ : List (HloOp τ sig (Elt F))).Forall fun op => op.bufs ⊆ tcRefs τ sig :=
  ⟨unary_bufs_sub .., binary_bufs_sub ..⟩

/-- The buffers those operations write. -/
abbrev WZ : List (Ref sig .tc) := [main_v569, main_v570]

theorem writesZ : Writes (opsZ (F := F)) WZ := by
  repeat (first | exact List.Forall₂.nil | refine List.Forall₂.cons rfl ?_)

/-- @main's 574 operations, in order. -/
abbrev ops : List (HloOp τ sig (Elt F)) := opsA ++ opsT0 ++ opsT1 ++ opsT2 ++ opsT3 ++ opsT4 ++ opsT5 ++ opsT6 ++ opsT7 ++ opsT8 ++ opsZ

/-- The buffers the line writes, operation by operation. -/
abbrev W : List (Ref sig .tc) := WA ++ WT0 ++ WT1 ++ WT2 ++ WT3 ++ WT4 ++ WT5 ++ WT6 ++ WT7 ++ WT8 ++ WZ

set_option maxRecDepth 65536 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append (forall_append (forall_append (forall_append (forall_append (forall_append (forall_append (forall_append (forall_append (forall_append (subA) subT0) subT1) subT2) subT3) subT4) subT5) subT6) subT7) subT8) subZ

theorem writes : Writes (ops (F := F)) W :=
  Writes.append (Writes.append (Writes.append (Writes.append (Writes.append (Writes.append (Writes.append (Writes.append (Writes.append (Writes.append (writesA) writesT0) writesT1) writesT2) writesT3) writesT4) writesT5) writesT6) writesT7) writesT8) writesZ

end Cert.ReferenceIdeal.RefOps

end
-- ==== Proof.RefPre.lean ====
/-
  The reference's leading operations read back, and the step one tap makes.

  The final contents of a single-assignment line satisfy the program's own equations (the read-back lemmas). Here: the
  padded picture is the zero padding of the picture argument (`padded_eq`), the running sum starts at zero (`zero_eq`),
  the arguments are never written (`arg1_eq`, `arg2_eq`); and the tactic `ref_tap` composes the seven equations of one
  tap: the running sum after the tap is the running sum before it plus the tap's product, which at a pixel is the tap
  term (`refTapPad_at`).
-/
import proofs.«130869_j58780922413140_2_alg».proof.Proof.RefTap
import proofs.«130869_j58780922413140_2_alg».proof.Proof.RefOps

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx Cert.DynFilter Cert.ReadBack Cert.ReferenceIdeal.RefOps

/-- One more tap in the reference's order. -/
theorem acc_range_succ (T : ℕ → EReal) (t : ℕ) : acc T (List.range (t + 1)) = acc T (List.range t) + T t := by
  rw [List.range_succ, acc_concat]

variable (V : Valuation τ sig (Elt Ideal))

/-- The arguments are never written. -/
theorem arg0_eq : after (ops (F := Ideal)) V (Proc.devRef .tc main_arg0) = V (Proc.devRef .tc main_arg0) := after_keep (writes (F := Ideal)) V (by decide +kernel)
theorem arg1_eq : after (ops (F := Ideal)) V (Proc.devRef .tc main_arg1) = V (Proc.devRef .tc main_arg1) := after_keep (writes (F := Ideal)) V (by decide +kernel)
theorem arg2_eq : after (ops (F := Ideal)) V (Proc.devRef .tc main_arg2) = V (Proc.devRef .tc main_arg2) := after_keep (writes (F := Ideal)) V (by decide +kernel)

/-- The padded picture: the picture argument padded with the converted integer zero. -/
theorem padded_eq : after (ops (F := Ideal)) V (Proc.devRef .tc main_v0)
    = pad S2x8x264x520 ![0, 0, 4, 4] ![0, 0, 4, 4] ![0, 0, 0, 0] (V (Proc.devRef .tc main_arg0)) (sitofp (F := Ideal) .f32 (constantI S_ 32 0#32)) pads_S2x8x256x512_S2x8x264x520_000_000_440_440 h_S_ := by
  have hc : after (ops (F := Ideal)) V (Proc.devRef .tc main_c) = constantI S_ 32 0#32 := readback_nullary (writes (F := Ideal)) V 0 rfl (by decide +kernel)
  have hz : after (ops (F := Ideal)) V (Proc.devRef .tc main_call0_v0) = sitofp (F := Ideal) .f32 (constantI S_ 32 0#32) :=
    (readback_unary (writes (F := Ideal)) V 1 rfl (by decide +kernel) (by decide +kernel)).trans (by rw [hc]; rfl)
  exact (readback_binary (writes (F := Ideal)) V 2 rfl (by decide +kernel) (by decide +kernel) (by decide +kernel)).trans (by rw [arg0_eq V, hz]; rfl)

/-- The running sum starts at zero. -/
theorem zero_eq (idx : S2x8x256x512.Idx) : after (ops (F := Ideal)) V (Proc.devRef .tc main_v1) idx = (0 : EReal) := by
  have hcst : after (ops (F := Ideal)) V (Proc.devRef .tc main_cst) = constant (F := Ideal) S_ .f32 0x00000000#32 := readback_nullary (writes (F := Ideal)) V 3 rfl (by decide +kernel)
  rw [readback_unary (writes (F := Ideal)) V 4 rfl (by decide +kernel) (by decide +kernel), hcst]
  exact refZero_at _ bcast_S_S2x8x256x512 idx

set_option hygiene false in
/-- One tap read back: the running sum after the tap is the running sum before it plus the tap's product, whose factors
    are the seven operations' equations composed — at a pixel, the tap term. -/
macro "ref_tap " q:num i:num j:num k:num : tactic => `(tactic| (
    rw [readback_binary (writes (F := Ideal)) V ($q + 6) rfl (by decide +kernel) (by decide +kernel) (by decide +kernel)]
    rw [addf_apply]
    congr 1
    rw [readback_binary (writes (F := Ideal)) V ($q + 5) rfl (by decide +kernel) (by decide +kernel) (by decide +kernel),
      readback_unary (writes (F := Ideal)) V ($q + 3) rfl (by decide +kernel) (by decide +kernel),
      readback_unary (writes (F := Ideal)) V ($q + 4) rfl (by decide +kernel) (by decide +kernel),
      readback_unary (writes (F := Ideal)) V ($q + 2) rfl (by decide +kernel) (by decide +kernel),
      readback_reshape (writes (F := Ideal)) V ($q + 1) rfl (by decide +kernel) (by decide +kernel),
      readback_unary (writes (F := Ideal)) V $q rfl (by decide +kernel) (by decide +kernel), padded_eq V, arg1_eq V]
    refine (refTapPad_at (V (Proc.devRef .tc main_arg0)) (sitofp (F := Ideal) .f32 (constantI S_ 32 0#32)) pads_S2x8x256x512_S2x8x264x520_000_000_440_440 h_S_
      (V (Proc.devRef .tc main_arg1)) $i $j $k _ _ shapeCasts_S2x1x256x512_S2x256x512 bcast_S2x256x512_S2x1x256x512_0_2_3 bcast_S2x1x256x512_S2x8x256x512_0_1_2_3 n cc h w).trans ?_
    rw [padValue_zero]
    rfl))

end Cert.ReferenceIdeal.RefRun

end
-- ==== Proof.RefRow0.lean ====
/-
  Taps 0 to 8 of the reference (row 0 of the 9 × 9 window): each adds its tap term to the running sum.
-/
import proofs.«130869_j58780922413140_2_alg».proof.Proof.RefPre

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx Cert.DynFilter Cert.ReadBack Cert.ReferenceIdeal.RefOps

set_option maxHeartbeats 16000000 in
/-- Tap 0 (row 0, column 0 of the window). -/
theorem tap_step_0 (V : Valuation τ sig (Elt Ideal)) (n : Fin 2) (cc : Fin 8) (h : Fin 256) (w : Fin 512) :
    (after (ops (F := Ideal)) V (Proc.devRef .tc main_v8) (ix4 n cc h w) : EReal)
      = @HAdd.hAdd EReal EReal EReal instHAdd (after (ops (F := Ideal)) V (Proc.devRef .tc main_v1) (ix4 n cc h w)) (tap (V (Proc.devRef .tc main_arg0)) (V (Proc.devRef .tc main_arg1)) n cc h w 0) := by
  ref_tap 5 0 0 0

set_option maxHeartbeats 16000000 in
/-- Tap 1 (row 0, column 1 of the window). -/
theorem tap_step_1 (V : Valuation τ sig (Elt Ideal)) (n : Fin 2) (cc : Fin 8) (h : Fin 256) (w : Fin 512) :
    (after (ops (F := Ideal)) V (Proc.devRef .tc main_v15) (ix4 n cc h w) : EReal)
      = @HAdd.hAdd EReal EReal EReal instHAdd (after (ops (F := Ideal)) V (Proc.devRef .tc main_v8) (ix4 n cc h w)) (tap (V (Proc.devRef .tc main_arg0)) (V (Proc.devRef .tc main_arg1)) n cc h w 1) := by
  ref_tap 12 0 1 1

set_option maxHeartbeats 16000000 in
/-- Tap 2 (row 0, column 2 of the window). -/
theorem tap_step_2 (V : Valuation τ sig (Elt Ideal)) (n : Fin 2) (cc : Fin 8) (h : Fin 256) (w : Fin 512) :
    (after (ops (F := Ideal)) V (Proc.devRef .tc main_v22) (ix4 n cc h w) : EReal)
      = @HAdd.hAdd EReal EReal EReal instHAdd (after (ops (F := Ideal)) V (Proc.devRef .tc main_v15) (ix4 n cc h w)) (tap (V (Proc.devRef .tc main_arg0)) (V (Proc.devRef .tc main_arg1)) n cc h w 2) := by
  ref_tap 19 0 2 2

set_option maxHeartbeats 16000000 in
/-- Tap 3 (row 0, column 3 of the window). -/
theorem tap_step_3 (V : Valuation τ sig (Elt Ideal)) (n : Fin 2) (cc : Fin 8) (h : Fin 256) (w : Fin 512) :
    (after (ops (F := Ideal)) V (Proc.devRef .tc main_v29) (ix4 n cc h w) : EReal)
      = @HAdd.hAdd EReal EReal EReal instHAdd (after (ops (F := Ideal)) V (Proc.devRef .tc main_v22) (ix4 n cc h w)) (tap (V (Proc.devRef .tc main_arg0)) (V (Proc.devRef .tc main_arg1)) n cc h w 3) := by
  ref_tap 26 0 3 3

set_option maxHeartbeats 16000000 in
/-- Tap 4 (row 0, column 4 of the window). -/
theorem tap_step_4 (V : Valuation τ sig (Elt Ideal)) (n : Fin 2) (cc : Fin 8) (h : Fin 256) (w : Fin 512) :
    (after (ops (F := Ideal)) V (Proc.devRef .tc main_v36) (ix4 n cc h w) : EReal)
      = @HAdd.hAdd EReal EReal EReal instHAdd (after (ops (F := Ideal)) V (Proc.devRef .tc main_v29) (ix4 n cc h w)) (tap (V (Proc.devRef .tc main_arg0)) (V (Proc.devRef .tc main_arg1)) n cc h w 4) := by
  ref_tap 33 0 4 4

set_option maxHeartbeats 16000000 in
/-- Tap 5 (row 0, column 5 of the window). -/
theorem tap_step_5 (V : Valuation τ sig (Elt Ideal)) (n : Fin 2) (cc : Fin 8) (h : Fin 256) (w : Fin 512) :
    (after (ops (F := Ideal)) V (Proc.devRef .tc main_v43) (ix4 n cc h w) : EReal)
      = @HAdd.hAdd EReal EReal EReal instHAdd (after (ops (F := Ideal)) V (Proc.devRef .tc main_v36) (ix4 n cc h w)) (tap (V (Proc.devRef .tc main_arg0)) (V (Proc.devRef .tc main_arg1)) n cc h w 5) := by
  ref_tap 40 0 5 5

set_option maxHeartbeats 16000000 in
/-- Tap 6 (row 0, column 6 of the window). -/
theorem tap_step_6 (V : Valuation τ sig (Elt Ideal)) (n : Fin 2) (cc : Fin 8) (h : Fin 256) (w : Fin 512) :
    (after (ops (F := Ideal)) V (Proc.devRef .tc main_v50) (ix4 n cc h w) : EReal)
      = @HAdd.hAdd EReal EReal EReal instHAdd (after (ops (F := Ideal)) V (Proc.devRef .tc main_v43) (ix4 n cc h w)) (tap (V (Proc.devRef .tc main_arg0)) (V (Proc.devRef .tc main_arg1)) n cc h w 6) := by
  ref_tap 47 0 6 6

set_option maxHeartbeats 16000000 in
/-- Tap 7 (row 0, column 7 of the window). -/
theorem tap_step_7 (V : Valuation τ sig (Elt Ideal)) (n : Fin 2) (cc : Fin 8) (h : Fin 256) (w : Fin 512) :
    (after (ops (F := Ideal)) V (Proc.devRef .tc main_v57) (ix4 n cc h w) : EReal)
      = @HAdd.hAdd EReal EReal EReal instHAdd (after (ops (F := Ideal)) V (Proc.devRef .tc main_v50) (ix4 n cc h w)) (tap (V (Proc.devRef .tc main_arg0)) (V (Proc.devRef .tc main_arg1)) n cc h w 7) := by
  ref_tap 54 0 7 7

set_option maxHeartbeats 16000000 in
/-- Tap 8 (row 0, column 8 of the window). -/
theorem tap_step_8 (V : Valuation τ sig (Elt Ideal)) (n : Fin 2) (cc : Fin 8) (h : Fin 256) (w : Fin 512) :
    (after (ops (F := Ideal)) V (Proc.devRef .tc main_v64) (ix4 n cc h w) : EReal)
      = @HAdd.hAdd EReal EReal EReal instHAdd (after (ops (F := Ideal)) V (Proc.devRef .tc main_v57) (ix4 n cc h w)) (tap (V (Proc.devRef .tc main_arg0)) (V (Proc.devRef .tc main_arg1)) n cc h w 8) := by
  ref_tap 61 0 8 8

end Cert.ReferenceIdeal.RefRun

end
-- ==== Proof.RefRow1.lean ====
/-
  Taps 9 to 17 of the reference (row 1 of the 9 × 9 window): each adds its tap term to the running sum.
-/
import proofs.«130869_j58780922413140_2_alg».proof.Proof.RefPre

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx Cert.DynFilter Cert.ReadBack Cert.ReferenceIdeal.RefOps

set_option maxHeartbeats 16000000 in
/-- Tap 9 (row 1, column 0 of the window). -/
theorem tap_step_9 (V : Valuation τ sig (Elt Ideal)) (n : Fin 2) (cc : Fin 8) (h : Fin 256) (w : Fin 512) :
    (after (ops (F := Ideal)) V (Proc.devRef .tc main_v71) (ix4 n cc h w) : EReal)
      = @HAdd.hAdd EReal EReal EReal instHAdd (after (ops (F := Ideal)) V (Proc.devRef .tc main_v64) (ix4 n cc h w)) (tap (V (Proc.devRef .tc main_arg0)) (V (Proc.devRef .tc main_arg1)) n cc h w 9) := by
  ref_tap 68 1 0 9

set_option maxHeartbeats 16000000 in
/-- Tap 10 (row 1, column 1 of the window). -/
theorem tap_step_10 (V : Valuation τ sig (Elt Ideal)) (n : Fin 2) (cc : Fin 8) (h : Fin 256) (w : Fin 512) :
    (after (ops (F := Ideal)) V (Proc.devRef .tc main_v78) (ix4 n cc h w) : EReal)
      = @HAdd.hAdd EReal EReal EReal instHAdd (after (ops (F := Ideal)) V (Proc.devRef .tc main_v71) (ix4 n cc h w)) (tap (V (Proc.devRef .tc main_arg0)) (V (Proc.devRef .tc main_arg1)) n cc h w 10) := by
  ref_tap 75 1 1 10

set_option maxHeartbeats 16000000 in
/-- Tap 11 (row 1, column 2 of the window). -/
theorem tap_step_11 (V : Valuation τ sig (Elt Ideal)) (n : Fin 2) (cc : Fin 8) (h : Fin 256) (w : Fin 512) :
    (after (ops (F := Ideal)) V (Proc.devRef .tc main_v85) (ix4 n cc h w) : EReal)
      = @HAdd.hAdd EReal EReal EReal instHAdd (after (ops (F := Ideal)) V (Proc.devRef .tc main_v78) (ix4 n cc h w)) (tap (V (Proc.devRef .tc main_arg0)) (V (Proc.devRef .tc main_arg1)) n cc h w 11) := by
  ref_tap 82 1 2 11

set_option maxHeartbeats 16000000 in
/-- Tap 12 (row 1, column 3 of the window). -/
theorem tap_step_12 (V : Valuation τ sig (Elt Ideal)) (n : Fin 2) (cc : Fin 8) (h : Fin 256) (w : Fin 512) :
    (after (ops (F := Ideal)) V (Proc.devRef .tc main_v92) (ix4 n cc h w) : EReal)
      = @HAdd.hAdd EReal EReal EReal instHAdd (after (ops (F := Ideal)) V (Proc.devRef .tc main_v85) (ix4 n cc h w)) (tap (V (Proc.devRef .tc main_arg0)) (V (Proc.devRef .tc main_arg1)) n cc h w 12) := by
  ref_tap 89 1 3 12

set_option maxHeartbeats 16000000 in
/-- Tap 13 (row 1, column 4 of the window). -/
theorem tap_step_13 (V : Valuation τ sig (Elt Ideal)) (n : Fin 2) (cc : Fin 8) (h : Fin 256) (w : Fin 512) :
    (after (ops (F := Ideal)) V (Proc.devRef .tc main_v99) (ix4 n cc h w) : EReal)
      = @HAdd.hAdd EReal EReal EReal instHAdd (after (ops (F := Ideal)) V (Proc.devRef .tc main_v92) (ix4 n cc h w)) (tap (V (Proc.devRef .tc main_arg0)) (V (Proc.devRef .tc main_arg1)) n cc h w 13) := by
  ref_tap 96 1 4 13

set_option maxHeartbeats 16000000 in
/-- Tap 14 (row 1, column 5 of the window). -/
theorem tap_step_14 (V : Valuation τ sig (Elt Ideal)) (n : Fin 2) (cc : Fin 8) (h : Fin 256) (w : Fin 512) :
    (after (ops (F := Ideal)) V (Proc.devRef .tc main_v106) (ix4 n cc h w) : EReal)
      = @HAdd.hAdd EReal EReal EReal instHAdd (after (ops (F := Ideal)) V (Proc.devRef .tc main_v99) (ix4 n cc h w)) (tap (V (Proc.devRef .tc main_arg0)) (V (Proc.devRef .tc main_arg1)) n cc h w 14) := by
  ref_tap 103 1 5 14

set_option maxHeartbeats 16000000 in
/-- Tap 15 (row 1, column 6 of the window). -/
theorem tap_step_15 (V : Valuation τ sig (Elt Ideal)) (n : Fin 2) (cc : Fin 8) (h : Fin 256) (w : Fin 512) :
    (after (ops (F := Ideal)) V (Proc.devRef .tc main_v113) (ix4 n cc h w) : EReal)
      = @HAdd.hAdd EReal EReal EReal instHAdd (after (ops (F := Ideal)) V (Proc.devRef .tc main_v106) (ix4 n cc h w)) (tap (V (Proc.devRef .tc main_arg0)) (V (Proc.devRef .tc main_arg1)) n cc h w 15) := by
  ref_tap 110 1 6 15

set_option maxHeartbeats 16000000 in
/-- Tap 16 (row 1, column 7 of the window). -/
theorem tap_step_16 (V : Valuation τ sig (Elt Ideal)) (n : Fin 2) (cc : Fin 8) (h : Fin 256) (w : Fin 512) :
    (after (ops (F := Ideal)) V (Proc.devRef .tc main_v120) (ix4 n cc h w) : EReal)
      = @HAdd.hAdd EReal EReal EReal instHAdd (after (ops (F := Ideal)) V (Proc.devRef .tc main_v113) (ix4 n cc h w)) (tap (V (Proc.devRef .tc main_arg0)) (V (Proc.devRef .tc main_arg1)) n cc h w 16) := by
  ref_tap 117 1 7 16

set_option maxHeartbeats 16000000 in
/-- Tap 17 (row 1, column 8 of the window). -/
theorem tap_step_17 (V : Valuation τ sig (Elt Ideal)) (n : Fin 2) (cc : Fin 8) (h : Fin 256) (w : Fin 512) :
    (after (ops (F := Ideal)) V (Proc.devRef .tc main_v127) (ix4 n cc h w) : EReal)
      = @HAdd.hAdd EReal EReal EReal instHAdd (after (ops (F := Ideal)) V (Proc.devRef .tc main_v120) (ix4 n cc h w)) (tap (V (Proc.devRef .tc main_arg0)) (V (Proc.devRef .tc main_arg1)) n cc h w 17) := by
  ref_tap 124 1 8 17

end Cert.ReferenceIdeal.RefRun

end
-- ==== Proof.RefRow2.lean ====
/-
  Taps 18 to 26 of the reference (row 2 of the 9 × 9 window): each adds its tap term to the running sum.
-/
import proofs.«130869_j58780922413140_2_alg».proof.Proof.RefPre

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx Cert.DynFilter Cert.ReadBack Cert.ReferenceIdeal.RefOps

set_option maxHeartbeats 16000000 in
/-- Tap 18 (row 2, column 0 of the window). -/
theorem tap_step_18 (V : Valuation τ sig (Elt Ideal)) (n : Fin 2) (cc : Fin 8) (h : Fin 256) (w : Fin 512) :
    (after (ops (F := Ideal)) V (Proc.devRef .tc main_v134) (ix4 n cc h w) : EReal)
      = @HAdd.hAdd EReal EReal EReal instHAdd (after (ops (F := Ideal)) V (Proc.devRef .tc main_v127) (ix4 n cc h w)) (tap (V (Proc.devRef .tc main_arg0)) (V (Proc.devRef .tc main_arg1)) n cc h w 18) := by
  ref_tap 131 2 0 18

set_option maxHeartbeats 16000000 in
/-- Tap 19 (row 2, column 1 of the window). -/
theorem tap_step_19 (V : Valuation τ sig (Elt Ideal)) (n : Fin 2) (cc : Fin 8) (h : Fin 256) (w : Fin 512) :
    (after (ops (F := Ideal)) V (Proc.devRef .tc main_v141) (ix4 n cc h w) : EReal)
      = @HAdd.hAdd EReal EReal EReal instHAdd (after (ops (F := Ideal)) V (Proc.devRef .tc main_v134) (ix4 n cc h w)) (tap (V (Proc.devRef .tc main_arg0)) (V (Proc.devRef .tc main_arg1)) n cc h w 19) := by
  ref_tap 138 2 1 19

set_option maxHeartbeats 16000000 in
/-- Tap 20 (row 2, column 2 of the window). -/
theorem tap_step_20 (V : Valuation τ sig (Elt Ideal)) (n : Fin 2) (cc : Fin 8) (h : Fin 256) (w : Fin 512) :
    (after (ops (F := Ideal)) V (Proc.devRef .tc main_v148) (ix4 n cc h w) : EReal)
      = @HAdd.hAdd EReal EReal EReal instHAdd (after (ops (F := Ideal)) V (Proc.devRef .tc main_v141) (ix4 n cc h w)) (tap (V (Proc.devRef .tc main_arg0)) (V (Proc.devRef .tc main_arg1)) n cc h w 20) := by
  ref_tap 145 2 2 20

set_option maxHeartbeats 16000000 in
/-- Tap 21 (row 2, column 3 of the window). -/
theorem tap_step_21 (V : Valuation τ sig (Elt Ideal)) (n : Fin 2) (cc : Fin 8) (h : Fin 256) (w : Fin 512) :
    (after (ops (F := Ideal)) V (Proc.devRef .tc main_v155) (ix4 n cc h w) : EReal)
      = @HAdd.hAdd EReal EReal EReal instHAdd (after (ops (F := Ideal)) V (Proc.devRef .tc main_v148) (ix4 n cc h w)) (tap (V (Proc.devRef .tc main_arg0)) (V (Proc.devRef .tc main_arg1)) n cc h w 21) := by
  ref_tap 152 2 3 21

set_option maxHeartbeats 16000000 in
/-- Tap 22 (row 2, column 4 of the window). -/
theorem tap_step_22 (V : Valuation τ sig (Elt Ideal)) (n : Fin 2) (cc : Fin 8) (h : Fin 256) (w : Fin 512) :
    (after (ops (F := Ideal)) V (Proc.devRef .tc main_v162) (ix4 n cc h w) : EReal)
      = @HAdd.hAdd EReal EReal EReal instHAdd (after (ops (F := Ideal)) V (Proc.devRef .tc main_v155) (ix4 n cc h w)) (tap (V (Proc.devRef .tc main_arg0)) (V (Proc.devRef .tc main_arg1)) n cc h w 22) := by
  ref_tap 159 2 4 22

set_option maxHeartbeats 16000000 in
/-- Tap 23 (row 2, column 5 of the window). -/
theorem tap_step_23 (V : Valuation τ sig (Elt Ideal)) (n : Fin 2) (cc : Fin 8) (h : Fin 256) (w : Fin 512) :
    (after (ops (F := Ideal)) V (Proc.devRef .tc main_v169) (ix4 n cc h w) : EReal)
      = @HAdd.hAdd EReal EReal EReal instHAdd (after (ops (F := Ideal)) V (Proc.devRef .tc main_v162) (ix4 n cc h w)) (tap (V (Proc.devRef .tc main_arg0)) (V (Proc.devRef .tc main_arg1)) n cc h w 23) := by
  ref_tap 166 2 5 23

set_option maxHeartbeats 16000000 in
/-- Tap 24 (row 2, column 6 of the window). -/
theorem tap_step_24 (V : Valuation τ sig (Elt Ideal)) (n : Fin 2) (cc : Fin 8) (h : Fin 256) (w : Fin 512) :
    (after (ops (F := Ideal)) V (Proc.devRef .tc main_v176) (ix4 n cc h w) : EReal)
      = @HAdd.hAdd EReal EReal EReal instHAdd (after (ops (F := Ideal)) V (Proc.devRef .tc main_v169) (ix4 n cc h w)) (tap (V (Proc.devRef .tc main_arg0)) (V (Proc.devRef .tc main_arg1)) n cc h w 24) := by
  ref_tap 173 2 6 24

set_option maxHeartbeats 16000000 in
/-- Tap 25 (row 2, column 7 of the window). -/
theorem tap_step_25 (V : Valuation τ sig (Elt Ideal)) (n : Fin 2) (cc : Fin 8) (h : Fin 256) (w : Fin 512) :
    (after (ops (F := Ideal)) V (Proc.devRef .tc main_v183) (ix4 n cc h w) : EReal)
      = @HAdd.hAdd EReal EReal EReal instHAdd (after (ops (F := Ideal)) V (Proc.devRef .tc main_v176) (ix4 n cc h w)) (tap (V (Proc.devRef .tc main_arg0)) (V (Proc.devRef .tc main_arg1)) n cc h w 25) := by
  ref_tap 180 2 7 25

set_option maxHeartbeats 16000000 in
/-- Tap 26 (row 2, column 8 of the window). -/
theorem tap_step_26 (V : Valuation τ sig (Elt Ideal)) (n : Fin 2) (cc : Fin 8) (h : Fin 256) (w : Fin 512) :
    (after (ops (F := Ideal)) V (Proc.devRef .tc main_v190) (ix4 n cc h w) : EReal)
      = @HAdd.hAdd EReal EReal EReal instHAdd (after (ops (F := Ideal)) V (Proc.devRef .tc main_v183) (ix4 n cc h w)) (tap (V (Proc.devRef .tc main_arg0)) (V (Proc.devRef .tc main_arg1)) n cc h w 26) := by
  ref_tap 187 2 8 26

end Cert.ReferenceIdeal.RefRun

end
-- ==== Proof.RefRow3.lean ====
/-
  Taps 27 to 35 of the reference (row 3 of the 9 × 9 window): each adds its tap term to the running sum.
-/
import proofs.«130869_j58780922413140_2_alg».proof.Proof.RefPre

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx Cert.DynFilter Cert.ReadBack Cert.ReferenceIdeal.RefOps

set_option maxHeartbeats 16000000 in
/-- Tap 27 (row 3, column 0 of the window). -/
theorem tap_step_27 (V : Valuation τ sig (Elt Ideal)) (n : Fin 2) (cc : Fin 8) (h : Fin 256) (w : Fin 512) :
    (after (ops (F := Ideal)) V (Proc.devRef .tc main_v197) (ix4 n cc h w) : EReal)
      = @HAdd.hAdd EReal EReal EReal instHAdd (after (ops (F := Ideal)) V (Proc.devRef .tc main_v190) (ix4 n cc h w)) (tap (V (Proc.devRef .tc main_arg0)) (V (Proc.devRef .tc main_arg1)) n cc h w 27) := by
  ref_tap 194 3 0 27

set_option maxHeartbeats 16000000 in
/-- Tap 28 (row 3, column 1 of the window). -/
theorem tap_step_28 (V : Valuation τ sig (Elt Ideal)) (n : Fin 2) (cc : Fin 8) (h : Fin 256) (w : Fin 512) :
    (after (ops (F := Ideal)) V (Proc.devRef .tc main_v204) (ix4 n cc h w) : EReal)
      = @HAdd.hAdd EReal EReal EReal instHAdd (after (ops (F := Ideal)) V (Proc.devRef .tc main_v197) (ix4 n cc h w)) (tap (V (Proc.devRef .tc main_arg0)) (V (Proc.devRef .tc main_arg1)) n cc h w 28) := by
  ref_tap 201 3 1 28

set_option maxHeartbeats 16000000 in
/-- Tap 29 (row 3, column 2 of the window). -/
theorem tap_step_29 (V : Valuation τ sig (Elt Ideal)) (n : Fin 2) (cc : Fin 8) (h : Fin 256) (w : Fin 512) :
    (after (ops (F := Ideal)) V (Proc.devRef .tc main_v211) (ix4 n cc h w) : EReal)
      = @HAdd.hAdd EReal EReal EReal instHAdd (after (ops (F := Ideal)) V (Proc.devRef .tc main_v204) (ix4 n cc h w)) (tap (V (Proc.devRef .tc main_arg0)) (V (Proc.devRef .tc main_arg1)) n cc h w 29) := by
  ref_tap 208 3 2 29

set_option maxHeartbeats 16000000 in
/-- Tap 30 (row 3, column 3 of the window). -/
theorem tap_step_30 (V : Valuation τ sig (Elt Ideal)) (n : Fin 2) (cc : Fin 8) (h : Fin 256) (w : Fin 512) :
    (after (ops (F := Ideal)) V (Proc.devRef .tc main_v218) (ix4 n cc h w) : EReal)
      = @HAdd.hAdd EReal EReal EReal instHAdd (after (ops (F := Ideal)) V (Proc.devRef .tc main_v211) (ix4 n cc h w)) (tap (V (Proc.devRef .tc main_arg0)) (V (Proc.devRef .tc main_arg1)) n cc h w 30) := by
  ref_tap 215 3 3 30

set_option maxHeartbeats 16000000 in
/-- Tap 31 (row 3, column 4 of the window). -/
theorem tap_step_31 (V : Valuation τ sig (Elt Ideal)) (n : Fin 2) (cc : Fin 8) (h : Fin 256) (w : Fin 512) :
    (after (ops (F := Ideal)) V (Proc.devRef .tc main_v225) (ix4 n cc h w) : EReal)
      = @HAdd.hAdd EReal EReal EReal instHAdd (after (ops (F := Ideal)) V (Proc.devRef .tc main_v218) (ix4 n cc h w)) (tap (V (Proc.devRef .tc main_arg0)) (V (Proc.devRef .tc main_arg1)) n cc h w 31) := by
  ref_tap 222 3 4 31

set_option maxHeartbeats 16000000 in
/-- Tap 32 (row 3, column 5 of the window). -/
theorem tap_step_32 (V : Valuation τ sig (Elt Ideal)) (n : Fin 2) (cc : Fin 8) (h : Fin 256) (w : Fin 512) :
    (after (ops (F := Ideal)) V (Proc.devRef .tc main_v232) (ix4 n cc h w) : EReal)
      = @HAdd.hAdd EReal EReal EReal instHAdd (after (ops (F := Ideal)) V (Proc.devRef .tc main_v225) (ix4 n cc h w)) (tap (V (Proc.devRef .tc main_arg0)) (V (Proc.devRef .tc main_arg1)) n cc h w 32) := by
  ref_tap 229 3 5 32

set_option maxHeartbeats 16000000 in
/-- Tap 33 (row 3, column 6 of the window). -/
theorem tap_step_33 (V : Valuation τ sig (Elt Ideal)) (n : Fin 2) (cc : Fin 8) (h : Fin 256) (w : Fin 512) :
    (after (ops (F := Ideal)) V (Proc.devRef .tc main_v239) (ix4 n cc h w) : EReal)
      = @HAdd.hAdd EReal EReal EReal instHAdd (after (ops (F := Ideal)) V (Proc.devRef .tc main_v232) (ix4 n cc h w)) (tap (V (Proc.devRef .tc main_arg0)) (V (Proc.devRef .tc main_arg1)) n cc h w 33) := by
  ref_tap 236 3 6 33

set_option maxHeartbeats 16000000 in
/-- Tap 34 (row 3, column 7 of the window). -/
theorem tap_step_34 (V : Valuation τ sig (Elt Ideal)) (n : Fin 2) (cc : Fin 8) (h : Fin 256) (w : Fin 512) :
    (after (ops (F := Ideal)) V (Proc.devRef .tc main_v246) (ix4 n cc h w) : EReal)
      = @HAdd.hAdd EReal EReal EReal instHAdd (after (ops (F := Ideal)) V (Proc.devRef .tc main_v239) (ix4 n cc h w)) (tap (V (Proc.devRef .tc main_arg0)) (V (Proc.devRef .tc main_arg1)) n cc h w 34) := by
  ref_tap 243 3 7 34

set_option maxHeartbeats 16000000 in
/-- Tap 35 (row 3, column 8 of the window). -/
theorem tap_step_35 (V : Valuation τ sig (Elt Ideal)) (n : Fin 2) (cc : Fin 8) (h : Fin 256) (w : Fin 512) :
    (after (ops (F := Ideal)) V (Proc.devRef .tc main_v253) (ix4 n cc h w) : EReal)
      = @HAdd.hAdd EReal EReal EReal instHAdd (after (ops (F := Ideal)) V (Proc.devRef .tc main_v246) (ix4 n cc h w)) (tap (V (Proc.devRef .tc main_arg0)) (V (Proc.devRef .tc main_arg1)) n cc h w 35) := by
  ref_tap 250 3 8 35

end Cert.ReferenceIdeal.RefRun

end
-- ==== Proof.RefRow4.lean ====
/-
  Taps 36 to 44 of the reference (row 4 of the 9 × 9 window): each adds its tap term to the running sum.
-/
import proofs.«130869_j58780922413140_2_alg».proof.Proof.RefPre

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx Cert.DynFilter Cert.ReadBack Cert.ReferenceIdeal.RefOps

set_option maxHeartbeats 16000000 in
/-- Tap 36 (row 4, column 0 of the window). -/
theorem tap_step_36 (V : Valuation τ sig (Elt Ideal)) (n : Fin 2) (cc : Fin 8) (h : Fin 256) (w : Fin 512) :
    (after (ops (F := Ideal)) V (Proc.devRef .tc main_v260) (ix4 n cc h w) : EReal)
      = @HAdd.hAdd EReal EReal EReal instHAdd (after (ops (F := Ideal)) V (Proc.devRef .tc main_v253) (ix4 n cc h w)) (tap (V (Proc.devRef .tc main_arg0)) (V (Proc.devRef .tc main_arg1)) n cc h w 36) := by
  ref_tap 257 4 0 36

set_option maxHeartbeats 16000000 in
/-- Tap 37 (row 4, column 1 of the window). -/
theorem tap_step_37 (V : Valuation τ sig (Elt Ideal)) (n : Fin 2) (cc : Fin 8) (h : Fin 256) (w : Fin 512) :
    (after (ops (F := Ideal)) V (Proc.devRef .tc main_v267) (ix4 n cc h w) : EReal)
      = @HAdd.hAdd EReal EReal EReal instHAdd (after (ops (F := Ideal)) V (Proc.devRef .tc main_v260) (ix4 n cc h w)) (tap (V (Proc.devRef .tc main_arg0)) (V (Proc.devRef .tc main_arg1)) n cc h w 37) := by
  ref_tap 264 4 1 37

set_option maxHeartbeats 16000000 in
/-- Tap 38 (row 4, column 2 of the window). -/
theorem tap_step_38 (V : Valuation τ sig (Elt Ideal)) (n : Fin 2) (cc : Fin 8) (h : Fin 256) (w : Fin 512) :
    (after (ops (F := Ideal)) V (Proc.devRef .tc main_v274) (ix4 n cc h w) : EReal)
      = @HAdd.hAdd EReal EReal EReal instHAdd (after (ops (F := Ideal)) V (Proc.devRef .tc main_v267) (ix4 n cc h w)) (tap (V (Proc.devRef .tc main_arg0)) (V (Proc.devRef .tc main_arg1)) n cc h w 38) := by
  ref_tap 271 4 2 38

set_option maxHeartbeats 16000000 in
/-- Tap 39 (row 4, column 3 of the window). -/
theorem tap_step_39 (V : Valuation τ sig (Elt Ideal)) (n : Fin 2) (cc : Fin 8) (h : Fin 256) (w : Fin 512) :
    (after (ops (F := Ideal)) V (Proc.devRef .tc main_v281) (ix4 n cc h w) : EReal)
      = @HAdd.hAdd EReal EReal EReal instHAdd (after (ops (F := Ideal)) V (Proc.devRef .tc main_v274) (ix4 n cc h w)) (tap (V (Proc.devRef .tc main_arg0)) (V (Proc.devRef .tc main_arg1)) n cc h w 39) := by
  ref_tap 278 4 3 39

set_option maxHeartbeats 16000000 in
/-- Tap 40 (row 4, column 4 of the window). -/
theorem tap_step_40 (V : Valuation τ sig (Elt Ideal)) (n : Fin 2) (cc : Fin 8) (h : Fin 256) (w : Fin 512) :
    (after (ops (F := Ideal)) V (Proc.devRef .tc main_v288) (ix4 n cc h w) : EReal)
      = @HAdd.hAdd EReal EReal EReal instHAdd (after (ops (F := Ideal)) V (Proc.devRef .tc main_v281) (ix4 n cc h w)) (tap (V (Proc.devRef .tc main_arg0)) (V (Proc.devRef .tc main_arg1)) n cc h w 40) := by
  ref_tap 285 4 4 40

set_option maxHeartbeats 16000000 in
/-- Tap 41 (row 4, column 5 of the window). -/
theorem tap_step_41 (V : Valuation τ sig (Elt Ideal)) (n : Fin 2) (cc : Fin 8) (h : Fin 256) (w : Fin 512) :
    (after (ops (F := Ideal)) V (Proc.devRef .tc main_v295) (ix4 n cc h w) : EReal)
      = @HAdd.hAdd EReal EReal EReal instHAdd (after (ops (F := Ideal)) V (Proc.devRef .tc main_v288) (ix4 n cc h w)) (tap (V (Proc.devRef .tc main_arg0)) (V (Proc.devRef .tc main_arg1)) n cc h w 41) := by
  ref_tap 292 4 5 41

set_option maxHeartbeats 16000000 in
/-- Tap 42 (row 4, column 6 of the window). -/
theorem tap_step_42 (V : Valuation τ sig (Elt Ideal)) (n : Fin 2) (cc : Fin 8) (h : Fin 256) (w : Fin 512) :
    (after (ops (F := Ideal)) V (Proc.devRef .tc main_v302) (ix4 n cc h w) : EReal)
      = @HAdd.hAdd EReal EReal EReal instHAdd (after (ops (F := Ideal)) V (Proc.devRef .tc main_v295) (ix4 n cc h w)) (tap (V (Proc.devRef .tc main_arg0)) (V (Proc.devRef .tc main_arg1)) n cc h w 42) := by
  ref_tap 299 4 6 42

set_option maxHeartbeats 16000000 in
/-- Tap 43 (row 4, column 7 of the window). -/
theorem tap_step_43 (V : Valuation τ sig (Elt Ideal)) (n : Fin 2) (cc : Fin 8) (h : Fin 256) (w : Fin 512) :
    (after (ops (F := Ideal)) V (Proc.devRef .tc main_v309) (ix4 n cc h w) : EReal)
      = @HAdd.hAdd EReal EReal EReal instHAdd (after (ops (F := Ideal)) V (Proc.devRef .tc main_v302) (ix4 n cc h w)) (tap (V (Proc.devRef .tc main_arg0)) (V (Proc.devRef .tc main_arg1)) n cc h w 43) := by
  ref_tap 306 4 7 43

set_option maxHeartbeats 16000000 in
/-- Tap 44 (row 4, column 8 of the window). -/
theorem tap_step_44 (V : Valuation τ sig (Elt Ideal)) (n : Fin 2) (cc : Fin 8) (h : Fin 256) (w : Fin 512) :
    (after (ops (F := Ideal)) V (Proc.devRef .tc main_v316) (ix4 n cc h w) : EReal)
      = @HAdd.hAdd EReal EReal EReal instHAdd (after (ops (F := Ideal)) V (Proc.devRef .tc main_v309) (ix4 n cc h w)) (tap (V (Proc.devRef .tc main_arg0)) (V (Proc.devRef .tc main_arg1)) n cc h w 44) := by
  ref_tap 313 4 8 44

end Cert.ReferenceIdeal.RefRun

end
-- ==== Proof.RefRow5.lean ====
/-
  Taps 45 to 53 of the reference (row 5 of the 9 × 9 window): each adds its tap term to the running sum.
-/
import proofs.«130869_j58780922413140_2_alg».proof.Proof.RefPre

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx Cert.DynFilter Cert.ReadBack Cert.ReferenceIdeal.RefOps

set_option maxHeartbeats 16000000 in
/-- Tap 45 (row 5, column 0 of the window). -/
theorem tap_step_45 (V : Valuation τ sig (Elt Ideal)) (n : Fin 2) (cc : Fin 8) (h : Fin 256) (w : Fin 512) :
    (after (ops (F := Ideal)) V (Proc.devRef .tc main_v323) (ix4 n cc h w) : EReal)
      = @HAdd.hAdd EReal EReal EReal instHAdd (after (ops (F := Ideal)) V (Proc.devRef .tc main_v316) (ix4 n cc h w)) (tap (V (Proc.devRef .tc main_arg0)) (V (Proc.devRef .tc main_arg1)) n cc h w 45) := by
  ref_tap 320 5 0 45

set_option maxHeartbeats 16000000 in
/-- Tap 46 (row 5, column 1 of the window). -/
theorem tap_step_46 (V : Valuation τ sig (Elt Ideal)) (n : Fin 2) (cc : Fin 8) (h : Fin 256) (w : Fin 512) :
    (after (ops (F := Ideal)) V (Proc.devRef .tc main_v330) (ix4 n cc h w) : EReal)
      = @HAdd.hAdd EReal EReal EReal instHAdd (after (ops (F := Ideal)) V (Proc.devRef .tc main_v323) (ix4 n cc h w)) (tap (V (Proc.devRef .tc main_arg0)) (V (Proc.devRef .tc main_arg1)) n cc h w 46) := by
  ref_tap 327 5 1 46

set_option maxHeartbeats 16000000 in
/-- Tap 47 (row 5, column 2 of the window). -/
theorem tap_step_47 (V : Valuation τ sig (Elt Ideal)) (n : Fin 2) (cc : Fin 8) (h : Fin 256) (w : Fin 512) :
    (after (ops (F := Ideal)) V (Proc.devRef .tc main_v337) (ix4 n cc h w) : EReal)
      = @HAdd.hAdd EReal EReal EReal instHAdd (after (ops (F := Ideal)) V (Proc.devRef .tc main_v330) (ix4 n cc h w)) (tap (V (Proc.devRef .tc main_arg0)) (V (Proc.devRef .tc main_arg1)) n cc h w 47) := by
  ref_tap 334 5 2 47

set_option maxHeartbeats 16000000 in
/-- Tap 48 (row 5, column 3 of the window). -/
theorem tap_step_48 (V : Valuation τ sig (Elt Ideal)) (n : Fin 2) (cc : Fin 8) (h : Fin 256) (w : Fin 512) :
    (after (ops (F := Ideal)) V (Proc.devRef .tc main_v344) (ix4 n cc h w) : EReal)
      = @HAdd.hAdd EReal EReal EReal instHAdd (after (ops (F := Ideal)) V (Proc.devRef .tc main_v337) (ix4 n cc h w)) (tap (V (Proc.devRef .tc main_arg0)) (V (Proc.devRef .tc main_arg1)) n cc h w 48) := by
  ref_tap 341 5 3 48

set_option maxHeartbeats 16000000 in
/-- Tap 49 (row 5, column 4 of the window). -/
theorem tap_step_49 (V : Valuation τ sig (Elt Ideal)) (n : Fin 2) (cc : Fin 8) (h : Fin 256) (w : Fin 512) :
    (after (ops (F := Ideal)) V (Proc.devRef .tc main_v351) (ix4 n cc h w) : EReal)
      = @HAdd.hAdd EReal EReal EReal instHAdd (after (ops (F := Ideal)) V (Proc.devRef .tc main_v344) (ix4 n cc h w)) (tap (V (Proc.devRef .tc main_arg0)) (V (Proc.devRef .tc main_arg1)) n cc h w 49) := by
  ref_tap 348 5 4 49

set_option maxHeartbeats 16000000 in
/-- Tap 50 (row 5, column 5 of the window). -/
theorem tap_step_50 (V : Valuation τ sig (Elt Ideal)) (n : Fin 2) (cc : Fin 8) (h : Fin 256) (w : Fin 512) :
    (after (ops (F := Ideal)) V (Proc.devRef .tc main_v358) (ix4 n cc h w) : EReal)
      = @HAdd.hAdd EReal EReal EReal instHAdd (after (ops (F := Ideal)) V (Proc.devRef .tc main_v351) (ix4 n cc h w)) (tap (V (Proc.devRef .tc main_arg0)) (V (Proc.devRef .tc main_arg1)) n cc h w 50) := by
  ref_tap 355 5 5 50

set_option maxHeartbeats 16000000 in
/-- Tap 51 (row 5, column 6 of the window). -/
theorem tap_step_51 (V : Valuation τ sig (Elt Ideal)) (n : Fin 2) (cc : Fin 8) (h : Fin 256) (w : Fin 512) :
    (after (ops (F := Ideal)) V (Proc.devRef .tc main_v365) (ix4 n cc h w) : EReal)
      = @HAdd.hAdd EReal EReal EReal instHAdd (after (ops (F := Ideal)) V (Proc.devRef .tc main_v358) (ix4 n cc h w)) (tap (V (Proc.devRef .tc main_arg0)) (V (Proc.devRef .tc main_arg1)) n cc h w 51) := by
  ref_tap 362 5 6 51

set_option maxHeartbeats 16000000 in
/-- Tap 52 (row 5, column 7 of the window). -/
theorem tap_step_52 (V : Valuation τ sig (Elt Ideal)) (n : Fin 2) (cc : Fin 8) (h : Fin 256) (w : Fin 512) :
    (after (ops (F := Ideal)) V (Proc.devRef .tc main_v372) (ix4 n cc h w) : EReal)
      = @HAdd.hAdd EReal EReal EReal instHAdd (after (ops (F := Ideal)) V (Proc.devRef .tc main_v365) (ix4 n cc h w)) (tap (V (Proc.devRef .tc main_arg0)) (V (Proc.devRef .tc main_arg1)) n cc h w 52) := by
  ref_tap 369 5 7 52

set_option maxHeartbeats 16000000 in
/-- Tap 53 (row 5, column 8 of the window). -/
theorem tap_step_53 (V : Valuation τ sig (Elt Ideal)) (n : Fin 2) (cc : Fin 8) (h : Fin 256) (w : Fin 512) :
    (after (ops (F := Ideal)) V (Proc.devRef .tc main_v379) (ix4 n cc h w) : EReal)
      = @HAdd.hAdd EReal EReal EReal instHAdd (after (ops (F := Ideal)) V (Proc.devRef .tc main_v372) (ix4 n cc h w)) (tap (V (Proc.devRef .tc main_arg0)) (V (Proc.devRef .tc main_arg1)) n cc h w 53) := by
  ref_tap 376 5 8 53

end Cert.ReferenceIdeal.RefRun

end
-- ==== Proof.RefRow6.lean ====
/-
  Taps 54 to 62 of the reference (row 6 of the 9 × 9 window): each adds its tap term to the running sum.
-/
import proofs.«130869_j58780922413140_2_alg».proof.Proof.RefPre

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx Cert.DynFilter Cert.ReadBack Cert.ReferenceIdeal.RefOps

set_option maxHeartbeats 16000000 in
/-- Tap 54 (row 6, column 0 of the window). -/
theorem tap_step_54 (V : Valuation τ sig (Elt Ideal)) (n : Fin 2) (cc : Fin 8) (h : Fin 256) (w : Fin 512) :
    (after (ops (F := Ideal)) V (Proc.devRef .tc main_v386) (ix4 n cc h w) : EReal)
      = @HAdd.hAdd EReal EReal EReal instHAdd (after (ops (F := Ideal)) V (Proc.devRef .tc main_v379) (ix4 n cc h w)) (tap (V (Proc.devRef .tc main_arg0)) (V (Proc.devRef .tc main_arg1)) n cc h w 54) := by
  ref_tap 383 6 0 54

set_option maxHeartbeats 16000000 in
/-- Tap 55 (row 6, column 1 of the window). -/
theorem tap_step_55 (V : Valuation τ sig (Elt Ideal)) (n : Fin 2) (cc : Fin 8) (h : Fin 256) (w : Fin 512) :
    (after (ops (F := Ideal)) V (Proc.devRef .tc main_v393) (ix4 n cc h w) : EReal)
      = @HAdd.hAdd EReal EReal EReal instHAdd (after (ops (F := Ideal)) V (Proc.devRef .tc main_v386) (ix4 n cc h w)) (tap (V (Proc.devRef .tc main_arg0)) (V (Proc.devRef .tc main_arg1)) n cc h w 55) := by
  ref_tap 390 6 1 55

set_option maxHeartbeats 16000000 in
/-- Tap 56 (row 6, column 2 of the window). -/
theorem tap_step_56 (V : Valuation τ sig (Elt Ideal)) (n : Fin 2) (cc : Fin 8) (h : Fin 256) (w : Fin 512) :
    (after (ops (F := Ideal)) V (Proc.devRef .tc main_v400) (ix4 n cc h w) : EReal)
      = @HAdd.hAdd EReal EReal EReal instHAdd (after (ops (F := Ideal)) V (Proc.devRef .tc main_v393) (ix4 n cc h w)) (tap (V (Proc.devRef .tc main_arg0)) (V (Proc.devRef .tc main_arg1)) n cc h w 56) := by
  ref_tap 397 6 2 56

set_option maxHeartbeats 16000000 in
/-- Tap 57 (row 6, column 3 of the window). -/
theorem tap_step_57 (V : Valuation τ sig (Elt Ideal)) (n : Fin 2) (cc : Fin 8) (h : Fin 256) (w : Fin 512) :
    (after (ops (F := Ideal)) V (Proc.devRef .tc main_v407) (ix4 n cc h w) : EReal)
      = @HAdd.hAdd EReal EReal EReal instHAdd (after (ops (F := Ideal)) V (Proc.devRef .tc main_v400) (ix4 n cc h w)) (tap (V (Proc.devRef .tc main_arg0)) (V (Proc.devRef .tc main_arg1)) n cc h w 57) := by
  ref_tap 404 6 3 57

set_option maxHeartbeats 16000000 in
/-- Tap 58 (row 6, column 4 of the window). -/
theorem tap_step_58 (V : Valuation τ sig (Elt Ideal)) (n : Fin 2) (cc : Fin 8) (h : Fin 256) (w : Fin 512) :
    (after (ops (F := Ideal)) V (Proc.devRef .tc main_v414) (ix4 n cc h w) : EReal)
      = @HAdd.hAdd EReal EReal EReal instHAdd (after (ops (F := Ideal)) V (Proc.devRef .tc main_v407) (ix4 n cc h w)) (tap (V (Proc.devRef .tc main_arg0)) (V (Proc.devRef .tc main_arg1)) n cc h w 58) := by
  ref_tap 411 6 4 58

set_option maxHeartbeats 16000000 in
/-- Tap 59 (row 6, column 5 of the window). -/
theorem tap_step_59 (V : Valuation τ sig (Elt Ideal)) (n : Fin 2) (cc : Fin 8) (h : Fin 256) (w : Fin 512) :
    (after (ops (F := Ideal)) V (Proc.devRef .tc main_v421) (ix4 n cc h w) : EReal)
      = @HAdd.hAdd EReal EReal EReal instHAdd (after (ops (F := Ideal)) V (Proc.devRef .tc main_v414) (ix4 n cc h w)) (tap (V (Proc.devRef .tc main_arg0)) (V (Proc.devRef .tc main_arg1)) n cc h w 59) := by
  ref_tap 418 6 5 59

set_option maxHeartbeats 16000000 in
/-- Tap 60 (row 6, column 6 of the window). -/
theorem tap_step_60 (V : Valuation τ sig (Elt Ideal)) (n : Fin 2) (cc : Fin 8) (h : Fin 256) (w : Fin 512) :
    (after (ops (F := Ideal)) V (Proc.devRef .tc main_v428) (ix4 n cc h w) : EReal)
      = @HAdd.hAdd EReal EReal EReal instHAdd (after (ops (F := Ideal)) V (Proc.devRef .tc main_v421) (ix4 n cc h w)) (tap (V (Proc.devRef .tc main_arg0)) (V (Proc.devRef .tc main_arg1)) n cc h w 60) := by
  ref_tap 425 6 6 60

set_option maxHeartbeats 16000000 in
/-- Tap 61 (row 6, column 7 of the window). -/
theorem tap_step_61 (V : Valuation τ sig (Elt Ideal)) (n : Fin 2) (cc : Fin 8) (h : Fin 256) (w : Fin 512) :
    (after (ops (F := Ideal)) V (Proc.devRef .tc main_v435) (ix4 n cc h w) : EReal)
      = @HAdd.hAdd EReal EReal EReal instHAdd (after (ops (F := Ideal)) V (Proc.devRef .tc main_v428) (ix4 n cc h w)) (tap (V (Proc.devRef .tc main_arg0)) (V (Proc.devRef .tc main_arg1)) n cc h w 61) := by
  ref_tap 432 6 7 61

set_option maxHeartbeats 16000000 in
/-- Tap 62 (row 6, column 8 of the window). -/
theorem tap_step_62 (V : Valuation τ sig (Elt Ideal)) (n : Fin 2) (cc : Fin 8) (h : Fin 256) (w : Fin 512) :
    (after (ops (F := Ideal)) V (Proc.devRef .tc main_v442) (ix4 n cc h w) : EReal)
      = @HAdd.hAdd EReal EReal EReal instHAdd (after (ops (F := Ideal)) V (Proc.devRef .tc main_v435) (ix4 n cc h w)) (tap (V (Proc.devRef .tc main_arg0)) (V (Proc.devRef .tc main_arg1)) n cc h w 62) := by
  ref_tap 439 6 8 62

end Cert.ReferenceIdeal.RefRun

end
-- ==== Proof.RefRow7.lean ====
/-
  Taps 63 to 71 of the reference (row 7 of the 9 × 9 window): each adds its tap term to the running sum.
-/
import proofs.«130869_j58780922413140_2_alg».proof.Proof.RefPre

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx Cert.DynFilter Cert.ReadBack Cert.ReferenceIdeal.RefOps

set_option maxHeartbeats 16000000 in
/-- Tap 63 (row 7, column 0 of the window). -/
theorem tap_step_63 (V : Valuation τ sig (Elt Ideal)) (n : Fin 2) (cc : Fin 8) (h : Fin 256) (w : Fin 512) :
    (after (ops (F := Ideal)) V (Proc.devRef .tc main_v449) (ix4 n cc h w) : EReal)
      = @HAdd.hAdd EReal EReal EReal instHAdd (after (ops (F := Ideal)) V (Proc.devRef .tc main_v442) (ix4 n cc h w)) (tap (V (Proc.devRef .tc main_arg0)) (V (Proc.devRef .tc main_arg1)) n cc h w 63) := by
  ref_tap 446 7 0 63

set_option maxHeartbeats 16000000 in
/-- Tap 64 (row 7, column 1 of the window). -/
theorem tap_step_64 (V : Valuation τ sig (Elt Ideal)) (n : Fin 2) (cc : Fin 8) (h : Fin 256) (w : Fin 512) :
    (after (ops (F := Ideal)) V (Proc.devRef .tc main_v456) (ix4 n cc h w) : EReal)
      = @HAdd.hAdd EReal EReal EReal instHAdd (after (ops (F := Ideal)) V (Proc.devRef .tc main_v449) (ix4 n cc h w)) (tap (V (Proc.devRef .tc main_arg0)) (V (Proc.devRef .tc main_arg1)) n cc h w 64) := by
  ref_tap 453 7 1 64

set_option maxHeartbeats 16000000 in
/-- Tap 65 (row 7, column 2 of the window). -/
theorem tap_step_65 (V : Valuation τ sig (Elt Ideal)) (n : Fin 2) (cc : Fin 8) (h : Fin 256) (w : Fin 512) :
    (after (ops (F := Ideal)) V (Proc.devRef .tc main_v463) (ix4 n cc h w) : EReal)
      = @HAdd.hAdd EReal EReal EReal instHAdd (after (ops (F := Ideal)) V (Proc.devRef .tc main_v456) (ix4 n cc h w)) (tap (V (Proc.devRef .tc main_arg0)) (V (Proc.devRef .tc main_arg1)) n cc h w 65) := by
  ref_tap 460 7 2 65

set_option maxHeartbeats 16000000 in
/-- Tap 66 (row 7, column 3 of the window). -/
theorem tap_step_66 (V : Valuation τ sig (Elt Ideal)) (n : Fin 2) (cc : Fin 8) (h : Fin 256) (w : Fin 512) :
    (after (ops (F := Ideal)) V (Proc.devRef .tc main_v470) (ix4 n cc h w) : EReal)
      = @HAdd.hAdd EReal EReal EReal instHAdd (after (ops (F := Ideal)) V (Proc.devRef .tc main_v463) (ix4 n cc h w)) (tap (V (Proc.devRef .tc main_arg0)) (V (Proc.devRef .tc main_arg1)) n cc h w 66) := by
  ref_tap 467 7 3 66

set_option maxHeartbeats 16000000 in
/-- Tap 67 (row 7, column 4 of the window). -/
theorem tap_step_67 (V : Valuation τ sig (Elt Ideal)) (n : Fin 2) (cc : Fin 8) (h : Fin 256) (w : Fin 512) :
    (after (ops (F := Ideal)) V (Proc.devRef .tc main_v477) (ix4 n cc h w) : EReal)
      = @HAdd.hAdd EReal EReal EReal instHAdd (after (ops (F := Ideal)) V (Proc.devRef .tc main_v470) (ix4 n cc h w)) (tap (V (Proc.devRef .tc main_arg0)) (V (Proc.devRef .tc main_arg1)) n cc h w 67) := by
  ref_tap 474 7 4 67

set_option maxHeartbeats 16000000 in
/-- Tap 68 (row 7, column 5 of the window). -/
theorem tap_step_68 (V : Valuation τ sig (Elt Ideal)) (n : Fin 2) (cc : Fin 8) (h : Fin 256) (w : Fin 512) :
    (after (ops (F := Ideal)) V (Proc.devRef .tc main_v484) (ix4 n cc h w) : EReal)
      = @HAdd.hAdd EReal EReal EReal instHAdd (after (ops (F := Ideal)) V (Proc.devRef .tc main_v477) (ix4 n cc h w)) (tap (V (Proc.devRef .tc main_arg0)) (V (Proc.devRef .tc main_arg1)) n cc h w 68) := by
  ref_tap 481 7 5 68

set_option maxHeartbeats 16000000 in
/-- Tap 69 (row 7, column 6 of the window). -/
theorem tap_step_69 (V : Valuation τ sig (Elt Ideal)) (n : Fin 2) (cc : Fin 8) (h : Fin 256) (w : Fin 512) :
    (after (ops (F := Ideal)) V (Proc.devRef .tc main_v491) (ix4 n cc h w) : EReal)
      = @HAdd.hAdd EReal EReal EReal instHAdd (after (ops (F := Ideal)) V (Proc.devRef .tc main_v484) (ix4 n cc h w)) (tap (V (Proc.devRef .tc main_arg0)) (V (Proc.devRef .tc main_arg1)) n cc h w 69) := by
  ref_tap 488 7 6 69

set_option maxHeartbeats 16000000 in
/-- Tap 70 (row 7, column 7 of the window). -/
theorem tap_step_70 (V : Valuation τ sig (Elt Ideal)) (n : Fin 2) (cc : Fin 8) (h : Fin 256) (w : Fin 512) :
    (after (ops (F := Ideal)) V (Proc.devRef .tc main_v498) (ix4 n cc h w) : EReal)
      = @HAdd.hAdd EReal EReal EReal instHAdd (after (ops (F := Ideal)) V (Proc.devRef .tc main_v491) (ix4 n cc h w)) (tap (V (Proc.devRef .tc main_arg0)) (V (Proc.devRef .tc main_arg1)) n cc h w 70) := by
  ref_tap 495 7 7 70

set_option maxHeartbeats 16000000 in
/-- Tap 71 (row 7, column 8 of the window). -/
theorem tap_step_71 (V : Valuation τ sig (Elt Ideal)) (n : Fin 2) (cc : Fin 8) (h : Fin 256) (w : Fin 512) :
    (after (ops (F := Ideal)) V (Proc.devRef .tc main_v505) (ix4 n cc h w) : EReal)
      = @HAdd.hAdd EReal EReal EReal instHAdd (after (ops (F := Ideal)) V (Proc.devRef .tc main_v498) (ix4 n cc h w)) (tap (V (Proc.devRef .tc main_arg0)) (V (Proc.devRef .tc main_arg1)) n cc h w 71) := by
  ref_tap 502 7 8 71

end Cert.ReferenceIdeal.RefRun

end
-- ==== Proof.RefRow8.lean ====
/-
  Taps 72 to 80 of the reference (row 8 of the 9 × 9 window): each adds its tap term to the running sum.
-/
import proofs.«130869_j58780922413140_2_alg».proof.Proof.RefPre

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx Cert.DynFilter Cert.ReadBack Cert.ReferenceIdeal.RefOps

set_option maxHeartbeats 16000000 in
/-- Tap 72 (row 8, column 0 of the window). -/
theorem tap_step_72 (V : Valuation τ sig (Elt Ideal)) (n : Fin 2) (cc : Fin 8) (h : Fin 256) (w : Fin 512) :
    (after (ops (F := Ideal)) V (Proc.devRef .tc main_v512) (ix4 n cc h w) : EReal)
      = @HAdd.hAdd EReal EReal EReal instHAdd (after (ops (F := Ideal)) V (Proc.devRef .tc main_v505) (ix4 n cc h w)) (tap (V (Proc.devRef .tc main_arg0)) (V (Proc.devRef .tc main_arg1)) n cc h w 72) := by
  ref_tap 509 8 0 72

set_option maxHeartbeats 16000000 in
/-- Tap 73 (row 8, column 1 of the window). -/
theorem tap_step_73 (V : Valuation τ sig (Elt Ideal)) (n : Fin 2) (cc : Fin 8) (h : Fin 256) (w : Fin 512) :
    (after (ops (F := Ideal)) V (Proc.devRef .tc main_v519) (ix4 n cc h w) : EReal)
      = @HAdd.hAdd EReal EReal EReal instHAdd (after (ops (F := Ideal)) V (Proc.devRef .tc main_v512) (ix4 n cc h w)) (tap (V (Proc.devRef .tc main_arg0)) (V (Proc.devRef .tc main_arg1)) n cc h w 73) := by
  ref_tap 516 8 1 73

set_option maxHeartbeats 16000000 in
/-- Tap 74 (row 8, column 2 of the window). -/
theorem tap_step_74 (V : Valuation τ sig (Elt Ideal)) (n : Fin 2) (cc : Fin 8) (h : Fin 256) (w : Fin 512) :
    (after (ops (F := Ideal)) V (Proc.devRef .tc main_v526) (ix4 n cc h w) : EReal)
      = @HAdd.hAdd EReal EReal EReal instHAdd (after (ops (F := Ideal)) V (Proc.devRef .tc main_v519) (ix4 n cc h w)) (tap (V (Proc.devRef .tc main_arg0)) (V (Proc.devRef .tc main_arg1)) n cc h w 74) := by
  ref_tap 523 8 2 74

set_option maxHeartbeats 16000000 in
/-- Tap 75 (row 8, column 3 of the window). -/
theorem tap_step_75 (V : Valuation τ sig (Elt Ideal)) (n : Fin 2) (cc : Fin 8) (h : Fin 256) (w : Fin 512) :
    (after (ops (F := Ideal)) V (Proc.devRef .tc main_v533) (ix4 n cc h w) : EReal)
      = @HAdd.hAdd EReal EReal EReal instHAdd (after (ops (F := Ideal)) V (Proc.devRef .tc main_v526) (ix4 n cc h w)) (tap (V (Proc.devRef .tc main_arg0)) (V (Proc.devRef .tc main_arg1)) n cc h w 75) := by
  ref_tap 530 8 3 75

set_option maxHeartbeats 16000000 in
/-- Tap 76 (row 8, column 4 of the window). -/
theorem tap_step_76 (V : Valuation τ sig (Elt Ideal)) (n : Fin 2) (cc : Fin 8) (h : Fin 256) (w : Fin 512) :
    (after (ops (F := Ideal)) V (Proc.devRef .tc main_v540) (ix4 n cc h w) : EReal)
      = @HAdd.hAdd EReal EReal EReal instHAdd (after (ops (F := Ideal)) V (Proc.devRef .tc main_v533) (ix4 n cc h w)) (tap (V (Proc.devRef .tc main_arg0)) (V (Proc.devRef .tc main_arg1)) n cc h w 76) := by
  ref_tap 537 8 4 76

set_option maxHeartbeats 16000000 in
/-- Tap 77 (row 8, column 5 of the window). -/
theorem tap_step_77 (V : Valuation τ sig (Elt Ideal)) (n : Fin 2) (cc : Fin 8) (h : Fin 256) (w : Fin 512) :
    (after (ops (F := Ideal)) V (Proc.devRef .tc main_v547) (ix4 n cc h w) : EReal)
      = @HAdd.hAdd EReal EReal EReal instHAdd (after (ops (F := Ideal)) V (Proc.devRef .tc main_v540) (ix4 n cc h w)) (tap (V (Proc.devRef .tc main_arg0)) (V (Proc.devRef .tc main_arg1)) n cc h w 77) := by
  ref_tap 544 8 5 77

set_option maxHeartbeats 16000000 in
/-- Tap 78 (row 8, column 6 of the window). -/
theorem tap_step_78 (V : Valuation τ sig (Elt Ideal)) (n : Fin 2) (cc : Fin 8) (h : Fin 256) (w : Fin 512) :
    (after (ops (F := Ideal)) V (Proc.devRef .tc main_v554) (ix4 n cc h w) : EReal)
      = @HAdd.hAdd EReal EReal EReal instHAdd (after (ops (F := Ideal)) V (Proc.devRef .tc main_v547) (ix4 n cc h w)) (tap (V (Proc.devRef .tc main_arg0)) (V (Proc.devRef .tc main_arg1)) n cc h w 78) := by
  ref_tap 551 8 6 78

set_option maxHeartbeats 16000000 in
/-- Tap 79 (row 8, column 7 of the window). -/
theorem tap_step_79 (V : Valuation τ sig (Elt Ideal)) (n : Fin 2) (cc : Fin 8) (h : Fin 256) (w : Fin 512) :
    (after (ops (F := Ideal)) V (Proc.devRef .tc main_v561) (ix4 n cc h w) : EReal)
      = @HAdd.hAdd EReal EReal EReal instHAdd (after (ops (F := Ideal)) V (Proc.devRef .tc main_v554) (ix4 n cc h w)) (tap (V (Proc.devRef .tc main_arg0)) (V (Proc.devRef .tc main_arg1)) n cc h w 79) := by
  ref_tap 558 8 7 79

set_option maxHeartbeats 16000000 in
/-- Tap 80 (row 8, column 8 of the window). -/
theorem tap_step_80 (V : Valuation τ sig (Elt Ideal)) (n : Fin 2) (cc : Fin 8) (h : Fin 256) (w : Fin 512) :
    (after (ops (F := Ideal)) V (Proc.devRef .tc main_v568) (ix4 n cc h w) : EReal)
      = @HAdd.hAdd EReal EReal EReal instHAdd (after (ops (F := Ideal)) V (Proc.devRef .tc main_v561) (ix4 n cc h w)) (tap (V (Proc.devRef .tc main_arg0)) (V (Proc.devRef .tc main_arg1)) n cc h w 80) := by
  ref_tap 565 8 8 80

end Cert.ReferenceIdeal.RefRun

end
-- ==== Proof.RefRun.lean ====
/-
  The reference's run: its result is the result function of its three arguments.

  At a pixel the running sum after tap `t` is the ordered sum of the first `t` taps (`inv`: zero to start with, one tap
  term more at each tap), and the result — the last running sum plus the bias repeated over the channels — is the result
  function `G` of the three arguments (`readback`). The line's run (`run_seq`) ends every buffer at the line's final
  contents: `run`.
-/
import proofs.«130869_j58780922413140_2_alg».proof.Proof.RefRow0
import proofs.«130869_j58780922413140_2_alg».proof.Proof.RefRow1
import proofs.«130869_j58780922413140_2_alg».proof.Proof.RefRow2
import proofs.«130869_j58780922413140_2_alg».proof.Proof.RefRow3
import proofs.«130869_j58780922413140_2_alg».proof.Proof.RefRow4
import proofs.«130869_j58780922413140_2_alg».proof.Proof.RefRow5
import proofs.«130869_j58780922413140_2_alg».proof.Proof.RefRow6
import proofs.«130869_j58780922413140_2_alg».proof.Proof.RefRow7
import proofs.«130869_j58780922413140_2_alg».proof.Proof.RefRow8

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx Cert.DynFilter Cert.ReadBack Cert.ReferenceIdeal.RefOps

set_option maxHeartbeats 16000000 in
/-- THE READ-BACK: the result buffer ends at the result function of the contents of the three arguments. -/
theorem readback (V : Valuation τ sig (Elt Ideal)) :
    after (ops (F := Ideal)) V (Proc.devRef .tc main_v570) = G (V (Proc.devRef .tc main_arg0)) (V (Proc.devRef .tc main_arg1)) (V (Proc.devRef .tc main_arg2)) := by
  funext idx
  obtain ⟨n, cc, h, w, rfl⟩ : ∃ (a : Fin 2) (b : Fin 8) (c : Fin 256) (d : Fin 512), idx = ix4 a b c d := ⟨idx 0, idx 1, idx 2, idx 3, eq_ix4 idx⟩
  have inv0 : after (ops (F := Ideal)) V (Proc.devRef .tc main_v1) (ix4 n cc h w) = acc (tap (V (Proc.devRef .tc main_arg0)) (V (Proc.devRef .tc main_arg1)) n cc h w) (List.range 0) := zero_eq V _
  have inv1 : after (ops (F := Ideal)) V (Proc.devRef .tc main_v8) (ix4 n cc h w) = acc (tap (V (Proc.devRef .tc main_arg0)) (V (Proc.devRef .tc main_arg1)) n cc h w) (List.range 1) := by
    refine Eq.trans ?_ (acc_range_succ (tap (V (Proc.devRef .tc main_arg0)) (V (Proc.devRef .tc main_arg1)) n cc h w) 0).symm
    rw [← inv0]
    exact tap_step_0 V n cc h w
  have inv2 : after (ops (F := Ideal)) V (Proc.devRef .tc main_v15) (ix4 n cc h w) = acc (tap (V (Proc.devRef .tc main_arg0)) (V (Proc.devRef .tc main_arg1)) n cc h w) (List.range 2) := by
    refine Eq.trans ?_ (acc_range_succ (tap (V (Proc.devRef .tc main_arg0)) (V (Proc.devRef .tc main_arg1)) n cc h w) 1).symm
    rw [← inv1]
    exact tap_step_1 V n cc h w
  have inv3 : after (ops (F := Ideal)) V (Proc.devRef .tc main_v22) (ix4 n cc h w) = acc (tap (V (Proc.devRef .tc main_arg0)) (V (Proc.devRef .tc main_arg1)) n cc h w) (List.range 3) := by
    refine Eq.trans ?_ (acc_range_succ (tap (V (Proc.devRef .tc main_arg0)) (V (Proc.devRef .tc main_arg1)) n cc h w) 2).symm
    rw [← inv2]
    exact tap_step_2 V n cc h w
  have inv4 : after (ops (F := Ideal)) V (Proc.devRef .tc main_v29) (ix4 n cc h w) = acc (tap (V (Proc.devRef .tc main_arg0)) (V (Proc.devRef .tc main_arg1)) n cc h w) (List.range 4) := by
    refine Eq.trans ?_ (acc_range_succ (tap (V (Proc.devRef .tc main_arg0)) (V (Proc.devRef .tc main_arg1)) n cc h w) 3).symm
    rw [← inv3]
    exact tap_step_3 V n cc h w
  have inv5 : after (ops (F := Ideal)) V (Proc.devRef .tc main_v36) (ix4 n cc h w) = acc (tap (V (Proc.devRef .tc main_arg0)) (V (Proc.devRef .tc main_arg1)) n cc h w) (List.range 5) := by
    refine Eq.trans ?_ (acc_range_succ (tap (V (Proc.devRef .tc main_arg0)) (V (Proc.devRef .tc main_arg1)) n cc h w) 4).symm
    rw [← inv4]
    exact tap_step_4 V n cc h w
  have inv6 : after (ops (F := Ideal)) V (Proc.devRef .tc main_v43) (ix4 n cc h w) = acc (tap (V (Proc.devRef .tc main_arg0)) (V (Proc.devRef .tc main_arg1)) n cc h w) (List.range 6) := by
    refine Eq.trans ?_ (acc_range_succ (tap (V (Proc.devRef .tc main_arg0)) (V (Proc.devRef .tc main_arg1)) n cc h w) 5).symm
    rw [← inv5]
    exact tap_step_5 V n cc h w
  have inv7 : after (ops (F := Ideal)) V (Proc.devRef .tc main_v50) (ix4 n cc h w) = acc (tap (V (Proc.devRef .tc main_arg0)) (V (Proc.devRef .tc main_arg1)) n cc h w) (List.range 7) := by
    refine Eq.trans ?_ (acc_range_succ (tap (V (Proc.devRef .tc main_arg0)) (V (Proc.devRef .tc main_arg1)) n cc h w) 6).symm
    rw [← inv6]
    exact tap_step_6 V n cc h w
  have inv8 : after (ops (F := Ideal)) V (Proc.devRef .tc main_v57) (ix4 n cc h w) = acc (tap (V (Proc.devRef .tc main_arg0)) (V (Proc.devRef .tc main_arg1)) n cc h w) (List.range 8) := by
    refine Eq.trans ?_ (acc_range_succ (tap (V (Proc.devRef .tc main_arg0)) (V (Proc.devRef .tc main_arg1)) n cc h w) 7).symm
    rw [← inv7]
    exact tap_step_7 V n cc h w
  have inv9 : after (ops (F := Ideal)) V (Proc.devRef .tc main_v64) (ix4 n cc h w) = acc (tap (V (Proc.devRef .tc main_arg0)) (V (Proc.devRef .tc main_arg1)) n cc h w) (List.range 9) := by
    refine Eq.trans ?_ (acc_range_succ (tap (V (Proc.devRef .tc main_arg0)) (V (Proc.devRef .tc main_arg1)) n cc h w) 8).symm
    rw [← inv8]
    exact tap_step_8 V n cc h w
  have inv10 : after (ops (F := Ideal)) V (Proc.devRef .tc main_v71) (ix4 n cc h w) = acc (tap (V (Proc.devRef .tc main_arg0)) (V (Proc.devRef .tc main_arg1)) n cc h w) (List.range 10) := by
    refine Eq.trans ?_ (acc_range_succ (tap (V (Proc.devRef .tc main_arg0)) (V (Proc.devRef .tc main_arg1)) n cc h w) 9).symm
    rw [← inv9]
    exact tap_step_9 V n cc h w
  have inv11 : after (ops (F := Ideal)) V (Proc.devRef .tc main_v78) (ix4 n cc h w) = acc (tap (V (Proc.devRef .tc main_arg0)) (V (Proc.devRef .tc main_arg1)) n cc h w) (List.range 11) := by
    refine Eq.trans ?_ (acc_range_succ (tap (V (Proc.devRef .tc main_arg0)) (V (Proc.devRef .tc main_arg1)) n cc h w) 10).symm
    rw [← inv10]
    exact tap_step_10 V n cc h w
  have inv12 : after (ops (F := Ideal)) V (Proc.devRef .tc main_v85) (ix4 n cc h w) = acc (tap (V (Proc.devRef .tc main_arg0)) (V (Proc.devRef .tc main_arg1)) n cc h w) (List.range 12) := by
    refine Eq.trans ?_ (acc_range_succ (tap (V (Proc.devRef .tc main_arg0)) (V (Proc.devRef .tc main_arg1)) n cc h w) 11).symm
    rw [← inv11]
    exact tap_step_11 V n cc h w
  have inv13 : after (ops (F := Ideal)) V (Proc.devRef .tc main_v92) (ix4 n cc h w) = acc (tap (V (Proc.devRef .tc main_arg0)) (V (Proc.devRef .tc main_arg1)) n cc h w) (List.range 13) := by
    refine Eq.trans ?_ (acc_range_succ (tap (V (Proc.devRef .tc main_arg0)) (V (Proc.devRef .tc main_arg1)) n cc h w) 12).symm
    rw [← inv12]
    exact tap_step_12 V n cc h w
  have inv14 : after (ops (F := Ideal)) V (Proc.devRef .tc main_v99) (ix4 n cc h w) = acc (tap (V (Proc.devRef .tc main_arg0)) (V (Proc.devRef .tc main_arg1)) n cc h w) (List.range 14) := by
    refine Eq.trans ?_ (acc_range_succ (tap (V (Proc.devRef .tc main_arg0)) (V (Proc.devRef .tc main_arg1)) n cc h w) 13).symm
    rw [← inv13]
    exact tap_step_13 V n cc h w
  have inv15 : after (ops (F := Ideal)) V (Proc.devRef .tc main_v106) (ix4 n cc h w) = acc (tap (V (Proc.devRef .tc main_arg0)) (V (Proc.devRef .tc main_arg1)) n cc h w) (List.range 15) := by
    refine Eq.trans ?_ (acc_range_succ (tap (V (Proc.devRef .tc main_arg0)) (V (Proc.devRef .tc main_arg1)) n cc h w) 14).symm
    rw [← inv14]
    exact tap_step_14 V n cc h w
  have inv16 : after (ops (F := Ideal)) V (Proc.devRef .tc main_v113) (ix4 n cc h w) = acc (tap (V (Proc.devRef .tc main_arg0)) (V (Proc.devRef .tc main_arg1)) n cc h w) (List.range 16) := by
    refine Eq.trans ?_ (acc_range_succ (tap (V (Proc.devRef .tc main_arg0)) (V (Proc.devRef .tc main_arg1)) n cc h w) 15).symm
    rw [← inv15]
    exact tap_step_15 V n cc h w
  have inv17 : after (ops (F := Ideal)) V (Proc.devRef .tc main_v120) (ix4 n cc h w) = acc (tap (V (Proc.devRef .tc main_arg0)) (V (Proc.devRef .tc main_arg1)) n cc h w) (List.range 17) := by
    refine Eq.trans ?_ (acc_range_succ (tap (V (Proc.devRef .tc main_arg0)) (V (Proc.devRef .tc main_arg1)) n cc h w) 16).symm
    rw [← inv16]
    exact tap_step_16 V n cc h w
  have inv18 : after (ops (F := Ideal)) V (Proc.devRef .tc main_v127) (ix4 n cc h w) = acc (tap (V (Proc.devRef .tc main_arg0)) (V (Proc.devRef .tc main_arg1)) n cc h w) (List.range 18) := by
    refine Eq.trans ?_ (acc_range_succ (tap (V (Proc.devRef .tc main_arg0)) (V (Proc.devRef .tc main_arg1)) n cc h w) 17).symm
    rw [← inv17]
    exact tap_step_17 V n cc h w
  have inv19 : after (ops (F := Ideal)) V (Proc.devRef .tc main_v134) (ix4 n cc h w) = acc (tap (V (Proc.devRef .tc main_arg0)) (V (Proc.devRef .tc main_arg1)) n cc h w) (List.range 19) := by
    refine Eq.trans ?_ (acc_range_succ (tap (V (Proc.devRef .tc main_arg0)) (V (Proc.devRef .tc main_arg1)) n cc h w) 18).symm
    rw [← inv18]
    exact tap_step_18 V n cc h w
  have inv20 : after (ops (F := Ideal)) V (Proc.devRef .tc main_v141) (ix4 n cc h w) = acc (tap (V (Proc.devRef .tc main_arg0)) (V (Proc.devRef .tc main_arg1)) n cc h w) (List.range 20) := by
    refine Eq.trans ?_ (acc_range_succ (tap (V (Proc.devRef .tc main_arg0)) (V (Proc.devRef .tc main_arg1)) n cc h w) 19).symm
    rw [← inv19]
    exact tap_step_19 V n cc h w
  have inv21 : after (ops (F := Ideal)) V (Proc.devRef .tc main_v148) (ix4 n cc h w) = acc (tap (V (Proc.devRef .tc main_arg0)) (V (Proc.devRef .tc main_arg1)) n cc h w) (List.range 21) := by
    refine Eq.trans ?_ (acc_range_succ (tap (V (Proc.devRef .tc main_arg0)) (V (Proc.devRef .tc main_arg1)) n cc h w) 20).symm
    rw [← inv20]
    exact tap_step_20 V n cc h w
  have inv22 : after (ops (F := Ideal)) V (Proc.devRef .tc main_v155) (ix4 n cc h w) = acc (tap (V (Proc.devRef .tc main_arg0)) (V (Proc.devRef .tc main_arg1)) n cc h w) (List.range 22) := by
    refine Eq.trans ?_ (acc_range_succ (tap (V (Proc.devRef .tc main_arg0)) (V (Proc.devRef .tc main_arg1)) n cc h w) 21).symm
    rw [← inv21]
    exact tap_step_21 V n cc h w
  have inv23 : after (ops (F := Ideal)) V (Proc.devRef .tc main_v162) (ix4 n cc h w) = acc (tap (V (Proc.devRef .tc main_arg0)) (V (Proc.devRef .tc main_arg1)) n cc h w) (List.range 23) := by
    refine Eq.trans ?_ (acc_range_succ (tap (V (Proc.devRef .tc main_arg0)) (V (Proc.devRef .tc main_arg1)) n cc h w) 22).symm
    rw [← inv22]
    exact tap_step_22 V n cc h w
  have inv24 : after (ops (F := Ideal)) V (Proc.devRef .tc main_v169) (ix4 n cc h w) = acc (tap (V (Proc.devRef .tc main_arg0)) (V (Proc.devRef .tc main_arg1)) n cc h w) (List.range 24) := by
    refine Eq.trans ?_ (acc_range_succ (tap (V (Proc.devRef .tc main_arg0)) (V (Proc.devRef .tc main_arg1)) n cc h w) 23).symm
    rw [← inv23]
    exact tap_step_23 V n cc h w
  have inv25 : after (ops (F := Ideal)) V (Proc.devRef .tc main_v176) (ix4 n cc h w) = acc (tap (V (Proc.devRef .tc main_arg0)) (V (Proc.devRef .tc main_arg1)) n cc h w) (List.range 25) := by
    refine Eq.trans ?_ (acc_range_succ (tap (V (Proc.devRef .tc main_arg0)) (V (Proc.devRef .tc main_arg1)) n cc h w) 24).symm
    rw [← inv24]
    exact tap_step_24 V n cc h w
  have inv26 : after (ops (F := Ideal)) V (Proc.devRef .tc main_v183) (ix4 n cc h w) = acc (tap (V (Proc.devRef .tc main_arg0)) (V (Proc.devRef .tc main_arg1)) n cc h w) (List.range 26) := by
    refine Eq.trans ?_ (acc_range_succ (tap (V (Proc.devRef .tc main_arg0)) (V (Proc.devRef .tc main_arg1)) n cc h w) 25).symm
    rw [← inv25]
    exact tap_step_25 V n cc h w
  have inv27 : after (ops (F := Ideal)) V (Proc.devRef .tc main_v190) (ix4 n cc h w) = acc (tap (V (Proc.devRef .tc main_arg0)) (V (Proc.devRef .tc main_arg1)) n cc h w) (List.range 27) := by
    refine Eq.trans ?_ (acc_range_succ (tap (V (Proc.devRef .tc main_arg0)) (V (Proc.devRef .tc main_arg1)) n cc h w) 26).symm
    rw [← inv26]
    exact tap_step_26 V n cc h w
  have inv28 : after (ops (F := Ideal)) V (Proc.devRef .tc main_v197) (ix4 n cc h w) = acc (tap (V (Proc.devRef .tc main_arg0)) (V (Proc.devRef .tc main_arg1)) n cc h w) (List.range 28) := by
    refine Eq.trans ?_ (acc_range_succ (tap (V (Proc.devRef .tc main_arg0)) (V (Proc.devRef .tc main_arg1)) n cc h w) 27).symm
    rw [← inv27]
    exact tap_step_27 V n cc h w
  have inv29 : after (ops (F := Ideal)) V (Proc.devRef .tc main_v204) (ix4 n cc h w) = acc (tap (V (Proc.devRef .tc main_arg0)) (V (Proc.devRef .tc main_arg1)) n cc h w) (List.range 29) := by
    refine Eq.trans ?_ (acc_range_succ (tap (V (Proc.devRef .tc main_arg0)) (V (Proc.devRef .tc main_arg1)) n cc h w) 28).symm
    rw [← inv28]
    exact tap_step_28 V n cc h w
  have inv30 : after (ops (F := Ideal)) V (Proc.devRef .tc main_v211) (ix4 n cc h w) = acc (tap (V (Proc.devRef .tc main_arg0)) (V (Proc.devRef .tc main_arg1)) n cc h w) (List.range 30) := by
    refine Eq.trans ?_ (acc_range_succ (tap (V (Proc.devRef .tc main_arg0)) (V (Proc.devRef .tc main_arg1)) n cc h w) 29).symm
    rw [← inv29]
    exact tap_step_29 V n cc h w
  have inv31 : after (ops (F := Ideal)) V (Proc.devRef .tc main_v218) (ix4 n cc h w) = acc (tap (V (Proc.devRef .tc main_arg0)) (V (Proc.devRef .tc main_arg1)) n cc h w) (List.range 31) := by
    refine Eq.trans ?_ (acc_range_succ (tap (V (Proc.devRef .tc main_arg0)) (V (Proc.devRef .tc main_arg1)) n cc h w) 30).symm
    rw [← inv30]
    exact tap_step_30 V n cc h w
  have inv32 : after (ops (F := Ideal)) V (Proc.devRef .tc main_v225) (ix4 n cc h w) = acc (tap (V (Proc.devRef .tc main_arg0)) (V (Proc.devRef .tc main_arg1)) n cc h w) (List.range 32) := by
    refine Eq.trans ?_ (acc_range_succ (tap (V (Proc.devRef .tc main_arg0)) (V (Proc.devRef .tc main_arg1)) n cc h w) 31).symm
    rw [← inv31]
    exact tap_step_31 V n cc h w
  have inv33 : after (ops (F := Ideal)) V (Proc.devRef .tc main_v232) (ix4 n cc h w) = acc (tap (V (Proc.devRef .tc main_arg0)) (V (Proc.devRef .tc main_arg1)) n cc h w) (List.range 33) := by
    refine Eq.trans ?_ (acc_range_succ (tap (V (Proc.devRef .tc main_arg0)) (V (Proc.devRef .tc main_arg1)) n cc h w) 32).symm
    rw [← inv32]
    exact tap_step_32 V n cc h w
  have inv34 : after (ops (F := Ideal)) V (Proc.devRef .tc main_v239) (ix4 n cc h w) = acc (tap (V (Proc.devRef .tc main_arg0)) (V (Proc.devRef .tc main_arg1)) n cc h w) (List.range 34) := by
    refine Eq.trans ?_ (acc_range_succ (tap (V (Proc.devRef .tc main_arg0)) (V (Proc.devRef .tc main_arg1)) n cc h w) 33).symm
    rw [← inv33]
    exact tap_step_33 V n cc h w
  have inv35 : after (ops (F := Ideal)) V (Proc.devRef .tc main_v246) (ix4 n cc h w) = acc (tap (V (Proc.devRef .tc main_arg0)) (V (Proc.devRef .tc main_arg1)) n cc h w) (List.range 35) := by
    refine Eq.trans ?_ (acc_range_succ (tap (V (Proc.devRef .tc main_arg0)) (V (Proc.devRef .tc main_arg1)) n cc h w) 34).symm
    rw [← inv34]
    exact tap_step_34 V n cc h w
  have inv36 : after (ops (F := Ideal)) V (Proc.devRef .tc main_v253) (ix4 n cc h w) = acc (tap (V (Proc.devRef .tc main_arg0)) (V (Proc.devRef .tc main_arg1)) n cc h w) (List.range 36) := by
    refine Eq.trans ?_ (acc_range_succ (tap (V (Proc.devRef .tc main_arg0)) (V (Proc.devRef .tc main_arg1)) n cc h w) 35).symm
    rw [← inv35]
    exact tap_step_35 V n cc h w
  have inv37 : after (ops (F := Ideal)) V (Proc.devRef .tc main_v260) (ix4 n cc h w) = acc (tap (V (Proc.devRef .tc main_arg0)) (V (Proc.devRef .tc main_arg1)) n cc h w) (List.range 37) := by
    refine Eq.trans ?_ (acc_range_succ (tap (V (Proc.devRef .tc main_arg0)) (V (Proc.devRef .tc main_arg1)) n cc h w) 36).symm
    rw [← inv36]
    exact tap_step_36 V n cc h w
  have inv38 : after (ops (F := Ideal)) V (Proc.devRef .tc main_v267) (ix4 n cc h w) = acc (tap (V (Proc.devRef .tc main_arg0)) (V (Proc.devRef .tc main_arg1)) n cc h w) (List.range 38) := by
    refine Eq.trans ?_ (acc_range_succ (tap (V (Proc.devRef .tc main_arg0)) (V (Proc.devRef .tc main_arg1)) n cc h w) 37).symm
    rw [← inv37]
    exact tap_step_37 V n cc h w
  have inv39 : after (ops (F := Ideal)) V (Proc.devRef .tc main_v274) (ix4 n cc h w) = acc (tap (V (Proc.devRef .tc main_arg0)) (V (Proc.devRef .tc main_arg1)) n cc h w) (List.range 39) := by
    refine Eq.trans ?_ (acc_range_succ (tap (V (Proc.devRef .tc main_arg0)) (V (Proc.devRef .tc main_arg1)) n cc h w) 38).symm
    rw [← inv38]
    exact tap_step_38 V n cc h w
  have inv40 : after (ops (F := Ideal)) V (Proc.devRef .tc main_v281) (ix4 n cc h w) = acc (tap (V (Proc.devRef .tc main_arg0)) (V (Proc.devRef .tc main_arg1)) n cc h w) (List.range 40) := by
    refine Eq.trans ?_ (acc_range_succ (tap (V (Proc.devRef .tc main_arg0)) (V (Proc.devRef .tc main_arg1)) n cc h w) 39).symm
    rw [← inv39]
    exact tap_step_39 V n cc h w
  have inv41 : after (ops (F := Ideal)) V (Proc.devRef .tc main_v288) (ix4 n cc h w) = acc (tap (V (Proc.devRef .tc main_arg0)) (V (Proc.devRef .tc main_arg1)) n cc h w) (List.range 41) := by
    refine Eq.trans ?_ (acc_range_succ (tap (V (Proc.devRef .tc main_arg0)) (V (Proc.devRef .tc main_arg1)) n cc h w) 40).symm
    rw [← inv40]
    exact tap_step_40 V n cc h w
  have inv42 : after (ops (F := Ideal)) V (Proc.devRef .tc main_v295) (ix4 n cc h w) = acc (tap (V (Proc.devRef .tc main_arg0)) (V (Proc.devRef .tc main_arg1)) n cc h w) (List.range 42) := by
    refine Eq.trans ?_ (acc_range_succ (tap (V (Proc.devRef .tc main_arg0)) (V (Proc.devRef .tc main_arg1)) n cc h w) 41).symm
    rw [← inv41]
    exact tap_step_41 V n cc h w
  have inv43 : after (ops (F := Ideal)) V (Proc.devRef .tc main_v302) (ix4 n cc h w) = acc (tap (V (Proc.devRef .tc main_arg0)) (V (Proc.devRef .tc main_arg1)) n cc h w) (List.range 43) := by
    refine Eq.trans ?_ (acc_range_succ (tap (V (Proc.devRef .tc main_arg0)) (V (Proc.devRef .tc main_arg1)) n cc h w) 42).symm
    rw [← inv42]
    exact tap_step_42 V n cc h w
  have inv44 : after (ops (F := Ideal)) V (Proc.devRef .tc main_v309) (ix4 n cc h w) = acc (tap (V (Proc.devRef .tc main_arg0)) (V (Proc.devRef .tc main_arg1)) n cc h w) (List.range 44) := by
    refine Eq.trans ?_ (acc_range_succ (tap (V (Proc.devRef .tc main_arg0)) (V (Proc.devRef .tc main_arg1)) n cc h w) 43).symm
    rw [← inv43]
    exact tap_step_43 V n cc h w
  have inv45 : after (ops (F := Ideal)) V (Proc.devRef .tc main_v316) (ix4 n cc h w) = acc (tap (V (Proc.devRef .tc main_arg0)) (V (Proc.devRef .tc main_arg1)) n cc h w) (List.range 45) := by
    refine Eq.trans ?_ (acc_range_succ (tap (V (Proc.devRef .tc main_arg0)) (V (Proc.devRef .tc main_arg1)) n cc h w) 44).symm
    rw [← inv44]
    exact tap_step_44 V n cc h w
  have inv46 : after (ops (F := Ideal)) V (Proc.devRef .tc main_v323) (ix4 n cc h w) = acc (tap (V (Proc.devRef .tc main_arg0)) (V (Proc.devRef .tc main_arg1)) n cc h w) (List.range 46) := by
    refine Eq.trans ?_ (acc_range_succ (tap (V (Proc.devRef .tc main_arg0)) (V (Proc.devRef .tc main_arg1)) n cc h w) 45).symm
    rw [← inv45]
    exact tap_step_45 V n cc h w
  have inv47 : after (ops (F := Ideal)) V (Proc.devRef .tc main_v330) (ix4 n cc h w) = acc (tap (V (Proc.devRef .tc main_arg0)) (V (Proc.devRef .tc main_arg1)) n cc h w) (List.range 47) := by
    refine Eq.trans ?_ (acc_range_succ (tap (V (Proc.devRef .tc main_arg0)) (V (Proc.devRef .tc main_arg1)) n cc h w) 46).symm
    rw [← inv46]
    exact tap_step_46 V n cc h w
  have inv48 : after (ops (F := Ideal)) V (Proc.devRef .tc main_v337) (ix4 n cc h w) = acc (tap (V (Proc.devRef .tc main_arg0)) (V (Proc.devRef .tc main_arg1)) n cc h w) (List.range 48) := by
    refine Eq.trans ?_ (acc_range_succ (tap (V (Proc.devRef .tc main_arg0)) (V (Proc.devRef .tc main_arg1)) n cc h w) 47).symm
    rw [← inv47]
    exact tap_step_47 V n cc h w
  have inv49 : after (ops (F := Ideal)) V (Proc.devRef .tc main_v344) (ix4 n cc h w) = acc (tap (V (Proc.devRef .tc main_arg0)) (V (Proc.devRef .tc main_arg1)) n cc h w) (List.range 49) := by
    refine Eq.trans ?_ (acc_range_succ (tap (V (Proc.devRef .tc main_arg0)) (V (Proc.devRef .tc main_arg1)) n cc h w) 48).symm
    rw [← inv48]
    exact tap_step_48 V n cc h w
  have inv50 : after (ops (F := Ideal)) V (Proc.devRef .tc main_v351) (ix4 n cc h w) = acc (tap (V (Proc.devRef .tc main_arg0)) (V (Proc.devRef .tc main_arg1)) n cc h w) (List.range 50) := by
    refine Eq.trans ?_ (acc_range_succ (tap (V (Proc.devRef .tc main_arg0)) (V (Proc.devRef .tc main_arg1)) n cc h w) 49).symm
    rw [← inv49]
    exact tap_step_49 V n cc h w
  have inv51 : after (ops (F := Ideal)) V (Proc.devRef .tc main_v358) (ix4 n cc h w) = acc (tap (V (Proc.devRef .tc main_arg0)) (V (Proc.devRef .tc main_arg1)) n cc h w) (List.range 51) := by
    refine Eq.trans ?_ (acc_range_succ (tap (V (Proc.devRef .tc main_arg0)) (V (Proc.devRef .tc main_arg1)) n cc h w) 50).symm
    rw [← inv50]
    exact tap_step_50 V n cc h w
  have inv52 : after (ops (F := Ideal)) V (Proc.devRef .tc main_v365) (ix4 n cc h w) = acc (tap (V (Proc.devRef .tc main_arg0)) (V (Proc.devRef .tc main_arg1)) n cc h w) (List.range 52) := by
    refine Eq.trans ?_ (acc_range_succ (tap (V (Proc.devRef .tc main_arg0)) (V (Proc.devRef .tc main_arg1)) n cc h w) 51).symm
    rw [← inv51]
    exact tap_step_51 V n cc h w
  have inv53 : after (ops (F := Ideal)) V (Proc.devRef .tc main_v372) (ix4 n cc h w) = acc (tap (V (Proc.devRef .tc main_arg0)) (V (Proc.devRef .tc main_arg1)) n cc h w) (List.range 53) := by
    refine Eq.trans ?_ (acc_range_succ (tap (V (Proc.devRef .tc main_arg0)) (V (Proc.devRef .tc main_arg1)) n cc h w) 52).symm
    rw [← inv52]
    exact tap_step_52 V n cc h w
  have inv54 : after (ops (F := Ideal)) V (Proc.devRef .tc main_v379) (ix4 n cc h w) = acc (tap (V (Proc.devRef .tc main_arg0)) (V (Proc.devRef .tc main_arg1)) n cc h w) (List.range 54) := by
    refine Eq.trans ?_ (acc_range_succ (tap (V (Proc.devRef .tc main_arg0)) (V (Proc.devRef .tc main_arg1)) n cc h w) 53).symm
    rw [← inv53]
    exact tap_step_53 V n cc h w
  have inv55 : after (ops (F := Ideal)) V (Proc.devRef .tc main_v386) (ix4 n cc h w) = acc (tap (V (Proc.devRef .tc main_arg0)) (V (Proc.devRef .tc main_arg1)) n cc h w) (List.range 55) := by
    refine Eq.trans ?_ (acc_range_succ (tap (V (Proc.devRef .tc main_arg0)) (V (Proc.devRef .tc main_arg1)) n cc h w) 54).symm
    rw [← inv54]
    exact tap_step_54 V n cc h w
  have inv56 : after (ops (F := Ideal)) V (Proc.devRef .tc main_v393) (ix4 n cc h w) = acc (tap (V (Proc.devRef .tc main_arg0)) (V (Proc.devRef .tc main_arg1)) n cc h w) (List.range 56) := by
    refine Eq.trans ?_ (acc_range_succ (tap (V (Proc.devRef .tc main_arg0)) (V (Proc.devRef .tc main_arg1)) n cc h w) 55).symm
    rw [← inv55]
    exact tap_step_55 V n cc h w
  have inv57 : after (ops (F := Ideal)) V (Proc.devRef .tc main_v400) (ix4 n cc h w) = acc (tap (V (Proc.devRef .tc main_arg0)) (V (Proc.devRef .tc main_arg1)) n cc h w) (List.range 57) := by
    refine Eq.trans ?_ (acc_range_succ (tap (V (Proc.devRef .tc main_arg0)) (V (Proc.devRef .tc main_arg1)) n cc h w) 56).symm
    rw [← inv56]
    exact tap_step_56 V n cc h w
  have inv58 : after (ops (F := Ideal)) V (Proc.devRef .tc main_v407) (ix4 n cc h w) = acc (tap (V (Proc.devRef .tc main_arg0)) (V (Proc.devRef .tc main_arg1)) n cc h w) (List.range 58) := by
    refine Eq.trans ?_ (acc_range_succ (tap (V (Proc.devRef .tc main_arg0)) (V (Proc.devRef .tc main_arg1)) n cc h w) 57).symm
    rw [← inv57]
    exact tap_step_57 V n cc h w
  have inv59 : after (ops (F := Ideal)) V (Proc.devRef .tc main_v414) (ix4 n cc h w) = acc (tap (V (Proc.devRef .tc main_arg0)) (V (Proc.devRef .tc main_arg1)) n cc h w) (List.range 59) := by
    refine Eq.trans ?_ (acc_range_succ (tap (V (Proc.devRef .tc main_arg0)) (V (Proc.devRef .tc main_arg1)) n cc h w) 58).symm
    rw [← inv58]
    exact tap_step_58 V n cc h w
  have inv60 : after (ops (F := Ideal)) V (Proc.devRef .tc main_v421) (ix4 n cc h w) = acc (tap (V (Proc.devRef .tc main_arg0)) (V (Proc.devRef .tc main_arg1)) n cc h w) (List.range 60) := by
    refine Eq.trans ?_ (acc_range_succ (tap (V (Proc.devRef .tc main_arg0)) (V (Proc.devRef .tc main_arg1)) n cc h w) 59).symm
    rw [← inv59]
    exact tap_step_59 V n cc h w
  have inv61 : after (ops (F := Ideal)) V (Proc.devRef .tc main_v428) (ix4 n cc h w) = acc (tap (V (Proc.devRef .tc main_arg0)) (V (Proc.devRef .tc main_arg1)) n cc h w) (List.range 61) := by
    refine Eq.trans ?_ (acc_range_succ (tap (V (Proc.devRef .tc main_arg0)) (V (Proc.devRef .tc main_arg1)) n cc h w) 60).symm
    rw [← inv60]
    exact tap_step_60 V n cc h w
  have inv62 : after (ops (F := Ideal)) V (Proc.devRef .tc main_v435) (ix4 n cc h w) = acc (tap (V (Proc.devRef .tc main_arg0)) (V (Proc.devRef .tc main_arg1)) n cc h w) (List.range 62) := by
    refine Eq.trans ?_ (acc_range_succ (tap (V (Proc.devRef .tc main_arg0)) (V (Proc.devRef .tc main_arg1)) n cc h w) 61).symm
    rw [← inv61]
    exact tap_step_61 V n cc h w
  have inv63 : after (ops (F := Ideal)) V (Proc.devRef .tc main_v442) (ix4 n cc h w) = acc (tap (V (Proc.devRef .tc main_arg0)) (V (Proc.devRef .tc main_arg1)) n cc h w) (List.range 63) := by
    refine Eq.trans ?_ (acc_range_succ (tap (V (Proc.devRef .tc main_arg0)) (V (Proc.devRef .tc main_arg1)) n cc h w) 62).symm
    rw [← inv62]
    exact tap_step_62 V n cc h w
  have inv64 : after (ops (F := Ideal)) V (Proc.devRef .tc main_v449) (ix4 n cc h w) = acc (tap (V (Proc.devRef .tc main_arg0)) (V (Proc.devRef .tc main_arg1)) n cc h w) (List.range 64) := by
    refine Eq.trans ?_ (acc_range_succ (tap (V (Proc.devRef .tc main_arg0)) (V (Proc.devRef .tc main_arg1)) n cc h w) 63).symm
    rw [← inv63]
    exact tap_step_63 V n cc h w
  have inv65 : after (ops (F := Ideal)) V (Proc.devRef .tc main_v456) (ix4 n cc h w) = acc (tap (V (Proc.devRef .tc main_arg0)) (V (Proc.devRef .tc main_arg1)) n cc h w) (List.range 65) := by
    refine Eq.trans ?_ (acc_range_succ (tap (V (Proc.devRef .tc main_arg0)) (V (Proc.devRef .tc main_arg1)) n cc h w) 64).symm
    rw [← inv64]
    exact tap_step_64 V n cc h w
  have inv66 : after (ops (F := Ideal)) V (Proc.devRef .tc main_v463) (ix4 n cc h w) = acc (tap (V (Proc.devRef .tc main_arg0)) (V (Proc.devRef .tc main_arg1)) n cc h w) (List.range 66) := by
    refine Eq.trans ?_ (acc_range_succ (tap (V (Proc.devRef .tc main_arg0)) (V (Proc.devRef .tc main_arg1)) n cc h w) 65).symm
    rw [← inv65]
    exact tap_step_65 V n cc h w
  have inv67 : after (ops (F := Ideal)) V (Proc.devRef .tc main_v470) (ix4 n cc h w) = acc (tap (V (Proc.devRef .tc main_arg0)) (V (Proc.devRef .tc main_arg1)) n cc h w) (List.range 67) := by
    refine Eq.trans ?_ (acc_range_succ (tap (V (Proc.devRef .tc main_arg0)) (V (Proc.devRef .tc main_arg1)) n cc h w) 66).symm
    rw [← inv66]
    exact tap_step_66 V n cc h w
  have inv68 : after (ops (F := Ideal)) V (Proc.devRef .tc main_v477) (ix4 n cc h w) = acc (tap (V (Proc.devRef .tc main_arg0)) (V (Proc.devRef .tc main_arg1)) n cc h w) (List.range 68) := by
    refine Eq.trans ?_ (acc_range_succ (tap (V (Proc.devRef .tc main_arg0)) (V (Proc.devRef .tc main_arg1)) n cc h w) 67).symm
    rw [← inv67]
    exact tap_step_67 V n cc h w
  have inv69 : after (ops (F := Ideal)) V (Proc.devRef .tc main_v484) (ix4 n cc h w) = acc (tap (V (Proc.devRef .tc main_arg0)) (V (Proc.devRef .tc main_arg1)) n cc h w) (List.range 69) := by
    refine Eq.trans ?_ (acc_range_succ (tap (V (Proc.devRef .tc main_arg0)) (V (Proc.devRef .tc main_arg1)) n cc h w) 68).symm
    rw [← inv68]
    exact tap_step_68 V n cc h w
  have inv70 : after (ops (F := Ideal)) V (Proc.devRef .tc main_v491) (ix4 n cc h w) = acc (tap (V (Proc.devRef .tc main_arg0)) (V (Proc.devRef .tc main_arg1)) n cc h w) (List.range 70) := by
    refine Eq.trans ?_ (acc_range_succ (tap (V (Proc.devRef .tc main_arg0)) (V (Proc.devRef .tc main_arg1)) n cc h w) 69).symm
    rw [← inv69]
    exact tap_step_69 V n cc h w
  have inv71 : after (ops (F := Ideal)) V (Proc.devRef .tc main_v498) (ix4 n cc h w) = acc (tap (V (Proc.devRef .tc main_arg0)) (V (Proc.devRef .tc main_arg1)) n cc h w) (List.range 71) := by
    refine Eq.trans ?_ (acc_range_succ (tap (V (Proc.devRef .tc main_arg0)) (V (Proc.devRef .tc main_arg1)) n cc h w) 70).symm
    rw [← inv70]
    exact tap_step_70 V n cc h w
  have inv72 : after (ops (F := Ideal)) V (Proc.devRef .tc main_v505) (ix4 n cc h w) = acc (tap (V (Proc.devRef .tc main_arg0)) (V (Proc.devRef .tc main_arg1)) n cc h w) (List.range 72) := by
    refine Eq.trans ?_ (acc_range_succ (tap (V (Proc.devRef .tc main_arg0)) (V (Proc.devRef .tc main_arg1)) n cc h w) 71).symm
    rw [← inv71]
    exact tap_step_71 V n cc h w
  have inv73 : after (ops (F := Ideal)) V (Proc.devRef .tc main_v512) (ix4 n cc h w) = acc (tap (V (Proc.devRef .tc main_arg0)) (V (Proc.devRef .tc main_arg1)) n cc h w) (List.range 73) := by
    refine Eq.trans ?_ (acc_range_succ (tap (V (Proc.devRef .tc main_arg0)) (V (Proc.devRef .tc main_arg1)) n cc h w) 72).symm
    rw [← inv72]
    exact tap_step_72 V n cc h w
  have inv74 : after (ops (F := Ideal)) V (Proc.devRef .tc main_v519) (ix4 n cc h w) = acc (tap (V (Proc.devRef .tc main_arg0)) (V (Proc.devRef .tc main_arg1)) n cc h w) (List.range 74) := by
    refine Eq.trans ?_ (acc_range_succ (tap (V (Proc.devRef .tc main_arg0)) (V (Proc.devRef .tc main_arg1)) n cc h w) 73).symm
    rw [← inv73]
    exact tap_step_73 V n cc h w
  have inv75 : after (ops (F := Ideal)) V (Proc.devRef .tc main_v526) (ix4 n cc h w) = acc (tap (V (Proc.devRef .tc main_arg0)) (V (Proc.devRef .tc main_arg1)) n cc h w) (List.range 75) := by
    refine Eq.trans ?_ (acc_range_succ (tap (V (Proc.devRef .tc main_arg0)) (V (Proc.devRef .tc main_arg1)) n cc h w) 74).symm
    rw [← inv74]
    exact tap_step_74 V n cc h w
  have inv76 : after (ops (F := Ideal)) V (Proc.devRef .tc main_v533) (ix4 n cc h w) = acc (tap (V (Proc.devRef .tc main_arg0)) (V (Proc.devRef .tc main_arg1)) n cc h w) (List.range 76) := by
    refine Eq.trans ?_ (acc_range_succ (tap (V (Proc.devRef .tc main_arg0)) (V (Proc.devRef .tc main_arg1)) n cc h w) 75).symm
    rw [← inv75]
    exact tap_step_75 V n cc h w
  have inv77 : after (ops (F := Ideal)) V (Proc.devRef .tc main_v540) (ix4 n cc h w) = acc (tap (V (Proc.devRef .tc main_arg0)) (V (Proc.devRef .tc main_arg1)) n cc h w) (List.range 77) := by
    refine Eq.trans ?_ (acc_range_succ (tap (V (Proc.devRef .tc main_arg0)) (V (Proc.devRef .tc main_arg1)) n cc h w) 76).symm
    rw [← inv76]
    exact tap_step_76 V n cc h w
  have inv78 : after (ops (F := Ideal)) V (Proc.devRef .tc main_v547) (ix4 n cc h w) = acc (tap (V (Proc.devRef .tc main_arg0)) (V (Proc.devRef .tc main_arg1)) n cc h w) (List.range 78) := by
    refine Eq.trans ?_ (acc_range_succ (tap (V (Proc.devRef .tc main_arg0)) (V (Proc.devRef .tc main_arg1)) n cc h w) 77).symm
    rw [← inv77]
    exact tap_step_77 V n cc h w
  have inv79 : after (ops (F := Ideal)) V (Proc.devRef .tc main_v554) (ix4 n cc h w) = acc (tap (V (Proc.devRef .tc main_arg0)) (V (Proc.devRef .tc main_arg1)) n cc h w) (List.range 79) := by
    refine Eq.trans ?_ (acc_range_succ (tap (V (Proc.devRef .tc main_arg0)) (V (Proc.devRef .tc main_arg1)) n cc h w) 78).symm
    rw [← inv78]
    exact tap_step_78 V n cc h w
  have inv80 : after (ops (F := Ideal)) V (Proc.devRef .tc main_v561) (ix4 n cc h w) = acc (tap (V (Proc.devRef .tc main_arg0)) (V (Proc.devRef .tc main_arg1)) n cc h w) (List.range 80) := by
    refine Eq.trans ?_ (acc_range_succ (tap (V (Proc.devRef .tc main_arg0)) (V (Proc.devRef .tc main_arg1)) n cc h w) 79).symm
    rw [← inv79]
    exact tap_step_79 V n cc h w
  have inv81 : after (ops (F := Ideal)) V (Proc.devRef .tc main_v568) (ix4 n cc h w) = acc (tap (V (Proc.devRef .tc main_arg0)) (V (Proc.devRef .tc main_arg1)) n cc h w) (List.range 81) := by
    refine Eq.trans ?_ (acc_range_succ (tap (V (Proc.devRef .tc main_arg0)) (V (Proc.devRef .tc main_arg1)) n cc h w) 80).symm
    rw [← inv80]
    exact tap_step_80 V n cc h w
  rw [readback_binary (writes (F := Ideal)) V 573 rfl (by decide +kernel) (by decide +kernel) (by decide +kernel), addf_apply, inv81,
    readback_unary (writes (F := Ideal)) V 572 rfl (by decide +kernel) (by decide +kernel), arg2_eq V,
    refBias_at (V (Proc.devRef .tc main_arg2)) bcast_S2x1x256x512_S2x8x256x512_0_1_2_3 n cc h w]
  rfl

/-- THE RUN: on every device, from any memory with zero counters, every weakly fair execution of @main terminates with
    the result at the result function of the three arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v570)
        = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v570).trans (readback (launchContents m c)),
      (h c main_arg0).trans (after_keep (writes (F := Ideal)) _ (by decide +kernel)),
      (h c main_arg1).trans (after_keep (writes (F := Ideal)) _ (by decide +kernel)),
      (h c main_arg2).trans (after_keep (writes (F := Ideal)) _ (by decide +kernel))⟩)
    (run_seq scopedRefs_eq scopedSems_eq defs main (fun _ => ops) main_eq (fun _ => ops_sub) m ρ)

end Cert.ReferenceIdeal.RefRun

end
-- ==== Proof.lean ====
/-
  Per-pixel 9×9 filtering: the kernel against its jnp reference, over the extended reals.

  Both programs compute, at pixel `(n, c, h, w)`,
      Σ over the 81 taps k = 9·i + j of  xpad[n, c, h + i, w + j] · filters[n, k, h, w]   +  bias[n, 0, h, w],
  `xpad` the picture zero-padded by four on each side of the plane (`Cert.DynFilter.G`, Proof/Spec.lean). The reference
  pads once, then adds the 81 products one plane after the other. The kernel keeps the padded picture of a batch item in a
  scratch buffer that it fills at the item's first row tile and reads at the other seven, and adds the 81 products
  columns-of-the-window outermost, 128 lanes at a time. The two differ only in the ORDER of one sum, and addition of
  extended reals is commutative and associative, infinities included: the precondition is never opened.

    Spec      the result function, the ordered accumulation, the law `acc_perm`
    RefTap    the reference's repeated shapes read at a pixel
    RefRun    the reference's 574 operations read back one at a time: its result is `G`  (LibReadBack: the read-back lemmas)
    KerTap    the kernel body's repeated shapes read at a pixel
    OutBlock  what one grid point leaves in its output block and in the scratch
    KerValue  the scratch invariant over the sixteen points, the blocks tile the array, the run
-/
import proofs.«130869_j58780922413140_2_alg».proof.Defs
import proofs.«130869_j58780922413140_2_alg».proof.Proof.Gen.Kernel
import proofs.«130869_j58780922413140_2_alg».proof.Proof.Gen.Kernel.Skeleton
import proofs.«130869_j58780922413140_2_alg».proof.Proof.Gen.Kernel.Launch
import proofs.«130869_j58780922413140_2_alg».proof.Proof.Gen.Kernel.Points
import proofs.«130869_j58780922413140_2_alg».proof.Proof.Gen.Kernel.Frame
import proofs.«130869_j58780922413140_2_alg».proof.Proof.Gen.KernelIdeal
import proofs.«130869_j58780922413140_2_alg».proof.Proof.Gen.KernelIdeal.Skeleton
import proofs.«130869_j58780922413140_2_alg».proof.Proof.Gen.KernelIdeal.Launch
import proofs.«130869_j58780922413140_2_alg».proof.Proof.Gen.KernelIdeal.Points
import proofs.«130869_j58780922413140_2_alg».proof.Proof.Gen.KernelIdeal.Frame
import proofs.«130869_j58780922413140_2_alg».proof.Proof.Gen.ReferenceIdeal
import proofs.«130869_j58780922413140_2_alg».proof.Proof.Gen.KernelIdeal.Value
import proofs.«130869_j58780922413140_2_alg».proof.Proof.Gen.Pre_finite_inputs
import proofs.«130869_j58780922413140_2_alg».proof.Proof.KerValue
import proofs.«130869_j58780922413140_2_alg».proof.Proof.RefRun
import Idealize.ShloMosaic.Adequacy
import Idealize.ShloMosaic.Init

noncomputable section

namespace Cert.Proof

open Idealize.ShloMosaic Idealize.ShloMosaic.TcCoe Idealize.SL.Sem Cert.DynFilter

/-- The three frames: the two kernels' are generated whole; the reference's is its run with the result dropped. -/
theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run m ρ)

/-- The idealization rewrote nothing. -/
theorem preserves : Cert.preserves_Kernel_KernelIdeal := trivial

/-- Both programs end at the result function of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KerValue.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
